-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4096 : Shape := ⟨2, ![2048, 4096]⟩
abbrev S32000x4096 : Shape := ⟨2, ![32000, 4096]⟩
abbrev S32000 : Shape := ⟨1, ![32000]⟩
abbrev S_ : Shape := ⟨0, ![]⟩

class Facts : Prop where
  bcast_S_S2048x4096 : S_.BroadcastsInDim S2048x4096 (![] : Fin 0 → Fin S2048x4096.rank)
  reducesTo_S2048x4096_S_d0_1 : S2048x4096.ReducesTo [0, 1] S_
  h_S_ : 0 < S_.numel
  bcast_S_S32000x4096 : S_.BroadcastsInDim S32000x4096 (![] : Fin 0 → Fin S32000x4096.rank)
  reducesTo_S32000x4096_S_d0_1 : S32000x4096.ReducesTo [0, 1] S_
  bcast_S_S32000 : S_.BroadcastsInDim S32000 (![] : Fin 0 → Fin S32000.rank)
  reducesTo_S32000_S_d0 : S32000.ReducesTo [0] S_

variable [Facts]

def fn_part1 {F : FTy → Type} [FloatOps F] (main_arg4 : FVec F S32000x4096 .f32) (main_arg5 : FVec F S32000 .f32) (main_v13 : IVec S_ 1) (main_v16 : IVec S32000 1) : IVec S_ 1 :=
  let main_c_5 : IVec S_ 1 := constantI S_ 1 1#1
  let main_v17 : IVec S_ 1 := (fun x v => Host.reduce IntOp.andi x v reducesTo_S32000_S_d0 h_S_) main_v16 main_c_5
  let main_v18 : IVec S_ 1 := andi main_v13 main_v17
  let main_v19 : FVec F S32000x4096 .f32 := Host.absf main_arg4
  let main_cst_6 : FVec F S_ .f32 := constant S_ .f32 0x7F800000#32
  let main_v20 : FVec F S32000x4096 .f32 := broadcastInDim S32000x4096 ![] bcast_S_S32000x4096 main_cst_6
  let main_v21 : IVec S32000x4096 1 := cmpf .olt main_v19 main_v20
  let main_c_7 : IVec S_ 1 := constantI S_ 1 1#1
  let main_v22 : IVec S_ 1 := (fun x v => Host.reduce IntOp.andi x v reducesTo_S32000x4096_S_d0_1 h_S_) main_v21 main_c_7
  let main_v23 : IVec S_ 1 := andi main_v18 main_v22
  let main_v24 : FVec F S32000 .f32 := Host.absf main_arg5
  let main_cst_8 : FVec F S_ .f32 := constant S_ .f32 0x7F800000#32
  let main_v25 : FVec F S32000 .f32 := broadcastInDim S32000 ![] bcast_S_S32000 main_cst_8
  let main_v26 : IVec S32000 1 := cmpf .olt main_v24 main_v25
  let main_c_9 : IVec S_ 1 := constantI S_ 1 1#1
  let main_v27 : IVec S_ 1 := (fun x v => Host.reduce IntOp.andi x v reducesTo_S32000_S_d0 h_S_) main_v26 main_c_9
  let main_v28 : IVec S_ 1 := andi main_v23 main_v27
  main_v28

def fn {F : FTy → Type} [FloatOps F] (main_arg0 : FVec F S2048x4096 .f32) (main_arg1 : FVec F S2048x4096 .f32) (main_arg2 : FVec F S32000x4096 .f32) (main_arg3 : FVec F S32000 .f32) (main_arg4 : FVec F S32000x4096 .f32) (main_arg5 : FVec F S32000 .f32) : IVec S_ 1 :=
  let main_v0 : FVec F S2048x4096 .f32 := Host.absf main_arg0
  let main_cst : FVec F S_ .f32 := constant S_ .f32 0x7F800000#32
  let main_v1 : FVec F S2048x4096 .f32 := broadcastInDim S2048x4096 ![] bcast_S_S2048x4096 main_cst
  let main_v2 : IVec S2048x4096 1 := cmpf .olt main_v0 main_v1
  let main_c : IVec S_ 1 := constantI S_ 1 1#1
  let main_v3 : IVec S_ 1 := (fun x v => Host.reduce IntOp.andi x v reducesTo_S2048x4096_S_d0_1 h_S_) main_v2 main_c
  let main_v4 : FVec F S2048x4096 .f32 := Host.absf main_arg1
  let main_cst_0 : FVec F S_ .f32 := constant S_ .f32 0x7F800000#32
  let main_v5 : FVec F S2048x4096 .f32 := broadcastInDim S2048x4096 ![] bcast_S_S2048x4096 main_cst_0
  let main_v6 : IVec S2048x4096 1 := cmpf .olt main_v4 main_v5
  let main_c_1 : IVec S_ 1 := constantI S_ 1 1#1
  let main_v7 : IVec S_ 1 := (fun x v => Host.reduce IntOp.andi x v reducesTo_S2048x4096_S_d0_1 h_S_) main_v6 main_c_1
  let main_v8 : IVec S_ 1 := andi main_v3 main_v7
  let main_v9 : FVec F S32000x4096 .f32 := Host.absf main_arg2
  let main_cst_2 : FVec F S_ .f32 := constant S_ .f32 0x7F800000#32
  let main_v10 : FVec F S32000x4096 .f32 := broadcastInDim S32000x4096 ![] bcast_S_S32000x4096 main_cst_2
  let main_v11 : IVec S32000x4096 1 := cmpf .olt main_v9 main_v10
  let main_c_3 : IVec S_ 1 := constantI S_ 1 1#1
  let main_v12 : IVec S_ 1 := (fun x v => Host.reduce IntOp.andi x v reducesTo_S32000x4096_S_d0_1 h_S_) main_v11 main_c_3
  let main_v13 : IVec S_ 1 := andi main_v8 main_v12
  let main_v14 : FVec F S32000 .f32 := Host.absf main_arg3
  let main_cst_4 : FVec F S_ .f32 := constant S_ .f32 0x7F800000#32
  let main_v15 : FVec F S32000 .f32 := broadcastInDim S32000 ![] bcast_S_S32000 main_cst_4
  let main_v16 : IVec S32000 1 := cmpf .olt main_v14 main_v15
  fn_part1 (F := F) main_arg4 main_arg5 main_v13 main_v16
-- ==== Kernel.lean ====
abbrev S2048x4096 : Shape := ⟨2, ![2048, 4096]⟩
abbrev S32000x4096 : Shape := ⟨2, ![32000, 4096]⟩
abbrev S32000 : Shape := ⟨1, ![32000]⟩
abbrev S1x32000 : Shape := ⟨2, ![1, 32000]⟩
abbrev S2048x1 : Shape := ⟨2, ![2048, 1]⟩
abbrev S512x4096 : Shape := ⟨2, ![512, 4096]⟩
abbrev S256x4096 : Shape := ⟨2, ![256, 4096]⟩
abbrev S1x256 : Shape := ⟨2, ![1, 256]⟩
abbrev S512x1 : Shape := ⟨2, ![512, 1]⟩
abbrev S512x256 : Shape := ⟨2, ![512, 256]⟩
abbrev S512 : Shape := ⟨1, ![512]⟩
abbrev S_ : Shape := ⟨0, ![]⟩

abbrev nBuf : Space → Nat
  | .hbm => 19
  | .vmem => 39
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S32000x4096, .f32⟩
  | .hbm, ⟨3, _⟩ => ⟨S32000, .f32⟩
  | .hbm, ⟨4, _⟩ => ⟨S32000x4096, .f32⟩
  | .hbm, ⟨5, _⟩ => ⟨S32000, .f32⟩
  | .hbm, ⟨6, _⟩ => ⟨S2048x4096, .bf16⟩
  | .hbm, ⟨7, _⟩ => ⟨S2048x4096, .bf16⟩
  | .hbm, ⟨8, _⟩ => ⟨S32000x4096, .bf16⟩
  | .hbm, ⟨9, _⟩ => ⟨S32000x4096, .bf16⟩
  | .hbm, ⟨10, _⟩ => ⟨S1x32000, .f32⟩
  | .hbm, ⟨11, _⟩ => ⟨S1x32000, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .local _ .vmem, ⟨0, _⟩ => ⟨S512x4096, .bf16⟩
  | .local _ .vmem, ⟨1, _⟩ => ⟨S512x4096, .bf16⟩
  | .local _ .vmem, ⟨2, _⟩ => ⟨S512x4096, .bf16⟩
  | .local _ .vmem, ⟨3, _⟩ => ⟨S512x4096, .bf16⟩
  | .local _ .vmem, ⟨4, _⟩ => ⟨S256x4096, .bf16⟩
  | .local _ .vmem, ⟨5, _⟩ => ⟨S256x4096, .bf16⟩
  | .local _ .vmem, ⟨6, _⟩ => ⟨S256x4096, .bf16⟩
  | .local _ .vmem, ⟨7, _⟩ => ⟨S256x4096, .bf16⟩
  | .local _ .vmem, ⟨8, _⟩ => ⟨S1x256, .f32⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S512x1, .f32⟩
  | .local _ .vmem, ⟨13, _⟩ => ⟨S512x1, .f32⟩
  | .local _ .vmem, ⟨14, _⟩ => ⟨S512x1, .f32⟩
  | .local _ .vmem, ⟨15, _⟩ => ⟨S512x1, .f32⟩
  | .local _ .vmem, ⟨16, _⟩ => ⟨S512x1, .f32⟩
  | .local _ .vmem, ⟨17, _⟩ => ⟨S512x1, .f32⟩
  | .local _ .vmem, ⟨18, _⟩ => ⟨S512x1, .f32⟩
  | .local _ .vmem, ⟨19, _⟩ => ⟨S512x1, .f32⟩
  | .local _ .vmem, ⟨20, _⟩ => ⟨S512x4096, .bf16⟩
  | .local _ .vmem, ⟨21, _⟩ => ⟨S512x4096, .bf16⟩
  | .local _ .vmem, ⟨22, _⟩ => ⟨S512x4096, .bf16⟩
  | .local _ .vmem, ⟨23, _⟩ => ⟨S512x4096, .bf16⟩
  | .local _ .vmem, ⟨24, _⟩ => ⟨S256x4096, .bf16⟩
  | .local _ .vmem, ⟨25, _⟩ => ⟨S256x4096, .bf16⟩
  | .local _ .vmem, ⟨26, _⟩ => ⟨S256x4096, .bf16⟩
  | .local _ .vmem, ⟨27, _⟩ => ⟨S256x4096, .bf16⟩
  | .local _ .vmem, ⟨28, _⟩ => ⟨S1x256, .f32⟩
  | .local _ .vmem, ⟨29, _⟩ => ⟨S1x256, .f32⟩
  | .local _ .vmem, ⟨30, _⟩ => ⟨S1x256, .f32⟩
  | .local _ .vmem, ⟨31, _⟩ => ⟨S1x256, .f32⟩
  | .local _ .vmem, ⟨32, _⟩ => ⟨S512x1, .f32⟩
  | .local _ .vmem, ⟨33, _⟩ => ⟨S512x1, .f32⟩
  | .local _ .vmem, ⟨34, _⟩ => ⟨S512x1, .f32⟩
  | .local _ .vmem, ⟨35, _⟩ => ⟨S512x1, .f32⟩
  | .local _ .vmem, ⟨36, _⟩ => ⟨S512x1, .f32⟩
  | .local _ .vmem, ⟨37, _⟩ => ⟨S512x1, .f32⟩
  | .local _ .vmem, ⟨38, _⟩ => ⟨S512x1, .f32⟩
  | _, _ => ⟨S2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc1_stg0_0 : Ref sig .tc := ⟨.vmem, 20, rfl⟩
abbrev cc1_stg0_1 : Ref sig .tc := ⟨.vmem, 21, rfl⟩
abbrev cc1_stg1_0 : Ref sig .tc := ⟨.vmem, 22, rfl⟩
abbrev cc1_stg1_1 : Ref sig .tc := ⟨.vmem, 23, rfl⟩
abbrev cc1_stg2_0 : Ref sig .tc := ⟨.vmem, 24, rfl⟩
abbrev cc1_stg2_1 : Ref sig .tc := ⟨.vmem, 25, rfl⟩
abbrev cc1_stg3_0 : Ref sig .tc := ⟨.vmem, 26, rfl⟩
abbrev cc1_stg3_1 : Ref sig .tc := ⟨.vmem, 27, rfl⟩
abbrev cc1_stg4_0 : Ref sig .tc := ⟨.vmem, 28, rfl⟩
abbrev cc1_stg4_1 : Ref sig .tc := ⟨.vmem, 29, rfl⟩
abbrev cc1_stg5_0 : Ref sig .tc := ⟨.vmem, 30, rfl⟩
abbrev cc1_stg5_1 : Ref sig .tc := ⟨.vmem, 31, rfl⟩
abbrev cc1_stg6_0 : Ref sig .tc := ⟨.vmem, 32, rfl⟩
abbrev cc1_stg6_1 : Ref sig .tc := ⟨.vmem, 33, rfl⟩
abbrev cc1_stg7_0 : Ref sig .tc := ⟨.vmem, 34, rfl⟩
abbrev cc1_stg7_1 : Ref sig .tc := ⟨.vmem, 35, rfl⟩
abbrev cc1_stg8_0 : Ref sig .tc := ⟨.vmem, 36, rfl⟩
abbrev cc1_stg8_1 : Ref sig .tc := ⟨.vmem, 37, rfl⟩
abbrev cc1_scratch0 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc1_sem0_0 : DmaSem sig := 16
abbrev cc1_sem0_1 : DmaSem sig := 17
abbrev cc1_sem1_0 : DmaSem sig := 18
abbrev cc1_sem1_1 : DmaSem sig := 19
abbrev cc1_sem2_0 : DmaSem sig := 20
abbrev cc1_sem2_1 : DmaSem sig := 21
abbrev cc1_sem3_0 : DmaSem sig := 22
abbrev cc1_sem3_1 : DmaSem sig := 23
abbrev cc1_sem4_0 : DmaSem sig := 24
abbrev cc1_sem4_1 : DmaSem sig := 25
abbrev cc1_sem5_0 : DmaSem sig := 26
abbrev cc1_sem5_1 : DmaSem sig := 27
abbrev cc1_sem6_0 : DmaSem sig := 28
abbrev cc1_sem6_1 : DmaSem sig := 29
abbrev cc1_sem7_0 : DmaSem sig := 30
abbrev cc1_sem7_1 : DmaSem sig := 31
abbrev cc1_sem8_0 : DmaSem sig := 32
abbrev cc1_sem8_1 : DmaSem sig := 33

abbrev nD : Nat := 1
abbrev τ : Topo := Topo.v7x

variable {F : FTy → Type} [FloatOps F]

abbrev grid0 : Pipeline.Grid := ⟨2, ![4, 125], ![false, false]⟩

def k0_cond2 (i : grid0.Coords) : BitVec 1 :=
  let arg1 : BitVec 32 := BitVec.ofNat 32 (i 1).val
  let c124_i32 : BitVec 32 := 124#32
  let v63 : BitVec 1 := Scalar.cmpi .eq arg1 c124_i32
  let v64 : BitVec 32 := Scalar.extui v63
  let c0_i32_37 : BitVec 32 := 0#32
  let v65 : BitVec 1 := Scalar.cmpi .ne v64 c0_i32_37
  v65

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev grid1 : Pipeline.Grid := ⟨2, ![4, 125], ![false, false]⟩

def k1_cond2 (i : grid1.Coords) : BitVec 1 :=
  let arg1 : BitVec 32 := BitVec.ofNat 32 (i 1).val
  let c124_i32 : BitVec 32 := 124#32
  let v55 : BitVec 1 := Scalar.cmpi .eq arg1 c124_i32
  let v56 : BitVec 32 := Scalar.extui v55
  let c0_i32_27 : BitVec 32 := 0#32
  let v57 : BitVec 1 := Scalar.cmpi .ne v56 c0_i32_27
  v57

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x4096 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S256x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S256x4096 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x256 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![false, true]

abbrev stage1_5 : Fin 2 → Memref sig .tc .vmem S1x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S512x1 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev stage1_7 : Fin 2 → Memref sig .tc .vmem S512x1 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, false]

abbrev stage1_8 : Fin 2 → Memref sig .tc .vmem S512x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, false]

class Facts₀ : Prop where
  bitsLt_bf16_f32 : FTy.bits .bf16 < FTy.bits .f32
  shapeCasts_S32000_S1x32000 : S32000.ShapeCasts S1x32000
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  reduces_S512x256_S512 : S512x256.Reduces [1] S512
  shapeCasts_S512_S512x1 : S512.ShapeCasts S512x1
  broadcasts_S512x1_S512x256 : S512x1.Broadcasts S512x256
  reducesTo_S2048x1_S_d0_1 : S2048x1.ReducesTo [0, 1] S_
  h_S_ : 0 < S_.numel
  dot_S512x4096_S256x4096_S512x256_1_1_0_0_n_n_wf : DotDims.WF S512x4096 S256x4096 S512x256 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S2048x4096.size a
  hwx0_0 : ∀ i : grid0.Coords, EltTy.bits .bf16 = 32 ∨ (Rect.block (s := S2048x4096) S512x4096.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x4096.size a ≤ S2048x4096.size a
  hwx0_1 : ∀ i : grid0.Coords, EltTy.bits .bf16 = 32 ∨ (Rect.block (s := S2048x4096) S512x4096.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x4096.size a ≤ S32000x4096.size a
  hwx0_2 : ∀ i : grid0.Coords, EltTy.bits .bf16 = 32 ∨ (Rect.block (s := S32000x4096) S256x4096.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x4096.size a ≤ S32000x4096.size a
  hwx0_3 : ∀ i : grid0.Coords, EltTy.bits .bf16 = 32 ∨ (Rect.block (s := S32000x4096) S256x4096.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x32000.size a
  hwx0_4 : ∀ i : grid0.Coords, EltTy.bits .f32 = 32 ∨ (Rect.block (s := S1x32000) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x32000.size a
  hwx0_5 : ∀ i : grid0.Coords, EltTy.bits .f32 = 32 ∨ (Rect.block (s := S1x32000) S1x256.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x1.size a ≤ S2048x1.size a
  hwx0_6 : ∀ i : grid0.Coords, EltTy.bits .f32 = 32 ∨ (Rect.block (s := S2048x1) S512x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1.size a ≤ S2048x1.size a
  hwx0_7 : ∀ i : grid0.Coords, EltTy.bits .f32 = 32 ∨ (Rect.block (s := S2048x1) S512x1.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S2048x4096.size a
  hwx1_0 : ∀ i : grid1.Coords, EltTy.bits .bf16 = 32 ∨ (Rect.block (s := S2048x4096) S512x4096.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x4096.size a ≤ S2048x4096.size a
  hwx1_1 : ∀ i : grid1.Coords, EltTy.bits .bf16 = 32 ∨ (Rect.block (s := S2048x4096) S512x4096.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S256x4096.size a ≤ S32000x4096.size a
  hwx1_2 : ∀ i : grid1.Coords, EltTy.bits .bf16 = 32 ∨ (Rect.block (s := S32000x4096) S256x4096.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x4096.size a ≤ S32000x4096.size a
  hwx1_3 : ∀ i : grid1.Coords, EltTy.bits .bf16 = 32 ∨ (Rect.block (s := S32000x4096) S256x4096.size (cc1_transform_3 i) (hinb1_3 i)).WholeWords (EltTy.packing .bf16)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x32000.size a
  hwx1_4 : ∀ i : grid1.Coords, EltTy.bits .f32 = 32 ∨ (Rect.block (s := S1x32000) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x256.size a ≤ S1x32000.size a
  hwx1_5 : ∀ i : grid1.Coords, EltTy.bits .f32 = 32 ∨ (Rect.block (s := S1x32000) S1x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512x1.size a ≤ S2048x1.size a
  hwx1_6 : ∀ i : grid1.Coords, EltTy.bits .f32 = 32 ∨ (Rect.block (s := S2048x1) S512x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S512x1.size a ≤ S2048x1.size a
  hwx1_7 : ∀ i : grid1.Coords, EltTy.bits .f32 = 32 ∨ (Rect.block (s := S2048x1) S512x1.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S512x1.size a ≤ S2048x1.size a
  hwx1_8 : ∀ i : grid1.Coords, EltTy.bits .f32 = 32 ∨ (Rect.block (s := S2048x1) S512x1.size (cc1_transform_8 i) (hinb1_8 i)).WholeWords (EltTy.packing .f32)

variable [Facts₀]

def dot_S512x4096_S256x4096_S512x256_1_1_0_0_n_n : DotDims S512x4096 S256x4096 S512x256 where
  lhsContracting := [1]
  rhsContracting := [1]
  lhsNonContracting := [0]
  rhsNonContracting := [0]
  lhsBatch := []
  rhsBatch := []
  wf := dot_S512x4096_S256x4096_S512x256_1_1_0_0_n_n_wf

abbrev win0_0 : Pipeline.Window sig grid0 :=
  Pipeline.Window.ofSpec (Memref.whole main_v0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S512x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S256x4096.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S256x4096.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_0) S512x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_1) S512x1.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev idle0 : Fin 8 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | ⟨_ + 8, h⟩ => absurd h (Nat.not_lt.2 (Nat.le_add_left _ _))

abbrev win1_0 : Pipeline.Window sig grid1 :=
  Pipeline.Window.ofSpec (Memref.whole main_v0) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S512x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S256x4096.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v3) S256x4096.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v4) S1x256.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v5) S1x256.size cc1_transform_5 reads1_5 false false 2 stage1_5 sem1_5
    hrank1 hreads1_5 hinb1_5 nbuf1_5 (Memref.isWhole_whole _) hwx1_5 hstage1_5

abbrev win1_6 : Pipeline.Window sig grid1 :=
  Pipeline.Window.ofSpec (Memref.whole main_v6_0) S512x1.size cc1_transform_6 reads1_6 false false 2 stage1_6 sem1_6
    hrank1 hreads1_6 hinb1_6 nbuf1_6 (Memref.isWhole_whole _) hwx1_6 hstage1_6

abbrev win1_7 : Pipeline.Window sig grid1 :=
  Pipeline.Window.ofSpec (Memref.whole main_v6_1) S512x1.size cc1_transform_7 reads1_7 false false 2 stage1_7 sem1_7
    hrank1 hreads1_7 hinb1_7 nbuf1_7 (Memref.isWhole_whole _) hwx1_7 hstage1_7

abbrev win1_8 : Pipeline.Window sig grid1 :=
  Pipeline.Window.ofSpec (Memref.whole main_v7) S512x1.size cc1_transform_8 reads1_8 true false 2 stage1_8 sem1_8
    hrank1 hreads1_8 hinb1_8 nbuf1_8 (Memref.isWhole_whole _) hwx1_8 hstage1_8

abbrev win1 : Fin 9 → Pipeline.Window sig grid1 := fun | 0 => win1_0 | 1 => win1_1 | 2 => win1_2 | 3 => win1_3 | 4 => win1_4 | 5 => win1_5 | 6 => win1_6 | 7 => win1_7 | 8 => win1_8 | ⟨_ + 9, h⟩ => absurd h (Nat.not_lt.2 (Nat.le_add_left _ _))
abbrev spec1 : Fin 9 → Pipeline.WinSpec sig grid1.rank := fun w => (win1 w).toWinSpec

abbrev idle1 : Fin 9 → grid1.Coords → Bool := fun | 0 => fun _ => false | 1 => fun _ => false | 2 => fun _ => false | 3 => fun _ => false | 4 => fun _ => false | 5 => fun _ => false | 6 => fun _ => false | 7 => fun _ => false | 8 => fun i => !(k1_cond2 i == 1#1) | ⟨_ + 9, h⟩ => absurd h (Nat.not_lt.2 (Nat.le_add_left _ _))

class Facts : Prop extends Facts₀ where

variable [Facts]
-- ==== ReferenceIdeal.lean ====
abbrev S2048x4096 : Shape := ⟨2, ![2048, 4096]⟩
abbrev S32000x4096 : Shape := ⟨2, ![32000, 4096]⟩
abbrev S32000 : Shape := ⟨1, ![32000]⟩
abbrev S2048x32000 : Shape := ⟨2, ![2048, 32000]⟩
abbrev S1x32000 : Shape := ⟨2, ![1, 32000]⟩
abbrev S_ : Shape := ⟨0, ![]⟩
abbrev S2048 : Shape := ⟨1, ![2048]⟩
abbrev S2048x1 : Shape := ⟨2, ![2048, 1]⟩

abbrev nBuf : Space → Nat
  | .hbm => 79
  | .vmem => 0
  | .smem => 0
  | _ => 0

abbrev bufTy : (tb : Table) → Fin (tcTables nBuf tb) → BufTy
  | .hbm, ⟨0, _⟩ => ⟨S2048x4096, .f32⟩
  | .hbm, ⟨1, _⟩ => ⟨S2048x4096, .f32⟩
  | .hbm, ⟨2, _⟩ => ⟨S32000x4096, .f32⟩
  | .hbm, ⟨3, _⟩ => ⟨S32000, .f32⟩
  | .hbm, ⟨4, _⟩ => ⟨S32000x4096, .f32⟩
  | .hbm, ⟨5, _⟩ => ⟨S32000, .f32⟩
  | .hbm, ⟨6, _⟩ => ⟨S2048x32000, .f32⟩
  | .hbm, ⟨7, _⟩ => ⟨S1x32000, .f32⟩
  | .hbm, ⟨8, _⟩ => ⟨S2048x32000, .f32⟩
  | .hbm, ⟨9, _⟩ => ⟨S2048x32000, .f32⟩
  | .hbm, ⟨10, _⟩ => ⟨S2048x32000, .f32⟩
  | .hbm, ⟨11, _⟩ => ⟨S1x32000, .f32⟩
  | .hbm, ⟨12, _⟩ => ⟨S2048x32000, .f32⟩
  | .hbm, ⟨13, _⟩ => ⟨S2048x32000, .f32⟩
  | .hbm, ⟨14, _⟩ => ⟨S_, .f32⟩
  | .hbm, ⟨15, _⟩ => ⟨S2048x32000, .f32⟩
  | .hbm, ⟨16, _⟩ => ⟨S2048x32000, .f32⟩
  | .hbm, ⟨17, _⟩ => ⟨S_, .f32⟩
  | .hbm, ⟨18, _⟩ => ⟨S2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S2048x1, .f32⟩
  | .hbm, ⟨23, _⟩ => ⟨S2048x32000, .f32⟩
  | .hbm, ⟨24, _⟩ => ⟨S2048x32000, .f32⟩
  | .hbm, ⟨25, _⟩ => ⟨S2048x32000, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S2048x1, .f32⟩
  | .hbm, ⟨30, _⟩ => ⟨S2048x32000, .f32⟩
  | .hbm, ⟨31, _⟩ => ⟨S2048x32000, .f32⟩
  | .hbm, ⟨32, _⟩ => ⟨S_, .f32⟩
  | .hbm, ⟨33, _⟩ => ⟨S2048x32000, .f32⟩
  | .hbm, ⟨34, _⟩ => ⟨S2048x32000, .f32⟩
  | .hbm, ⟨35, _⟩ => ⟨S_, .f32⟩
  | .hbm, ⟨36, _⟩ => ⟨S2048, .f32⟩
  | .hbm, ⟨37, _⟩ => ⟨S_, .f32⟩
  | .hbm, ⟨38, _⟩ => ⟨S2048, .f32⟩
  | .hbm, ⟨39, _⟩ => ⟨S2048, .f32⟩
  | .hbm, ⟨40, _⟩ => ⟨S2048x1, .f32⟩
  | .hbm, ⟨41, _⟩ => ⟨S2048x32000, .f32⟩
  | .hbm, ⟨42, _⟩ => ⟨S2048x32000, .f32⟩
  | .hbm, ⟨43, _⟩ => ⟨S2048x32000, .f32⟩
  | .hbm, ⟨44, _⟩ => ⟨S_, .f32⟩
  | .hbm, ⟨45, _⟩ => ⟨S2048, .f32⟩
  | .hbm, ⟨46, _⟩ => ⟨S2048x1, .f32⟩
  | .hbm, ⟨47, _⟩ => ⟨S2048x1, .f32⟩
  | .hbm, ⟨48, _⟩ => ⟨S2048x32000, .f32⟩
  | .hbm, ⟨49, _⟩ => ⟨S2048x32000, .f32⟩
  | .hbm, ⟨50, _⟩ => ⟨S2048x32000, .f32⟩
  | .hbm, ⟨51, _⟩ => ⟨S2048x32000, .f32⟩
  | .hbm, ⟨52, _⟩ => ⟨S_, .f32⟩
  | .hbm, ⟨53, _⟩ => ⟨S2048x32000, .f32⟩
  | .hbm, ⟨54, _⟩ => ⟨S2048x32000, .f32⟩
  | .hbm, ⟨55, _⟩ => ⟨S_, .f32⟩
  | .hbm, ⟨56, _⟩ => ⟨S2048x32000, .f32⟩
  | .hbm, ⟨57, _⟩ => ⟨S2048x32000, .f32⟩
  | .hbm, ⟨58, _⟩ => ⟨S2048x32000, .f32⟩
  | .hbm, ⟨59, _⟩ => ⟨S2048x32000, .f32⟩
  | .hbm, ⟨60, _⟩ => ⟨S2048x32000, .f32⟩
  | .hbm, ⟨61, _⟩ => ⟨S2048x32000, .f32⟩
  | .hbm, ⟨62, _⟩ => ⟨S_, .f32⟩
  | .hbm, ⟨63, _⟩ => ⟨S2048, .f32⟩
  | .hbm, ⟨64, _⟩ => ⟨S_, .f32⟩
  | .hbm, ⟨65, _⟩ => ⟨S2048, .f32⟩
  | .hbm, ⟨66, _⟩ => ⟨S2048, .f32⟩
  | .hbm, ⟨67, _⟩ => ⟨S2048x32000, .f32⟩
  | .hbm, ⟨68, _⟩ => ⟨S2048x32000, .f32⟩
  | .hbm, ⟨69, _⟩ => ⟨S_, .f32⟩
  | .hbm, ⟨70, _⟩ => ⟨S2048, .f32⟩
  | .hbm, ⟨71, _⟩ => ⟨S_, .f32⟩
  | .hbm, ⟨72, _⟩ => ⟨S2048, .f32⟩
  | .hbm, ⟨73, _⟩ => ⟨S2048, .f32⟩
  | .hbm, ⟨74, _⟩ => ⟨S2048, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_call0_cst : Ref sig .tc := ⟨.hbm, 17, rfl⟩
abbrev main_call0_v0 : Ref sig .tc := ⟨.hbm, 18, rfl⟩
abbrev main_call0_cst_0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_v6 : Ref sig .tc := ⟨.hbm, 25, rfl⟩
abbrev main_call0_cst_1 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_v10 : Ref sig .tc := ⟨.hbm, 31, rfl⟩
abbrev main_cst_0 : Ref sig .tc := ⟨.hbm, 32, rfl⟩
abbrev main_v11 : Ref sig .tc := ⟨.hbm, 33, rfl⟩
abbrev main_v12 : Ref sig .tc := ⟨.hbm, 34, rfl⟩
abbrev main_call1_cst : Ref sig .tc := ⟨.hbm, 35, rfl⟩
abbrev main_call1_v0 : Ref sig .tc := ⟨.hbm, 36, rfl⟩
abbrev main_call1_cst_0 : Ref sig .tc := ⟨.hbm, 37, rfl⟩
abbrev main_call1_v1 : Ref sig .tc := ⟨.hbm, 38, rfl⟩
abbrev main_call1_v2 : Ref sig .tc := ⟨.hbm, 39, rfl⟩
abbrev main_call1_v3 : Ref sig .tc := ⟨.hbm, 40, rfl⟩
abbrev main_call1_v4 : Ref sig .tc := ⟨.hbm, 41, rfl⟩
abbrev main_call1_v5 : Ref sig .tc := ⟨.hbm, 42, rfl⟩
abbrev main_call1_v6 : Ref sig .tc := ⟨.hbm, 43, rfl⟩
abbrev main_call1_cst_1 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_cst_1 : Ref sig .tc := ⟨.hbm, 52, rfl⟩
abbrev main_v16 : Ref sig .tc := ⟨.hbm, 53, rfl⟩
abbrev main_v17 : Ref sig .tc := ⟨.hbm, 54, rfl⟩
abbrev main_cst_2 : Ref sig .tc := ⟨.hbm, 55, rfl⟩
abbrev main_v18 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_cst_3 : Ref sig .tc := ⟨.hbm, 62, rfl⟩
abbrev main_v24 : Ref sig .tc := ⟨.hbm, 63, rfl⟩
abbrev main_cst_4 : Ref sig .tc := ⟨.hbm, 64, rfl⟩
abbrev main_v25 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_cst_5 : Ref sig .tc := ⟨.hbm, 69, rfl⟩
abbrev main_v29 : Ref sig .tc := ⟨.hbm, 70, rfl⟩
abbrev main_cst_6 : Ref sig .tc := ⟨.hbm, 71, rfl⟩
abbrev main_v30 : Ref sig .tc := ⟨.hbm, 72, rfl⟩
abbrev main_v31 : Ref sig .tc := ⟨.hbm, 73, rfl⟩
abbrev main_v32 : Ref sig .tc := ⟨.hbm, 74, rfl⟩
abbrev main_cst_7 : Ref sig .tc := ⟨.hbm, 75, rfl⟩
abbrev main_v33 : Ref sig .tc := ⟨.hbm, 76, rfl⟩
abbrev main_cst_8 : Ref sig .tc := ⟨.hbm, 77, rfl⟩
abbrev main_v34 : Ref sig .tc := ⟨.hbm, 78, rfl⟩

abbrev nD : Nat := 1
abbrev τ : Topo := Topo.v7x

variable {F : FTy → Type} [FloatOps F]

class Facts₀ : Prop where
  bcast_S32000_S1x32000_1 : S32000.BroadcastsInDim S1x32000 (![1] : Fin 1 → Fin S1x32000.rank)
  bcast_S1x32000_S2048x32000_0_1 : S1x32000.BroadcastsInDim S2048x32000 (![0, 1] : Fin 2 → Fin S2048x32000.rank)
  bcast_S_S2048x32000 : S_.BroadcastsInDim S2048x32000 (![] : Fin 0 → Fin S2048x32000.rank)
  reducesTo_S2048x32000_S2048_d1 : S2048x32000.ReducesTo [1] S2048
  h_S_ : 0 < S_.numel
  bcast_S_S2048 : S_.BroadcastsInDim S2048 (![] : Fin 0 → Fin S2048.rank)
  bcast_S2048_S2048x1_0 : S2048.BroadcastsInDim S2048x1 (![0] : Fin 1 → Fin S2048x1.rank)
  bcast_S2048x1_S2048x32000_0_1 : S2048x1.BroadcastsInDim S2048x32000 (![0, 1] : Fin 2 → Fin S2048x32000.rank)
  reducesTo_S2048_S_d0 : S2048.ReducesTo [0] S_
  dot_S2048x4096_S32000x4096_S2048x32000_1_1_0_0_n_n_wf : DotDims.WF S2048x4096 S32000x4096 S2048x32000 [1] [1] [0] [0] [] []

variable [Facts₀]

def dot_S2048x4096_S32000x4096_S2048x32000_1_1_0_0_n_n : DotDims S2048x4096 S32000x4096 S2048x32000 where
  lhsContracting := [1]
  rhsContracting := [1]
  lhsNonContracting := [0]
  rhsNonContracting := [0]
  lhsBatch := []
  rhsBatch := []
  wf := dot_S2048x4096_S32000x4096_S2048x32000_1_1_0_0_n_n_wf

class Facts : Prop extends Facts₀ where

variable [Facts]
-- ==== Proof.K.Whole.lean ====
/-
  @main of the program as four stretches — the host operations before the first kernel region, the two kernel
  regions, the host operations after the second — run from the launch to the return, with every unscoped buffer's
  contents NAMED at each boundary:
    `B0`  at launch;  `B1` after the first host stretch (the narrowed activations and weights, the biases as rows);
    `B2`  after the statistics region: its two result arrays at what the pipeline's write-backs leave, all else as in `B1`;
    `B3`  after the divergence region: its result array likewise, all else as in `B2`;
    `B4`  after the last host stretch (the mean over the rows).
  Each region is entered with its arrays cut out of the unscoped buffers and left with them put back at the updated
  contents; its scratch buffers and the generator register travel inside the region's invariant; nothing is owed to
  another core at any time. A region's proof data, its body obligation and the two ends of its invariant are taken as
  a record (`Region0`, `Region1`), supplied where the two kernels' bodies are run.
  The run's post reads the last boundary: the result buffer and the six argument arrays.
-/
import proofs.«136119_j22101901705770_1_alg».proof.Proof.Gen.Kernel.Launch
import proofs.«136119_j22101901705770_1_alg».proof.Proof.Gen.Kernel.Points
import proofs.«136119_j22101901705770_1_alg».proof.Proof.Gen.Kernel.Regions
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.Kernel.Whole

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra of the run: no user index, the pipeline library's own rounds algebra, levels in ℕ. -/
abbrev Alg (F : FTy → Type) [FloatOps F] : Type _ := MT nD τ sig Unit (Elt F) ℕ (UR sig nD τ) ℕ

/-- A core's TensorCore buffer contents, read at a reference: what a region's proof data are stated at. -/
abbrev Contents (F : FTy → Type) [FloatOps F] : Type :=
  (c : Dev nD) → (b : Ref sig .tc) → Buf (Elt F) ((c : Thread nD τ).loc b)

/-- What the statistics region supplies, at any entry contents `V`: proof data whose arrays are `V`'s, full shares,
    nothing owed; the body obligation at every point; the class invariant in at the first point and out after the last. -/
structure Region0 (F : FTy → Type) [FloatOps F] where
  dat : Contents F → (c : Dev nD) → Dat τ (Elt F) Unit ℕ (UR sig nD τ) ℕ cfg0 c
  hA : ∀ V c w, (dat V c).A w = V c (Pipeline.arrRef spec0 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec0 c : sProp (Alg F)) ⊢ (dat V c).Φ 0
  hout : ∀ V c, (dat V c).Φ (Fin.last cfg0.N) ⊢ (Pipeline.ΦA spec0 c : sProp (Alg F))

/-- The same of the divergence region. -/
structure Region1 (F : FTy → Type) [FloatOps F] where
  dat : Contents F → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (Alg F)) ⊢ (dat V c).Φ 0
  hout : ∀ V c, (dat V c).Φ (Fin.last cfg1.N) ⊢ (Pipeline.ΦA spec1 c : sProp (Alg F))

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (R0 : Region0 F) (R1 : Region1 F)

/-! ## The buffer contents at each boundary -/

/-- At launch. -/
abbrev B0 (c : Dev nD) : Valuation τ sig (Elt F) := fun b => m (c, b)
/-- After the first host stretch: the statistics region's entry. -/
abbrev B1 (c : Dev nD) : Valuation τ sig (Elt F) := StableHlo.after hostOps0 (B0 m c)
/-- The same read at the TensorCore's references. -/
abbrev C1 : Contents F := fun c b => B1 m c b
/-- After the statistics region: its arrays at what the pipeline leaves, every other buffer as entered. -/
def B2 (c : Dev nD) : Valuation τ sig (Elt F) :=
  Pipeline.withArrays spec0 c (B1 m c) fun w => (R0.dat (C1 m) c).arrAt w cfg0.N
abbrev C2 : Contents F := fun c b => B2 m R0 c b
/-- After the divergence region. -/
def B3 (c : Dev nD) : Valuation τ sig (Elt F) :=
  Pipeline.withArrays spec1 c (B2 m R0 c) fun w => (R1.dat (C2 m R0) c).arrAt w cfg1.N
abbrev C3 : Contents F := fun c b => B3 m R0 R1 c b
/-- After the last host stretch: the return. -/
abbrev B4 (c : Dev nD) : Valuation τ sig (Elt F) := StableHlo.after hostOps2 (B3 m R0 R1 c)

theorem B2_arr (c : Dev nD) (w : Fin cfg0.W) :
    B2 m R0 c (Proc.devRef .tc (Pipeline.arrRef spec0 w)) = (R0.dat (C1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m R0 c (Proc.devRef .tc b) = B1 m c (Proc.devRef .tc b) := by
  unfold B2; exact Pipeline.withArrays_of_ne spec0 c _ _ b hb
theorem B3_arr (c : Dev nD) (w : Fin cfg1.W) :
    B3 m R0 R1 c (Proc.devRef .tc (Pipeline.arrRef spec1 w)) = (R1.dat (C2 m R0) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m R0 R1 c (Proc.devRef .tc b) = B2 m R0 c (Proc.devRef .tc b) := by
  unfold B3; exact Pipeline.withArrays_of_ne spec1 c _ _ b hb

/-! ## The proof data family and what rides beside the buffers -/

abbrev adm : (p : Fin 2) → (pcfgs (F := F) p).Adm := fun p => (cfgs p).toPCfg_adm

/-- Each pipeline's proof data at its region's entry contents (a literal match on the pipeline's number). -/
def pdats : (p : Fin 2) → (c : Dev nD) → Dat τ (Elt F) Unit ℕ (UR sig nD τ) ℕ (Pipeline.pin (pcfgs (F := F)) adm p) c
  | ⟨0, _⟩ => fun c => R0.dat (C1 m) c
  | ⟨1, _⟩ => fun c => R1.dat (C2 m R0) c

abbrev L : GSem nD τ sig → Finset Unit := fun _ => ∅
abbrev lv : GSem nD τ sig → Unit → ℕ := fun _ _ => 0
/-- Beside the buffers through every stretch: the generator register at some state, and the core owing nothing. -/
abbrev Rest (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tlast (c : Dev nD) : sProp 𝕄 := StableHlo.held (c : Thread nD τ) (Pipeline.ucRefs τ sig) (B4 m R0 R1 c)

/-! ## The regions as segments -/

theorem hF0 (c : Dev nD) (w : Fin cfg0.W) : (R0.dat (C1 m) c).arrAt w cfg0.N = C2 m R0 c (Pipeline.arrRef spec0 w) :=
  (B2_arr m R0 c w).symm
theorem hrest0 (c : Dev nD) : ∀ b, b ∉ Finset.univ.image (Pipeline.arrRef spec0) → C2 m R0 c b = C1 m c b :=
  fun b hb => B2_of_ne m R0 c b fun w e => hb (Finset.mem_image.mpr ⟨w, Finset.mem_univ _, e⟩)
theorem hF1 (c : Dev nD) (w : Fin cfg1.W) : (R1.dat (C2 m R0) c).arrAt w cfg1.N = C3 m R0 R1 c (Pipeline.arrRef spec1 w) :=
  (B3_arr m R0 R1 c w).symm
theorem hrest1 (c : Dev nD) : ∀ b, b ∉ Finset.univ.image (Pipeline.arrRef spec1) → C3 m R0 R1 c b = C2 m R0 c b :=
  fun b hb => B3_of_ne m R0 R1 c b fun w e => hb (Finset.mem_image.mpr ⟨w, Finset.mem_univ _, e⟩)

/-- The generator register, no prefetched table and the scoped buffers no window stages make the class invariant. -/
theorem intoA0 (c : Dev nD) : iprop((∃ r, prngReg c r) ∗ Pipeline.prefHeld (pcfgs (F := F) 0).pre c (fun _ => fullShare) (adm (F := F) 0).1 ∗ Pipeline.scopedRest spec0 c)
    ⊢ (Pipeline.ΦA spec0 c : sProp 𝕄) := by
  unfold Pipeline.ΦA
  iintro ⟨Hp, -, Hr⟩
  isplitl [Hr]; · iexact Hr
  iexact Hp
theorem outOfA0 (c : Dev nD) : (Pipeline.ΦA spec0 c : sProp 𝕄) ⊢ iprop((∃ r, prngReg c r) ∗ emp ∗ Pipeline.scopedRest spec0 c) := by
  unfold Pipeline.ΦA
  iintro ⟨Hr, Hp⟩
  isplitl [Hp]; · iexact Hp
  isplitr; · iempintro
  iexact Hr
theorem intoA1 (c : Dev nD) : iprop((∃ r, prngReg c r) ∗ Pipeline.prefHeld (pcfgs (F := F) 1).pre c (fun _ => fullShare) (adm (F := F) 1).1 ∗ Pipeline.scopedRest spec1 c)
    ⊢ (Pipeline.ΦA spec1 c : sProp 𝕄) := by
  unfold Pipeline.ΦA
  iintro ⟨Hp, -, Hr⟩
  isplitl [Hr]; · iexact Hr
  iexact Hp
theorem outOfA1 (c : Dev nD) : (Pipeline.ΦA spec1 c : sProp 𝕄) ⊢ iprop((∃ r, prngReg c r) ∗ emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- THE STATISTICS REGION between `B1` and `B2`. -/
def reg0 : Pipeline.RegionSeg (pcfgs (F := F)) adm (pdats m R0 R1) () defs₀ Variants.none L lv 0 where
  win := launch0.win.to₀
  block_pos := launch0.block_pos
  stage_whole := launch0.stage_whole
  K := PEmpty
  osem k := k.elim
  ho := Pipeline.OwnSemFacts.none _
  hbody c := (R0.hbody (C1 m) c).loose
  hwaits := Pipeline.hwaits_of_owed_zero _ _ _ _ L lv 0 fun c t => R0.howed (C1 m) c t
  pre c := iprop(StableHlo.held (c : Thread nD τ) (Pipeline.ucRefs τ sig) (B1 m c) ∗ Rest c)
  post c := iprop(StableHlo.held (c : Thread nD τ) (Pipeline.ucRefs τ sig) (B2 m R0 c) ∗ Rest c)
  X c := iprop(∃ r, prngReg c r)
  Y c := iprop(∃ r, prngReg c r)
  Z c := Pipeline.unscopedRest (Ix := Unit) (Name := ℕ) (U := UR sig nD τ) (Lvl := ℕ) spec0 c (C1 m c)
  hentry c := by
    rw [Pipeline.ownSems0_none]
    have hsplit := Pipeline.arrays_of_unscopedBufs (p := 0) (pcfgs (F := F)) adm (pdats m R0 R1) launch0.win launch0.arr_whole c
      ((pdats m R0 R1 0 c).share_full fun w => R0.hq (C1 m) c w) (C1 m c) fun w => R0.hA (C1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m R0 R1 0 c).owed 0 = 0 from R0.howed (C1 m) c 0]
      icases HO with ⟨%W, HO⟩; iexists W; isplitr
      · ipureintro; exact fun x _ => Or.inl (by rw [show (pdats m R0 R1 0 c).recorded 0 = Set.univ from R0.hrec (C1 m) c 0]; exact Set.mem_univ x)
      iexact HO
    isplitl [Hp]; · iexact Hp
    iexact Hrest
  hin c := (intoA0 c).trans (R0.hin (C1 m) c)
  hout c := by
    rw [Pipeline.ownSems0_none]
    exact (R0.hout (C1 m) c).trans (outOfA0 c)
  hexit c := by
    have hjoin := Pipeline.unscopedBufs_of_arrays (p := 0) (pcfgs (F := F)) adm (Ix := Unit) (Name := ℕ) (U := UR sig nD τ) (Lvl := ℕ)
      launch0.win launch0.arr_whole c (pdats m R0 R1) ((pdats m R0 R1 0 c).share_full fun w => R0.hq (C1 m) c w)
      (C1 m c) (C2 m R0 c) ((pdats m R0 R1 0 c).arrAt · cfg0.N) (hF0 m R0 c) (hrest0 m R0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m R0 R1 0 c).owed (Fin.last _) = 0 from R0.howed (C1 m) c _]
    icases HO with ⟨%W, -, HO⟩; iexists W; iexact HO

set_option backward.isDefEq.respectTransparency.types false in
/-- THE DIVERGENCE REGION between `B2` and `B3`. -/
def reg1 : Pipeline.RegionSeg (pcfgs (F := F)) adm (pdats m R0 R1) () defs₀ Variants.none L lv 1 where
  win := launch1.win.to₀
  block_pos := launch1.block_pos
  stage_whole := launch1.stage_whole
  K := PEmpty
  osem k := k.elim
  ho := Pipeline.OwnSemFacts.none _
  hbody c := (R1.hbody (C2 m R0) c).loose
  hwaits := Pipeline.hwaits_of_owed_zero _ _ _ _ L lv 1 fun c t => R1.howed (C2 m R0) c t
  pre c := iprop(StableHlo.held (c : Thread nD τ) (Pipeline.ucRefs τ sig) (B2 m R0 c) ∗ Rest c)
  post c := iprop(StableHlo.held (c : Thread nD τ) (Pipeline.ucRefs τ sig) (B3 m R0 R1 c) ∗ Rest c)
  X c := iprop(∃ r, prngReg c r)
  Y c := iprop(∃ r, prngReg c r)
  Z c := Pipeline.unscopedRest (Ix := Unit) (Name := ℕ) (U := UR sig nD τ) (Lvl := ℕ) spec1 c (C2 m R0 c)
  hentry c := by
    rw [Pipeline.ownSems0_none]
    have hsplit := Pipeline.arrays_of_unscopedBufs (p := 1) (pcfgs (F := F)) adm (pdats m R0 R1) launch1.win launch1.arr_whole c
      ((pdats m R0 R1 1 c).share_full fun w => R1.hq (C2 m R0) c w) (C2 m R0 c) fun w => R1.hA (C2 m R0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m R0 R1 1 c).owed 0 = 0 from R1.howed (C2 m R0) c 0]
      icases HO with ⟨%W, HO⟩; iexists W; isplitr
      · ipureintro; exact fun x _ => Or.inl (by rw [show (pdats m R0 R1 1 c).recorded 0 = Set.univ from R1.hrec (C2 m R0) c 0]; exact Set.mem_univ x)
      iexact HO
    isplitl [Hp]; · iexact Hp
    iexact Hrest
  hin c := (intoA1 c).trans (R1.hin (C2 m R0) c)
  hout c := by
    rw [Pipeline.ownSems0_none]
    exact (R1.hout (C2 m R0) c).trans (outOfA1 c)
  hexit c := by
    have hjoin := Pipeline.unscopedBufs_of_arrays (p := 1) (pcfgs (F := F)) adm (Ix := Unit) (Name := ℕ) (U := UR sig nD τ) (Lvl := ℕ)
      launch1.win launch1.arr_whole c (pdats m R0 R1) ((pdats m R0 R1 1 c).share_full fun w => R1.hq (C2 m R0) c w)
      (C2 m R0 c) (C3 m R0 R1 c) ((pdats m R0 R1 1 c).arrAt · cfg1.N) (hF1 m R0 R1 c) (hrest1 m R0 R1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m R0 R1 1 c).owed (Fin.last _) = 0 from R1.howed (C2 m R0) c _]
    icases HO with ⟨%W, -, HO⟩; iexists W; iexact HO

/-! ## @main as segments, and the launch -/

abbrev segs : List (Pipeline.Seg (pcfgs (F := F)) adm (pdats m R0 R1) () defs₀ Variants.none L lv) :=
  [ .host (hseg hostOps0 hostOps0_sub hostOps0_fresh (B0 m)),
    .region (reg0 m R0 R1),
    .region (reg1 m R0 R1),
    .host (hseg hostOps2 hostOps2_sub hostOps2_fresh (B3 m R0 R1)) ]

/-- @main is the run of the four segments. -/
theorem main_run (c : Dev nD) : main (F := F) c = Pipeline.Seg.run (segs m R0 R1) := (main_chain c).trans (by chain_rfl)

set_option backward.isDefEq.respectTransparency.types false in
/-- THE RUN: from any memory with zero counters every weakly fair execution of @main terminates, nothing faulting,
    and every unscoped buffer of every core ends at the last boundary's contents `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m R0 R1 c b) :=
  Pipeline.θ_run_regions_kit (pcfgs (F := F)) adm (pdats m R0 R1) () cellOf_inj emb₁ defs₀ Variants.none L lv m ρ main (segs m R0 R1)
    (fun c Q => by rw [main_run m R0 R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tlast m R0 R1)
    (hch := ⟨fun _ => .rfl, fun _ => .rfl, fun _ => .rfl, fun _ => .rfl, fun c => sep_mono .rfl (show Rest c ⊢ (iprop(∃ W, owes (c : Thread nD τ) (0 : CellTallies nD τ sig Unit) W) : sProp 𝕄) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m R0 R1 c b)
    (hfin := fun c s' => by
      show iprop(StableHlo.held (c : Thread nD τ) (Pipeline.ucRefs τ sig) (B4 m R0 R1 c) ∗ SI s') ⊢ _
      unfold StableHlo.held
      iintro ⟨Hh, HSI⟩
      imodintro
      iapply (pointsTo_read_all (Pipeline.ucRefs τ sig) (fun b => (((c : Thread nD τ)).1, b)) (B4 m R0 R1 c) s')
      isplitl [Hh] <;> iassumption)
    (hQ := fun s h c => h c)

/-! ## The arguments and the result at the last boundary -/

/-- No stretch writes an argument array: it reaches the last boundary as launched. -/
theorem B4_arg (c : Dev nD) (r : Ref sig .tc) (h2 : r ∉ hostOps2_W) (h1 : ∀ w, Pipeline.arrRef spec1 w ≠ r)
    (h0 : ∀ w, Pipeline.arrRef spec0 w ≠ r) (hh : r ∉ hostOps0_W) : B4 m R0 R1 c r = m ((c : Thread nD τ).loc r) :=
  (StableHlo.after_of_writes_sub hostOps2 _ hostOps2_writes h2).trans <|
    (B3_of_ne m R0 R1 c r h1).trans <| (B2_of_ne m R0 c r h0).trans <| (StableHlo.after_of_writes_sub hostOps0 _ hostOps0_writes hh).trans rfl

end Cert.Kernel.Whole

end
-- ==== Proof.K.StatsShared.lean ====
import proofs.«136119_j22101901705770_1_alg».proof.Proof.Gen.Kernel.Launch
import proofs.«136119_j22101901705770_1_alg».proof.Proof.Gen.Kernel.Skeleton
import proofs.«136119_j22101901705770_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

/-! # The online-softmax statistics region: what its three cases share

The region sweeps a grid of 4 × 125 points; point `t` works on row tile `t / 125` and vocabulary tile `t % 125`.
Four scratch columns (running maximum and running sum of exponentials, for each of the two heads) are carried from
point to point. At the first vocabulary tile of a row tile they are reset to `-∞` and `0`; at every tile they are
updated by the tile's logits; at the last vocabulary tile `maximum + log sum` is stored into the two output blocks.
Everything here is stated at the buffer contents `V` the region finds when it is entered. -/

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or not
    (unfetched, the block index has not moved): for any proof data on `V`'s array whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetched it or not
    (unfetched, the block index has not moved): for any proof data on `V`'s array whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetched it or not
    (unfetched, the block index has not moved): for any proof data on `V`'s array whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetched it or not
    (unfetched, the block index has not moved): for any proof data on `V`'s array whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetched it or not
    (unfetched, the block index has not moved): for any proof data on `V`'s array whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetched it or not
    (unfetched, the block index has not moved): for any proof data on `V`'s array whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end AtEntry

/-! ## The two tests on the vocabulary coordinate -/

/-- "This is the first vocabulary tile of its row tile": the test under which the scratch columns are reset, as the
    body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 125). -/
theorem hcond0_0 : ∀ t : Fin cfg0.N, cond0_0 (grid0.coords t) ↔ t.val % 125 = 0 :=
  (by decide +kernel : ∀ t : Fin grid0.N, cond0_0 (grid0.coords t) ↔ t.val % 125 = 0)

/-- "This is the last vocabulary tile of its row tile": the test under which the two outputs are stored. -/
abbrev cond0_1 (i : grid0.Coords) : Prop := k0_cond2 i = 1#1
/-- It holds exactly at the points ≡ 124 (mod 125). -/
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- At a first tile nothing is stored into output 6: the window is idle there, -/
theorem idleAt0_6_A : ∀ t : Fin cfg0.N, cond0_0 (grid0.coords t) → ¬cond0_1 (grid0.coords t) → cfg0.idle 6 (grid0.coords t) = true := by decide +kernel
/-- and its block is not written back. -/
theorem noFlush0_6_A : ∀ t : Fin cfg0.N, cond0_0 (grid0.coords t) → ¬cond0_1 (grid0.coords t) → (cfg0.win 6).flush t = false := by decide +kernel
/-- At a middle tile nothing is stored into output 6: the window is idle there, -/
theorem idleAt0_6_B : ∀ t : Fin cfg0.N, ¬cond0_0 (grid0.coords t) → ¬cond0_1 (grid0.coords t) → cfg0.idle 6 (grid0.coords t) = true := by decide +kernel
/-- and its block is not written back. -/
theorem noFlush0_6_B : ∀ t : Fin cfg0.N, ¬cond0_0 (grid0.coords t) → ¬cond0_1 (grid0.coords t) → (cfg0.win 6).flush t = false := by decide +kernel
/-- At a last tile output 6 is stored: the window is live there. -/
theorem liveAt0_6_C : ∀ t : Fin cfg0.N, ¬cond0_0 (grid0.coords t) → cond0_1 (grid0.coords t) → cfg0.idle 6 (grid0.coords t) = false := by decide +kernel
/-- At a first tile nothing is stored into output 7: the window is idle there, -/
theorem idleAt0_7_A : ∀ t : Fin cfg0.N, cond0_0 (grid0.coords t) → ¬cond0_1 (grid0.coords t) → cfg0.idle 7 (grid0.coords t) = true := by decide +kernel
/-- and its block is not written back. -/
theorem noFlush0_7_A : ∀ t : Fin cfg0.N, cond0_0 (grid0.coords t) → ¬cond0_1 (grid0.coords t) → (cfg0.win 7).flush t = false := by decide +kernel
/-- At a middle tile nothing is stored into output 7: the window is idle there, -/
theorem idleAt0_7_B : ∀ t : Fin cfg0.N, ¬cond0_0 (grid0.coords t) → ¬cond0_1 (grid0.coords t) → cfg0.idle 7 (grid0.coords t) = true := by decide +kernel
/-- and its block is not written back. -/
theorem noFlush0_7_B : ∀ t : Fin cfg0.N, ¬cond0_0 (grid0.coords t) → ¬cond0_1 (grid0.coords t) → (cfg0.win 7).flush t = false := by decide +kernel
/-- At a last tile output 7 is stored: the window is live there. -/
theorem liveAt0_7_C : ∀ t : Fin cfg0.N, ¬cond0_0 (grid0.coords t) → cond0_1 (grid0.coords t) → cfg0.idle 7 (grid0.coords t) = false := by decide +kernel

/-! ## The memrefs the body is called with -/

/-- One staging buffer of each output window, through which its contents are stated (which one does not matter). -/
abbrev VO0_6 : View sig .tc .vmem S512x1 .f32 := (Memref.whole cc0_stg6_0 : Memref sig .tc .vmem S512x1 .f32).view
abbrev VO0_7 : View sig .tc .vmem S512x1 .f32 := (Memref.whole cc0_stg7_0 : Memref sig .tc .vmem S512x1 .f32).view
/-- Each window's current staging memref at point `t`, and its wholeness. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The four scratch columns: whole scoped buffers of the kernel's own. In order: the first head's running maximum and
    running sum, the second head's running maximum and running sum. -/
abbrev scM0_0 : Memref sig .tc .vmem S512x1 .f32 := Memref.whole cc0_scratch0
abbrev VS0_0 : View sig .tc .vmem S512x1 .f32 := scM0_0.view
abbrev scM0_1 : Memref sig .tc .vmem S512x1 .f32 := Memref.whole cc0_scratch1
abbrev VS0_1 : View sig .tc .vmem S512x1 .f32 := scM0_1.view
abbrev scM0_2 : Memref sig .tc .vmem S512x1 .f32 := Memref.whole cc0_scratch2
abbrev VS0_2 : View sig .tc .vmem S512x1 .f32 := scM0_2.view
abbrev scM0_3 : Memref sig .tc .vmem S512x1 .f32 := Memref.whole cc0_scratch3
abbrev VS0_3 : View sig .tc .vmem S512x1 .f32 := scM0_3.view

/-- The core's scoped buffers that this region neither stages through nor uses as scratch (the other region's staging
    buffers and scratch), each at some contents: they pass through the region unread. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f))

/-- What the launch hands the region, with the four scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ others0 (F := F) c) ∗ (∃ r, prngReg c r)) := by
  unfold Pipeline.ΦA others0; rw [scopedRest0_eq]; simp only [scM0_0, scM0_1, scM0_2, scM0_3, owns_whole]; try rfl

end Cert.Kernel.Stats

end
-- ==== Proof.K.StatsRunA.lean ====
import proofs.«136119_j22101901705770_1_alg».proof.Proof.K.StatsShared

/-! # The body at the first vocabulary tile of a row tile

The reset is taken, the final store is not: whatever the four scratch columns held, they end as the reset values
updated by this tile; the two output buffers are handed back as found. -/

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two outputs' buffers (none) and in the four scratch columns (last store
    first) at a first tile, with the proof that on whole memrefs — the inputs' at their contents `x·`, the two outputs'
    at contents `xi·` handed back untouched, the scratch columns at anything — the body runs to a continuation that
    holds the inputs' as they were and each scratch column with its pieces written. -/
noncomputable def kernelRun0_A (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) :
    Σ' (L6 : List (View.Piece (Elt F) S512x1 .f32)) (L7 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K } := by
  refine ⟨[], [], ?_, ?_, ?_, ?_, fun xi6 xi7 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    iexists _; iexact HS3

end Cert.Kernel.Stats

end
-- ==== Proof.K.StatsRunB.lean ====
import proofs.«136119_j22101901705770_1_alg».proof.Proof.K.StatsRunA

/-! # The body at a middle vocabulary tile

Neither the reset nor the final store is taken: the four scratch columns, at what the tile before left, are updated by
this tile; the two output buffers are handed back as found. -/

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two outputs' buffers (none) and in the four scratch columns (last store
    first) at a middle tile, with the proof that on whole memrefs — the inputs' at their contents `x·`, the two outputs'
    at contents `xi·` handed back untouched, the scratch columns at what the tile before left (`xs·`) — the body runs to
    a continuation that holds the inputs' as they were and each scratch column with its pieces written. -/
noncomputable def kernelRun0_B (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    Σ' (L6 : List (View.Piece (Elt F) S512x1 .f32)) (L7 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K } := by
  refine ⟨[], [], ?_, ?_, ?_, ?_, fun xi6 xi7 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    iexists _; iexact HS3

end Cert.Kernel.Stats

end
-- ==== Proof.K.StatsRunC.lean ====
import proofs.«136119_j22101901705770_1_alg».proof.Proof.K.StatsRunB

/-! # The body at the last vocabulary tile of a row tile

The reset is not taken, the final store is: the four scratch columns, at what the tile before left, are updated by this
tile, and then `maximum + log sum` of each head is stored into its output buffer, whatever that held. -/

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two outputs' buffers and in the four scratch columns (last store first) at
    a last tile, with the proof that on whole memrefs — the inputs' at their contents `x·`, the two outputs' at anything,
    the scratch columns at what the tile before left (`xs·`) — the body runs to a continuation that holds the inputs' as
    they were and each output's buffer and each scratch column with its pieces written. -/
noncomputable def kernelRun0_C (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    Σ' (L6 : List (View.Piece (Elt F) S512x1 .f32)) (L7 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Cert.Kernel.Stats

end
-- ==== Proof.K.StatsFrame.lean ====
import proofs.«136119_j22101901705770_1_alg».proof.Proof.K.StatsRunC

/-! # The online-softmax statistics region: contents point by point, proof data, body obligation

Per case of the body (first, middle, last vocabulary tile of a row tile): what its stores leave in the two outputs'
buffers and in the four scratch columns, read back from the pieces the run found, and that those pieces cover the
buffer. Then the accumulation over the grid (`outsAt0`), the region invariant that carries the scratch columns from one
point to the next (`PhiS0`), the proof data (`dat0`) and the body obligation at a generic point. -/

set_option maxRecDepth 16384

noncomputable section

namespace Cert.Kernel.Stats

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a first tile nothing is stored into output 6: no pieces; a placeholder nothing consults, the window being
    idle and not written back there. -/
def out0_A_6 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1)

/-- At a first tile nothing is stored into output 7: no pieces; a placeholder nothing consults, the window being
    idle and not written back there. -/
def out0_A_7 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1)

/-- At a first tile the pieces stored into scratch column 0 (the first head's running maximum) tile it, so they cover it. -/
theorem scover0_A_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 S512x1.size (by sl_kernel_rfl) y

/-- What a first tile leaves in scratch column 0: its pieces read back. -/
def sout0_A_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1)

/-- At a first tile the pieces stored into scratch column 1 (the first head's running sum) tile it, so they cover it. -/
theorem scover0_A_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 S512x1.size (by sl_kernel_rfl) y

/-- What a first tile leaves in scratch column 1: its pieces read back. -/
def sout0_A_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1)

/-- At a first tile the pieces stored into scratch column 2 (the second head's running maximum) tile it, so they cover it. -/
theorem scover0_A_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 S512x1.size (by sl_kernel_rfl) y

/-- What a first tile leaves in scratch column 2: its pieces read back. -/
def sout0_A_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1)

/-- At a first tile the pieces stored into scratch column 3 (the second head's running sum) tile it, so they cover it. -/
theorem scover0_A_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1 S512x1.size (by sl_kernel_rfl) y

/-- What a first tile leaves in scratch column 3: its pieces read back. -/
def sout0_A_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1)

/-- At a middle tile nothing is stored into output 6: no pieces; a placeholder nothing consults, the window being
    idle and not written back there. -/
def out0_B_6 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1)

/-- At a middle tile nothing is stored into output 7: no pieces; a placeholder nothing consults, the window being
    idle and not written back there. -/
def out0_B_7 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1)

/-- At a middle tile the pieces stored into scratch column 0 (the first head's running maximum) tile it, so they cover it. -/
theorem scover0_B_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 S512x1.size (by sl_kernel_rfl) y

/-- What a middle tile leaves in scratch column 0: its pieces read back. -/
def sout0_B_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1)

/-- At a middle tile the pieces stored into scratch column 1 (the first head's running sum) tile it, so they cover it. -/
theorem scover0_B_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 S512x1.size (by sl_kernel_rfl) y

/-- What a middle tile leaves in scratch column 1: its pieces read back. -/
def sout0_B_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1)

/-- At a middle tile the pieces stored into scratch column 2 (the second head's running maximum) tile it, so they cover it. -/
theorem scover0_B_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1 S512x1.size (by sl_kernel_rfl) y

/-- What a middle tile leaves in scratch column 2: its pieces read back. -/
def sout0_B_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1)

/-- At a middle tile the pieces stored into scratch column 3 (the second head's running sum) tile it, so they cover it. -/
theorem scover0_B_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1 S512x1.size (by sl_kernel_rfl) y

/-- What a middle tile leaves in scratch column 3: its pieces read back. -/
def sout0_B_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1)

/-- At a last tile the pieces stored into output 6 tile its block, so they cover it. -/
theorem cover0_C_6 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 S512x1.size (by sl_kernel_rfl) y

/-- What a last tile leaves in output 6's staging buffer: its pieces read back. -/
def out0_C_6 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1)

/-- At a last tile the pieces stored into output 7 tile its block, so they cover it. -/
theorem cover0_C_7 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 S512x1.size (by sl_kernel_rfl) y

/-- What a last tile leaves in output 7's staging buffer: its pieces read back. -/
def out0_C_7 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1)

/-- At a last tile the pieces stored into scratch column 0 (the first head's running maximum) tile it, so they cover it. -/
theorem scover0_C_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 S512x1.size (by sl_kernel_rfl) y

/-- What a last tile leaves in scratch column 0: its pieces read back. -/
def sout0_C_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1)

/-- At a last tile the pieces stored into scratch column 1 (the first head's running sum) tile it, so they cover it. -/
theorem scover0_C_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 S512x1.size (by sl_kernel_rfl) y

/-- What a last tile leaves in scratch column 1: its pieces read back. -/
def sout0_C_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1)

/-- At a last tile the pieces stored into scratch column 2 (the second head's running maximum) tile it, so they cover it. -/
theorem scover0_C_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1 S512x1.size (by sl_kernel_rfl) y

/-- What a last tile leaves in scratch column 2: its pieces read back. -/
def sout0_C_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1)

/-- At a last tile the pieces stored into scratch column 3 (the second head's running sum) tile it, so they cover it. -/
theorem scover0_C_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1 S512x1.size (by sl_kernel_rfl) y

/-- What a last tile leaves in scratch column 3: its pieces read back. -/
def sout0_C_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1)

section AtEntry

variable (V : (c : Dev nD) → (b : Ref sig .tc) → Buf (Elt F) ((c : Thread nD τ).loc b))

/-! ## What the outputs and the scratch columns hold after each point -/

/-- THE ACCUMULATION. What the two outputs' staging buffers and the four scratch columns hold after the body at
    position `n` (outputs 6, 7, then scratch columns 0–3): the case the position's vocabulary tile selects, run at the
    point's memrefs and input blocks, the scratch columns taken at what position `n - 1` left (at a first tile they are
    reset, so nothing earlier is consulted). A position that is both a first and a last tile does not exist. -/
def outsAt0 (c : Dev nD) : (n : ℕ) → n < cfg0.N → Vec F S512x1 .f32 × Vec F S512x1 .f32 × Vec F S512x1 .f32 × Vec F S512x1 .f32 × Vec F S512x1 .f32 × Vec F S512x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 125 = 0 then
      if h1 : (n + 1) % 125 = 124 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 125 = 124 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2))
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2))

/-- `outsAt0` at a first tile: that case's contents. -/
theorem outsAt0_A (c : Dev nD) (t : Fin cfg0.N) (h0 : t.val % 125 = 0) (h1 : ¬t.val % 125 = 124) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at a middle tile: that case's contents, over what the point before left. -/
theorem outsAt0_B (c : Dev nD) (t : Fin cfg0.N) (h0 : ¬t.val % 125 = 0) (h1 : ¬t.val % 125 = 124) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2)) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: that case's contents, over what the point before left. -/
theorem outsAt0_C (c : Dev nD) (t : Fin cfg0.N) (h0 : ¬t.val % 125 = 0) (h1 : t.val % 125 = 124) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer that is no staging buffer of the region at anything, the generator register at some state); afterwards the
    same with the four scratch columns at what the point before left in them. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch columns at that point's contents. -/
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2) ∗ others0 (F := F) c) ∗ (∃ r, prngReg c r)) := rfl

/-- Before a point that is not the first: the scratch columns at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2.1) ∗ owns (c : Thread nD τ) scM0_2 fullShare ((outsAt0 V c (n - 1) (by omega)).2.2.2.2.1) ∗ owns (c : Thread nD τ) scM0_3 fullShare ((outsAt0 V c (n - 1) (by omega)).2.2.2.2.2) ∗ others0 (F := F) c) ∗ (∃ r, prngReg c r)) := by
  cases n with
  | zero => exact absurd rfl hz
  | succ n => rfl

/-! ## The proof data -/

/-- The proof data of the region on core `c`: the arrays as the region finds them; after the body at point `t` each
    input's buffer at its block and the two outputs' at `outsAt0`'s first two components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; the point's vocabulary tile says which case it is in;
    the invariant hands the body the four scratch columns at what the point before left (at anything at the very
    first point) and takes them back at this point's contents, the pieces the run found covering each column; the
    other scoped buffers, the generator register and the core's debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 500 := lt_of_lt_of_eq t.isLt (show cfg0.N = 500 from N_0)
  by_cases h0 : t.val % 125 = 0
  · by_cases h1 : t.val % 125 = 124
    · exfalso; omega
    · -- a first tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0 sout0_A_1 sout0_A_2 sout0_A_3; (try dsimp only)
      by_cases hz : t.val = 0
      · rw [PhiS0_castSucc V c t, PhiS0_zero V c _ _ hz, PhiA0_eq]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        iintro ⟨H0, H1, H2, H3, H4, H5, H6, H7, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          swap; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _)
          iexact Hoth
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · rw [PhiS0_castSucc V c t, PhiS0_pos V c _ _ hz]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          swap; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _)
          iexact Hoth
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 125 = 124
    · -- a last tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_6 out0_C_7 sout0_C_0 sout0_C_1 sout0_C_2 sout0_C_3; (try dsimp only)
      by_cases hz : t.val = 0
      · exfalso; omega
      · rw [PhiS0_castSucc V c t, PhiS0_pos V c _ _ hz]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        iintro ⟨H0, H1, H2, H3, H4, H5, ⟨%e6, H6⟩, ⟨%e7, H7⟩, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          swap; · iexact Hg
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _)
          iexact Hoth
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _ _ _)
    · -- a middle tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0 sout0_B_1 sout0_B_2 sout0_B_3; (try dsimp only)
      by_cases hz : t.val = 0
      · exfalso; omega
      · rw [PhiS0_castSucc V c t, PhiS0_pos V c _ _ hz]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        iintro ⟨H0, H1, H2, H3, H4, H5, H6, H7, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          swap; · iexact Hg
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _)
          iexact Hoth
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over: the scratch columns' named
    contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, Hoth⟩, Hg⟩
  isplitl [HS0 HS1 HS2 HS3 Hoth]
  swap; · iexact Hg
  isplitl [HS0]; · iexists _; iexact HS0
  isplitl [HS1]; · iexists _; iexact HS1
  isplitl [HS2]; · iexists _; iexact HS2
  isplitl [HS3]; · iexists _; iexact HS3
  iexact Hoth

/-- The same after the last point. -/
theorem hout0 (c : Dev nD) : (dat0 V c).Φ (Fin.last cfg0.N) ⊢ Pipeline.ΦA spec0 c :=
  Phi_out0 V c _ (by rw [Fin.val_last]; have : cfg0.N = 500 := N_0; omega)

end AtEntry

end Cert.Kernel.Stats

end
-- ==== Proof.K.JsdShared.lean ====
/- The accumulation call (the second of the two calls; pipeline 1), what its three runs share, stated at
   the contents V the call finds on entry: each window's block at a grid point; that an input's staging buffer
   holds its block whether or not the point fetched it; the two conditions of the body on the vocabulary
   coordinate (first tile of a sweep: the accumulator is reset; last tile: the accumulator is stored to the
   output) in closed form over the 4 x 125 grid; where the output window is idle; the staging and scratch memrefs
   as the pipeline passes them; and the call's invariant with the accumulator singled out from the other scoped
   buffers of the core. -/
import proofs.«136119_j22101901705770_1_alg».proof.Proof.Gen.Kernel.Launch
import proofs.«136119_j22101901705770_1_alg».proof.Proof.Gen.Kernel.Skeleton
import proofs.«136119_j22101901705770_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

-- membership in a rectangle of the long extents recurses once per coordinate
set_option maxRecDepth 16384

noncomputable section

namespace Cert.Kernel.JsdK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the point before (the window is uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the point before (the window is uncut and never idle). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved since the point before (the window is uncut and never idle). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved since the point before (the window is uncut and never idle). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved since the point before (the window is uncut and never idle). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved since the point before (the window is uncut and never idle). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is not
    fetched its block index has not moved since the point before (the window is uncut and never idle). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: where it is not
    fetched its block index has not moved since the point before (the window is uncut and never idle). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The body resets the accumulator: the vocabulary coordinate is 0 (the test as the body computes it). -/
abbrev sweepStart (i : grid1.Coords) : Prop := (Scalar.cmpi .ne (Scalar.extui (Scalar.cmpi .eq (BitVec.ofNat 32 (i 1).val) 0#32)) 0#32) = 1#1
/-- Over the grid: the points ≡ 0 (mod 125). -/
theorem sweepStart_iff : ∀ t : Fin cfg1.N, sweepStart (grid1.coords t) ↔ t.val % 125 = 0 :=
  (by decide +kernel : ∀ t : Fin grid1.N, sweepStart (grid1.coords t) ↔ t.val % 125 = 0)

/-- The body stores the accumulator to the output: the vocabulary coordinate is 124. -/
abbrev sweepEnd (i : grid1.Coords) : Prop := k1_cond2 i = 1#1
/-- Over the grid: the points ≡ 124 (mod 125). -/
theorem sweepEnd_iff : ∀ t : Fin cfg1.N, sweepEnd (grid1.coords t) ↔ t.val % 125 = 124 :=
  (by decide +kernel : ∀ t : Fin grid1.N, sweepEnd (grid1.coords t) ↔ t.val % 125 = 124)

/-! ## Where the windows are idle -/
/-- Input window 0 is never idle. -/
theorem live1_0 : ∀ t : Fin cfg1.N, cfg1.idle 0 (grid1.coords t) = false := fun _ => rfl
/-- Input window 1 is never idle. -/
theorem live1_1 : ∀ t : Fin cfg1.N, cfg1.idle 1 (grid1.coords t) = false := fun _ => rfl
/-- Input window 2 is never idle. -/
theorem live1_2 : ∀ t : Fin cfg1.N, cfg1.idle 2 (grid1.coords t) = false := fun _ => rfl
/-- Input window 3 is never idle. -/
theorem live1_3 : ∀ t : Fin cfg1.N, cfg1.idle 3 (grid1.coords t) = false := fun _ => rfl
/-- Input window 4 is never idle. -/
theorem live1_4 : ∀ t : Fin cfg1.N, cfg1.idle 4 (grid1.coords t) = false := fun _ => rfl
/-- Input window 5 is never idle. -/
theorem live1_5 : ∀ t : Fin cfg1.N, cfg1.idle 5 (grid1.coords t) = false := fun _ => rfl
/-- Input window 6 is never idle. -/
theorem live1_6 : ∀ t : Fin cfg1.N, cfg1.idle 6 (grid1.coords t) = false := fun _ => rfl
/-- Input window 7 is never idle. -/
theorem live1_7 : ∀ t : Fin cfg1.N, cfg1.idle 7 (grid1.coords t) = false := fun _ => rfl
/-- At a sweep's first point the output window is idle: nothing is stored into it. -/
theorem idle1_8_A : ∀ t : Fin cfg1.N, sweepStart (grid1.coords t) → ¬sweepEnd (grid1.coords t) → cfg1.idle 8 (grid1.coords t) = true := by decide +kernel
/-- and its block is not written back there. -/
theorem noFlush1_8_A : ∀ t : Fin cfg1.N, sweepStart (grid1.coords t) → ¬sweepEnd (grid1.coords t) → (cfg1.win 8).flush t = false := by decide +kernel
/-- At a sweep's middle points the output window is idle, -/
theorem idle1_8_B : ∀ t : Fin cfg1.N, ¬sweepStart (grid1.coords t) → ¬sweepEnd (grid1.coords t) → cfg1.idle 8 (grid1.coords t) = true := by decide +kernel
/-- and not written back. -/
theorem noFlush1_8_B : ∀ t : Fin cfg1.N, ¬sweepStart (grid1.coords t) → ¬sweepEnd (grid1.coords t) → (cfg1.win 8).flush t = false := by decide +kernel
/-- At a sweep's last point the output window is live: the accumulator is stored into it. -/
theorem live1_8_C : ∀ t : Fin cfg1.N, ¬sweepStart (grid1.coords t) → sweepEnd (grid1.coords t) → cfg1.idle 8 (grid1.coords t) = false := by decide +kernel

/-! ## The memrefs the body is called on -/

/-- One staging buffer of the output window, through which its contents are stated (the choice does not matter). -/
abbrev VO1_8 : View sig .tc .vmem S512x1 .f32 := (Memref.whole cc1_stg8_0 : Memref sig .tc .vmem S512x1 .f32).view
abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1 .f32 := win1_8.stage (cfg1.slots t 8)
abbrev hs1_8 (t : Fin cfg1.N) : (ms1_8 t).IsWhole := hstage1_8 ((cfg1.slots t 8).cast nbuf1_8)
/-- The accumulator: a whole scoped buffer of the call's own, passed beside the windows and carried from point to point. -/
abbrev scM1 : Memref sig .tc .vmem S512x1 .f32 := Memref.whole cc1_scratch0
/-- The accumulator as a view: what it holds is stated through it. -/
abbrev VS1 : View sig .tc .vmem S512x1 .f32 := scM1.view

/-! ## The call's invariant, the accumulator singled out -/

/-- A scoped buffer of the core at some contents. -/
abbrev anyAt (c : Dev nD) (r : Ref sig .tc) : sProp 𝕄 :=
  iprop(∃ f : Buf (Elt F) ((c : Thread nD τ).loc r), ((c : Thread nD τ).loc r) ↦{fullShare} f)

/-- The scoped buffers of the core that are the FIRST call's (its staging buffers and its four running statistics),
    each at some contents: this call never touches them. -/
def foreign (c : Dev nD) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1 ∗ anyAt (F := F) c cc0_stg5_0 ∗ anyAt (F := F) c cc0_stg5_1 ∗ anyAt (F := F) c cc0_stg6_0 ∗ anyAt (F := F) c cc0_stg6_1 ∗ anyAt (F := F) c cc0_stg7_0 ∗ anyAt (F := F) c cc0_stg7_1 ∗ anyAt (F := F) c cc0_scratch0 ∗ anyAt (F := F) c cc0_scratch1 ∗ anyAt (F := F) c cc0_scratch2 ∗ anyAt (F := F) c cc0_scratch3)

/-- The invariant the launch hands the call, buffer by buffer: the first call's scoped buffers, then the accumulator
    as a memref owned at some contents, and the generator register. -/
theorem PhiA1_chain (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1 ∗ anyAt (F := F) c cc0_stg5_0 ∗ anyAt (F := F) c cc0_stg5_1 ∗ anyAt (F := F) c cc0_stg6_0 ∗ anyAt (F := F) c cc0_stg6_1 ∗ anyAt (F := F) c cc0_stg7_0 ∗ anyAt (F := F) c cc0_stg7_1 ∗ anyAt (F := F) c cc0_scratch0 ∗ anyAt (F := F) c cc0_scratch1 ∗ anyAt (F := F) c cc0_scratch2 ∗ anyAt (F := F) c cc0_scratch3 ∗ (∃ d, owns (c : Thread nD τ) scM1 fullShare d)) ∗ (∃ r, prngReg c r)) := by
  unfold Pipeline.ΦA; rw [scopedRest1_eq]; simp only [anyAt, scM1, owns_whole]; try rfl

/-- Gathering the first call's buffers under one name, beside anything `X` and `Y`: one direction, -/
theorem foreign_gather (c : Dev nD) (X Y : sProp 𝕄) :
    (iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1 ∗ anyAt (F := F) c cc0_stg5_0 ∗ anyAt (F := F) c cc0_stg5_1 ∗ anyAt (F := F) c cc0_stg6_0 ∗ anyAt (F := F) c cc0_stg6_1 ∗ anyAt (F := F) c cc0_stg7_0 ∗ anyAt (F := F) c cc0_stg7_1 ∗ anyAt (F := F) c cc0_scratch0 ∗ anyAt (F := F) c cc0_scratch1 ∗ anyAt (F := F) c cc0_scratch2 ∗ anyAt (F := F) c cc0_scratch3 ∗ X) ∗ Y) : sProp 𝕄) ⊢ iprop(iprop(foreign (F := F) c ∗ X) ∗ Y) := by
  unfold foreign
  iintro ⟨⟨R0, R1, R2, R3, R4, R5, R6, R7, R8, R9, R10, R11, R12, R13, R14, R15, R16, R17, R18, R19, HX⟩, HY⟩
  isplitl [R0 R1 R2 R3 R4 R5 R6 R7 R8 R9 R10 R11 R12 R13 R14 R15 R16 R17 R18 R19 HX]
  · isplitl [R0 R1 R2 R3 R4 R5 R6 R7 R8 R9 R10 R11 R12 R13 R14 R15 R16 R17 R18 R19]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      iexact R19
    · iexact HX
  · iexact HY

/-- and the other. -/
theorem foreign_spread (c : Dev nD) (X Y : sProp 𝕄) :
    (iprop(iprop(foreign (F := F) c ∗ X) ∗ Y) : sProp 𝕄) ⊢ iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1 ∗ anyAt (F := F) c cc0_stg5_0 ∗ anyAt (F := F) c cc0_stg5_1 ∗ anyAt (F := F) c cc0_stg6_0 ∗ anyAt (F := F) c cc0_stg6_1 ∗ anyAt (F := F) c cc0_stg7_0 ∗ anyAt (F := F) c cc0_stg7_1 ∗ anyAt (F := F) c cc0_scratch0 ∗ anyAt (F := F) c cc0_scratch1 ∗ anyAt (F := F) c cc0_scratch2 ∗ anyAt (F := F) c cc0_scratch3 ∗ X) ∗ Y) := by
  unfold foreign
  iintro ⟨⟨⟨R0, R1, R2, R3, R4, R5, R6, R7, R8, R9, R10, R11, R12, R13, R14, R15, R16, R17, R18, R19⟩, HX⟩, HY⟩
  isplitl [R0 R1 R2 R3 R4 R5 R6 R7 R8 R9 R10 R11 R12 R13 R14 R15 R16 R17 R18 R19 HX]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact HX
  · iexact HY

/-- The launch's invariant with the first call's buffers gathered: what the body obligation opens and closes. -/
theorem PhiA1_eq (c : Dev nD) :
    (Pipeline.ΦA spec1 c : sProp 𝕄)
      = iprop(iprop(foreign (F := F) c ∗ (∃ d, owns (c : Thread nD τ) scM1 fullShare d)) ∗ (∃ r, prngReg c r)) := by
  rw [PhiA1_chain]
  exact BI.equiv_iff.mp ⟨foreign_gather c _ _, foreign_spread c _ _⟩

end Cert.Kernel.JsdK

end
-- ==== Proof.K.JsdRunA.lean ====
/- The accumulation call's body at a sweep's FIRST point (the accumulator is reset, nothing is stored to the output): its triple on any whole staging memrefs, as a
   subtype whose witness is the list of pieces the body's stores leave (last first) in the output's buffer and in the
   accumulator. The inputs are owned at their contents and handed back as they were; the output's buffer, idle here, is handed back untouched; the accumulator is owned at anything and handed back with its pieces written. The body is its
   skeleton, which the symbolic executor runs; each conditional is decided by the case's hypotheses. -/
import proofs.«136119_j22101901705770_1_alg».proof.Proof.K.JsdShared

-- membership in a rectangle of the long extents recurses once per coordinate
set_option maxRecDepth 16384

noncomputable section

namespace Cert.Kernel.JsdK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the body reads eight blocks of the long extents
set_option synthInstance.maxSize 4096

set_option maxHeartbeats 4000000 in
noncomputable def kernelRun1_A (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) :
    Σ' (L8 : List (View.Piece (Elt F) S512x1 .f32)), { LS : List (View.Piece (Elt F) S512x1 .f32) //
      ∀ (xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc1__jsd_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__jsd_kernel_eq_skeleton]; unfold cc1__jsd_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.JsdK

end
-- ==== Proof.K.JsdRunB.lean ====
/- The accumulation call's body at a sweep's MIDDLE points (no reset, nothing stored to the output): its triple on any whole staging memrefs, as a
   subtype whose witness is the list of pieces the body's stores leave (last first) in the output's buffer and in the
   accumulator. The inputs are owned at their contents and handed back as they were; the output's buffer, idle here, is handed back untouched; the accumulator is owned at what the point before left and handed back with its pieces written. The body is its
   skeleton, which the symbolic executor runs; each conditional is decided by the case's hypotheses. -/
import proofs.«136119_j22101901705770_1_alg».proof.Proof.K.JsdRunA

-- membership in a rectangle of the long extents recurses once per coordinate
set_option maxRecDepth 16384

noncomputable section

namespace Cert.Kernel.JsdK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the body reads eight blocks of the long extents
set_option synthInstance.maxSize 4096

set_option maxHeartbeats 4000000 in
noncomputable def kernelRun1_B (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) :
    Σ' (L8 : List (View.Piece (Elt F) S512x1 .f32)), { LS : List (View.Piece (Elt F) S512x1 .f32) //
      ∀ (xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc1__jsd_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__jsd_kernel_eq_skeleton]; unfold cc1__jsd_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.Kernel.JsdK

end
-- ==== Proof.K.JsdRunC.lean ====
/- The accumulation call's body at a sweep's LAST point (no reset; the accumulator is stored to the output): its triple on any whole staging memrefs, as a
   subtype whose witness is the list of pieces the body's stores leave (last first) in the output's buffer and in the
   accumulator. The inputs are owned at their contents and handed back as they were; the output's buffer is owned at anything and handed back with its pieces written; the accumulator is owned at what the point before left and handed back with its pieces written. The body is its
   skeleton, which the symbolic executor runs; each conditional is decided by the case's hypotheses. -/
import proofs.«136119_j22101901705770_1_alg».proof.Proof.K.JsdRunB

-- membership in a rectangle of the long extents recurses once per coordinate
set_option maxRecDepth 16384

noncomputable section

namespace Cert.Kernel.JsdK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the body reads eight blocks of the long extents
set_option synthInstance.maxSize 4096

set_option maxHeartbeats 4000000 in
noncomputable def kernelRun1_C (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) :
    Σ' (L8 : List (View.Piece (Elt F) S512x1 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc1__jsd_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__jsd_kernel_eq_skeleton]; unfold cc1__jsd_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.Kernel.JsdK

end
-- ==== Proof.K.JsdFrame.lean ====
/- The accumulation call (pipeline 1) at the contents V it finds on entry: what the body's stores leave in the
   accumulator and in the output's buffer in each of the three cases (the pieces the runs found, read back; that
   they cover the buffer), what those two hold after every grid point (the accumulation: a sweep's first point
   starts from the reset accumulator, every later point from what the point before left), the call's invariant
   (the accumulator at that contents from the second point on), the proof data, the body obligation at every
   point, and that the invariant is the launch's before the first point and gives it back after the last. -/
import proofs.«136119_j22101901705770_1_alg».proof.Proof.K.JsdRunC

-- membership in a rectangle of the long extents recurses once per coordinate
set_option maxRecDepth 16384

noncomputable section

namespace Cert.Kernel.JsdK

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option synthInstance.maxSize 4096

-- the core's buffer contents when the call is entered
variable (V : (c : Dev nD) → (b : Ref sig .tc) → Buf (Elt F) ((c : Thread nD τ).loc b))

/-! ## What each case leaves -/

/-- At a sweep's first point nothing is stored into the output's buffer (it is idle there and not written back): no pieces;
    a placeholder nothing consults. -/
def out1_A_8 (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) : Vec F S512x1 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).1)

/-- At a sweep's first point the pieces stored into the accumulator tile it, so they cover it. -/
theorem scover1_A (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (y : S512x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S512x1.size (by sl_kernel_rfl) y

/-- What a sweep's first point leaves in the accumulator: its pieces read back. -/
def sout1_A (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) : Vec F S512x1 .f32 :=
  VS1.read (Elt F) (VS1.writes (Elt F) VS1.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- At a sweep's middle point nothing is stored into the output's buffer (it is idle there and not written back): no pieces;
    a placeholder nothing consults. -/
def out1_B_8 (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) : Vec F S512x1 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).1)

/-- At a sweep's middle point the pieces stored into the accumulator tile it, so they cover it. -/
theorem scover1_B (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) (y : S512x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1 S512x1.size (by sl_kernel_rfl) y

/-- What a sweep's middle point leaves in the accumulator: its pieces read back. -/
def sout1_B (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) : Vec F S512x1 .f32 :=
  VS1.read (Elt F) (VS1.writes (Elt F) VS1.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1)

/-- At a sweep's last point the pieces stored into the output's buffer tile it, so they cover it. -/
theorem cover1_C_8 (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1 S512x1.size (by sl_kernel_rfl) y

/-- What a sweep's last point leaves in the output's buffer: its pieces read back. -/
def out1_C_8 (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) : Vec F S512x1 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1)

/-- At a sweep's last point the pieces stored into the accumulator tile it, so they cover it. -/
theorem scover1_C (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1 S512x1.size (by sl_kernel_rfl) y

/-- What a sweep's last point leaves in the accumulator: its pieces read back. -/
def sout1_C (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) : Vec F S512x1 .f32 :=
  VS1.read (Elt F) (VS1.writes (Elt F) VS1.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1)

/-! ## What the output's buffer and the accumulator hold after each point -/

/-- THE ACCUMULATION: after the body at position `n`, the pair (output's buffer, accumulator): the case the closed
    forms select at `n`, run at the point's memrefs and input blocks, from the accumulator the point before left. No
    point is both first and last of a sweep. -/
def outsAt1 (c : Dev nD) : (n : ℕ) → n < cfg1.N → Vec F S512x1 .f32 × Vec F S512x1 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((sweepStart_iff ⟨0, hn⟩).mpr (Nat.zero_mod _)) (fun h => (fun h => by (try dsimp only at h); omega) ((sweepEnd_iff ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((sweepStart_iff ⟨0, hn⟩).mpr (Nat.zero_mod _)) (fun h => (fun h => by (try dsimp only at h); omega) ((sweepEnd_iff ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 125 = 0 then
      if h1 : (n + 1) % 125 = 124 then
        False.elim (by omega)
      else
        (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((sweepStart_iff ⟨n + 1, hn⟩).mpr h0) (fun h => h1 ((sweepEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((sweepStart_iff ⟨n + 1, hn⟩).mpr h0) (fun h => h1 ((sweepEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 125 = 124 then
        (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((sweepStart_iff ⟨n + 1, hn⟩).mp h)) ((sweepEnd_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((sweepStart_iff ⟨n + 1, hn⟩).mp h)) ((sweepEnd_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((sweepStart_iff ⟨n + 1, hn⟩).mp h)) (fun h => h1 ((sweepEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((sweepStart_iff ⟨n + 1, hn⟩).mp h)) (fun h => h1 ((sweepEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

/-- `outsAt1` at a sweep's first point. -/
theorem outsAt1_A (c : Dev nD) (t : Fin cfg1.N) (h0 : t.val % 125 = 0) (h1 : ¬t.val % 125 = 124) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((sweepStart_iff t).mpr h0) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((sweepStart_iff t).mpr h0) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

/-- `outsAt1` at a sweep's middle point: over what the point before left. -/
theorem outsAt1_B (c : Dev nD) (t : Fin cfg1.N) (h0 : ¬t.val % 125 = 0) (h1 : ¬t.val % 125 = 124) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((sweepStart_iff t).mp h)) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((sweepStart_iff t).mp h)) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a sweep's last point: over what the point before left. -/
theorem outsAt1_C (c : Dev nD) (t : Fin cfg1.N) (h0 : ¬t.val % 125 = 0) (h1 : t.val % 125 = 124) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((sweepStart_iff t).mp h)) ((sweepEnd_iff t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((sweepStart_iff t).mp h)) ((sweepEnd_iff t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The call's invariant -/

/-- Before position `n`: before the first point what the launch hands the call (the accumulator at anything); afterwards
    the first call's buffers at anything, the accumulator at what the point before left, the generator register at
    some state. -/
def PhiS1 (c : Dev nD) : (n : ℕ) → n ≤ cfg1.N → sProp 𝕄
  | 0, _ => Pipeline.ΦA spec1 c
  | n + 1, hn => iprop(iprop(foreign (F := F) c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(foreign (F := F) c ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(foreign (F := F) c ∗ owns (c : Thread nD τ) scM1 fullShare ((outsAt1 V c (n - 1) (by omega)).2)) ∗ (∃ r, prngReg c r)) := by
  cases n with
  | zero => exact absurd rfl hz
  | succ n => rfl

/-! ## The proof data -/

/-- The proof data of the call on core `c`: the arrays as the call finds them; after the body at point `t` each input's
    buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: the inputs' memrefs hold their blocks; the closed forms say which case the point is in; the
    case's run applies; the invariant hands the body the accumulator at what the point before left (at anything at the
    very first point) and takes it back at this point's contents, the first call's buffers and the generator register
    passing through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 500 := lt_of_lt_of_eq t.isLt (show cfg1.N = 500 from N_1)
  by_cases h0 : t.val % 125 = 0
  · by_cases h1 : t.val % 125 = 124
    · exfalso; omega
    · -- a sweep's first point
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t], after1_4]
      rw [show (dat1 V c).leavesExact 5 t = owns (c : Thread nD τ) (ms1_5 t) fullShare ((dat1 V c).after 5 t) from by
        unfold Dat.leavesExact; rw [live1_5 t], after1_5]
      rw [show (dat1 V c).leavesExact 6 t = owns (c : Thread nD τ) (ms1_6 t) fullShare ((dat1 V c).after 6 t) from by
        unfold Dat.leavesExact; rw [live1_6 t], after1_6]
      rw [show (dat1 V c).leavesExact 7 t = owns (c : Thread nD τ) (ms1_7 t) fullShare ((dat1 V c).after 7 t) from by
        unfold Dat.leavesExact; rw [live1_7 t], after1_7]
      rw [Dat.leavesExact_idle (dat1 V c) 8 t (idle1_8_A t ((sweepStart_iff t).mpr h0) (fun h => h1 ((sweepEnd_iff t).mp h))) (noFlush1_8_A t ((sweepStart_iff t).mpr h0) (fun h => h1 ((sweepEnd_iff t).mp h)))]
      rw [outsAt1_A V c t h0 h1]
      unfold sout1_A; (try dsimp only)
      by_cases hz : t.val = 0
      · -- the very first point: the launch's invariant
        rw [PhiS1_castSucc V c t, PhiS1_zero V c _ _ hz, PhiA1_eq]
        iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((sweepStart_iff t).mpr h0) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, ⟨%es, HS⟩⟩
        isplitl [HR HS Hg]
        · isplitl [HR HS]
          · isplitl [HR]; · iexact HR
            unfold owns; iexists _; isplitr
            swap; · iexact HS
            ipureintro; exact View.read_writes_of_cover _ _ _ _ _ (scover1_A c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · -- the first point of a later sweep
        rw [PhiS1_castSucc V c t, PhiS1_pos V c _ _ hz]
        iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((sweepStart_iff t).mpr h0) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexists _; iexact HS
        iintro ⟨H0, H1, H2, H3, H4, H5, H6, H7, H8, ⟨%es, HS⟩⟩
        isplitl [HR HS Hg]
        · isplitl [HR HS]
          · isplitl [HR]; · iexact HR
            unfold owns; iexists _; isplitr
            swap; · iexact HS
            ipureintro; exact View.read_writes_of_cover _ _ _ _ _ (scover1_A c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 125 = 124
    · -- a sweep's last point
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t], after1_4]
      rw [show (dat1 V c).leavesExact 5 t = owns (c : Thread nD τ) (ms1_5 t) fullShare ((dat1 V c).after 5 t) from by
        unfold Dat.leavesExact; rw [live1_5 t], after1_5]
      rw [show (dat1 V c).leavesExact 6 t = owns (c : Thread nD τ) (ms1_6 t) fullShare ((dat1 V c).after 6 t) from by
        unfold Dat.leavesExact; rw [live1_6 t], after1_6]
      rw [show (dat1 V c).leavesExact 7 t = owns (c : Thread nD τ) (ms1_7 t) fullShare ((dat1 V c).after 7 t) from by
        unfold Dat.leavesExact; rw [live1_7 t], after1_7]
      rw [show (dat1 V c).leavesExact 8 t = owns (c : Thread nD τ) (ms1_8 t) fullShare ((dat1 V c).after 8 t) from by
        unfold Dat.leavesExact; rw [live1_8_C t (fun h => h0 ((sweepStart_iff t).mp h)) ((sweepEnd_iff t).mpr h1)], after1_8]
      rw [outsAt1_C V c t h0 h1]
      unfold out1_C_8 sout1_C; (try dsimp only)
      have hz : t.val ≠ 0 := by omega
      rw [PhiS1_castSucc V c t, PhiS1_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ (fun h => h0 ((sweepStart_iff t).mp h)) ((sweepEnd_iff t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HR HS Hg]
      · isplitl [HR HS]
        · isplitl [HR]; · iexact HR
          unfold owns; iexists _; isplitr
          swap; · iexact HS
          ipureintro; exact View.read_writes_of_cover _ _ _ _ _ (scover1_C c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _)
    · -- a sweep's middle point
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t], after1_4]
      rw [show (dat1 V c).leavesExact 5 t = owns (c : Thread nD τ) (ms1_5 t) fullShare ((dat1 V c).after 5 t) from by
        unfold Dat.leavesExact; rw [live1_5 t], after1_5]
      rw [show (dat1 V c).leavesExact 6 t = owns (c : Thread nD τ) (ms1_6 t) fullShare ((dat1 V c).after 6 t) from by
        unfold Dat.leavesExact; rw [live1_6 t], after1_6]
      rw [show (dat1 V c).leavesExact 7 t = owns (c : Thread nD τ) (ms1_7 t) fullShare ((dat1 V c).after 7 t) from by
        unfold Dat.leavesExact; rw [live1_7 t], after1_7]
      rw [Dat.leavesExact_idle (dat1 V c) 8 t (idle1_8_B t (fun h => h0 ((sweepStart_iff t).mp h)) (fun h => h1 ((sweepEnd_iff t).mp h))) (noFlush1_8_B t (fun h => h0 ((sweepStart_iff t).mp h)) (fun h => h1 ((sweepEnd_iff t).mp h)))]
      rw [outsAt1_B V c t h0 h1]
      unfold sout1_B; (try dsimp only)
      have hz : t.val ≠ 0 := by omega
      rw [PhiS1_castSucc V c t, PhiS1_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((sweepStart_iff t).mp h)) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HR HS Hg]
      · isplitl [HR HS]
        · isplitl [HR]; · iexact HR
          unfold owns; iexists _; isplitr
          swap; · iexact HS
          ipureintro; exact View.read_writes_of_cover _ _ _ _ _ (scover1_B c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS⟩, Hg⟩
  isplitl [HR HS]
  · isplitl [HR]; · iexact HR
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 500 := N_1; omega)

end Cert.Kernel.JsdK

end
-- ==== Proof.K.Close.lean ====
/-
  The two kernel regions' records, from the runs of their bodies, and what the launch then gives: every weakly fair
  execution of @main terminates, nothing faulting, with every unscoped buffer at the last boundary's contents; in
  particular the six argument arrays end as launched (no stretch of @main writes one).
-/
import proofs.«136119_j22101901705770_1_alg».proof.Proof.K.Whole
import proofs.«136119_j22101901705770_1_alg».proof.Proof.K.StatsFrame
import proofs.«136119_j22101901705770_1_alg».proof.Proof.K.JsdFrame

set_option maxRecDepth 16384

noncomputable section

namespace Cert.Kernel.Close

open Cert.Kernel Cert.Kernel.Gen Cert.Kernel.Whole
open Idealize.ShloMosaic Idealize.ShloMosaic.TcCoe
open Idealize.SL Idealize.SL.Sem
open Idealize.ShloMosaic.Pipeline (Dat)

variable {F : FTy → Type} [FloatOps F]

/-- The statistics region's record. -/
def reg0 : Region0 F where
  dat := fun V c => Cert.Kernel.Stats.dat0 V c
  hA := fun V c w => Cert.Kernel.Stats.A_eq0 V c w
  hq := fun _ _ _ => rfl
  howed := fun _ _ _ => rfl
  hrec := fun _ _ _ => rfl
  hbody := fun V c => Cert.Kernel.Stats.body_obligation0 V c
  hin := fun V c => Cert.Kernel.Stats.hin0 V c
  hout := fun V c => Cert.Kernel.Stats.hout0 V c

/-- The divergence region's record. -/
def reg1 : Region1 F where
  dat := fun V c => Cert.Kernel.JsdK.dat1 V c
  hA := fun V c w => Cert.Kernel.JsdK.A_eq1 V c w
  hq := fun _ _ _ => rfl
  howed := fun _ _ _ => rfl
  hrec := fun _ _ _ => rfl
  hbody := fun V c => Cert.Kernel.JsdK.body_obligation1 V c
  hin := fun V c => Cert.Kernel.JsdK.hin1 V c
  hout := fun V c => Cert.Kernel.JsdK.hout1 V c

variable (m : (ℓ : Loc nD τ sig) → Buf (Elt F) ℓ) (ρ : Dev nD → PrngReg)

/-- The last boundary's contents. -/
abbrev last (c : Dev nD) : Valuation τ sig (Elt F) := B4 m (reg0 (F := F)) (reg1 (F := F)) c

/-- THE RUN, with the result buffer and the six argument arrays read off the last boundary. -/
theorem run : θ_run defs (onTc (τ := τ) (main (F := F))) ⟨m, fun _ => 0, ρ⟩ (fun r => ∀ c : Dev nD,
      r.2.mem ((c.tc : Thread nD τ).loc main_v9) = last m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v9 (by decide)),
     (h c _ (mem_uc main_arg0 (by decide))).trans (B4_arg m reg0 reg1 c main_arg0 (by decide) (by decide) (by decide) (by decide)),
     (h c _ (mem_uc main_arg1 (by decide))).trans (B4_arg m reg0 reg1 c main_arg1 (by decide) (by decide) (by decide) (by decide)),
     (h c _ (mem_uc main_arg2 (by decide))).trans (B4_arg m reg0 reg1 c main_arg2 (by decide) (by decide) (by decide) (by decide)),
     (h c _ (mem_uc main_arg3 (by decide))).trans (B4_arg m reg0 reg1 c main_arg3 (by decide) (by decide) (by decide) (by decide)),
     (h c _ (mem_uc main_arg4 (by decide))).trans (B4_arg m reg0 reg1 c main_arg4 (by decide) (by decide) (by decide) (by decide)),
     (h c _ (mem_uc main_arg5 (by decide))).trans (B4_arg m reg0 reg1 c main_arg5 (by decide) (by decide) (by decide) (by decide))⟩)
    (run_all m ρ reg0 reg1)

/-- THE FRAME at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.Kernel.Close

end
-- ==== Proof.KI.Whole.lean ====
/-
  @main of the program as four stretches — the host operations before the first kernel region, the two kernel
  regions, the host operations after the second — run from the launch to the return, with every unscoped buffer's
  contents NAMED at each boundary:
    `B0`  at launch;  `B1` after the first host stretch (the narrowed activations and weights, the biases as rows);
    `B2`  after the statistics region: its two result arrays at what the pipeline's write-backs leave, all else as in `B1`;
    `B3`  after the divergence region: its result array likewise, all else as in `B2`;
    `B4`  after the last host stretch (the mean over the rows).
  Each region is entered with its arrays cut out of the unscoped buffers and left with them put back at the updated
  contents; its scratch buffers and the generator register travel inside the region's invariant; nothing is owed to
  another core at any time. A region's proof data, its body obligation and the two ends of its invariant are taken as
  a record (`Region0`, `Region1`), supplied where the two kernels' bodies are run.
  The run's post reads the last boundary: the result buffer and the six argument arrays.
-/
import proofs.«136119_j22101901705770_1_alg».proof.Proof.Gen.KernelIdeal.Launch
import proofs.«136119_j22101901705770_1_alg».proof.Proof.Gen.KernelIdeal.Points
import proofs.«136119_j22101901705770_1_alg».proof.Proof.Gen.KernelIdeal.Regions
import Idealize.ShloMosaic.Lib.Pipeline.FrameSuffix
import Idealize.ShloMosaic.Lib.Pipeline.RegionsLoop
import Idealize.ShloMosaic.Lib.Ring
import Idealize.ShloMosaic.Lib.Tactic

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- The resource algebra of the run: no user index, the pipeline library's own rounds algebra, levels in ℕ. -/
abbrev Alg (F : FTy → Type) [FloatOps F] : Type _ := MT nD τ sig Unit (Elt F) ℕ (UR sig nD τ) ℕ

/-- A core's TensorCore buffer contents, read at a reference: what a region's proof data are stated at. -/
abbrev Contents (F : FTy → Type) [FloatOps F] : Type :=
  (c : Dev nD) → (b : Ref sig .tc) → Buf (Elt F) ((c : Thread nD τ).loc b)

/-- What the statistics region supplies, at any entry contents `V`: proof data whose arrays are `V`'s, full shares,
    nothing owed; the body obligation at every point; the class invariant in at the first point and out after the last. -/
structure Region0 (F : FTy → Type) [FloatOps F] where
  dat : Contents F → (c : Dev nD) → Dat τ (Elt F) Unit ℕ (UR sig nD τ) ℕ cfg0 c
  hA : ∀ V c w, (dat V c).A w = V c (Pipeline.arrRef spec0 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec0 c : sProp (Alg F)) ⊢ (dat V c).Φ 0
  hout : ∀ V c, (dat V c).Φ (Fin.last cfg0.N) ⊢ (Pipeline.ΦA spec0 c : sProp (Alg F))

/-- The same of the divergence region. -/
structure Region1 (F : FTy → Type) [FloatOps F] where
  dat : Contents F → (c : Dev nD) → Dat τ (Elt F) Unit ℕ (UR sig nD τ) ℕ cfg1 c
  hA : ∀ V c w, (dat V c).A w = V c (Pipeline.arrRef spec1 w)
  hq : ∀ V c w, (dat V c).q w = fullShare
  howed : ∀ V c t, (dat V c).owed t = 0
  hrec : ∀ V c t, (dat V c).recorded t = Set.univ
  hbody : ∀ V c, BodyObligation (dat V c) (defs₀ (F := F)) Variants.none () Set.univ
  hin : ∀ V c, (Pipeline.ΦA spec1 c : sProp (Alg F)) ⊢ (dat V c).Φ 0
  hout : ∀ V c, (dat V c).Φ (Fin.last cfg1.N) ⊢ (Pipeline.ΦA spec1 c : sProp (Alg F))

variable {F : FTy → Type} [FloatOps F]

local notation "𝕄" => MT nD τ sig Unit (Elt F) ℕ (UR sig nD τ) ℕ

variable (m : (ℓ : Loc nD τ sig) → Buf (Elt F) ℓ) (ρ : Dev nD → PrngReg)
variable (R0 : Region0 F) (R1 : Region1 F)

/-! ## The buffer contents at each boundary -/

/-- At launch. -/
abbrev B0 (c : Dev nD) : Valuation τ sig (Elt F) := fun b => m (c, b)
/-- After the first host stretch: the statistics region's entry. -/
abbrev B1 (c : Dev nD) : Valuation τ sig (Elt F) := StableHlo.after hostOps0 (B0 m c)
/-- The same read at the TensorCore's references. -/
abbrev C1 : Contents F := fun c b => B1 m c b
/-- After the statistics region: its arrays at what the pipeline leaves, every other buffer as entered. -/
def B2 (c : Dev nD) : Valuation τ sig (Elt F) :=
  Pipeline.withArrays spec0 c (B1 m c) fun w => (R0.dat (C1 m) c).arrAt w cfg0.N
abbrev C2 : Contents F := fun c b => B2 m R0 c b
/-- After the divergence region. -/
def B3 (c : Dev nD) : Valuation τ sig (Elt F) :=
  Pipeline.withArrays spec1 c (B2 m R0 c) fun w => (R1.dat (C2 m R0) c).arrAt w cfg1.N
abbrev C3 : Contents F := fun c b => B3 m R0 R1 c b
/-- After the last host stretch: the return. -/
abbrev B4 (c : Dev nD) : Valuation τ sig (Elt F) := StableHlo.after hostOps2 (B3 m R0 R1 c)

theorem B2_arr (c : Dev nD) (w : Fin cfg0.W) :
    B2 m R0 c (Proc.devRef .tc (Pipeline.arrRef spec0 w)) = (R0.dat (C1 m) c).arrAt w cfg0.N := by
  unfold B2; exact Pipeline.withArrays_arr spec0 launch0.win.arr_inj c _ _ w
theorem B2_of_ne (c : Dev nD) (b : Ref sig .tc) (hb : ∀ w, Pipeline.arrRef spec0 w ≠ b) :
    B2 m R0 c (Proc.devRef .tc b) = B1 m c (Proc.devRef .tc b) := by
  unfold B2; exact Pipeline.withArrays_of_ne spec0 c _ _ b hb
theorem B3_arr (c : Dev nD) (w : Fin cfg1.W) :
    B3 m R0 R1 c (Proc.devRef .tc (Pipeline.arrRef spec1 w)) = (R1.dat (C2 m R0) c).arrAt w cfg1.N := by
  unfold B3; exact Pipeline.withArrays_arr spec1 launch1.win.arr_inj c _ _ w
theorem B3_of_ne (c : Dev nD) (b : Ref sig .tc) (hb : ∀ w, Pipeline.arrRef spec1 w ≠ b) :
    B3 m R0 R1 c (Proc.devRef .tc b) = B2 m R0 c (Proc.devRef .tc b) := by
  unfold B3; exact Pipeline.withArrays_of_ne spec1 c _ _ b hb

/-! ## The proof data family and what rides beside the buffers -/

abbrev adm : (p : Fin 2) → (pcfgs (F := F) p).Adm := fun p => (cfgs p).toPCfg_adm

/-- Each pipeline's proof data at its region's entry contents (a literal match on the pipeline's number). -/
def pdats : (p : Fin 2) → (c : Dev nD) → Dat τ (Elt F) Unit ℕ (UR sig nD τ) ℕ (Pipeline.pin (pcfgs (F := F)) adm p) c
  | ⟨0, _⟩ => fun c => R0.dat (C1 m) c
  | ⟨1, _⟩ => fun c => R1.dat (C2 m R0) c

abbrev L : GSem nD τ sig → Finset Unit := fun _ => ∅
abbrev lv : GSem nD τ sig → Unit → ℕ := fun _ _ => 0
/-- Beside the buffers through every stretch: the generator register at some state, and the core owing nothing. -/
abbrev Rest (c : Dev nD) : sProp 𝕄 := iprop((∃ r, prngReg c r) ∗ ∃ W, owes (c : Thread nD τ) (0 : CellTallies nD τ sig Unit) W)

abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rest

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state without the `owes`. -/
abbrev Tlast (c : Dev nD) : sProp 𝕄 := StableHlo.held (c : Thread nD τ) (Pipeline.ucRefs τ sig) (B4 m R0 R1 c)

/-! ## The regions as segments -/

theorem hF0 (c : Dev nD) (w : Fin cfg0.W) : (R0.dat (C1 m) c).arrAt w cfg0.N = C2 m R0 c (Pipeline.arrRef spec0 w) :=
  (B2_arr m R0 c w).symm
theorem hrest0 (c : Dev nD) : ∀ b, b ∉ Finset.univ.image (Pipeline.arrRef spec0) → C2 m R0 c b = C1 m c b :=
  fun b hb => B2_of_ne m R0 c b fun w e => hb (Finset.mem_image.mpr ⟨w, Finset.mem_univ _, e⟩)
theorem hF1 (c : Dev nD) (w : Fin cfg1.W) : (R1.dat (C2 m R0) c).arrAt w cfg1.N = C3 m R0 R1 c (Pipeline.arrRef spec1 w) :=
  (B3_arr m R0 R1 c w).symm
theorem hrest1 (c : Dev nD) : ∀ b, b ∉ Finset.univ.image (Pipeline.arrRef spec1) → C3 m R0 R1 c b = C2 m R0 c b :=
  fun b hb => B3_of_ne m R0 R1 c b fun w e => hb (Finset.mem_image.mpr ⟨w, Finset.mem_univ _, e⟩)

/-- The generator register, no prefetched table and the scoped buffers no window stages make the class invariant. -/
theorem intoA0 (c : Dev nD) : iprop((∃ r, prngReg c r) ∗ Pipeline.prefHeld (pcfgs (F := F) 0).pre c (fun _ => fullShare) (adm (F := F) 0).1 ∗ Pipeline.scopedRest spec0 c)
    ⊢ (Pipeline.ΦA spec0 c : sProp 𝕄) := by
  unfold Pipeline.ΦA
  iintro ⟨Hp, -, Hr⟩
  isplitl [Hr]; · iexact Hr
  iexact Hp
theorem outOfA0 (c : Dev nD) : (Pipeline.ΦA spec0 c : sProp 𝕄) ⊢ iprop((∃ r, prngReg c r) ∗ emp ∗ Pipeline.scopedRest spec0 c) := by
  unfold Pipeline.ΦA
  iintro ⟨Hr, Hp⟩
  isplitl [Hp]; · iexact Hp
  isplitr; · iempintro
  iexact Hr
theorem intoA1 (c : Dev nD) : iprop((∃ r, prngReg c r) ∗ Pipeline.prefHeld (pcfgs (F := F) 1).pre c (fun _ => fullShare) (adm (F := F) 1).1 ∗ Pipeline.scopedRest spec1 c)
    ⊢ (Pipeline.ΦA spec1 c : sProp 𝕄) := by
  unfold Pipeline.ΦA
  iintro ⟨Hp, -, Hr⟩
  isplitl [Hr]; · iexact Hr
  iexact Hp
theorem outOfA1 (c : Dev nD) : (Pipeline.ΦA spec1 c : sProp 𝕄) ⊢ iprop((∃ r, prngReg c r) ∗ emp ∗ Pipeline.scopedRest spec1 c) := by
  unfold Pipeline.ΦA
  iintro ⟨Hr, Hp⟩
  isplitl [Hp]; · iexact Hp
  isplitr; · iempintro
  iexact Hr

set_option backward.isDefEq.respectTransparency.types false in
/-- THE STATISTICS REGION between `B1` and `B2`. -/
def reg0 : Pipeline.RegionSeg (pcfgs (F := F)) adm (pdats m R0 R1) () defs₀ Variants.none L lv 0 where
  win := launch0.win.to₀
  block_pos := launch0.block_pos
  stage_whole := launch0.stage_whole
  K := PEmpty
  osem k := k.elim
  ho := Pipeline.OwnSemFacts.none _
  hbody c := (R0.hbody (C1 m) c).loose
  hwaits := Pipeline.hwaits_of_owed_zero _ _ _ _ L lv 0 fun c t => R0.howed (C1 m) c t
  pre c := iprop(StableHlo.held (c : Thread nD τ) (Pipeline.ucRefs τ sig) (B1 m c) ∗ Rest c)
  post c := iprop(StableHlo.held (c : Thread nD τ) (Pipeline.ucRefs τ sig) (B2 m R0 c) ∗ Rest c)
  X c := iprop(∃ r, prngReg c r)
  Y c := iprop(∃ r, prngReg c r)
  Z c := Pipeline.unscopedRest (Ix := Unit) (Name := ℕ) (U := UR sig nD τ) (Lvl := ℕ) spec0 c (C1 m c)
  hentry c := by
    rw [Pipeline.ownSems0_none]
    have hsplit := Pipeline.arrays_of_unscopedBufs (p := 0) (pcfgs (F := F)) adm (pdats m R0 R1) launch0.win launch0.arr_whole c
      ((pdats m R0 R1 0 c).share_full fun w => R0.hq (C1 m) c w) (C1 m c) fun w => R0.hA (C1 m) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m R0 R1 0 c).owed 0 = 0 from R0.howed (C1 m) c 0]
      icases HO with ⟨%W, HO⟩; iexists W; isplitr
      · ipureintro; exact fun x _ => Or.inl (by rw [show (pdats m R0 R1 0 c).recorded 0 = Set.univ from R0.hrec (C1 m) c 0]; exact Set.mem_univ x)
      iexact HO
    isplitl [Hp]; · iexact Hp
    iexact Hrest
  hin c := (intoA0 c).trans (R0.hin (C1 m) c)
  hout c := by
    rw [Pipeline.ownSems0_none]
    exact (R0.hout (C1 m) c).trans (outOfA0 c)
  hexit c := by
    have hjoin := Pipeline.unscopedBufs_of_arrays (p := 0) (pcfgs (F := F)) adm (Ix := Unit) (Name := ℕ) (U := UR sig nD τ) (Lvl := ℕ)
      launch0.win launch0.arr_whole c (pdats m R0 R1) ((pdats m R0 R1 0 c).share_full fun w => R0.hq (C1 m) c w)
      (C1 m c) (C2 m R0 c) ((pdats m R0 R1 0 c).arrAt · cfg0.N) (hF0 m R0 c) (hrest0 m R0 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m R0 R1 0 c).owed (Fin.last _) = 0 from R0.howed (C1 m) c _]
    icases HO with ⟨%W, -, HO⟩; iexists W; iexact HO

set_option backward.isDefEq.respectTransparency.types false in
/-- THE DIVERGENCE REGION between `B2` and `B3`. -/
def reg1 : Pipeline.RegionSeg (pcfgs (F := F)) adm (pdats m R0 R1) () defs₀ Variants.none L lv 1 where
  win := launch1.win.to₀
  block_pos := launch1.block_pos
  stage_whole := launch1.stage_whole
  K := PEmpty
  osem k := k.elim
  ho := Pipeline.OwnSemFacts.none _
  hbody c := (R1.hbody (C2 m R0) c).loose
  hwaits := Pipeline.hwaits_of_owed_zero _ _ _ _ L lv 1 fun c t => R1.howed (C2 m R0) c t
  pre c := iprop(StableHlo.held (c : Thread nD τ) (Pipeline.ucRefs τ sig) (B2 m R0 c) ∗ Rest c)
  post c := iprop(StableHlo.held (c : Thread nD τ) (Pipeline.ucRefs τ sig) (B3 m R0 R1 c) ∗ Rest c)
  X c := iprop(∃ r, prngReg c r)
  Y c := iprop(∃ r, prngReg c r)
  Z c := Pipeline.unscopedRest (Ix := Unit) (Name := ℕ) (U := UR sig nD τ) (Lvl := ℕ) spec1 c (C2 m R0 c)
  hentry c := by
    rw [Pipeline.ownSems0_none]
    have hsplit := Pipeline.arrays_of_unscopedBufs (p := 1) (pcfgs (F := F)) adm (pdats m R0 R1) launch1.win launch1.arr_whole c
      ((pdats m R0 R1 1 c).share_full fun w => R1.hq (C2 m R0) c w) (C2 m R0 c) fun w => R1.hA (C2 m R0) c w
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [show (pdats m R0 R1 1 c).owed 0 = 0 from R1.howed (C2 m R0) c 0]
      icases HO with ⟨%W, HO⟩; iexists W; isplitr
      · ipureintro; exact fun x _ => Or.inl (by rw [show (pdats m R0 R1 1 c).recorded 0 = Set.univ from R1.hrec (C2 m R0) c 0]; exact Set.mem_univ x)
      iexact HO
    isplitl [Hp]; · iexact Hp
    iexact Hrest
  hin c := (intoA1 c).trans (R1.hin (C2 m R0) c)
  hout c := by
    rw [Pipeline.ownSems0_none]
    exact (R1.hout (C2 m R0) c).trans (outOfA1 c)
  hexit c := by
    have hjoin := Pipeline.unscopedBufs_of_arrays (p := 1) (pcfgs (F := F)) adm (Ix := Unit) (Name := ℕ) (U := UR sig nD τ) (Lvl := ℕ)
      launch1.win launch1.arr_whole c (pdats m R0 R1) ((pdats m R0 R1 1 c).share_full fun w => R1.hq (C2 m R0) c w)
      (C2 m R0 c) (C3 m R0 R1 c) ((pdats m R0 R1 1 c).arrAt · cfg1.N) (hF1 m R0 R1 c) (hrest1 m R0 R1 c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [show (pdats m R0 R1 1 c).owed (Fin.last _) = 0 from R1.howed (C2 m R0) c _]
    icases HO with ⟨%W, -, HO⟩; iexists W; iexact HO

/-! ## @main as segments, and the launch -/

abbrev segs : List (Pipeline.Seg (pcfgs (F := F)) adm (pdats m R0 R1) () defs₀ Variants.none L lv) :=
  [ .host (hseg hostOps0 hostOps0_sub hostOps0_fresh (B0 m)),
    .region (reg0 m R0 R1),
    .region (reg1 m R0 R1),
    .host (hseg hostOps2 hostOps2_sub hostOps2_fresh (B3 m R0 R1)) ]

/-- @main is the run of the four segments. -/
theorem main_run (c : Dev nD) : main (F := F) c = Pipeline.Seg.run (segs m R0 R1) := (main_chain c).trans (by chain_rfl)

set_option backward.isDefEq.respectTransparency.types false in
/-- THE RUN: from any memory with zero counters every weakly fair execution of @main terminates, nothing faulting,
    and every unscoped buffer of every core ends at the last boundary's contents `B4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = B4 m R0 R1 c b) :=
  Pipeline.θ_run_regions_kit (pcfgs (F := F)) adm (pdats m R0 R1) () cellOf_inj emb₁ defs₀ Variants.none L lv m ρ main (segs m R0 R1)
    (fun c Q => by rw [main_run m R0 R1 c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m c) ∗ Rest c)) (Tₙ := Tlast m R0 R1)
    (hch := ⟨fun _ => .rfl, fun _ => .rfl, fun _ => .rfl, fun _ => .rfl, fun c => sep_mono .rfl (show Rest c ⊢ (iprop(∃ W, owes (c : Thread nD τ) (0 : CellTallies nD τ sig Unit) W) : sProp 𝕄) from by
        iintro ⟨-, HO⟩; iexact HO)⟩)
    (hinit := by
      refine Pipeline.initEach L lv fun c => ?_
      rw [show unscopedBufs c (fun b => m ((c : Thread nD τ).loc b)) = StableHlo.held (c : Thread nD τ) (Pipeline.ucRefs τ sig) (B0 m c)
        from Pipeline.unscopedBufs_held c (B0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B4 m R0 R1 c b)
    (hfin := fun c s' => by
      show iprop(StableHlo.held (c : Thread nD τ) (Pipeline.ucRefs τ sig) (B4 m R0 R1 c) ∗ SI s') ⊢ _
      unfold StableHlo.held
      iintro ⟨Hh, HSI⟩
      imodintro
      iapply (pointsTo_read_all (Pipeline.ucRefs τ sig) (fun b => (((c : Thread nD τ)).1, b)) (B4 m R0 R1 c) s')
      isplitl [Hh] <;> iassumption)
    (hQ := fun s h c => h c)

/-! ## The arguments and the result at the last boundary -/

/-- No stretch writes an argument array: it reaches the last boundary as launched. -/
theorem B4_arg (c : Dev nD) (r : Ref sig .tc) (h2 : r ∉ hostOps2_W) (h1 : ∀ w, Pipeline.arrRef spec1 w ≠ r)
    (h0 : ∀ w, Pipeline.arrRef spec0 w ≠ r) (hh : r ∉ hostOps0_W) : B4 m R0 R1 c r = m ((c : Thread nD τ).loc r) :=
  (StableHlo.after_of_writes_sub hostOps2 _ hostOps2_writes h2).trans <|
    (B3_of_ne m R0 R1 c r h1).trans <| (B2_of_ne m R0 c r h0).trans <| (StableHlo.after_of_writes_sub hostOps0 _ hostOps0_writes hh).trans rfl

end Cert.KernelIdeal.Whole

end
-- ==== Proof.KI.StatsShared.lean ====
import proofs.«136119_j22101901705770_1_alg».proof.Proof.Gen.KernelIdeal.Launch
import proofs.«136119_j22101901705770_1_alg».proof.Proof.Gen.KernelIdeal.Skeleton
import proofs.«136119_j22101901705770_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

/-! # The online-softmax statistics region: what its three cases share

The region sweeps a grid of 4 × 125 points; point `t` works on row tile `t / 125` and vocabulary tile `t % 125`.
Four scratch columns (running maximum and running sum of exponentials, for each of the two heads) are carried from
point to point. At the first vocabulary tile of a row tile they are reset to `-∞` and `0`; at every tile they are
updated by the tile's logits; at the last vocabulary tile `maximum + log sum` is stored into the two output blocks.
Everything here is stated at the buffer contents `V` the region finds when it is entered. -/

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section AtEntry

variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, whether the point fetched it or not
    (unfetched, the block index has not moved): for any proof data on `V`'s array whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, whether the point fetched it or not
    (unfetched, the block index has not moved): for any proof data on `V`'s array whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, whether the point fetched it or not
    (unfetched, the block index has not moved): for any proof data on `V`'s array whose body leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, whether the point fetched it or not
    (unfetched, the block index has not moved): for any proof data on `V`'s array whose body leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, whether the point fetched it or not
    (unfetched, the block index has not moved): for any proof data on `V`'s array whose body leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's current staging buffer holds its block at every point, whether the point fetched it or not
    (unfetched, the block index has not moved): for any proof data on `V`'s array whose body leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

end AtEntry

/-! ## The two tests on the vocabulary coordinate -/

/-- "This is the first vocabulary tile of its row tile": the test under which the scratch columns are reset, as the
    body computes it from the grid coordinates. -/
abbrev cond0_0 (i : grid0.Coords) : Prop := (Scalar.cmpi .ne (Scalar.extui (Scalar.cmpi .eq (BitVec.ofNat 32 (i 1).val) 0#32)) 0#32) = 1#1
/-- It holds exactly at the points ≡ 0 (mod 125). -/
theorem hcond0_0 : ∀ t : Fin cfg0.N, cond0_0 (grid0.coords t) ↔ t.val % 125 = 0 :=
  (by decide +kernel : ∀ t : Fin grid0.N, cond0_0 (grid0.coords t) ↔ t.val % 125 = 0)

/-- "This is the last vocabulary tile of its row tile": the test under which the two outputs are stored. -/
abbrev cond0_1 (i : grid0.Coords) : Prop := k0_cond2 i = 1#1
/-- It holds exactly at the points ≡ 124 (mod 125). -/
theorem hcond0_1 : ∀ t : Fin cfg0.N, cond0_1 (grid0.coords t) ↔ t.val % 125 = 124 :=
  (by decide +kernel : ∀ t : Fin grid0.N, cond0_1 (grid0.coords t) ↔ t.val % 125 = 124)

/-! ## Where the windows are idle -/

/-- Input window 0 is never idle. -/
theorem liveAt0_0 : ∀ t : Fin cfg0.N, cfg0.idle 0 (grid0.coords t) = false := by decide +kernel
/-- Input window 1 is never idle. -/
theorem liveAt0_1 : ∀ t : Fin cfg0.N, cfg0.idle 1 (grid0.coords t) = false := by decide +kernel
/-- Input window 2 is never idle. -/
theorem liveAt0_2 : ∀ t : Fin cfg0.N, cfg0.idle 2 (grid0.coords t) = false := by decide +kernel
/-- Input window 3 is never idle. -/
theorem liveAt0_3 : ∀ t : Fin cfg0.N, cfg0.idle 3 (grid0.coords t) = false := by decide +kernel
/-- Input window 4 is never idle. -/
theorem liveAt0_4 : ∀ t : Fin cfg0.N, cfg0.idle 4 (grid0.coords t) = false := by decide +kernel
/-- Input window 5 is never idle. -/
theorem liveAt0_5 : ∀ t : Fin cfg0.N, cfg0.idle 5 (grid0.coords t) = false := by decide +kernel
/-- At a first tile nothing is stored into output 6: the window is idle there, -/
theorem idleAt0_6_A : ∀ t : Fin cfg0.N, cond0_0 (grid0.coords t) → ¬cond0_1 (grid0.coords t) → cfg0.idle 6 (grid0.coords t) = true := by decide +kernel
/-- and its block is not written back. -/
theorem noFlush0_6_A : ∀ t : Fin cfg0.N, cond0_0 (grid0.coords t) → ¬cond0_1 (grid0.coords t) → (cfg0.win 6).flush t = false := by decide +kernel
/-- At a middle tile nothing is stored into output 6: the window is idle there, -/
theorem idleAt0_6_B : ∀ t : Fin cfg0.N, ¬cond0_0 (grid0.coords t) → ¬cond0_1 (grid0.coords t) → cfg0.idle 6 (grid0.coords t) = true := by decide +kernel
/-- and its block is not written back. -/
theorem noFlush0_6_B : ∀ t : Fin cfg0.N, ¬cond0_0 (grid0.coords t) → ¬cond0_1 (grid0.coords t) → (cfg0.win 6).flush t = false := by decide +kernel
/-- At a last tile output 6 is stored: the window is live there. -/
theorem liveAt0_6_C : ∀ t : Fin cfg0.N, ¬cond0_0 (grid0.coords t) → cond0_1 (grid0.coords t) → cfg0.idle 6 (grid0.coords t) = false := by decide +kernel
/-- At a first tile nothing is stored into output 7: the window is idle there, -/
theorem idleAt0_7_A : ∀ t : Fin cfg0.N, cond0_0 (grid0.coords t) → ¬cond0_1 (grid0.coords t) → cfg0.idle 7 (grid0.coords t) = true := by decide +kernel
/-- and its block is not written back. -/
theorem noFlush0_7_A : ∀ t : Fin cfg0.N, cond0_0 (grid0.coords t) → ¬cond0_1 (grid0.coords t) → (cfg0.win 7).flush t = false := by decide +kernel
/-- At a middle tile nothing is stored into output 7: the window is idle there, -/
theorem idleAt0_7_B : ∀ t : Fin cfg0.N, ¬cond0_0 (grid0.coords t) → ¬cond0_1 (grid0.coords t) → cfg0.idle 7 (grid0.coords t) = true := by decide +kernel
/-- and its block is not written back. -/
theorem noFlush0_7_B : ∀ t : Fin cfg0.N, ¬cond0_0 (grid0.coords t) → ¬cond0_1 (grid0.coords t) → (cfg0.win 7).flush t = false := by decide +kernel
/-- At a last tile output 7 is stored: the window is live there. -/
theorem liveAt0_7_C : ∀ t : Fin cfg0.N, ¬cond0_0 (grid0.coords t) → cond0_1 (grid0.coords t) → cfg0.idle 7 (grid0.coords t) = false := by decide +kernel

/-! ## The memrefs the body is called with -/

/-- One staging buffer of each output window, through which its contents are stated (which one does not matter). -/
abbrev VO0_6 : View sig .tc .vmem S512x1 .f32 := (Memref.whole cc0_stg6_0 : Memref sig .tc .vmem S512x1 .f32).view
abbrev VO0_7 : View sig .tc .vmem S512x1 .f32 := (Memref.whole cc0_stg7_0 : Memref sig .tc .vmem S512x1 .f32).view
/-- Each window's current staging memref at point `t`, and its wholeness. -/
abbrev ms0_0 (t : Fin cfg0.N) : Memref sig .tc .vmem S512x4096 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S256x4096 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S256x4096 .bf16 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x256 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S512x1 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S512x1 .f32 := win0_7.stage (cfg0.slots t 7)
abbrev hs0_7 (t : Fin cfg0.N) : (ms0_7 t).IsWhole := hstage0_7 ((cfg0.slots t 7).cast nbuf0_7)
/-- The four scratch columns: whole scoped buffers of the kernel's own. In order: the first head's running maximum and
    running sum, the second head's running maximum and running sum. -/
abbrev scM0_0 : Memref sig .tc .vmem S512x1 .f32 := Memref.whole cc0_scratch0
abbrev VS0_0 : View sig .tc .vmem S512x1 .f32 := scM0_0.view
abbrev scM0_1 : Memref sig .tc .vmem S512x1 .f32 := Memref.whole cc0_scratch1
abbrev VS0_1 : View sig .tc .vmem S512x1 .f32 := scM0_1.view
abbrev scM0_2 : Memref sig .tc .vmem S512x1 .f32 := Memref.whole cc0_scratch2
abbrev VS0_2 : View sig .tc .vmem S512x1 .f32 := scM0_2.view
abbrev scM0_3 : Memref sig .tc .vmem S512x1 .f32 := Memref.whole cc0_scratch3
abbrev VS0_3 : View sig .tc .vmem S512x1 .f32 := scM0_3.view

/-- The core's scoped buffers that this region neither stages through nor uses as scratch (the other region's staging
    buffers and scratch), each at some contents: they pass through the region unread. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_stg7_1), ((c : Thread nD τ).loc cc1_stg7_1) ↦{fullShare} f) ∗ (∃ f : Buf (Elt F) ((c : Thread nD τ).loc cc1_stg8_0), ((c : Thread nD τ).loc cc1_stg8_0) ↦{fullShare} f) ∗ (∃ f : Buf (Elt F) ((c : Thread nD τ).loc cc1_stg8_1), ((c : Thread nD τ).loc cc1_stg8_1) ↦{fullShare} f) ∗ (∃ f : Buf (Elt F) ((c : Thread nD τ).loc cc1_scratch0), ((c : Thread nD τ).loc cc1_scratch0) ↦{fullShare} f))

/-- What the launch hands the region, with the four scratch columns as memrefs owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ others0 (F := F) c) ∗ (∃ r, prngReg c r)) := by
  unfold Pipeline.ΦA others0; rw [scopedRest0_eq]; simp only [scM0_0, scM0_1, scM0_2, scM0_3, owns_whole]; try rfl

end Cert.KernelIdeal.Stats

end
-- ==== Proof.KI.StatsRunA.lean ====
import proofs.«136119_j22101901705770_1_alg».proof.Proof.KI.StatsShared

/-! # The body at the first vocabulary tile of a row tile

The reset is taken, the final store is not: whatever the four scratch columns held, they end as the reset values
updated by this tile; the two output buffers are handed back as found. -/

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two outputs' buffers (none) and in the four scratch columns (last store
    first) at a first tile, with the proof that on whole memrefs — the inputs' at their contents `x·`, the two outputs'
    at contents `xi·` handed back untouched, the scratch columns at anything — the body runs to a continuation that
    holds the inputs' as they were and each scratch column with its pieces written. -/
noncomputable def kernelRun0_A (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) :
    Σ' (L6 : List (View.Piece (Elt F) S512x1 .f32)) (L7 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K } := by
  refine ⟨[], [], ?_, ?_, ?_, ?_, fun xi6 xi7 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%ds0, %fs0, -, HS0⟩, ⟨%ds1, %fs1, -, HS1⟩, ⟨%ds2, %fs2, -, HS2⟩, ⟨%ds3, %fs3, -, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    iexists _; iexact HS3

end Cert.KernelIdeal.Stats

end
-- ==== Proof.KI.StatsRunB.lean ====
import proofs.«136119_j22101901705770_1_alg».proof.Proof.KI.StatsRunA

/-! # The body at a middle vocabulary tile

Neither the reset nor the final store is taken: the four scratch columns, at what the tile before left, are updated by
this tile; the two output buffers are handed back as found. -/

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two outputs' buffers (none) and in the four scratch columns (last store
    first) at a middle tile, with the proof that on whole memrefs — the inputs' at their contents `x·`, the two outputs'
    at contents `xi·` handed back untouched, the scratch columns at what the tile before left (`xs·`) — the body runs to
    a continuation that holds the inputs' as they were and each scratch column with its pieces written. -/
noncomputable def kernelRun0_B (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    Σ' (L6 : List (View.Piece (Elt F) S512x1 .f32)) (L7 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (xi6 : Vec F S512x1 .f32) (xi7 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xi6 ∗ owns (c : Thread nD τ) arg9 fullShare xi7 ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K } := by
  refine ⟨[], [], ?_, ?_, ?_, ?_, fun xi6 xi7 E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [HS0]; · iexists _; iexact HS0
    isplitl [HS1]; · iexists _; iexact HS1
    isplitl [HS2]; · iexists _; iexact HS2
    iexists _; iexact HS3

end Cert.KernelIdeal.Stats

end
-- ==== Proof.KI.StatsRunC.lean ====
import proofs.«136119_j22101901705770_1_alg».proof.Proof.KI.StatsRunB

/-! # The body at the last vocabulary tile of a row tile

The reset is not taken, the final store is: the four scratch columns, at what the tile before left, are updated by this
tile, and then `maximum + log sum` of each head is stored into its output buffer, whatever that held. -/

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body's stores leave in the two outputs' buffers and in the four scratch columns (last store first) at
    a last tile, with the proof that on whole memrefs — the inputs' at their contents `x·`, the two outputs' at anything,
    the scratch columns at what the tile before left (`xs·`) — the body runs to a continuation that holds the inputs' as
    they were and each output's buffer and each scratch column with its pieces written. -/
noncomputable def kernelRun0_C (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    Σ' (L6 : List (View.Piece (Elt F) S512x1 .f32)) (L7 : List (View.Piece (Elt F) S512x1 .f32)) (LS0 : List (View.Piece (Elt F) S512x1 .f32)) (LS1 : List (View.Piece (Elt F) S512x1 .f32)) (LS2 : List (View.Piece (Elt F) S512x1 .f32)), { LS3 : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ owns (c : Thread nD τ) arg10 fullShare xs0 ∗ owns (c : Thread nD τ) arg11 fullShare xs1 ∗ owns (c : Thread nD τ) arg12 fullShare xs2 ∗ owns (c : Thread nD τ) arg13 fullShare xs3
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ (∃ f, arg9.view.loc (c : Thread nD τ) ↦[arg9.view.set]{fullShare} arg9.view.writes (Elt F) f L7) ∗ (∃ f, arg10.view.loc (c : Thread nD τ) ↦[arg10.view.set]{fullShare} arg10.view.writes (Elt F) f LS0) ∗ (∃ f, arg11.view.loc (c : Thread nD τ) ↦[arg11.view.set]{fullShare} arg11.view.writes (Elt F) f LS1) ∗ (∃ f, arg12.view.loc (c : Thread nD τ) ↦[arg12.view.set]{fullShare} arg12.view.writes (Elt F) f LS2) ∗ (∃ f, arg13.view.loc (c : Thread nD τ) ↦[arg13.view.set]{fullShare} arg13.view.writes (Elt F) f LS3)) -∗ K ⟨⟩))
          ⊢ wp frame (wpE (defs₀ (F := F)) Variants.none c none) E (cc0__stats_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__stats_kernel_eq_skeleton]; unfold cc0__stats_kernel_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%fs0, %hfs0, HS0⟩, ⟨%fs1, %hfs1, HS1⟩, ⟨%fs2, %hfs2, HS2⟩, ⟨%fs3, %hfs3, HS3⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg10.eq_unread hfs0; obtain rfl := harg11.eq_unread hfs1; obtain rfl := harg12.eq_unread hfs2; obtain rfl := harg13.eq_unread hfs3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [HS0]; · iexists _; iexact HS0
    isplitl [HS1]; · iexists _; iexact HS1
    isplitl [HS2]; · iexists _; iexact HS2
    iexists _; iexact HS3

end Cert.KernelIdeal.Stats

end
-- ==== Proof.KI.StatsFrame.lean ====
import proofs.«136119_j22101901705770_1_alg».proof.Proof.KI.StatsRunC

/-! # The online-softmax statistics region: contents point by point, proof data, body obligation

Per case of the body (first, middle, last vocabulary tile of a row tile): what its stores leave in the two outputs'
buffers and in the four scratch columns, read back from the pieces the run found, and that those pieces cover the
buffer. Then the accumulation over the grid (`outsAt0`), the region invariant that carries the scratch columns from one
point to the next (`PhiS0`), the proof data (`dat0`) and the body obligation at a generic point. -/

set_option maxRecDepth 16384

noncomputable section

namespace Cert.KernelIdeal.Stats

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What each case leaves -/

/-- At a first tile nothing is stored into output 6: no pieces; a placeholder nothing consults, the window being
    idle and not written back there. -/
def out0_A_6 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VO0_6.read (Elt F) (VO0_6.writes (Elt F) VO0_6.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).1)

/-- At a first tile nothing is stored into output 7: no pieces; a placeholder nothing consults, the window being
    idle and not written back there. -/
def out0_A_7 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VO0_7.read (Elt F) (VO0_7.writes (Elt F) VO0_7.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.1)

/-- At a first tile the pieces stored into scratch column 0 (the first head's running maximum) tile it, so they cover it. -/
theorem scover0_A_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1 S512x1.size (by sl_kernel_rfl) y

/-- What a first tile leaves in scratch column 0: its pieces read back. -/
def sout0_A_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VS0_0.read (Elt F) (VS0_0.writes (Elt F) VS0_0.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.1)

/-- At a first tile the pieces stored into scratch column 1 (the first head's running sum) tile it, so they cover it. -/
theorem scover0_A_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1 S512x1.size (by sl_kernel_rfl) y

/-- What a first tile leaves in scratch column 1: its pieces read back. -/
def sout0_A_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VS0_1.read (Elt F) (VS0_1.writes (Elt F) VS0_1.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.1)

/-- At a first tile the pieces stored into scratch column 2 (the second head's running maximum) tile it, so they cover it. -/
theorem scover0_A_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1 S512x1.size (by sl_kernel_rfl) y

/-- What a first tile leaves in scratch column 2: its pieces read back. -/
def sout0_A_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VS0_2.read (Elt F) (VS0_2.writes (Elt F) VS0_2.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.1)

/-- At a first tile the pieces stored into scratch column 3 (the second head's running sum) tile it, so they cover it. -/
theorem scover0_A_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (y : S512x1.Idx) :
    ∃ pc ∈ (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1, y ∈ pc.1.set :=
  View.cover_of_tiledL (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1 S512x1.size (by sl_kernel_rfl) y

/-- What a first tile leaves in scratch column 3: its pieces read back. -/
def sout0_A_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) : Vec F S512x1 .f32 :=
  VS0_3.read (Elt F) (VS0_3.writes (Elt F) VS0_3.junk (kernelRun0_A c i arg2 harg2 arg3 harg3 arg4 harg4 arg5 harg5 arg6 harg6 arg7 harg7 arg8 harg8 arg9 harg9 arg10 harg10 arg11 harg11 arg12 harg12 arg13 harg13 hc0 hc1 x0 x1 x2 x3 x4 x5).2.2.2.2.2.1)

/-- At a middle tile nothing is stored into output 6: no pieces; a placeholder nothing consults, the window being
    idle and not written back there. -/
def out0_B_6 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VO0_6.read (Elt F) (VO0_6.writes (Elt F) VO0_6.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1)

/-- At a middle tile nothing is stored into output 7: no pieces; a placeholder nothing consults, the window being
    idle and not written back there. -/
def out0_B_7 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VO0_7.read (Elt F) (VO0_7.writes (Elt F) VO0_7.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1)

/-- At a middle tile the pieces stored into scratch column 0 (the first head's running maximum) tile it, so they cover it. -/
theorem scover0_B_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 S512x1.size (by sl_kernel_rfl) y

/-- What a middle tile leaves in scratch column 0: its pieces read back. -/
def sout0_B_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1)

/-- At a middle tile the pieces stored into scratch column 1 (the first head's running sum) tile it, so they cover it. -/
theorem scover0_B_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 S512x1.size (by sl_kernel_rfl) y

/-- What a middle tile leaves in scratch column 1: its pieces read back. -/
def sout0_B_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1)

/-- At a middle tile the pieces stored into scratch column 2 (the second head's running maximum) tile it, so they cover it. -/
theorem scover0_B_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1 S512x1.size (by sl_kernel_rfl) y

/-- What a middle tile leaves in scratch column 2: its pieces read back. -/
def sout0_B_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1)

/-- At a middle tile the pieces stored into scratch column 3 (the second head's running sum) tile it, so they cover it. -/
theorem scover0_B_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1, y ∈ pc.1.set :=
  View.cover_of_tiledL (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1 S512x1.size (by sl_kernel_rfl) y

/-- What a middle tile leaves in scratch column 3: its pieces read back. -/
def sout0_B_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_B c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1)

/-- At a last tile the pieces stored into output 6 tile its block, so they cover it. -/
theorem cover0_C_6 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1 S512x1.size (by sl_kernel_rfl) y

/-- What a last tile leaves in output 6's staging buffer: its pieces read back. -/
def out0_C_6 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VO0_6.read (Elt F) (VO0_6.writes (Elt F) VO0_6.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).1)

/-- At a last tile the pieces stored into output 7 tile its block, so they cover it. -/
theorem cover0_C_7 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1 S512x1.size (by sl_kernel_rfl) y

/-- What a last tile leaves in output 7's staging buffer: its pieces read back. -/
def out0_C_7 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VO0_7.read (Elt F) (VO0_7.writes (Elt F) VO0_7.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.1)

/-- At a last tile the pieces stored into scratch column 0 (the first head's running maximum) tile it, so they cover it. -/
theorem scover0_C_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1 S512x1.size (by sl_kernel_rfl) y

/-- What a last tile leaves in scratch column 0: its pieces read back. -/
def sout0_C_0 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_0.read (Elt F) (VS0_0.writes (Elt F) VS0_0.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.1)

/-- At a last tile the pieces stored into scratch column 1 (the first head's running sum) tile it, so they cover it. -/
theorem scover0_C_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1 S512x1.size (by sl_kernel_rfl) y

/-- What a last tile leaves in scratch column 1: its pieces read back. -/
def sout0_C_1 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_1.read (Elt F) (VS0_1.writes (Elt F) VS0_1.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.1)

/-- At a last tile the pieces stored into scratch column 2 (the second head's running maximum) tile it, so they cover it. -/
theorem scover0_C_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1 S512x1.size (by sl_kernel_rfl) y

/-- What a last tile leaves in scratch column 2: its pieces read back. -/
def sout0_C_2 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_2.read (Elt F) (VS0_2.writes (Elt F) VS0_2.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.1)

/-- At a last tile the pieces stored into scratch column 3 (the second head's running sum) tile it, so they cover it. -/
theorem scover0_C_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) (y : S512x1.Idx) :
    ∃ pc ∈ (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1, y ∈ pc.1.set :=
  View.cover_of_tiledL (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1 S512x1.size (by sl_kernel_rfl) y

/-- What a last tile leaves in scratch column 3: its pieces read back. -/
def sout0_C_3 (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) : Vec F S512x1 .f32 :=
  VS0_3.read (Elt F) (VS0_3.writes (Elt F) VS0_3.junk (kernelRun0_C c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3).2.2.2.2.2.1)

section AtEntry

variable (V : (c : Dev nD) → (b : Ref sig .tc) → Buf (Elt F) ((c : Thread nD τ).loc b))

/-! ## What the outputs and the scratch columns hold after each point -/

/-- THE ACCUMULATION. What the two outputs' staging buffers and the four scratch columns hold after the body at
    position `n` (outputs 6, 7, then scratch columns 0–3): the case the position's vocabulary tile selects, run at the
    point's memrefs and input blocks, the scratch columns taken at what position `n - 1` left (at a first tile they are
    reset, so nothing earlier is consulted). A position that is both a first and a last tile does not exist. -/
def outsAt0 (c : Dev nD) : (n : ℕ) → n < cfg0.N → Vec F S512x1 .f32 × Vec F S512x1 .f32 × Vec F S512x1 .f32 × Vec F S512x1 .f32 × Vec F S512x1 .f32 × Vec F S512x1 .f32
  | 0, hn => (out0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      out0_A_7 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩),
      sout0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) scM0_0 (Memref.isWhole_whole _) scM0_1 (Memref.isWhole_whole _) scM0_2 (Memref.isWhole_whole _) scM0_3 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩) (iblk0 V c 2 ⟨0, hn⟩) (iblk0 V c 3 ⟨0, hn⟩) (iblk0 V c 4 ⟨0, hn⟩) (iblk0 V c 5 ⟨0, hn⟩))
  | n + 1, hn =>
    if h0 : (n + 1) % 125 = 0 then
      if h1 : (n + 1) % 125 = 124 then
        False.elim (by omega)
      else
        (out0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      out0_A_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩),
      sout0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩))
    else
      if h1 : (n + 1) % 125 = 124 then
        (out0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      out0_C_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_C_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) ((hcond0_1 ⟨n + 1, hn⟩).mpr h1) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2))
      else
        (out0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      out0_B_7 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2),
      sout0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) scM0_0 (Memref.isWhole_whole _) scM0_1 (Memref.isWhole_whole _) scM0_2 (Memref.isWhole_whole _) scM0_3 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (iblk0 V c 5 ⟨n + 1, hn⟩) ((outsAt0 c n (Nat.lt_of_succ_lt hn)).2.2.1) ((outsAt0 c n (Nat.lt_of_succ_lt hn)).2.2.2.1) ((outsAt0 c n (Nat.lt_of_succ_lt hn)).2.2.2.2.1) ((outsAt0 c n (Nat.lt_of_succ_lt hn)).2.2.2.2.2))

/-- `outsAt0` at a first tile: that case's contents. -/
theorem outsAt0_A (c : Dev nD) (t : Fin cfg0.N) (h0 : t.val % 125 = 0) (h1 : ¬t.val % 125 = 124) :
    outsAt0 V c t.val t.isLt = (out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t),
      sout0_A_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)) := by
  obtain ⟨n, hn⟩ := t
  cases n with
  | zero => exact rfl
  | succ n => exact (dif_pos h0).trans ((dif_neg h1).trans rfl)

/-- `outsAt0` at a middle tile: that case's contents, over what the point before left. -/
theorem outsAt0_B (c : Dev nD) (t : Fin cfg0.N) (h0 : ¬t.val % 125 = 0) (h1 : ¬t.val % 125 = 124) :
    outsAt0 V c t.val t.isLt = (out0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      out0_B_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_B_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_B_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2)) := by
  obtain ⟨n, hn⟩ := t
  cases n with
  | zero => exact (by exfalso; (try dsimp only at h0); exact absurd (Nat.zero_mod _) h0)
  | succ n => exact (dif_neg h0).trans ((dif_neg h1).trans rfl)

/-- `outsAt0` at a last tile: that case's contents, over what the point before left. -/
theorem outsAt0_C (c : Dev nD) (t : Fin cfg0.N) (h0 : ¬t.val % 125 = 0) (h1 : t.val % 125 = 124) :
    outsAt0 V c t.val t.isLt = (out0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      out0_C_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_C_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2),
      sout0_C_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2)) := by
  obtain ⟨n, hn⟩ := t
  cases n with
  | zero => exact (by exfalso; (try dsimp only at h0); exact absurd (Nat.zero_mod _) h0)
  | succ n => exact (dif_neg h0).trans ((dif_pos h1).trans rfl)

/-! ## The region invariant -/

/-- The region invariant before position `n`: before the first point what the launch hands the region (every scoped
    buffer that is no staging buffer of the region at anything, the generator register at some state); afterwards the
    same with the four scratch columns at what the point before left in them. -/
def PhiS0 (c : Dev nD) : (n : ℕ) → n ≤ cfg0.N → sProp 𝕄
  | 0, _ => Pipeline.ΦA spec0 c
  | n + 1, hn => iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2) ∗ others0 (F := F) c) ∗ (∃ r, prngReg c r))

theorem PhiS0_zero (c : Dev nD) (n : ℕ) (h : n ≤ cfg0.N) (hz : n = 0) : PhiS0 V c n h = Pipeline.ΦA spec0 c := by
  subst hz; rfl

/-- After point `n` (before point `n + 1`): the scratch columns at that point's contents. -/
theorem PhiS0_succ (c : Dev nD) (n : ℕ) (hn : n < cfg0.N) :
    PhiS0 V c (n + 1) hn = iprop(iprop(owns (c : Thread nD τ) scM0_0 fullShare ((outsAt0 V c n hn).2.2.1) ∗ owns (c : Thread nD τ) scM0_1 fullShare ((outsAt0 V c n hn).2.2.2.1) ∗ owns (c : Thread nD τ) scM0_2 fullShare ((outsAt0 V c n hn).2.2.2.2.1) ∗ owns (c : Thread nD τ) scM0_3 fullShare ((outsAt0 V c n hn).2.2.2.2.2) ∗ others0 (F := F) c) ∗ (∃ r, prngReg c r)) := rfl

/-- Before a point that is not the first: the scratch columns at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2.2.1) ∗ owns (c : Thread nD τ) scM0_1 fullShare ((outsAt0 V c (n - 1) (by omega)).2.2.2.1) ∗ owns (c : Thread nD τ) scM0_2 fullShare ((outsAt0 V c (n - 1) (by omega)).2.2.2.2.1) ∗ owns (c : Thread nD τ) scM0_3 fullShare ((outsAt0 V c (n - 1) (by omega)).2.2.2.2.2) ∗ others0 (F := F) c) ∗ (∃ r, prngReg c r)) := by
  cases n with
  | zero => exact absurd rfl hz
  | succ n => rfl

/-! ## The proof data -/

/-- The proof data of the region on core `c`: the arrays as the region finds them; after the body at point `t` each
    input's buffer at its block and the two outputs' at `outsAt0`'s first two components; the invariant `PhiS0`;
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => (outsAt0 V c t.val t.isLt).1
    | ⟨7, _⟩ => (outsAt0 V c t.val t.isLt).2.1
  Φ t := PhiS0 V c t.val (Nat.le_of_lt_succ t.isLt)
  q _ := fullShare
  owed _ := 0

/-- The proof data's arrays are the region-entry contents. -/
theorem A_eq0 (c : Dev nD) (w : Fin cfg0.W) : (dat0 V c).A w = V c (Pipeline.arrRef spec0 w) := by
  dsimp only [dat0]

/-- The invariant at a point's start, restated at `t.val`. -/
theorem PhiS0_castSucc (c : Dev nD) (t : Fin cfg0.N) :
    (dat0 V c).Φ t.castSucc = PhiS0 V c t.val (Nat.le_of_lt t.isLt) := by
  dsimp only [dat0]; simp only [Fin.coe_castSucc]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = (outsAt0 V c t.val t.isLt).1 := by dsimp only [dat0]
theorem after0_7 (c : Dev nD) (t : Fin cfg0.N) : (dat0 V c).after 7 t = (outsAt0 V c t.val t.isLt).2.1 := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d))
    ∗ (∃ d, owns (c : Thread nD τ) (ms0_6 t) fullShare ((dat0 V c).before 6 t d))
    ∗ (∃ d, owns (c : Thread nD τ) (ms0_7 t) fullShare ((dat0 V c).before 7 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t)

set_option maxHeartbeats 8000000 in
/-- The body at any point. The inputs' memrefs hold their blocks; the point's vocabulary tile says which case it is in;
    the invariant hands the body the four scratch columns at what the point before left (at anything at the very
    first point) and takes them back at this point's contents, the pieces the run found covering each column; the
    other scoped buffers, the generator register and the core's debt pass through untouched. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5]
  rw [show (dat0 V c).owesAt () t.succ = (dat0 V c).owesAt () t.castSucc from rfl]
  rw [show (dat0 V c).Φ t.succ = PhiS0 V c (t.val + 1) t.isLt from rfl, PhiS0_succ]
  have hN : t.val < 500 := lt_of_lt_of_eq t.isLt (show cfg0.N = 500 from N_0)
  by_cases h0 : t.val % 125 = 0
  · by_cases h1 : t.val % 125 = 124
    · exfalso; omega
    · -- a first tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_A t ((hcond0_0 t).mpr h0) (fun h => h1 ((hcond0_1 t).mp h))) (noFlush0_6_A t ((hcond0_0 t).mpr h0) (fun h => h1 ((hcond0_1 t).mp h)))]
      rw [Dat.leavesExact_idle (dat0 V c) 7 t (idleAt0_7_A t ((hcond0_0 t).mpr h0) (fun h => h1 ((hcond0_1 t).mp h))) (noFlush0_7_A t ((hcond0_0 t).mpr h0) (fun h => h1 ((hcond0_1 t).mp h)))]
      rw [outsAt0_A V c t h0 h1]
      unfold sout0_A_0 sout0_A_1 sout0_A_2 sout0_A_3; (try dsimp only)
      by_cases hz : t.val = 0
      · rw [PhiS0_castSucc V c t, PhiS0_zero V c _ _ hz, PhiA0_eq]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        iintro ⟨H0, H1, H2, H3, H4, H5, H6, H7, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          swap; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _)
          iexact Hoth
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
      · rw [PhiS0_castSucc V c t, PhiS0_pos V c _ _ hz]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_A c (grid0.coords t) _ _ _ _ _ _ _ _ _ _ _ _ _ _ _ _ _ _ _ _ _ _ _ _ ((hcond0_0 t).mpr h0) (fun h => h1 ((hcond0_1 t).mp h)) (iblk0 V c 0 t) (iblk0 V c 1 t) (iblk0 V c 2 t) (iblk0 V c 3 t) (iblk0 V c 4 t) (iblk0 V c 5 t)).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexists _; iexact HS0
        isplitl [HS1]; · iexists _; iexact HS1
        isplitl [HS2]; · iexists _; iexact HS2
        isplitl [HS3]; · iexists _; iexact HS3
        iintro ⟨H0, H1, H2, H3, H4, H5, H6, H7, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          swap; · iexact Hg
          isplitl [HS0]
          · unfold owns; iexists _; isplitr
            swap; · iexact HS0
            ipureintro; exact View.read_writes_of_cover _ _ _ _ _ (scover0_A_0 c _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_A_1 c _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_A_2 c _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_A_3 c _ _ _ _ _ _ _ _ _ _ _ _ _ _ _ _ _ _ _ _ _ _ _ _ _ _ _ _ _ _ _ _ _)
          iexact Hoth
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7
  · by_cases h1 : t.val % 125 = 124
    · -- a last tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [show (dat0 V c).leavesExact 6 t = owns (c : Thread nD τ) (ms0_6 t) fullShare ((dat0 V c).after 6 t) from by
        unfold Dat.leavesExact; rw [liveAt0_6_C t (fun h => h0 ((hcond0_0 t).mp h)) ((hcond0_1 t).mpr h1)], after0_6]
      rw [show (dat0 V c).leavesExact 7 t = owns (c : Thread nD τ) (ms0_7 t) fullShare ((dat0 V c).after 7 t) from by
        unfold Dat.leavesExact; rw [liveAt0_7_C t (fun h => h0 ((hcond0_0 t).mp h)) ((hcond0_1 t).mpr h1)], after0_7]
      rw [outsAt0_C V c t h0 h1]
      unfold out0_C_6 out0_C_7 sout0_C_0 sout0_C_1 sout0_C_2 sout0_C_3; (try dsimp only)
      by_cases hz : t.val = 0
      · exfalso; omega
      · rw [PhiS0_castSucc V c t, PhiS0_pos V c _ _ hz]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_C c (grid0.coords t) _ _ _ _ _ _ _ _ _ _ _ _ _ _ _ _ _ _ _ _ _ _ _ _ (fun h => h0 ((hcond0_0 t).mp h)) ((hcond0_1 t).mpr h1) (iblk0 V c 0 t) (iblk0 V c 1 t) (iblk0 V c 2 t) (iblk0 V c 3 t) (iblk0 V c 4 t) (iblk0 V c 5 t) _ _ _ _).2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        isplitl [H7]; · iexists _; iexact H7
        isplitl [HS0]; · iexact HS0
        isplitl [HS1]; · iexact HS1
        isplitl [HS2]; · iexact HS2
        isplitl [HS3]; · iexact HS3
        iintro ⟨H0, H1, H2, H3, H4, H5, ⟨%e6, H6⟩, ⟨%e7, H7⟩, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          swap; · iexact Hg
          isplitl [HS0]
          · unfold owns; iexists _; isplitr
            swap; · iexact HS0
            ipureintro; exact View.read_writes_of_cover _ _ _ _ _ (scover0_C_0 c _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_C_1 c _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_C_2 c _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_C_3 c _ _ _ _ _ _ _ _ _ _ _ _ _ _ _ _ _ _ _ _ _ _ _ _ _ _ _ _ _ _ _ _ _ _ _ _ _)
          iexact Hoth
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]
        · unfold owns; iexists _; isplitr
          swap; · iexact H6
          ipureintro; exact View.read_writes_of_cover _ _ _ _ _ (cover0_C_6 c _ _ _ _ _ _ _ _ _ _ _ _ _ _ _ _ _ _ _ _ _ _ _ _ _ _ _ _ _ _ _ _ _ _ _ _ _)
        unfold owns; iexists _; isplitr
        swap; · iexact H7
        ipureintro; exact View.read_writes_of_cover _ _ _ _ _ (cover0_C_7 c _ _ _ _ _ _ _ _ _ _ _ _ _ _ _ _ _ _ _ _ _ _ _ _ _ _ _ _ _ _ _ _ _ _ _ _ _)
    · -- a middle tile
      rw [show (dat0 V c).leavesExact 0 t = owns (c : Thread nD τ) (ms0_0 t) fullShare ((dat0 V c).after 0 t) from by
        unfold Dat.leavesExact; rw [liveAt0_0 t], after0_0]
      rw [show (dat0 V c).leavesExact 1 t = owns (c : Thread nD τ) (ms0_1 t) fullShare ((dat0 V c).after 1 t) from by
        unfold Dat.leavesExact; rw [liveAt0_1 t], after0_1]
      rw [show (dat0 V c).leavesExact 2 t = owns (c : Thread nD τ) (ms0_2 t) fullShare ((dat0 V c).after 2 t) from by
        unfold Dat.leavesExact; rw [liveAt0_2 t], after0_2]
      rw [show (dat0 V c).leavesExact 3 t = owns (c : Thread nD τ) (ms0_3 t) fullShare ((dat0 V c).after 3 t) from by
        unfold Dat.leavesExact; rw [liveAt0_3 t], after0_3]
      rw [show (dat0 V c).leavesExact 4 t = owns (c : Thread nD τ) (ms0_4 t) fullShare ((dat0 V c).after 4 t) from by
        unfold Dat.leavesExact; rw [liveAt0_4 t], after0_4]
      rw [show (dat0 V c).leavesExact 5 t = owns (c : Thread nD τ) (ms0_5 t) fullShare ((dat0 V c).after 5 t) from by
        unfold Dat.leavesExact; rw [liveAt0_5 t], after0_5]
      rw [Dat.leavesExact_idle (dat0 V c) 6 t (idleAt0_6_B t (fun h => h0 ((hcond0_0 t).mp h)) (fun h => h1 ((hcond0_1 t).mp h))) (noFlush0_6_B t (fun h => h0 ((hcond0_0 t).mp h)) (fun h => h1 ((hcond0_1 t).mp h)))]
      rw [Dat.leavesExact_idle (dat0 V c) 7 t (idleAt0_7_B t (fun h => h0 ((hcond0_0 t).mp h)) (fun h => h1 ((hcond0_1 t).mp h))) (noFlush0_7_B t (fun h => h0 ((hcond0_0 t).mp h)) (fun h => h1 ((hcond0_1 t).mp h)))]
      rw [outsAt0_B V c t h0 h1]
      unfold sout0_B_0 sout0_B_1 sout0_B_2 sout0_B_3; (try dsimp only)
      by_cases hz : t.val = 0
      · exfalso; omega
      · rw [PhiS0_castSucc V c t, PhiS0_pos V c _ _ hz]
        iintro ⟨⟨⟨HS0, HS1, HS2, HS3, Hoth⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩⟩
        iapply ((kernelRun0_B c (grid0.coords t) _ _ _ _ _ _ _ _ _ _ _ _ _ _ _ _ _ _ _ _ _ _ _ _ (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) _ _ _ _).2.2.2.2.2.2 _ _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [HS0]; · iexact HS0
        isplitl [HS1]; · iexact HS1
        isplitl [HS2]; · iexact HS2
        isplitl [HS3]; · iexact HS3
        iintro ⟨H0, H1, H2, H3, H4, H5, H6, H7, ⟨%es0, HS0⟩, ⟨%es1, HS1⟩, ⟨%es2, HS2⟩, ⟨%es3, HS3⟩⟩
        isplitl [HS0 HS1 HS2 HS3 Hoth Hg]
        · isplitl [HS0 HS1 HS2 HS3 Hoth]
          swap; · iexact Hg
          isplitl [HS0]
          · unfold owns; iexists _; isplitr
            swap; · iexact HS0
            ipureintro; exact View.read_writes_of_cover _ _ _ _ _ (scover0_B_0 c _ _ _ _ _ _ _ _ _ _ _ _ _ _ _ _ _ _ _ _ _ _ _ _ _ _ _ _ _ _ _ _ _ _ _ _ _)
          isplitl [HS1]
          · unfold owns; iexists _; isplitr
            swap; · iexact HS1
            ipureintro; exact View.read_writes_of_cover _ _ _ _ _ (scover0_B_1 c _ _ _ _ _ _ _ _ _ _ _ _ _ _ _ _ _ _ _ _ _ _ _ _ _ _ _ _ _ _ _ _ _ _ _ _ _)
          isplitl [HS2]
          · unfold owns; iexists _; isplitr
            swap; · iexact HS2
            ipureintro; exact View.read_writes_of_cover _ _ _ _ _ (scover0_B_2 c _ _ _ _ _ _ _ _ _ _ _ _ _ _ _ _ _ _ _ _ _ _ _ _ _ _ _ _ _ _ _ _ _ _ _ _ _)
          isplitl [HS3]
          · unfold owns; iexists _; isplitr
            swap; · iexact HS3
            ipureintro; exact View.read_writes_of_cover _ _ _ _ _ (scover0_B_3 c _ _ _ _ _ _ _ _ _ _ _ _ _ _ _ _ _ _ _ _ _ _ _ _ _ _ _ _ _ _ _ _ _ _ _ _ _)
          iexact Hoth
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexists _; iexact H6
        iexists _; iexact H7

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives back what the launch handed over: the scratch columns' named
    contents are forgotten. -/
theorem Phi_out0 (c : Dev nD) (t : Fin (cfg0.N + 1)) (ht : t.val ≠ 0) : (dat0 V c).Φ t ⊢ Pipeline.ΦA spec0 c := by
  rw [show (dat0 V c).Φ t = PhiS0 V c t.val (Nat.le_of_lt_succ t.isLt) from rfl, PhiS0_pos V c _ _ ht, PhiA0_eq]
  iintro ⟨⟨HS0, HS1, HS2, HS3, Hoth⟩, Hg⟩
  isplitl [HS0 HS1 HS2 HS3 Hoth]
  swap; · iexact Hg
  isplitl [HS0]; · iexists _; iexact HS0
  isplitl [HS1]; · iexists _; iexact HS1
  isplitl [HS2]; · iexists _; iexact HS2
  isplitl [HS3]; · iexists _; iexact HS3
  iexact Hoth

/-- The same after the last point. -/
theorem hout0 (c : Dev nD) : (dat0 V c).Φ (Fin.last cfg0.N) ⊢ Pipeline.ΦA spec0 c :=
  Phi_out0 V c _ (by rw [Fin.val_last]; have : cfg0.N = 500 := N_0; omega)

end AtEntry

end Cert.KernelIdeal.Stats

end
-- ==== Proof.KI.JsdShared.lean ====
/- The accumulation call (the second of the two calls; pipeline 1), what its three runs share, stated at
   the contents V the call finds on entry: each window's block at a grid point; that an input's staging buffer
   holds its block whether or not the point fetched it; the two conditions of the body on the vocabulary
   coordinate (first tile of a sweep: the accumulator is reset; last tile: the accumulator is stored to the
   output) in closed form over the 4 x 125 grid; where the output window is idle; the staging and scratch memrefs
   as the pipeline passes them; and the call's invariant with the accumulator singled out from the other scoped
   buffers of the core. -/
import proofs.«136119_j22101901705770_1_alg».proof.Proof.Gen.KernelIdeal.Launch
import proofs.«136119_j22101901705770_1_alg».proof.Proof.Gen.KernelIdeal.Skeleton
import proofs.«136119_j22101901705770_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

-- membership in a rectangle of the long extents recurses once per coordinate
set_option maxRecDepth 16384

noncomputable section

namespace Cert.KernelIdeal.JsdK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the core's buffer contents when the call is entered
variable (V : (c : Dev nD) → (b : Ref sig .tc) → Buf (Elt F) ((c : Thread nD τ).loc b))

/-! ## The windows' blocks -/

/-- Window `w`'s block at point `t`, read off its array as the call finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not: where it is not
    fetched its block index has not moved since the point before (the window is uncut and never idle). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1's current staging buffer holds its block at every point, fetched there or not: where it is not
    fetched its block index has not moved since the point before (the window is uncut and never idle). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- Input window 2's current staging buffer holds its block at every point, fetched there or not: where it is not
    fetched its block index has not moved since the point before (the window is uncut and never idle). -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- Input window 3's current staging buffer holds its block at every point, fetched there or not: where it is not
    fetched its block index has not moved since the point before (the window is uncut and never idle). -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- Input window 4's current staging buffer holds its block at every point, fetched there or not: where it is not
    fetched its block index has not moved since the point before (the window is uncut and never idle). -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-- Input window 5's current staging buffer holds its block at every point, fetched there or not: where it is not
    fetched its block index has not moved since the point before (the window is uncut and never idle). -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

/-- Input window 6's current staging buffer holds its block at every point, fetched there or not: where it is not
    fetched its block index has not moved since the point before (the window is uncut and never idle). -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)

/-- Input window 7's current staging buffer holds its block at every point, fetched there or not: where it is not
    fetched its block index has not moved since the point before (the window is uncut and never idle). -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)

/-! ## The body's two conditions -/

/-- The body resets the accumulator: the vocabulary coordinate is 0 (the test as the body computes it). -/
abbrev sweepStart (i : grid1.Coords) : Prop := (Scalar.cmpi .ne (Scalar.extui (Scalar.cmpi .eq (BitVec.ofNat 32 (i 1).val) 0#32)) 0#32) = 1#1
/-- Over the grid: the points ≡ 0 (mod 125). -/
theorem sweepStart_iff : ∀ t : Fin cfg1.N, sweepStart (grid1.coords t) ↔ t.val % 125 = 0 :=
  (by decide +kernel : ∀ t : Fin grid1.N, sweepStart (grid1.coords t) ↔ t.val % 125 = 0)

/-- The body stores the accumulator to the output: the vocabulary coordinate is 124. -/
abbrev sweepEnd (i : grid1.Coords) : Prop := k1_cond2 i = 1#1
/-- Over the grid: the points ≡ 124 (mod 125). -/
theorem sweepEnd_iff : ∀ t : Fin cfg1.N, sweepEnd (grid1.coords t) ↔ t.val % 125 = 124 :=
  (by decide +kernel : ∀ t : Fin grid1.N, sweepEnd (grid1.coords t) ↔ t.val % 125 = 124)

/-! ## Where the windows are idle -/
/-- Input window 0 is never idle. -/
theorem live1_0 : ∀ t : Fin cfg1.N, cfg1.idle 0 (grid1.coords t) = false := fun _ => rfl
/-- Input window 1 is never idle. -/
theorem live1_1 : ∀ t : Fin cfg1.N, cfg1.idle 1 (grid1.coords t) = false := fun _ => rfl
/-- Input window 2 is never idle. -/
theorem live1_2 : ∀ t : Fin cfg1.N, cfg1.idle 2 (grid1.coords t) = false := fun _ => rfl
/-- Input window 3 is never idle. -/
theorem live1_3 : ∀ t : Fin cfg1.N, cfg1.idle 3 (grid1.coords t) = false := fun _ => rfl
/-- Input window 4 is never idle. -/
theorem live1_4 : ∀ t : Fin cfg1.N, cfg1.idle 4 (grid1.coords t) = false := fun _ => rfl
/-- Input window 5 is never idle. -/
theorem live1_5 : ∀ t : Fin cfg1.N, cfg1.idle 5 (grid1.coords t) = false := fun _ => rfl
/-- Input window 6 is never idle. -/
theorem live1_6 : ∀ t : Fin cfg1.N, cfg1.idle 6 (grid1.coords t) = false := fun _ => rfl
/-- Input window 7 is never idle. -/
theorem live1_7 : ∀ t : Fin cfg1.N, cfg1.idle 7 (grid1.coords t) = false := fun _ => rfl
/-- At a sweep's first point the output window is idle: nothing is stored into it. -/
theorem idle1_8_A : ∀ t : Fin cfg1.N, sweepStart (grid1.coords t) → ¬sweepEnd (grid1.coords t) → cfg1.idle 8 (grid1.coords t) = true := by decide +kernel
/-- and its block is not written back there. -/
theorem noFlush1_8_A : ∀ t : Fin cfg1.N, sweepStart (grid1.coords t) → ¬sweepEnd (grid1.coords t) → (cfg1.win 8).flush t = false := by decide +kernel
/-- At a sweep's middle points the output window is idle, -/
theorem idle1_8_B : ∀ t : Fin cfg1.N, ¬sweepStart (grid1.coords t) → ¬sweepEnd (grid1.coords t) → cfg1.idle 8 (grid1.coords t) = true := by decide +kernel
/-- and not written back. -/
theorem noFlush1_8_B : ∀ t : Fin cfg1.N, ¬sweepStart (grid1.coords t) → ¬sweepEnd (grid1.coords t) → (cfg1.win 8).flush t = false := by decide +kernel
/-- At a sweep's last point the output window is live: the accumulator is stored into it. -/
theorem live1_8_C : ∀ t : Fin cfg1.N, ¬sweepStart (grid1.coords t) → sweepEnd (grid1.coords t) → cfg1.idle 8 (grid1.coords t) = false := by decide +kernel

/-! ## The memrefs the body is called on -/

/-- One staging buffer of the output window, through which its contents are stated (the choice does not matter). -/
abbrev VO1_8 : View sig .tc .vmem S512x1 .f32 := (Memref.whole cc1_stg8_0 : Memref sig .tc .vmem S512x1 .f32).view
abbrev ms1_0 (t : Fin cfg1.N) : Memref sig .tc .vmem S512x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x4096 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x4096 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x4096 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S512x1 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x1 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x1 .f32 := win1_8.stage (cfg1.slots t 8)
abbrev hs1_8 (t : Fin cfg1.N) : (ms1_8 t).IsWhole := hstage1_8 ((cfg1.slots t 8).cast nbuf1_8)
/-- The accumulator: a whole scoped buffer of the call's own, passed beside the windows and carried from point to point. -/
abbrev scM1 : Memref sig .tc .vmem S512x1 .f32 := Memref.whole cc1_scratch0
/-- The accumulator as a view: what it holds is stated through it. -/
abbrev VS1 : View sig .tc .vmem S512x1 .f32 := scM1.view

/-! ## The call's invariant, the accumulator singled out -/

/-- A scoped buffer of the core at some contents. -/
abbrev anyAt (c : Dev nD) (r : Ref sig .tc) : sProp 𝕄 :=
  iprop(∃ f : Buf (Elt F) ((c : Thread nD τ).loc r), ((c : Thread nD τ).loc r) ↦{fullShare} f)

/-- The scoped buffers of the core that are the FIRST call's (its staging buffers and its four running statistics),
    each at some contents: this call never touches them. -/
def foreign (c : Dev nD) : sProp 𝕄 :=
  iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1 ∗ anyAt (F := F) c cc0_stg5_0 ∗ anyAt (F := F) c cc0_stg5_1 ∗ anyAt (F := F) c cc0_stg6_0 ∗ anyAt (F := F) c cc0_stg6_1 ∗ anyAt (F := F) c cc0_stg7_0 ∗ anyAt (F := F) c cc0_stg7_1 ∗ anyAt (F := F) c cc0_scratch0 ∗ anyAt (F := F) c cc0_scratch1 ∗ anyAt (F := F) c cc0_scratch2 ∗ anyAt (F := F) c cc0_scratch3)

/-- The invariant the launch hands the call, buffer by buffer: the first call's scoped buffers, then the accumulator
    as a memref owned at some contents, and the generator register. -/
theorem PhiA1_chain (c : Dev nD) :
    (Pipeline.ΦA spec1 c : sProp 𝕄)
      = iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1 ∗ anyAt (F := F) c cc0_stg5_0 ∗ anyAt (F := F) c cc0_stg5_1 ∗ anyAt (F := F) c cc0_stg6_0 ∗ anyAt (F := F) c cc0_stg6_1 ∗ anyAt (F := F) c cc0_stg7_0 ∗ anyAt (F := F) c cc0_stg7_1 ∗ anyAt (F := F) c cc0_scratch0 ∗ anyAt (F := F) c cc0_scratch1 ∗ anyAt (F := F) c cc0_scratch2 ∗ anyAt (F := F) c cc0_scratch3 ∗ (∃ d, owns (c : Thread nD τ) scM1 fullShare d)) ∗ (∃ r, prngReg c r)) := by
  unfold Pipeline.ΦA; rw [scopedRest1_eq]; simp only [anyAt, scM1, owns_whole]; try rfl

/-- Gathering the first call's buffers under one name, beside anything `X` and `Y`: one direction, -/
theorem foreign_gather (c : Dev nD) (X Y : sProp 𝕄) :
    (iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1 ∗ anyAt (F := F) c cc0_stg5_0 ∗ anyAt (F := F) c cc0_stg5_1 ∗ anyAt (F := F) c cc0_stg6_0 ∗ anyAt (F := F) c cc0_stg6_1 ∗ anyAt (F := F) c cc0_stg7_0 ∗ anyAt (F := F) c cc0_stg7_1 ∗ anyAt (F := F) c cc0_scratch0 ∗ anyAt (F := F) c cc0_scratch1 ∗ anyAt (F := F) c cc0_scratch2 ∗ anyAt (F := F) c cc0_scratch3 ∗ X) ∗ Y) : sProp 𝕄) ⊢ iprop(iprop(foreign (F := F) c ∗ X) ∗ Y) := by
  unfold foreign
  iintro ⟨⟨R0, R1, R2, R3, R4, R5, R6, R7, R8, R9, R10, R11, R12, R13, R14, R15, R16, R17, R18, R19, HX⟩, HY⟩
  isplitl [R0 R1 R2 R3 R4 R5 R6 R7 R8 R9 R10 R11 R12 R13 R14 R15 R16 R17 R18 R19 HX]
  · isplitl [R0 R1 R2 R3 R4 R5 R6 R7 R8 R9 R10 R11 R12 R13 R14 R15 R16 R17 R18 R19]
    · isplitl [R0]; · iexact R0
      isplitl [R1]; · iexact R1
      isplitl [R2]; · iexact R2
      isplitl [R3]; · iexact R3
      isplitl [R4]; · iexact R4
      isplitl [R5]; · iexact R5
      isplitl [R6]; · iexact R6
      isplitl [R7]; · iexact R7
      isplitl [R8]; · iexact R8
      isplitl [R9]; · iexact R9
      isplitl [R10]; · iexact R10
      isplitl [R11]; · iexact R11
      isplitl [R12]; · iexact R12
      isplitl [R13]; · iexact R13
      isplitl [R14]; · iexact R14
      isplitl [R15]; · iexact R15
      isplitl [R16]; · iexact R16
      isplitl [R17]; · iexact R17
      isplitl [R18]; · iexact R18
      iexact R19
    · iexact HX
  · iexact HY

/-- and the other. -/
theorem foreign_spread (c : Dev nD) (X Y : sProp 𝕄) :
    (iprop(iprop(foreign (F := F) c ∗ X) ∗ Y) : sProp 𝕄) ⊢ iprop(iprop(anyAt (F := F) c cc0_stg0_0 ∗ anyAt (F := F) c cc0_stg0_1 ∗ anyAt (F := F) c cc0_stg1_0 ∗ anyAt (F := F) c cc0_stg1_1 ∗ anyAt (F := F) c cc0_stg2_0 ∗ anyAt (F := F) c cc0_stg2_1 ∗ anyAt (F := F) c cc0_stg3_0 ∗ anyAt (F := F) c cc0_stg3_1 ∗ anyAt (F := F) c cc0_stg4_0 ∗ anyAt (F := F) c cc0_stg4_1 ∗ anyAt (F := F) c cc0_stg5_0 ∗ anyAt (F := F) c cc0_stg5_1 ∗ anyAt (F := F) c cc0_stg6_0 ∗ anyAt (F := F) c cc0_stg6_1 ∗ anyAt (F := F) c cc0_stg7_0 ∗ anyAt (F := F) c cc0_stg7_1 ∗ anyAt (F := F) c cc0_scratch0 ∗ anyAt (F := F) c cc0_scratch1 ∗ anyAt (F := F) c cc0_scratch2 ∗ anyAt (F := F) c cc0_scratch3 ∗ X) ∗ Y) := by
  unfold foreign
  iintro ⟨⟨⟨R0, R1, R2, R3, R4, R5, R6, R7, R8, R9, R10, R11, R12, R13, R14, R15, R16, R17, R18, R19⟩, HX⟩, HY⟩
  isplitl [R0 R1 R2 R3 R4 R5 R6 R7 R8 R9 R10 R11 R12 R13 R14 R15 R16 R17 R18 R19 HX]
  · isplitl [R0]; · iexact R0
    isplitl [R1]; · iexact R1
    isplitl [R2]; · iexact R2
    isplitl [R3]; · iexact R3
    isplitl [R4]; · iexact R4
    isplitl [R5]; · iexact R5
    isplitl [R6]; · iexact R6
    isplitl [R7]; · iexact R7
    isplitl [R8]; · iexact R8
    isplitl [R9]; · iexact R9
    isplitl [R10]; · iexact R10
    isplitl [R11]; · iexact R11
    isplitl [R12]; · iexact R12
    isplitl [R13]; · iexact R13
    isplitl [R14]; · iexact R14
    isplitl [R15]; · iexact R15
    isplitl [R16]; · iexact R16
    isplitl [R17]; · iexact R17
    isplitl [R18]; · iexact R18
    isplitl [R19]; · iexact R19
    iexact HX
  · iexact HY

/-- The launch's invariant with the first call's buffers gathered: what the body obligation opens and closes. -/
theorem PhiA1_eq (c : Dev nD) :
    (Pipeline.ΦA spec1 c : sProp 𝕄)
      = iprop(iprop(foreign (F := F) c ∗ (∃ d, owns (c : Thread nD τ) scM1 fullShare d)) ∗ (∃ r, prngReg c r)) := by
  rw [PhiA1_chain]
  exact BI.equiv_iff.mp ⟨foreign_gather c _ _, foreign_spread c _ _⟩

end Cert.KernelIdeal.JsdK

end
-- ==== Proof.KI.JsdRunA.lean ====
/- The accumulation call's body at a sweep's FIRST point (the accumulator is reset, nothing is stored to the output): its triple on any whole staging memrefs, as a
   subtype whose witness is the list of pieces the body's stores leave (last first) in the output's buffer and in the
   accumulator. The inputs are owned at their contents and handed back as they were; the output's buffer, idle here, is handed back untouched; the accumulator is owned at anything and handed back with its pieces written. The body is its
   skeleton, which the symbolic executor runs; each conditional is decided by the case's hypotheses. -/
import proofs.«136119_j22101901705770_1_alg».proof.Proof.KI.JsdShared

-- membership in a rectangle of the long extents recurses once per coordinate
set_option maxRecDepth 16384

noncomputable section

namespace Cert.KernelIdeal.JsdK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the body reads eight blocks of the long extents
set_option synthInstance.maxSize 4096

set_option maxHeartbeats 4000000 in
noncomputable def kernelRun1_A (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) :
    Σ' (L8 : List (View.Piece (Elt F) S512x1 .f32)), { LS : List (View.Piece (Elt F) S512x1 .f32) //
      ∀ (xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc1__jsd_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__jsd_kernel_eq_skeleton]; unfold cc1__jsd_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds, %fs, -, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.JsdK

end
-- ==== Proof.KI.JsdRunB.lean ====
/- The accumulation call's body at a sweep's MIDDLE points (no reset, nothing stored to the output): its triple on any whole staging memrefs, as a
   subtype whose witness is the list of pieces the body's stores leave (last first) in the output's buffer and in the
   accumulator. The inputs are owned at their contents and handed back as they were; the output's buffer, idle here, is handed back untouched; the accumulator is owned at what the point before left and handed back with its pieces written. The body is its
   skeleton, which the symbolic executor runs; each conditional is decided by the case's hypotheses. -/
import proofs.«136119_j22101901705770_1_alg».proof.Proof.KI.JsdRunA

-- membership in a rectangle of the long extents recurses once per coordinate
set_option maxRecDepth 16384

noncomputable section

namespace Cert.KernelIdeal.JsdK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the body reads eight blocks of the long extents
set_option synthInstance.maxSize 4096

set_option maxHeartbeats 4000000 in
noncomputable def kernelRun1_B (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) :
    Σ' (L8 : List (View.Piece (Elt F) S512x1 .f32)), { LS : List (View.Piece (Elt F) S512x1 .f32) //
      ∀ (xi8 : Vec F S512x1 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare xi8 ∗ (∃ f, arg11.view.loc (c : Thread nD τ) ↦[arg11.view.set]{fullShare} arg11.view.writes (Elt F) f LS)) -∗ K ⟨⟩))
          ⊢ wp frame (wpE (defs₀ (F := F)) Variants.none c none) E (cc1__jsd_kernel i arg2 harg2 arg3 harg3 arg4 harg4 arg5 harg5 arg6 harg6 arg7 harg7 arg8 harg8 arg9 harg9 arg10 harg10 arg11 harg11) K } := by
  refine ⟨[], ?_, fun xi8 E K => ?run⟩
  case run =>
    simp only [cc1__jsd_kernel_eq_skeleton]; unfold cc1__jsd_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    iexists _; iexact HS

end Cert.KernelIdeal.JsdK

end
-- ==== Proof.KI.JsdRunC.lean ====
/- The accumulation call's body at a sweep's LAST point (no reset; the accumulator is stored to the output): its triple on any whole staging memrefs, as a
   subtype whose witness is the list of pieces the body's stores leave (last first) in the output's buffer and in the
   accumulator. The inputs are owned at their contents and handed back as they were; the output's buffer is owned at anything and handed back with its pieces written; the accumulator is owned at what the point before left and handed back with its pieces written. The body is its
   skeleton, which the symbolic executor runs; each conditional is decided by the case's hypotheses. -/
import proofs.«136119_j22101901705770_1_alg».proof.Proof.KI.JsdRunB

-- membership in a rectangle of the long extents recurses once per coordinate
set_option maxRecDepth 16384

noncomputable section

namespace Cert.KernelIdeal.JsdK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the body reads eight blocks of the long extents
set_option synthInstance.maxSize 4096

set_option maxHeartbeats 4000000 in
noncomputable def kernelRun1_C (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) :
    Σ' (L8 : List (View.Piece (Elt F) S512x1 .f32)), { LS : List (View.Piece (Elt F) S512x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare xs
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ f, arg10.view.loc (c : Thread nD τ) ↦[arg10.view.set]{fullShare} arg10.view.writes (Elt F) f L8) ∗ (∃ f, arg11.view.loc (c : Thread nD τ) ↦[arg11.view.set]{fullShare} arg11.view.writes (Elt F) f LS)) -∗ K ⟨⟩))
          ⊢ wp frame (wpE (defs₀ (F := F)) Variants.none c none) E (cc1__jsd_kernel i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc1__jsd_kernel_eq_skeleton]; unfold cc1__jsd_kernel_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs, %hfs, HS⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]; · iexists _; iexact H8
    iexists _; iexact HS

end Cert.KernelIdeal.JsdK

end
-- ==== Proof.KI.JsdFrame.lean ====
/- The accumulation call (pipeline 1) at the contents V it finds on entry: what the body's stores leave in the
   accumulator and in the output's buffer in each of the three cases (the pieces the runs found, read back; that
   they cover the buffer), what those two hold after every grid point (the accumulation: a sweep's first point
   starts from the reset accumulator, every later point from what the point before left), the call's invariant
   (the accumulator at that contents from the second point on), the proof data, the body obligation at every
   point, and that the invariant is the launch's before the first point and gives it back after the last. -/
import proofs.«136119_j22101901705770_1_alg».proof.Proof.KI.JsdRunC

-- membership in a rectangle of the long extents recurses once per coordinate
set_option maxRecDepth 16384

noncomputable section

namespace Cert.KernelIdeal.JsdK

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option synthInstance.maxSize 4096

-- the core's buffer contents when the call is entered
variable (V : (c : Dev nD) → (b : Ref sig .tc) → Buf (Elt F) ((c : Thread nD τ).loc b))

/-! ## What each case leaves -/

/-- At a sweep's first point nothing is stored into the output's buffer (it is idle there and not written back): no pieces;
    a placeholder nothing consults. -/
def out1_A_8 (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) : Vec F S512x1 .f32 :=
  VO1_8.read (Elt F) (VO1_8.writes (Elt F) VO1_8.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).1)

/-- At a sweep's first point the pieces stored into the accumulator tile it, so they cover it. -/
theorem scover1_A (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (y : S512x1.Idx) :
    ∃ pc ∈ (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1, y ∈ pc.1.set :=
  View.cover_of_tiledL (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1 S512x1.size (by sl_kernel_rfl) y

/-- What a sweep's first point leaves in the accumulator: its pieces read back. -/
def sout1_A (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) : Vec F S512x1 .f32 :=
  VS1.read (Elt F) (VS1.writes (Elt F) VS1.junk (kernelRun1_A c i arg2 harg2 arg3 harg3 arg4 harg4 arg5 harg5 arg6 harg6 arg7 harg7 arg8 harg8 arg9 harg9 arg10 harg10 arg11 harg11 hc0 hc1 x0 x1 x2 x3 x4 x5 x6 x7).2.1)

/-- At a sweep's middle point nothing is stored into the output's buffer (it is idle there and not written back): no pieces;
    a placeholder nothing consults. -/
def out1_B_8 (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) : Vec F S512x1 .f32 :=
  VO1_8.read (Elt F) (VO1_8.writes (Elt F) VO1_8.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).1)

/-- At a sweep's middle point the pieces stored into the accumulator tile it, so they cover it. -/
theorem scover1_B (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) (y : S512x1.Idx) :
    ∃ pc ∈ (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1 S512x1.size (by sl_kernel_rfl) y

/-- What a sweep's middle point leaves in the accumulator: its pieces read back. -/
def sout1_B (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) : Vec F S512x1 .f32 :=
  VS1.read (Elt F) (VS1.writes (Elt F) VS1.junk (kernelRun1_B c i arg2 harg2 arg3 harg3 arg4 harg4 arg5 harg5 arg6 harg6 arg7 harg7 arg8 harg8 arg9 harg9 arg10 harg10 arg11 harg11 hc0 hc1 x0 x1 x2 x3 x4 x5 x6 x7 xs).2.1)

/-- At a sweep's last point the pieces stored into the output's buffer tile it, so they cover it. -/
theorem cover1_C_8 (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1 S512x1.size (by sl_kernel_rfl) y

/-- What a sweep's last point leaves in the output's buffer: its pieces read back. -/
def out1_C_8 (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) : Vec F S512x1 .f32 :=
  VO1_8.read (Elt F) (VO1_8.writes (Elt F) VO1_8.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).1)

/-- At a sweep's last point the pieces stored into the accumulator tile it, so they cover it. -/
theorem scover1_C (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) (y : S512x1.Idx) :
    ∃ pc ∈ (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1, y ∈ pc.1.set :=
  View.cover_of_tiledL (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1 S512x1.size (by sl_kernel_rfl) y

/-- What a sweep's last point leaves in the accumulator: its pieces read back. -/
def sout1_C (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) : Vec F S512x1 .f32 :=
  VS1.read (Elt F) (VS1.writes (Elt F) VS1.junk (kernelRun1_C c i arg2 harg2 arg3 harg3 arg4 harg4 arg5 harg5 arg6 harg6 arg7 harg7 arg8 harg8 arg9 harg9 arg10 harg10 arg11 harg11 hc0 hc1 x0 x1 x2 x3 x4 x5 x6 x7 xs).2.1)

/-! ## What the output's buffer and the accumulator hold after each point -/

/-- THE ACCUMULATION: after the body at position `n`, the pair (output's buffer, accumulator): the case the closed
    forms select at `n`, run at the point's memrefs and input blocks, from the accumulator the point before left. No
    point is both first and last of a sweep. -/
def outsAt1 (c : Dev nD) : (n : ℕ) → n < cfg1.N → Vec F S512x1 .f32 × Vec F S512x1 .f32
  | 0, hn => (out1_A_8 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((sweepStart_iff ⟨0, hn⟩).mpr (Nat.zero_mod _)) (fun h => (fun h => by (try dsimp only at h); omega) ((sweepEnd_iff ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩), sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((sweepStart_iff ⟨0, hn⟩).mpr (Nat.zero_mod _)) (fun h => (fun h => by (try dsimp only at h); omega) ((sweepEnd_iff ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩))
  | n + 1, hn =>
    if h0 : (n + 1) % 125 = 0 then
      if h1 : (n + 1) % 125 = 124 then
        False.elim (by omega)
      else
        (out1_A_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((sweepStart_iff ⟨n + 1, hn⟩).mpr h0) (fun h => h1 ((sweepEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩), sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((sweepStart_iff ⟨n + 1, hn⟩).mpr h0) (fun h => h1 ((sweepEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩))
    else
      if h1 : (n + 1) % 125 = 124 then
        (out1_C_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((sweepStart_iff ⟨n + 1, hn⟩).mp h)) ((sweepEnd_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((sweepStart_iff ⟨n + 1, hn⟩).mp h)) ((sweepEnd_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)
      else
        (out1_B_8 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((sweepStart_iff ⟨n + 1, hn⟩).mp h)) (fun h => h1 ((sweepEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((sweepStart_iff ⟨n + 1, hn⟩).mp h)) (fun h => h1 ((sweepEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (outsAt1 c n (Nat.lt_of_succ_lt hn)).2)

/-- `outsAt1` at a sweep's first point. -/
theorem outsAt1_A (c : Dev nD) (t : Fin cfg1.N) (h0 : t.val % 125 = 0) (h1 : ¬t.val % 125 = 124) :
    outsAt1 V c t.val t.isLt = (out1_A_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((sweepStart_iff t).mpr h0) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t), sout1_A c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) ((sweepStart_iff t).mpr h0) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t)) := by
  obtain ⟨n, hn⟩ := t
  cases n with
  | zero => exact rfl
  | succ n => exact (dif_pos h0).trans ((dif_neg h1).trans rfl)

/-- `outsAt1` at a sweep's middle point: over what the point before left. -/
theorem outsAt1_B (c : Dev nD) (t : Fin cfg1.N) (h0 : ¬t.val % 125 = 0) (h1 : ¬t.val % 125 = 124) :
    outsAt1 V c t.val t.isLt = (out1_B_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((sweepStart_iff t).mp h)) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_B c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((sweepStart_iff t).mp h)) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a sweep's last point: over what the point before left. -/
theorem outsAt1_C (c : Dev nD) (t : Fin cfg1.N) (h0 : ¬t.val % 125 = 0) (h1 : t.val % 125 = 124) :
    outsAt1 V c t.val t.isLt = (out1_C_8 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((sweepStart_iff t).mp h)) ((sweepEnd_iff t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2, sout1_C c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((sweepStart_iff t).mp h)) ((sweepEnd_iff t).mpr h1) (iblk1 V c 0 t) (iblk1 V c 1 t) (iblk1 V c 2 t) (iblk1 V c 3 t) (iblk1 V c 4 t) (iblk1 V c 5 t) (iblk1 V c 6 t) (iblk1 V c 7 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The call's invariant -/

/-- Before position `n`: before the first point what the launch hands the call (the accumulator at anything); afterwards
    the first call's buffers at anything, the accumulator at what the point before left, the generator register at
    some state. -/
def PhiS1 (c : Dev nD) : (n : ℕ) → n ≤ cfg1.N → sProp 𝕄
  | 0, _ => Pipeline.ΦA spec1 c
  | n + 1, hn => iprop(iprop(foreign (F := F) c ∗ owns (c : Thread nD τ) scM1 fullShare ((outsAt1 V c n hn).2)) ∗ (∃ r, prngReg c r))

theorem PhiS1_zero (c : Dev nD) (n : ℕ) (h : n ≤ cfg1.N) (hz : n = 0) : PhiS1 V c n h = Pipeline.ΦA spec1 c := by
  subst hz; rfl

theorem PhiS1_succ (c : Dev nD) (n : ℕ) (hn : n < cfg1.N) :
    PhiS1 V c (n + 1) hn = iprop(iprop(foreign (F := F) c ∗ owns (c : Thread nD τ) scM1 fullShare ((outsAt1 V c n hn).2)) ∗ (∃ r, prngReg c r)) := rfl

theorem PhiS1_pos (c : Dev nD) (n : ℕ) (h : n ≤ cfg1.N) (hz : n ≠ 0) :
    PhiS1 V c n h = iprop(iprop(foreign (F := F) c ∗ owns (c : Thread nD τ) scM1 fullShare ((outsAt1 V c (n - 1) (by omega)).2)) ∗ (∃ r, prngReg c r)) := by
  cases n with
  | zero => exact absurd rfl hz
  | succ n => rfl

/-! ## The proof data -/

/-- The proof data of the call on core `c`: the arrays as the call finds them; after the body at point `t` each input's
    buffer at its block and the output's at `outsAt1`'s first component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => (outsAt1 V c t.val t.isLt).1
  Φ t := PhiS1 V c t.val (Nat.le_of_lt_succ t.isLt)
  q _ := fullShare
  owed _ := 0

/-- The proof data's arrays are the entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = (outsAt1 V c t.val t.isLt).1 := by dsimp only [dat1]

/-- Each input's current staging buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d

/-! ## The body obligation, at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t
    ∗ (dat1 V c).leavesExact 6 t
    ∗ (dat1 V c).leavesExact 7 t
    ∗ (dat1 V c).leavesExact 8 t)

set_option maxHeartbeats 8000000 in
/-- The body at any point: the inputs' memrefs hold their blocks; the closed forms say which case the point is in; the
    case's run applies; the invariant hands the body the accumulator at what the point before left (at anything at the
    very first point) and takes it back at this point's contents, the first call's buffers and the generator register
    passing through; the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7]
  rw [show (dat1 V c).owesAt () t.succ = (dat1 V c).owesAt () t.castSucc from rfl]
  rw [show (dat1 V c).Φ t.succ = PhiS1 V c (t.val + 1) t.isLt from rfl, PhiS1_succ]
  have hN : t.val < 500 := lt_of_lt_of_eq t.isLt (show cfg1.N = 500 from N_1)
  by_cases h0 : t.val % 125 = 0
  · by_cases h1 : t.val % 125 = 124
    · exfalso; omega
    · -- a sweep's first point
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t], after1_4]
      rw [show (dat1 V c).leavesExact 5 t = owns (c : Thread nD τ) (ms1_5 t) fullShare ((dat1 V c).after 5 t) from by
        unfold Dat.leavesExact; rw [live1_5 t], after1_5]
      rw [show (dat1 V c).leavesExact 6 t = owns (c : Thread nD τ) (ms1_6 t) fullShare ((dat1 V c).after 6 t) from by
        unfold Dat.leavesExact; rw [live1_6 t], after1_6]
      rw [show (dat1 V c).leavesExact 7 t = owns (c : Thread nD τ) (ms1_7 t) fullShare ((dat1 V c).after 7 t) from by
        unfold Dat.leavesExact; rw [live1_7 t], after1_7]
      rw [Dat.leavesExact_idle (dat1 V c) 8 t (idle1_8_A t ((sweepStart_iff t).mpr h0) (fun h => h1 ((sweepEnd_iff t).mp h))) (noFlush1_8_A t ((sweepStart_iff t).mpr h0) (fun h => h1 ((sweepEnd_iff t).mp h)))]
      rw [outsAt1_A V c t h0 h1]
      unfold sout1_A; (try dsimp only)
      by_cases hz : t.val = 0
      · -- the very first point: the launch's invariant
        rw [PhiS1_castSucc V c t, PhiS1_zero V c _ _ hz, PhiA1_eq]
        iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((sweepStart_iff t).mpr h0) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexact HS
        iintro ⟨H0, H1, H2, H3, H4, H5, H6, H7, H8, ⟨%es, HS⟩⟩
        isplitl [HR HS Hg]
        · isplitl [HR HS]
          · isplitl [HR]; · iexact HR
            unfold owns; iexists _; isplitr
            swap; · iexact HS
            ipureintro; exact View.read_writes_of_cover _ _ _ _ _ (scover1_A c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
      · -- the first point of a later sweep
        rw [PhiS1_castSucc V c t, PhiS1_pos V c _ _ hz]
        iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
        iapply ((kernelRun1_A c (grid1.coords t) _ _ _ _ _ _ _ _ _ _ _ _ _ _ _ _ _ _ _ _ ((sweepStart_iff t).mpr h0) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t)).2.2 _ Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [HS]; · iexists _; iexact HS
        iintro ⟨H0, H1, H2, H3, H4, H5, H6, H7, H8, ⟨%es, HS⟩⟩
        isplitl [HR HS Hg]
        · isplitl [HR HS]
          · isplitl [HR]; · iexact HR
            unfold owns; iexists _; isplitr
            swap; · iexact HS
            ipureintro; exact View.read_writes_of_cover _ _ _ _ _ (scover1_A c _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        iexists _; iexact H8
  · by_cases h1 : t.val % 125 = 124
    · -- a sweep's last point
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t], after1_4]
      rw [show (dat1 V c).leavesExact 5 t = owns (c : Thread nD τ) (ms1_5 t) fullShare ((dat1 V c).after 5 t) from by
        unfold Dat.leavesExact; rw [live1_5 t], after1_5]
      rw [show (dat1 V c).leavesExact 6 t = owns (c : Thread nD τ) (ms1_6 t) fullShare ((dat1 V c).after 6 t) from by
        unfold Dat.leavesExact; rw [live1_6 t], after1_6]
      rw [show (dat1 V c).leavesExact 7 t = owns (c : Thread nD τ) (ms1_7 t) fullShare ((dat1 V c).after 7 t) from by
        unfold Dat.leavesExact; rw [live1_7 t], after1_7]
      rw [show (dat1 V c).leavesExact 8 t = owns (c : Thread nD τ) (ms1_8 t) fullShare ((dat1 V c).after 8 t) from by
        unfold Dat.leavesExact; rw [live1_8_C t (fun h => h0 ((sweepStart_iff t).mp h)) ((sweepEnd_iff t).mpr h1)], after1_8]
      rw [outsAt1_C V c t h0 h1]
      unfold out1_C_8 sout1_C; (try dsimp only)
      have hz : t.val ≠ 0 := by omega
      rw [PhiS1_castSucc V c t, PhiS1_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_C c (grid1.coords t) _ _ _ _ _ _ _ _ _ _ _ _ _ _ _ _ _ _ _ _ (fun h => h0 ((sweepStart_iff t).mp h)) ((sweepEnd_iff t).mpr h1) (iblk1 V c 0 t) (iblk1 V c 1 t) (iblk1 V c 2 t) (iblk1 V c 3 t) (iblk1 V c 4 t) (iblk1 V c 5 t) (iblk1 V c 6 t) (iblk1 V c 7 t) _).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexists _; iexact H8
      isplitl [HS]; · iexact HS
      iintro ⟨H0, H1, H2, H3, H4, H5, H6, H7, ⟨%e8, H8⟩, ⟨%es, HS⟩⟩
      isplitl [HR HS Hg]
      · isplitl [HR HS]
        · isplitl [HR]; · iexact HR
          unfold owns; iexists _; isplitr
          swap; · iexact HS
          ipureintro; exact View.read_writes_of_cover _ _ _ _ _ (scover1_C c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      unfold owns; iexists _; isplitr
      swap; · iexact H8
      ipureintro; exact View.read_writes_of_cover _ _ _ _ _ (cover1_C_8 c _ _ _ _ _ _ _ _ _ _ _ _ _ _ _ _ _ _ _ _ _ _ _ _ _ _ _ _ _ _ _ _)
    · -- a sweep's middle point
      rw [show (dat1 V c).leavesExact 0 t = owns (c : Thread nD τ) (ms1_0 t) fullShare ((dat1 V c).after 0 t) from by
        unfold Dat.leavesExact; rw [live1_0 t], after1_0]
      rw [show (dat1 V c).leavesExact 1 t = owns (c : Thread nD τ) (ms1_1 t) fullShare ((dat1 V c).after 1 t) from by
        unfold Dat.leavesExact; rw [live1_1 t], after1_1]
      rw [show (dat1 V c).leavesExact 2 t = owns (c : Thread nD τ) (ms1_2 t) fullShare ((dat1 V c).after 2 t) from by
        unfold Dat.leavesExact; rw [live1_2 t], after1_2]
      rw [show (dat1 V c).leavesExact 3 t = owns (c : Thread nD τ) (ms1_3 t) fullShare ((dat1 V c).after 3 t) from by
        unfold Dat.leavesExact; rw [live1_3 t], after1_3]
      rw [show (dat1 V c).leavesExact 4 t = owns (c : Thread nD τ) (ms1_4 t) fullShare ((dat1 V c).after 4 t) from by
        unfold Dat.leavesExact; rw [live1_4 t], after1_4]
      rw [show (dat1 V c).leavesExact 5 t = owns (c : Thread nD τ) (ms1_5 t) fullShare ((dat1 V c).after 5 t) from by
        unfold Dat.leavesExact; rw [live1_5 t], after1_5]
      rw [show (dat1 V c).leavesExact 6 t = owns (c : Thread nD τ) (ms1_6 t) fullShare ((dat1 V c).after 6 t) from by
        unfold Dat.leavesExact; rw [live1_6 t], after1_6]
      rw [show (dat1 V c).leavesExact 7 t = owns (c : Thread nD τ) (ms1_7 t) fullShare ((dat1 V c).after 7 t) from by
        unfold Dat.leavesExact; rw [live1_7 t], after1_7]
      rw [Dat.leavesExact_idle (dat1 V c) 8 t (idle1_8_B t (fun h => h0 ((sweepStart_iff t).mp h)) (fun h => h1 ((sweepEnd_iff t).mp h))) (noFlush1_8_B t (fun h => h0 ((sweepStart_iff t).mp h)) (fun h => h1 ((sweepEnd_iff t).mp h)))]
      rw [outsAt1_B V c t h0 h1]
      unfold sout1_B; (try dsimp only)
      have hz : t.val ≠ 0 := by omega
      rw [PhiS1_castSucc V c t, PhiS1_pos V c _ _ hz]
      iintro ⟨⟨⟨HR, HS⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((kernelRun1_B c (grid1.coords t) _ _ _ _ _ _ _ _ _ _ _ _ _ _ _ _ _ _ _ _ (fun h => h0 ((sweepStart_iff t).mp h)) (fun h => h1 ((sweepEnd_iff t).mp h)) (iblk1 V c 0 t) (iblk1 V c 1 t) (iblk1 V c 2 t) (iblk1 V c 3 t) (iblk1 V c 4 t) (iblk1 V c 5 t) (iblk1 V c 6 t) (iblk1 V c 7 t) _).2.2 _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS]; · iexact HS
      iintro ⟨H0, H1, H2, H3, H4, H5, H6, H7, H8, ⟨%es, HS⟩⟩
      isplitl [HR HS Hg]
      · isplitl [HR HS]
        · isplitl [HR]; · iexact HR
          unfold owns; iexists _; isplitr
          swap; · iexact HS
          ipureintro; exact View.read_writes_of_cover _ _ _ _ _ (scover1_B c _ _ _ _ _ _ _ _ _ _ _ _ _ _ _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the call is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point the invariant gives the launch's back: what the accumulator holds is forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HR, HS⟩, Hg⟩
  isplitl [HR HS]
  · isplitl [HR]; · iexact HR
    iexists _; iexact HS
  iexact Hg

/-- The same after the last point. -/
theorem hout1 (c : Dev nD) : (dat1 V c).Φ (Fin.last cfg1.N) ⊢ Pipeline.ΦA spec1 c :=
  Phi_out1 V c _ (by rw [Fin.val_last]; have : cfg1.N = 500 := N_1; omega)

end Cert.KernelIdeal.JsdK

end
-- ==== Proof.KI.Close.lean ====
/-
  The two kernel regions' records, from the runs of their bodies, and what the launch then gives: every weakly fair
  execution of @main terminates, nothing faulting, with every unscoped buffer at the last boundary's contents; in
  particular the six argument arrays end as launched (no stretch of @main writes one).
-/
import proofs.«136119_j22101901705770_1_alg».proof.Proof.KI.Whole
import proofs.«136119_j22101901705770_1_alg».proof.Proof.KI.StatsFrame
import proofs.«136119_j22101901705770_1_alg».proof.Proof.KI.JsdFrame

set_option maxRecDepth 16384

noncomputable section

namespace Cert.KernelIdeal.Close

open Cert.KernelIdeal Cert.KernelIdeal.Gen Cert.KernelIdeal.Whole
open Idealize.ShloMosaic Idealize.ShloMosaic.TcCoe
open Idealize.SL Idealize.SL.Sem
open Idealize.ShloMosaic.Pipeline (Dat)

variable {F : FTy → Type} [FloatOps F]

/-- The statistics region's record. -/
def reg0 : Region0 F where
  dat := fun V c => Cert.KernelIdeal.Stats.dat0 V c
  hA := fun V c w => Cert.KernelIdeal.Stats.A_eq0 V c w
  hq := fun _ _ _ => rfl
  howed := fun _ _ _ => rfl
  hrec := fun _ _ _ => rfl
  hbody := fun V c => Cert.KernelIdeal.Stats.body_obligation0 V c
  hin := fun V c => Cert.KernelIdeal.Stats.hin0 V c
  hout := fun V c => Cert.KernelIdeal.Stats.hout0 V c

/-- The divergence region's record. -/
def reg1 : Region1 F where
  dat := fun V c => Cert.KernelIdeal.JsdK.dat1 V c
  hA := fun V c w => Cert.KernelIdeal.JsdK.A_eq1 V c w
  hq := fun _ _ _ => rfl
  howed := fun _ _ _ => rfl
  hrec := fun _ _ _ => rfl
  hbody := fun V c => Cert.KernelIdeal.JsdK.body_obligation1 V c
  hin := fun V c => Cert.KernelIdeal.JsdK.hin1 V c
  hout := fun V c => Cert.KernelIdeal.JsdK.hout1 V c

variable (m : (ℓ : Loc nD τ sig) → Buf (Elt F) ℓ) (ρ : Dev nD → PrngReg)

/-- The last boundary's contents. -/
abbrev last (c : Dev nD) : Valuation τ sig (Elt F) := B4 m (reg0 (F := F)) (reg1 (F := F)) c

/-- THE RUN, with the result buffer and the six argument arrays read off the last boundary. -/
theorem run : θ_run defs (onTc (τ := τ) (main (F := F))) ⟨m, fun _ => 0, ρ⟩ (fun r => ∀ c : Dev nD,
      r.2.mem ((c.tc : Thread nD τ).loc main_v9) = last m c main_v9
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨h c _ (mem_uc main_v9 (by decide)),
     (h c _ (mem_uc main_arg0 (by decide))).trans (B4_arg m reg0 reg1 c main_arg0 (by decide) (by decide) (by decide) (by decide)),
     (h c _ (mem_uc main_arg1 (by decide))).trans (B4_arg m reg0 reg1 c main_arg1 (by decide) (by decide) (by decide) (by decide)),
     (h c _ (mem_uc main_arg2 (by decide))).trans (B4_arg m reg0 reg1 c main_arg2 (by decide) (by decide) (by decide) (by decide)),
     (h c _ (mem_uc main_arg3 (by decide))).trans (B4_arg m reg0 reg1 c main_arg3 (by decide) (by decide) (by decide) (by decide)),
     (h c _ (mem_uc main_arg4 (by decide))).trans (B4_arg m reg0 reg1 c main_arg4 (by decide) (by decide) (by decide) (by decide)),
     (h c _ (mem_uc main_arg5 (by decide))).trans (B4_arg m reg0 reg1 c main_arg5 (by decide) (by decide) (by decide) (by decide))⟩)
    (run_all m ρ reg0 reg1)

/-- THE FRAME at any `F`: the argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => (h c).2) (run m ρ)

end Cert.KernelIdeal.Close

end
-- ==== Proof.HostEnds.lean ====
/-
  What the two host stretches of @main leave: before the regions, the activations and weights narrowed to bf16 and
  the biases laid as rows; after them, the sum of the per-row column divided by the number of rows.
-/
import proofs.«136119_j22101901705770_1_alg».proof.Proof.KI.Whole
import Idealize.ShloMosaic.Lib.StableHlo.Run

set_option maxRecDepth 16384

noncomputable section

namespace Cert.KernelIdeal.HostEnds

open Cert.KernelIdeal Cert.KernelIdeal.Gen Cert.KernelIdeal.Whole
open Idealize.ShloMosaic Idealize.ShloMosaic.TcCoe
open Idealize.SL.Sem

variable {F : FTy → Type} [FloatOps F]
variable (m : (ℓ : Loc nD τ sig) → Buf (Elt F) ℓ) (R0 : Region0 F) (R1 : Region1 F)

theorem C1_v0 (c : Dev nD) : C1 m c main_v0 = truncf .bf16 (m ((c : Thread nD τ).loc main_arg0)) bitsLt_bf16_f32 := by
  show StableHlo.after hostOps0 (fun b => m (c, b)) (Proc.devRef .tc main_v0) = _
  after_results <;> rfl
theorem C1_v1 (c : Dev nD) : C1 m c main_v1 = truncf .bf16 (m ((c : Thread nD τ).loc main_arg1)) bitsLt_bf16_f32 := by
  show StableHlo.after hostOps0 (fun b => m (c, b)) (Proc.devRef .tc main_v1) = _
  after_results <;> rfl
theorem C1_v2 (c : Dev nD) : C1 m c main_v2 = truncf .bf16 (m ((c : Thread nD τ).loc main_arg2)) bitsLt_bf16_f32 := by
  show StableHlo.after hostOps0 (fun b => m (c, b)) (Proc.devRef .tc main_v2) = _
  after_results <;> rfl
theorem C1_v3 (c : Dev nD) : C1 m c main_v3 = truncf .bf16 (m ((c : Thread nD τ).loc main_arg4)) bitsLt_bf16_f32 := by
  show StableHlo.after hostOps0 (fun b => m (c, b)) (Proc.devRef .tc main_v3) = _
  after_results <;> rfl
theorem C1_v4 (c : Dev nD) : C1 m c main_v4 = shapeCast S1x32000 (m ((c : Thread nD τ).loc main_arg3)) shapeCasts_S32000_S1x32000 := by
  show StableHlo.after hostOps0 (fun b => m (c, b)) (Proc.devRef .tc main_v4) = _
  after_results <;> rfl
theorem C1_v5 (c : Dev nD) : C1 m c main_v5 = shapeCast S1x32000 (m ((c : Thread nD τ).loc main_arg5)) shapeCasts_S32000_S1x32000 := by
  show StableHlo.after hostOps0 (fun b => m (c, b)) (Proc.devRef .tc main_v5) = _
  after_results <;> rfl

/-- The mean over the rows, as the last host stretch spells it. -/
def meanRows (col : (⟨S2048x1, .f32⟩ : BufTy).Contents (Elt F)) : (⟨S_, .f32⟩ : BufTy).Contents (Elt F) :=
  Host.divf (F := F) (Host.reduceAdd (F := F) col (constant (F := F) S_ .f32 0x00000000#32) reducesTo_S2048x1_S_d0_1 h_S_) (constant (F := F) S_ .f32 0x45000000#32)

theorem B4_v9 (c : Dev nD) : B4 m R0 R1 c main_v9 = meanRows (C3 m R0 R1 c main_v7) := by
  show StableHlo.after hostOps2 (B3 m R0 R1 c) (Proc.devRef .tc main_v9) = _
  after_results <;> rfl

end Cert.KernelIdeal.HostEnds

end
-- ==== Proof.Blocks0.lean ====
/-
  Region 0's input blocks read at an index of their arrays: at grid point t (row tile t / 125, vocabulary tile
  t % 125) an activations block holds rows 512 (t / 125) + p, a weights block rows 256 (t % 125) + k, a bias row's
  block the entries 256 (t % 125) + k, and a per-row column's block rows 512 (t / 125) + p.
-/
import proofs.«136119_j22101901705770_1_alg».proof.Proof.KI.StatsFrame
import Idealize.ShloMosaic.Lib.ValueIdx
import Idealize.ShloMosaic.Lib.Pipeline.Value

set_option maxRecDepth 16384

noncomputable section

namespace Cert.KernelIdeal.StatsV

open Cert.KernelIdeal Cert.KernelIdeal.Gen Cert.KernelIdeal.Stats
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

theorem rowBound0 (t : Fin cfg0.N) (p : Fin 512) : 512 * (t.val / 125) + p.val < 2048 := by
  have := t.isLt; have := p.isLt; have hN : cfg0.N = 500 := N_0; omega
theorem vocBound0 (t : Fin cfg0.N) (k : Fin 256) : 256 * (t.val % 125) + k.val < 32000 := by
  have := k.isLt; have := Nat.mod_lt t.val (show 0 < 125 by decide); omega

theorem idx0_0 : ∀ t : Fin cfg0.N, win0_0.index t (0 : Fin 2) = t.val / 125 ∧ win0_0.index t (1 : Fin 2) = 0 :=
  (by decide +kernel : ∀ t : Fin grid0.N, win0_0.index t (0 : Fin 2) = t.val / 125 ∧ win0_0.index t (1 : Fin 2) = 0)
/-- Window 0's block at point t, at (p, h): row 512 (t / 125) + p of the array. -/
theorem blk0_0_at (c : Dev nD) (t : Fin cfg0.N) (p : Fin 512) (h : Fin 4096) :
    (iblk0 V c 0 t : Vec F S512x4096 .bf16) (ix2 p h) = V c main_v0 (ix2 ⟨512 * (t.val / 125) + p.val, rowBound0 t p⟩ h) := by
  unfold iblk0
  rw [View.read_apply]
  show V c main_v0 _ = V c main_v0 _
  refine congrArg (V c main_v0) (funext fun a => Fin.ext ?_)
  match a with
  | ⟨0, _⟩ => show win0_0.index t 0 * 512 + 1 * p.val = 512 * (t.val / 125) + p.val; rw [(idx0_0 t).1]; omega
  | ⟨1, _⟩ => show win0_0.index t 1 * 4096 + 1 * h.val = h.val; rw [(idx0_0 t).2]; omega

theorem idx0_1 : ∀ t : Fin cfg0.N, win0_1.index t (0 : Fin 2) = t.val / 125 ∧ win0_1.index t (1 : Fin 2) = 0 :=
  (by decide +kernel : ∀ t : Fin grid0.N, win0_1.index t (0 : Fin 2) = t.val / 125 ∧ win0_1.index t (1 : Fin 2) = 0)
/-- Window 1's block at point t, at (p, h): row 512 (t / 125) + p of the array. -/
theorem blk0_1_at (c : Dev nD) (t : Fin cfg0.N) (p : Fin 512) (h : Fin 4096) :
    (iblk0 V c 1 t : Vec F S512x4096 .bf16) (ix2 p h) = V c main_v1 (ix2 ⟨512 * (t.val / 125) + p.val, rowBound0 t p⟩ h) := by
  unfold iblk0
  rw [View.read_apply]
  show V c main_v1 _ = V c main_v1 _
  refine congrArg (V c main_v1) (funext fun a => Fin.ext ?_)
  match a with
  | ⟨0, _⟩ => show win0_1.index t 0 * 512 + 1 * p.val = 512 * (t.val / 125) + p.val; rw [(idx0_1 t).1]; omega
  | ⟨1, _⟩ => show win0_1.index t 1 * 4096 + 1 * h.val = h.val; rw [(idx0_1 t).2]; omega

theorem idx0_2 : ∀ t : Fin cfg0.N, win0_2.index t (0 : Fin 2) = t.val % 125 ∧ win0_2.index t (1 : Fin 2) = 0 :=
  (by decide +kernel : ∀ t : Fin grid0.N, win0_2.index t (0 : Fin 2) = t.val % 125 ∧ win0_2.index t (1 : Fin 2) = 0)
/-- Window 2's block at point t, at (k, h): row 256 (t % 125) + k of the array. -/
theorem blk0_2_at (c : Dev nD) (t : Fin cfg0.N) (k : Fin 256) (h : Fin 4096) :
    (iblk0 V c 2 t : Vec F S256x4096 .bf16) (ix2 k h) = V c main_v2 (ix2 ⟨256 * (t.val % 125) + k.val, vocBound0 t k⟩ h) := by
  unfold iblk0
  rw [View.read_apply]
  show V c main_v2 _ = V c main_v2 _
  refine congrArg (V c main_v2) (funext fun a => Fin.ext ?_)
  match a with
  | ⟨0, _⟩ => show win0_2.index t 0 * 256 + 1 * k.val = 256 * (t.val % 125) + k.val; rw [(idx0_2 t).1]; omega
  | ⟨1, _⟩ => show win0_2.index t 1 * 4096 + 1 * h.val = h.val; rw [(idx0_2 t).2]; omega

theorem idx0_3 : ∀ t : Fin cfg0.N, win0_3.index t (0 : Fin 2) = t.val % 125 ∧ win0_3.index t (1 : Fin 2) = 0 :=
  (by decide +kernel : ∀ t : Fin grid0.N, win0_3.index t (0 : Fin 2) = t.val % 125 ∧ win0_3.index t (1 : Fin 2) = 0)
/-- Window 3's block at point t, at (k, h): row 256 (t % 125) + k of the array. -/
theorem blk0_3_at (c : Dev nD) (t : Fin cfg0.N) (k : Fin 256) (h : Fin 4096) :
    (iblk0 V c 3 t : Vec F S256x4096 .bf16) (ix2 k h) = V c main_v3 (ix2 ⟨256 * (t.val % 125) + k.val, vocBound0 t k⟩ h) := by
  unfold iblk0
  rw [View.read_apply]
  show V c main_v3 _ = V c main_v3 _
  refine congrArg (V c main_v3) (funext fun a => Fin.ext ?_)
  match a with
  | ⟨0, _⟩ => show win0_3.index t 0 * 256 + 1 * k.val = 256 * (t.val % 125) + k.val; rw [(idx0_3 t).1]; omega
  | ⟨1, _⟩ => show win0_3.index t 1 * 4096 + 1 * h.val = h.val; rw [(idx0_3 t).2]; omega

theorem idx0_4 : ∀ t : Fin cfg0.N, win0_4.index t (0 : Fin 2) = 0 ∧ win0_4.index t (1 : Fin 2) = t.val % 125 :=
  (by decide +kernel : ∀ t : Fin grid0.N, win0_4.index t (0 : Fin 2) = 0 ∧ win0_4.index t (1 : Fin 2) = t.val % 125)
/-- Window 4's block at point t, at (0, k): entry 256 (t % 125) + k of the bias row. -/
theorem blk0_4_at (c : Dev nD) (t : Fin cfg0.N) (k : Fin 256) :
    (iblk0 V c 4 t : Vec F S1x256 .f32) (ix2 (0 : Fin 1) k) = V c main_v4 (ix2 (0 : Fin 1) ⟨256 * (t.val % 125) + k.val, vocBound0 t k⟩) := by
  unfold iblk0
  rw [View.read_apply]
  show V c main_v4 _ = V c main_v4 _
  refine congrArg (V c main_v4) (funext fun a => Fin.ext ?_)
  match a with
  | ⟨0, _⟩ => show win0_4.index t 0 * 1 + 1 * 0 = 0; rw [(idx0_4 t).1]
  | ⟨1, _⟩ => show win0_4.index t 1 * 256 + 1 * k.val = 256 * (t.val % 125) + k.val; rw [(idx0_4 t).2]; omega

theorem idx0_5 : ∀ t : Fin cfg0.N, win0_5.index t (0 : Fin 2) = 0 ∧ win0_5.index t (1 : Fin 2) = t.val % 125 :=
  (by decide +kernel : ∀ t : Fin grid0.N, win0_5.index t (0 : Fin 2) = 0 ∧ win0_5.index t (1 : Fin 2) = t.val % 125)
/-- Window 5's block at point t, at (0, k): entry 256 (t % 125) + k of the bias row. -/
theorem blk0_5_at (c : Dev nD) (t : Fin cfg0.N) (k : Fin 256) :
    (iblk0 V c 5 t : Vec F S1x256 .f32) (ix2 (0 : Fin 1) k) = V c main_v5 (ix2 (0 : Fin 1) ⟨256 * (t.val % 125) + k.val, vocBound0 t k⟩) := by
  unfold iblk0
  rw [View.read_apply]
  show V c main_v5 _ = V c main_v5 _
  refine congrArg (V c main_v5) (funext fun a => Fin.ext ?_)
  match a with
  | ⟨0, _⟩ => show win0_5.index t 0 * 1 + 1 * 0 = 0; rw [(idx0_5 t).1]
  | ⟨1, _⟩ => show win0_5.index t 1 * 256 + 1 * k.val = 256 * (t.val % 125) + k.val; rw [(idx0_5 t).2]; omega

end Cert.KernelIdeal.StatsV

end
-- ==== Proof.Blocks1.lean ====
/-
  Region 1's input blocks read at an index of their arrays: at grid point t (row tile t / 125, vocabulary tile
  t % 125) an activations block holds rows 512 (t / 125) + p, a weights block rows 256 (t % 125) + k, a bias row's
  block the entries 256 (t % 125) + k, and a per-row column's block rows 512 (t / 125) + p.
-/
import proofs.«136119_j22101901705770_1_alg».proof.Proof.KI.JsdFrame
import Idealize.ShloMosaic.Lib.ValueIdx
import Idealize.ShloMosaic.Lib.Pipeline.Value

set_option maxRecDepth 16384

noncomputable section

namespace Cert.KernelIdeal.JsdV

open Cert.KernelIdeal Cert.KernelIdeal.Gen Cert.KernelIdeal.JsdK
open Idealize.ShloMosaic Idealize.ShloMosaic.TcCoe Idealize.ShloMosaic.ValueIdx
open Idealize.SL.Sem

variable {F : FTy → Type} [FloatOps F]
variable (V : (c : Dev nD) → (b : Ref sig .tc) → Buf (Elt F) ((c : Thread nD τ).loc b))

theorem rowBound1 (t : Fin cfg1.N) (p : Fin 512) : 512 * (t.val / 125) + p.val < 2048 := by
  have := t.isLt; have := p.isLt; have hN : cfg1.N = 500 := N_1; omega
theorem vocBound1 (t : Fin cfg1.N) (k : Fin 256) : 256 * (t.val % 125) + k.val < 32000 := by
  have := k.isLt; have := Nat.mod_lt t.val (show 0 < 125 by decide); omega

theorem idx1_0 : ∀ t : Fin cfg1.N, win1_0.index t (0 : Fin 2) = t.val / 125 ∧ win1_0.index t (1 : Fin 2) = 0 :=
  (by decide +kernel : ∀ t : Fin grid1.N, win1_0.index t (0 : Fin 2) = t.val / 125 ∧ win1_0.index t (1 : Fin 2) = 0)
/-- Window 0's block at point t, at (p, h): row 512 (t / 125) + p of the array. -/
theorem blk1_0_at (c : Dev nD) (t : Fin cfg1.N) (p : Fin 512) (h : Fin 4096) :
    (iblk1 V c 0 t : Vec F S512x4096 .bf16) (ix2 p h) = V c main_v0 (ix2 ⟨512 * (t.val / 125) + p.val, rowBound1 t p⟩ h) := by
  unfold iblk1
  rw [View.read_apply]
  show V c main_v0 _ = V c main_v0 _
  refine congrArg (V c main_v0) (funext fun a => Fin.ext ?_)
  match a with
  | ⟨0, _⟩ => show win1_0.index t 0 * 512 + 1 * p.val = 512 * (t.val / 125) + p.val; rw [(idx1_0 t).1]; omega
  | ⟨1, _⟩ => show win1_0.index t 1 * 4096 + 1 * h.val = h.val; rw [(idx1_0 t).2]; omega

theorem idx1_1 : ∀ t : Fin cfg1.N, win1_1.index t (0 : Fin 2) = t.val / 125 ∧ win1_1.index t (1 : Fin 2) = 0 :=
  (by decide +kernel : ∀ t : Fin grid1.N, win1_1.index t (0 : Fin 2) = t.val / 125 ∧ win1_1.index t (1 : Fin 2) = 0)
/-- Window 1's block at point t, at (p, h): row 512 (t / 125) + p of the array. -/
theorem blk1_1_at (c : Dev nD) (t : Fin cfg1.N) (p : Fin 512) (h : Fin 4096) :
    (iblk1 V c 1 t : Vec F S512x4096 .bf16) (ix2 p h) = V c main_v1 (ix2 ⟨512 * (t.val / 125) + p.val, rowBound1 t p⟩ h) := by
  unfold iblk1
  rw [View.read_apply]
  show V c main_v1 _ = V c main_v1 _
  refine congrArg (V c main_v1) (funext fun a => Fin.ext ?_)
  match a with
  | ⟨0, _⟩ => show win1_1.index t 0 * 512 + 1 * p.val = 512 * (t.val / 125) + p.val; rw [(idx1_1 t).1]; omega
  | ⟨1, _⟩ => show win1_1.index t 1 * 4096 + 1 * h.val = h.val; rw [(idx1_1 t).2]; omega

theorem idx1_2 : ∀ t : Fin cfg1.N, win1_2.index t (0 : Fin 2) = t.val % 125 ∧ win1_2.index t (1 : Fin 2) = 0 :=
  (by decide +kernel : ∀ t : Fin grid1.N, win1_2.index t (0 : Fin 2) = t.val % 125 ∧ win1_2.index t (1 : Fin 2) = 0)
/-- Window 2's block at point t, at (k, h): row 256 (t % 125) + k of the array. -/
theorem blk1_2_at (c : Dev nD) (t : Fin cfg1.N) (k : Fin 256) (h : Fin 4096) :
    (iblk1 V c 2 t : Vec F S256x4096 .bf16) (ix2 k h) = V c main_v2 (ix2 ⟨256 * (t.val % 125) + k.val, vocBound1 t k⟩ h) := by
  unfold iblk1
  rw [View.read_apply]
  show V c main_v2 _ = V c main_v2 _
  refine congrArg (V c main_v2) (funext fun a => Fin.ext ?_)
  match a with
  | ⟨0, _⟩ => show win1_2.index t 0 * 256 + 1 * k.val = 256 * (t.val % 125) + k.val; rw [(idx1_2 t).1]; omega
  | ⟨1, _⟩ => show win1_2.index t 1 * 4096 + 1 * h.val = h.val; rw [(idx1_2 t).2]; omega

theorem idx1_3 : ∀ t : Fin cfg1.N, win1_3.index t (0 : Fin 2) = t.val % 125 ∧ win1_3.index t (1 : Fin 2) = 0 :=
  (by decide +kernel : ∀ t : Fin grid1.N, win1_3.index t (0 : Fin 2) = t.val % 125 ∧ win1_3.index t (1 : Fin 2) = 0)
/-- Window 3's block at point t, at (k, h): row 256 (t % 125) + k of the array. -/
theorem blk1_3_at (c : Dev nD) (t : Fin cfg1.N) (k : Fin 256) (h : Fin 4096) :
    (iblk1 V c 3 t : Vec F S256x4096 .bf16) (ix2 k h) = V c main_v3 (ix2 ⟨256 * (t.val % 125) + k.val, vocBound1 t k⟩ h) := by
  unfold iblk1
  rw [View.read_apply]
  show V c main_v3 _ = V c main_v3 _
  refine congrArg (V c main_v3) (funext fun a => Fin.ext ?_)
  match a with
  | ⟨0, _⟩ => show win1_3.index t 0 * 256 + 1 * k.val = 256 * (t.val % 125) + k.val; rw [(idx1_3 t).1]; omega
  | ⟨1, _⟩ => show win1_3.index t 1 * 4096 + 1 * h.val = h.val; rw [(idx1_3 t).2]; omega

theorem idx1_4 : ∀ t : Fin cfg1.N, win1_4.index t (0 : Fin 2) = 0 ∧ win1_4.index t (1 : Fin 2) = t.val % 125 :=
  (by decide +kernel : ∀ t : Fin grid1.N, win1_4.index t (0 : Fin 2) = 0 ∧ win1_4.index t (1 : Fin 2) = t.val % 125)
/-- Window 4's block at point t, at (0, k): entry 256 (t % 125) + k of the bias row. -/
theorem blk1_4_at (c : Dev nD) (t : Fin cfg1.N) (k : Fin 256) :
    (iblk1 V c 4 t : Vec F S1x256 .f32) (ix2 (0 : Fin 1) k) = V c main_v4 (ix2 (0 : Fin 1) ⟨256 * (t.val % 125) + k.val, vocBound1 t k⟩) := by
  unfold iblk1
  rw [View.read_apply]
  show V c main_v4 _ = V c main_v4 _
  refine congrArg (V c main_v4) (funext fun a => Fin.ext ?_)
  match a with
  | ⟨0, _⟩ => show win1_4.index t 0 * 1 + 1 * 0 = 0; rw [(idx1_4 t).1]
  | ⟨1, _⟩ => show win1_4.index t 1 * 256 + 1 * k.val = 256 * (t.val % 125) + k.val; rw [(idx1_4 t).2]; omega

theorem idx1_5 : ∀ t : Fin cfg1.N, win1_5.index t (0 : Fin 2) = 0 ∧ win1_5.index t (1 : Fin 2) = t.val % 125 :=
  (by decide +kernel : ∀ t : Fin grid1.N, win1_5.index t (0 : Fin 2) = 0 ∧ win1_5.index t (1 : Fin 2) = t.val % 125)
/-- Window 5's block at point t, at (0, k): entry 256 (t % 125) + k of the bias row. -/
theorem blk1_5_at (c : Dev nD) (t : Fin cfg1.N) (k : Fin 256) :
    (iblk1 V c 5 t : Vec F S1x256 .f32) (ix2 (0 : Fin 1) k) = V c main_v5 (ix2 (0 : Fin 1) ⟨256 * (t.val % 125) + k.val, vocBound1 t k⟩) := by
  unfold iblk1
  rw [View.read_apply]
  show V c main_v5 _ = V c main_v5 _
  refine congrArg (V c main_v5) (funext fun a => Fin.ext ?_)
  match a with
  | ⟨0, _⟩ => show win1_5.index t 0 * 1 + 1 * 0 = 0; rw [(idx1_5 t).1]
  | ⟨1, _⟩ => show win1_5.index t 1 * 256 + 1 * k.val = 256 * (t.val % 125) + k.val; rw [(idx1_5 t).2]; omega

theorem idx1_6 : ∀ t : Fin cfg1.N, win1_6.index t (0 : Fin 2) = t.val / 125 ∧ win1_6.index t (1 : Fin 2) = 0 :=
  (by decide +kernel : ∀ t : Fin grid1.N, win1_6.index t (0 : Fin 2) = t.val / 125 ∧ win1_6.index t (1 : Fin 2) = 0)
/-- Window 6's block at point t, at (p, 0): row 512 (t / 125) + p of the column array. -/
theorem blk1_6_at (c : Dev nD) (t : Fin cfg1.N) (p : Fin 512) :
    (iblk1 V c 6 t : Vec F S512x1 .f32) (ix2 p (0 : Fin 1)) = V c main_v6_0 (ix2 ⟨512 * (t.val / 125) + p.val, rowBound1 t p⟩ (0 : Fin 1)) := by
  unfold iblk1
  rw [View.read_apply]
  show V c main_v6_0 _ = V c main_v6_0 _
  refine congrArg (V c main_v6_0) (funext fun a => Fin.ext ?_)
  match a with
  | ⟨0, _⟩ => show win1_6.index t 0 * 512 + 1 * p.val = 512 * (t.val / 125) + p.val; rw [(idx1_6 t).1]; omega
  | ⟨1, _⟩ => show win1_6.index t 1 * 1 + 1 * 0 = 0; rw [(idx1_6 t).2]

theorem idx1_7 : ∀ t : Fin cfg1.N, win1_7.index t (0 : Fin 2) = t.val / 125 ∧ win1_7.index t (1 : Fin 2) = 0 :=
  (by decide +kernel : ∀ t : Fin grid1.N, win1_7.index t (0 : Fin 2) = t.val / 125 ∧ win1_7.index t (1 : Fin 2) = 0)
/-- Window 7's block at point t, at (p, 0): row 512 (t / 125) + p of the column array. -/
theorem blk1_7_at (c : Dev nD) (t : Fin cfg1.N) (p : Fin 512) :
    (iblk1 V c 7 t : Vec F S512x1 .f32) (ix2 p (0 : Fin 1)) = V c main_v6_1 (ix2 ⟨512 * (t.val / 125) + p.val, rowBound1 t p⟩ (0 : Fin 1)) := by
  unfold iblk1
  rw [View.read_apply]
  show V c main_v6_1 _ = V c main_v6_1 _
  refine congrArg (V c main_v6_1) (funext fun a => Fin.ext ?_)
  match a with
  | ⟨0, _⟩ => show win1_7.index t 0 * 512 + 1 * p.val = 512 * (t.val / 125) + p.val; rw [(idx1_7 t).1]; omega
  | ⟨1, _⟩ => show win1_7.index t 1 * 1 + 1 * 0 = 0; rw [(idx1_7 t).2]

end Cert.KernelIdeal.JsdV

end
-- ==== Proof.LibColumn.lean ====
/-
  Column-shaped layout operations read at an index: a column [a, 1] flattened to [a] and back, a column
  broadcast along its rows to [a, b], and a lane reduction of an [a, b] array read at a row as a sum or a
  maximum over the row. Each says which single element (or which row) of the operand an element of the result reads.
-/
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.ColumnIdx

open Idealize.ShloMosaic ValueIdx

variable {α : Type}

/-- A column `[a, 1]` cast to `[a]` reads, at `i`, the operand at `(i, 0)`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    omega)

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    omega)

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A lane sum of an `[a, b]` array (a `multi_reduction <add>` over axis 1 from the zero word), read at row `p`
    at the ideal instance: the sum of the row. -/
theorem rowSum_apply {a b : ℕ} (src : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ src 0x00000000#32 h hφ hacc (ix1 p) = ∑ k : Fin b, src (ix2 p k) :=
  (Ideal.multiReduction_add_single src _ h hφ hacc (ix1 p)).trans
    (Finset.sum_congr rfl fun k _ => congrArg src (funext fun ax => Fin.ext (by
      match ax with
      | ⟨0, _⟩ => rfl
      | ⟨1, _⟩ => rfl)))

/-- A lane maximum of an `[a, b]` array (a `multi_reduction <maximumf>` over axis 1 from the word of -∞), read at row
    `p` at the ideal instance: the fold of `max` over the row, from -∞. -/
theorem rowMax_apply {a b : ℕ} (src : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (p : Fin a) :
    multiReduction .maximumf [1] ⟨1, ![a]⟩ src 0xFF800000#32 h hφ hacc (ix1 p)
      = (Finset.univ : Finset (Fin b)).fold max (Ideal.ofBits .f32 0xFF800000#32) (fun k => src (ix2 p k)) :=
  (Ideal.multiReduction_maximumf_single src _ h hφ hacc (ix1 p)).trans
    (congrArg ((Finset.univ : Finset (Fin b)).fold max (Ideal.ofBits .f32 0xFF800000#32)) (funext fun k =>
      congrArg src (funext fun ax => Fin.ext (by
        match ax with
        | ⟨0, _⟩ => rfl
        | ⟨1, _⟩ => rfl))))

/-- Seven columns `[a, 1]` joined side by side into `[a, 7]`: entry `(p, k)` is column `k`'s entry of row `p`. -/
theorem concat7_apply {a : ℕ} (x0 x1 x2 x3 x4 x5 x6 : (⟨2, ![a, 1]⟩ : Shape).Idx → α)
    (h : Shape.Concatenates (([⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] : List ((s : Shape) × (s.Idx → α))).map (·.1)) ⟨2, ![a, 7]⟩ 1)
    (p : Fin a) (k : Fin 7) :
    concatenate ⟨2, ![a, 7]⟩ 1 [⟨⟨2, ![a, 1]⟩, x0⟩, ⟨⟨2, ![a, 1]⟩, x1⟩, ⟨⟨2, ![a, 1]⟩, x2⟩, ⟨⟨2, ![a, 1]⟩, x3⟩, ⟨⟨2, ![a, 1]⟩, x4⟩,
      ⟨⟨2, ![a, 1]⟩, x5⟩, ⟨⟨2, ![a, 1]⟩, x6⟩] h (ix2 p k) = (![x0, x1, x2, x3, x4, x5, x6] k) (ix2 p (0 : Fin 1)) := by
  have hi : ∀ (n : Fin 7) (b : Fin (⟨2, ![a, 1]⟩ : Shape).rank), b.cast (rfl : (2 : ℕ) = 2) ≠ (1 : Fin 2) →
      ((ix2 p (0 : Fin 1) : (⟨2, ![a, 1]⟩ : Shape).Idx) b).val = ((ix2 p n : (⟨2, ![a, 7]⟩ : Shape).Idx) (b.cast rfl)).val := by
    intro n b hb
    match b with
    | ⟨0, _⟩ => rfl
    | ⟨1, _⟩ => exact absurd rfl hb
  match k with
  | ⟨0, _⟩ => exact concatenate_apply_piece 1 _ h _ 0 (by simp) _ x0 rfl rfl 0 rfl (ix2 p (0 : Fin 1)) (hi 0) rfl
  | ⟨1, _⟩ => exact concatenate_apply_piece 1 _ h _ 1 (by simp) _ x1 rfl rfl 1 rfl (ix2 p (0 : Fin 1)) (hi 1) rfl
  | ⟨2, _⟩ => exact concatenate_apply_piece 1 _ h _ 2 (by simp) _ x2 rfl rfl 2 rfl (ix2 p (0 : Fin 1)) (hi 2) rfl
  | ⟨3, _⟩ => exact concatenate_apply_piece 1 _ h _ 3 (by simp) _ x3 rfl rfl 3 rfl (ix2 p (0 : Fin 1)) (hi 3) rfl
  | ⟨4, _⟩ => exact concatenate_apply_piece 1 _ h _ 4 (by simp) _ x4 rfl rfl 4 rfl (ix2 p (0 : Fin 1)) (hi 4) rfl
  | ⟨5, _⟩ => exact concatenate_apply_piece 1 _ h _ 5 (by simp) _ x5 rfl rfl 5 rfl (ix2 p (0 : Fin 1)) (hi 5) rfl
  | ⟨6, _⟩ => exact concatenate_apply_piece 1 _ h _ 6 (by simp) _ x6 rfl rfl 6 rfl (ix2 p (0 : Fin 1)) (hi 6) rfl

end Idealize.ShloMosaic.ColumnIdx

end
-- ==== Proof.Spec.lean ====
/-
  The mathematics of this certificate, with no program in sight.

  A row of scores over a vocabulary of `T * L` entries is visited tile by tile, `L` scores at a time.
  THE RUNNING PAIR `(m, l)` starts at `(⊥, 0)` and after a tile `z` becomes
  `(m', l * exp (m - m') + ∑ k, exp (z k - m'))` with `m' = max m (max of the tile)`; after the last tile
  `m + log l` is the logarithm of the sum of the exponentials of ALL the row's scores (`lse`), written the way a
  log-softmax spells it: with `M` the largest score, `log ∑ exp (z - M) + M`. Subtracting it from a score is that
  score's log-probability.

  THE DIVERGENCE OF A ROW: from the two heads' log-probabilities `lq`, `lp` of each vocabulary entry, with
  `p = exp lp`, `q = exp lq`, `μ = log (h * p + h * q)`, the row's value is
  `h * ∑ p * (lp - μ) + h * ∑ q * (lq - μ)`. Taken tile by tile (`tileTerm`) and added up from `0` (`acc`) it is
  the same number when every score is a real number, the weight `h` being real: the sums are finite sums of reals,
  where multiplication distributes over addition and the terms may be regrouped.

  Everything is stated over the extended reals with the library's exact `exp` and `log`; the law joining the two
  spellings (`rowTiled_eq_rowWhole`, in Online.lean) is proved for real scores.
-/
import Idealize.ShloMosaic.PureOps.Ideal

noncomputable section

namespace Cert.Jsd

open Idealize.ShloMosaic

variable {L V : ℕ}

/-- The largest score of a tile (`⊥` for an empty one). -/
def tileMax (z : Fin L → EReal) : EReal := Finset.univ.sup z

/-- One tile's update of the running pair: the largest score so far, and the sum so far of `exp (score - largest)`,
    the old sum rescaled to the new largest score. -/
def step (ml : EReal × EReal) (z : Fin L → EReal) : EReal × EReal :=
  (max ml.1 (tileMax z),
   ml.2 * Ideal.exp (ml.1 - max ml.1 (tileMax z)) + ∑ k, Ideal.exp (z k - max ml.1 (tileMax z)))

/-- The running pair after the first `j` tiles of the row `z` (tile `j`'s scores are `z j`), from `(⊥, 0)`. -/
def run (z : ℕ → Fin L → EReal) : ℕ → EReal × EReal
  | 0 => (⊥, 0)
  | j + 1 => step (run z j) (z j)

/-- The row's log-sum-exp as the tiled pass leaves it after `T` tiles: `m + log l`. -/
def lse (z : ℕ → Fin L → EReal) (T : ℕ) : EReal := (run z T).1 + Ideal.log (run z T).2

/-- One tile's share of a row's divergence, from the tile's log-probabilities `lq` (first head) and `lp` (second head). -/
def tileTerm (h : EReal) (lq lp : Fin L → EReal) : EReal :=
  h * (∑ k, Ideal.exp (lp k) * (lp k - Ideal.log (h * Ideal.exp (lp k) + h * Ideal.exp (lq k))))
  + h * (∑ k, Ideal.exp (lq k) * (lq k - Ideal.log (h * Ideal.exp (lp k) + h * Ideal.exp (lq k))))

/-- The shares of the first `j` tiles added up from `0`, each new share added on the right. -/
def acc (h : EReal) (lq lp : ℕ → Fin L → EReal) : ℕ → EReal
  | 0 => 0
  | j + 1 => acc h lq lp j + tileTerm h (lq j) (lp j)

/-- A ROW'S DIVERGENCE, TILE BY TILE: the scores `a` (first head) and `b` (second head) of tile `j`, lane `k`; each head's
    log-sum-exp by the running pair over `T` tiles; then the shares of the `T` tiles added up. -/
def rowTiled (h : EReal) (a b : ℕ → Fin L → EReal) (T : ℕ) : EReal :=
  acc h (fun j k => a j k - lse a T) (fun j k => b j k - lse b T) T

/-- A score's log-probability as a log-softmax spells it: the score less the row's largest (`max ⊥ ·` is how the
    largest is finished off), less the logarithm of the sum of the exponentials of all the scores so shifted. -/
def logSoftmax (z : Fin V → EReal) (v : Fin V) : EReal :=
  (z v - max ⊥ (Finset.univ.sup z)) - Ideal.log (∑ u, Ideal.exp (z u - max ⊥ (Finset.univ.sup z)))

/-- A ROW'S DIVERGENCE OVER THE WHOLE VOCABULARY AT ONCE, from the scores `zq` (first head) and `zp` (second head). -/
def rowWhole (h : EReal) (zq zp : Fin V → EReal) : EReal :=
  h * (∑ v, Ideal.exp (logSoftmax zp v) * (logSoftmax zp v
        - Ideal.log (h * Ideal.exp (logSoftmax zp v) + h * Ideal.exp (logSoftmax zq v))))
  + h * (∑ v, Ideal.exp (logSoftmax zq v) * (logSoftmax zq v
        - Ideal.log (h * Ideal.exp (logSoftmax zp v) + h * Ideal.exp (logSoftmax zq v))))

/-- A head's score: row `n` of the activations against row `v` of the weights over the hidden axis, plus the bias. -/
def logit {N H : ℕ} (x : Fin N → Fin H → EReal) (w : Fin V → Fin H → EReal) (b : Fin V → EReal) (n : Fin N) (v : Fin V) : EReal :=
  (∑ k, x n k * w v k) + b v

end Cert.Jsd

end
-- ==== Proof.StatsPay.lean ====
/-
  The statistics kernel's arithmetic, read at a row of the tile, over the extended reals.

  A tile's scores: entry (p, k) is row p of the activations block against row k of the weights block over the hidden
  axis (the matrix unit's product into a zero accumulator), plus the bias row's entry k. One point's update of a
  head's running pair, read at row p, is the spec's `step` on that row's 256 scores, with the lane maximum spelt as a
  fold of `max` from the word of -∞: `kstep`. The final value of a head is `m + log l` of the row.
-/
import proofs.«136119_j22101901705770_1_alg».proof.Proof.Gen.KernelIdeal.Skeleton
import proofs.«136119_j22101901705770_1_alg».proof.Proof.LibColumn
import proofs.«136119_j22101901705770_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Pay

open Cert.KernelIdeal Cert.KernelIdeal.Gen
open Idealize.ShloMosaic Idealize.ShloMosaic.ValueIdx Idealize.ShloMosaic.ColumnIdx

/-- The product's dimension record: both operands contracted over their second axis. -/
abbrev Dk := dot_S512x4096_S256x4096_S512x256_1_1_0_0_n_n

theorem lhs0 (i : S512x256.Idx) (q : Dk.contr.Idx) : (Dk.lhsIdx i q 0).val = (i 0).val := by
  unfold DotDims.lhsIdx
  rw [dif_neg (show ¬(0 : Fin S512x4096.rank) ∈ Dk.lhsBatch by decide), dif_pos (show (0 : Fin S512x4096.rank) ∈ Dk.lhsNonContracting by decide)]
  rfl
theorem lhs1 (i : S512x256.Idx) (q : Dk.contr.Idx) : (Dk.lhsIdx i q 1).val = (q ⟨0, by decide⟩).val :=
  Dk.lhsIdx_val_of_single rfl i q
theorem rhs0 (i : S512x256.Idx) (q : Dk.contr.Idx) : (Dk.rhsIdx i q 0).val = (i 1).val := by
  unfold DotDims.rhsIdx
  rw [dif_neg (show ¬(0 : Fin S256x4096.rank) ∈ Dk.rhsBatch by decide), dif_pos (show (0 : Fin S256x4096.rank) ∈ Dk.rhsNonContracting by decide)]
  rfl
theorem rhs1 (i : S512x256.Idx) (q : Dk.contr.Idx) : (Dk.rhsIdx i q 1).val = (q ⟨0, by decide⟩).val :=
  Dk.rhsIdx_val_of_single rfl i q

/-- The matrix unit's product into the zero accumulator at (p, k): row p against row k over the hidden axis. -/
theorem product_at (A : FVec Ideal S512x4096 .bf16) (B : FVec Ideal S256x4096 .bf16) (p : Fin 512) (k : Fin 256) :
    matmul Dk none A B (constant S512x256 .f32 0x00000000#32) (ix2 p k) = ∑ h : Fin 4096, A (ix2 p h) * B (ix2 k h) := by
  show FloatOps.matmul Dk none A B (constant S512x256 .f32 0x00000000#32) (ix2 p k) = _
  rw [Ideal.matmul_constant_zero_apply, ← Equiv.sum_comp (contrEquiv1 Dk 4096 rfl rfl).symm]
  refine Finset.sum_congr rfl fun h _ => ?_
  have hk := contrEquiv1_symm_val Dk 4096 rfl rfl h
  have el : Dk.lhsIdx (ix2 p k) ((contrEquiv1 Dk 4096 rfl rfl).symm h) = ix2 p h := funext fun a => Fin.ext (by
    match a with
    | ⟨0, _⟩ => exact lhs0 _ _
    | ⟨1, _⟩ => exact (lhs1 _ _).trans hk)
  have er : Dk.rhsIdx (ix2 p k) ((contrEquiv1 Dk 4096 rfl rfl).symm h) = ix2 k h := funext fun a => Fin.ext (by
    match a with
    | ⟨0, _⟩ => exact rhs0 _ _
    | ⟨1, _⟩ => exact (rhs1 _ _).trans hk)
  rw [el, er]

/-- A tile's scores at (p, k). -/
def score (x : Vec Ideal S512x4096 .bf16) (w : Vec Ideal S256x4096 .bf16) (b : Vec Ideal S1x256 .f32) (p : Fin 512) (k : Fin 256) : EReal :=
  (∑ h : Fin 4096, x (ix2 p h) * w (ix2 k h)) + b (ix2 (0 : Fin 1) k)

theorem pay12_at (x : Vec Ideal S512x4096 .bf16) (w : Vec Ideal S256x4096 .bf16) (b : Vec Ideal S1x256 .f32) (p : Fin 512) (k : Fin 256) :
    k0_pay12 (F := Ideal) x w b (ix2 p k) = score x w b p k := by
  unfold k0_pay12 score
  rw [shapeCast_self, shapeCast_self, shapeCast_self, addf_apply, broadcastTo_1b_ab_apply, product_at]

theorem pay13_at (x : Vec Ideal S512x4096 .bf16) (w : Vec Ideal S256x4096 .bf16) (b : Vec Ideal S1x256 .f32) (p : Fin 512) (k : Fin 256) :
    k0_pay13 (F := Ideal) x w b (ix2 p k) = score x w b p k := by
  unfold k0_pay13 score
  rw [shapeCast_self, shapeCast_self, shapeCast_self, addf_apply, broadcastTo_1b_ab_apply, product_at]

/-- The largest of a row of 256 scores, as the lane reduction spells it. -/
def laneMax (z : Fin 256 → EReal) : EReal := (Finset.univ : Finset (Fin 256)).fold max (Ideal.ofBits .f32 0xFF800000#32) z

/-- One point's update of a running pair on a row's scores, as the kernel spells it. -/
def kstep (ml : EReal × EReal) (z : Fin 256 → EReal) : EReal × EReal :=
  (max ml.1 (laneMax z), ml.2 * Ideal.exp (ml.1 - max ml.1 (laneMax z)) + ∑ k, Ideal.exp (z k - max ml.1 (laneMax z)))

/-- The new largest score of row p from a tile of scores `v` and the column `m` of largest scores so far. -/
theorem newMax_at (v : FVec Ideal S512x256 .f32) (mcol : Vec Ideal S512x1 .f32) (p : Fin 512) :
    k0_pay3 (F := Ideal) v mcol (ix2 p (0 : Fin 1)) = max (mcol (ix2 p (0 : Fin 1))) (laneMax fun k => v (ix2 p k)) := by
  unfold k0_pay3 laneMax
  dsimp only
  rw [maximumf_apply, shapeCast_a_a1_apply]
  exact congrArg (max _) (rowMax_apply v reduces_S512x256_S512 (.inl rfl) rfl p)

/-- The student head's new largest score of row p. -/
theorem pay14_at (x : Vec Ideal S512x4096 .bf16) (w : Vec Ideal S256x4096 .bf16) (b : Vec Ideal S1x256 .f32) (mcol : Vec Ideal S512x1 .f32) (p : Fin 512) :
    k0_pay14 (F := Ideal) x w b mcol (ix2 p (0 : Fin 1)) = max (mcol (ix2 p (0 : Fin 1))) (laneMax fun k => score x w b p k) := by
  unfold k0_pay14 laneMax
  rw [maximumf_apply, shapeCast_a_a1_apply]
  refine congrArg (max _) ((rowMax_apply (k0_pay12 (F := Ideal) x w b) reduces_S512x256_S512 (.inl rfl) rfl p).trans ?_)
  exact congrArg ((Finset.univ : Finset (Fin 256)).fold max _) (funext fun k => pay12_at x w b p k)

/-- The old sum rescaled to the new largest score. -/
theorem pay15_at (x : Vec Ideal S512x4096 .bf16) (w : Vec Ideal S256x4096 .bf16) (b : Vec Ideal S1x256 .f32) (mcol lcol mcol' : Vec Ideal S512x1 .f32) (p : Fin 512) :
    k0_pay15 (F := Ideal) x w b mcol lcol mcol' (ix2 p (0 : Fin 1))
      = lcol (ix2 p (0 : Fin 1)) * Ideal.exp (mcol' (ix2 p (0 : Fin 1)) - k0_pay14 (F := Ideal) x w b mcol (ix2 p (0 : Fin 1))) := by
  unfold k0_pay15
  rfl

/-- The tile's scores less the new largest score of their row, exponentiated. -/
theorem pay16_at (x : Vec Ideal S512x4096 .bf16) (w : Vec Ideal S256x4096 .bf16) (b : Vec Ideal S1x256 .f32) (mcol : Vec Ideal S512x1 .f32) (p : Fin 512) (k : Fin 256) :
    k0_pay16 (F := Ideal) x w b mcol (ix2 p k)
      = Ideal.exp (score x w b p k - k0_pay14 (F := Ideal) x w b mcol (ix2 p (0 : Fin 1))) := by
  unfold k0_pay16
  show Ideal.exp (k0_pay12 (F := Ideal) x w b (ix2 p k) - broadcastTo S512x256 (k0_pay14 (F := Ideal) x w b mcol) broadcasts_S512x1_S512x256 (ix2 p k)) = _
  rw [broadcastTo_a1_ab_apply, pay12_at]

/-- A column plus the lane sums of a tile, at row p. -/
theorem pay1_at (v29 : FVec Ideal S512x1 .f32) (v32 : FVec Ideal S512x256 .f32) (p : Fin 512) :
    k0_pay1 (F := Ideal) v29 v32 (ix2 p (0 : Fin 1)) = v29 (ix2 p (0 : Fin 1)) + ∑ k : Fin 256, v32 (ix2 p k) := by
  unfold k0_pay1
  rw [shapeCast_self, addf_apply, shapeCast_a_a1_apply]
  exact congrArg (v29 (ix2 p (0 : Fin 1)) + ·) (rowSum_apply v32 reduces_S512x256_S512 (.inl rfl) rfl p)

theorem pay2_eq (v24 : FVec Ideal S512x1 .f32) : k0_pay2 (F := Ideal) v24 = v24 := by
  unfold k0_pay2; exact shapeCast_self _ _

/-- The teacher head's new sum of row p. -/
theorem pay4_at (v : FVec Ideal S512x256 .f32) (mcol lcol mcol' : Vec Ideal S512x1 .f32) (p : Fin 512) :
    k0_pay4 (F := Ideal) v mcol lcol mcol' (ix2 p (0 : Fin 1))
      = lcol (ix2 p (0 : Fin 1)) * Ideal.exp (mcol' (ix2 p (0 : Fin 1)) - k0_pay3 (F := Ideal) v mcol (ix2 p (0 : Fin 1)))
        + ∑ k : Fin 256, Ideal.exp (v (ix2 p k) - k0_pay3 (F := Ideal) v mcol (ix2 p (0 : Fin 1))) := by
  unfold k0_pay4
  rw [shapeCast_self, addf_apply, shapeCast_a_a1_apply]
  refine congrArg₂ (· + ·) rfl ((rowSum_apply _ reduces_S512x256_S512 (.inl rfl) rfl p).trans ?_)
  refine Finset.sum_congr rfl fun k _ => ?_
  show Ideal.exp (v (ix2 p k) - broadcastTo S512x256 (k0_pay3 (F := Ideal) v mcol) broadcasts_S512x1_S512x256 (ix2 p k)) = _
  rw [broadcastTo_a1_ab_apply]

theorem pay5_eq (v : FVec Ideal S512x256 .f32) (mcol : Vec Ideal S512x1 .f32) : k0_pay5 (F := Ideal) v mcol = k0_pay3 (F := Ideal) v mcol := by
  unfold k0_pay5; exact shapeCast_self _ _

/-- A head's result at row p: the largest score plus the logarithm of the sum. -/
theorem pay6_at (mcol lcol : Vec Ideal S512x1 .f32) (j : S512x1.Idx) : k0_pay6 (F := Ideal) mcol lcol j = mcol j + Ideal.log (lcol j) := by
  unfold k0_pay6; rfl
theorem pay7_at (mcol lcol : Vec Ideal S512x1 .f32) (j : S512x1.Idx) : k0_pay7 (F := Ideal) mcol lcol j = mcol j + Ideal.log (lcol j) := by
  unfold k0_pay7; rfl

/-- The reset values: the word of -∞ for a largest score, the zero word for a sum. -/
theorem pay8_at (j : S512x1.Idx) : k0_pay8 (F := Ideal) j = Ideal.ofBits .f32 0xFF800000#32 := by
  unfold k0_pay8; rw [shapeCast_self]; rfl
theorem pay9_at (j : S512x1.Idx) : k0_pay9 (F := Ideal) j = Ideal.ofBits .f32 0x00000000#32 := by
  unfold k0_pay9; rw [shapeCast_self]; rfl
theorem pay10_at (j : S512x1.Idx) : k0_pay10 (F := Ideal) j = Ideal.ofBits .f32 0xFF800000#32 := by
  unfold k0_pay10; rw [shapeCast_self]; rfl
theorem pay11_at (j : S512x1.Idx) : k0_pay11 (F := Ideal) j = Ideal.ofBits .f32 0x00000000#32 := by
  unfold k0_pay11; rw [shapeCast_self]; rfl

/-- THE STUDENT HEAD'S UPDATE at row p is `kstep` on the row's scores. -/
theorem student_step (x : Vec Ideal S512x4096 .bf16) (w : Vec Ideal S256x4096 .bf16) (b : Vec Ideal S1x256 .f32) (mcol lcol : Vec Ideal S512x1 .f32) (p : Fin 512) :
    (k0_pay2 (F := Ideal) (k0_pay14 x w b mcol) (ix2 p (0 : Fin 1)),
     k0_pay1 (F := Ideal) (k0_pay15 x w b mcol lcol mcol) (k0_pay16 x w b mcol) (ix2 p (0 : Fin 1)))
      = kstep (mcol (ix2 p (0 : Fin 1)), lcol (ix2 p (0 : Fin 1))) (fun k => score x w b p k) := by
  unfold kstep
  rw [pay2_eq, pay1_at, pay15_at, pay14_at]
  refine congrArg (Prod.mk _) (congrArg₂ (· + ·) rfl (Finset.sum_congr rfl fun k _ => ?_))
  rw [pay16_at, pay14_at]

/-- THE TEACHER HEAD'S UPDATE at row p. -/
theorem teacher_step (x : Vec Ideal S512x4096 .bf16) (w : Vec Ideal S256x4096 .bf16) (b : Vec Ideal S1x256 .f32) (mcol lcol : Vec Ideal S512x1 .f32) (p : Fin 512) :
    (k0_pay5 (F := Ideal) (k0_pay13 x w b) mcol (ix2 p (0 : Fin 1)),
     k0_pay4 (F := Ideal) (k0_pay13 x w b) mcol lcol mcol (ix2 p (0 : Fin 1)))
      = kstep (mcol (ix2 p (0 : Fin 1)), lcol (ix2 p (0 : Fin 1))) (fun k => score x w b p k) := by
  unfold kstep
  rw [pay5_eq, pay4_at, newMax_at]
  have hz : (fun k => k0_pay13 (F := Ideal) x w b (ix2 p k)) = fun k => score x w b p k := funext fun k => pay13_at x w b p k
  rw [hz]
  refine congrArg (Prod.mk _) (congrArg₂ (· + ·) rfl (Finset.sum_congr rfl fun k _ => ?_))
  rw [pay13_at]

end Cert.KernelIdeal.Pay

end
-- ==== Proof.Scores.lean ====
/-
  A tile's scores, read off the whole arrays: at grid point t the blocks' scores at (p, k) are the head's scores of
  row 512 (t / 125) + p against vocabulary entry 256 (t % 125) + k.
-/
import proofs.«136119_j22101901705770_1_alg».proof.Proof.Blocks0
import proofs.«136119_j22101901705770_1_alg».proof.Proof.Blocks1
import proofs.«136119_j22101901705770_1_alg».proof.Proof.StatsPay
import Idealize.ShloMosaic.Lib.ValueLayout

noncomputable section

namespace Cert.KernelIdeal.Scores

open Cert.KernelIdeal Cert.KernelIdeal.Gen Cert.KernelIdeal.Stats Cert.KernelIdeal.JsdK Cert.KernelIdeal.StatsV Cert.KernelIdeal.JsdV
open Idealize.ShloMosaic Idealize.ShloMosaic.TcCoe Idealize.ShloMosaic.ValueIdx
open Idealize.SL.Sem

variable (V : (c : Dev nD) → (b : Ref sig .tc) → Buf (Elt Ideal) ((c : Thread nD τ).loc b))

/-- The student head's scores of region 0's blocks at point t are the head's scores of the whole arrays at row
    512 (t / 125) + p and vocabulary entry 256 (t % 125) + k. -/
theorem student_blocks0 (c : Dev nD) (t : Fin cfg0.N) (p : Fin 512) (k : Fin 256)
    (A : S2048x4096.Idx → EReal) (W : S32000x4096.Idx → EReal) (Bv : S32000.Idx → EReal)
    (hA : V c main_v0 = A) (hW : V c main_v2 = W) (hB : V c main_v4 = shapeCast S1x32000 Bv shapeCasts_S32000_S1x32000) :
    Pay.score (iblk0 V c 0 t) (iblk0 V c 2 t) (iblk0 V c 4 t) p k
      = Cert.Jsd.logit (fun n h => A (ix2 n h)) (fun v h => W (ix2 v h)) (fun v => Bv (ix1 v))
          (⟨512 * (t.val / 125) + p.val, rowBound0 t p⟩ : Fin 2048) (⟨256 * (t.val % 125) + k.val, vocBound0 t k⟩ : Fin 32000) := by
  unfold Pay.score Cert.Jsd.logit
  rw [blk0_4_at V c t k, hB, shapeCast_a_1a_apply]
  refine congrArg (· + _) (Finset.sum_congr rfl fun h _ => ?_)
  rw [blk0_0_at V c t p h, blk0_2_at V c t k h, hA, hW]

/-- The teacher head's scores of region 0's blocks at point t are the head's scores of the whole arrays at row
    512 (t / 125) + p and vocabulary entry 256 (t % 125) + k. -/
theorem teacher_blocks0 (c : Dev nD) (t : Fin cfg0.N) (p : Fin 512) (k : Fin 256)
    (A : S2048x4096.Idx → EReal) (W : S32000x4096.Idx → EReal) (Bv : S32000.Idx → EReal)
    (hA : V c main_v1 = A) (hW : V c main_v3 = W) (hB : V c main_v5 = shapeCast S1x32000 Bv shapeCasts_S32000_S1x32000) :
    Pay.score (iblk0 V c 1 t) (iblk0 V c 3 t) (iblk0 V c 5 t) p k
      = Cert.Jsd.logit (fun n h => A (ix2 n h)) (fun v h => W (ix2 v h)) (fun v => Bv (ix1 v))
          (⟨512 * (t.val / 125) + p.val, rowBound0 t p⟩ : Fin 2048) (⟨256 * (t.val % 125) + k.val, vocBound0 t k⟩ : Fin 32000) := by
  unfold Pay.score Cert.Jsd.logit
  rw [blk0_5_at V c t k, hB, shapeCast_a_1a_apply]
  refine congrArg (· + _) (Finset.sum_congr rfl fun h _ => ?_)
  rw [blk0_1_at V c t p h, blk0_3_at V c t k h, hA, hW]

/-- The student head's scores of region 1's blocks at point t are the head's scores of the whole arrays at row
    512 (t / 125) + p and vocabulary entry 256 (t % 125) + k. -/
theorem student_blocks1 (c : Dev nD) (t : Fin cfg1.N) (p : Fin 512) (k : Fin 256)
    (A : S2048x4096.Idx → EReal) (W : S32000x4096.Idx → EReal) (Bv : S32000.Idx → EReal)
    (hA : V c main_v0 = A) (hW : V c main_v2 = W) (hB : V c main_v4 = shapeCast S1x32000 Bv shapeCasts_S32000_S1x32000) :
    Pay.score (iblk1 V c 0 t) (iblk1 V c 2 t) (iblk1 V c 4 t) p k
      = Cert.Jsd.logit (fun n h => A (ix2 n h)) (fun v h => W (ix2 v h)) (fun v => Bv (ix1 v))
          (⟨512 * (t.val / 125) + p.val, rowBound1 t p⟩ : Fin 2048) (⟨256 * (t.val % 125) + k.val, vocBound1 t k⟩ : Fin 32000) := by
  unfold Pay.score Cert.Jsd.logit
  rw [blk1_4_at V c t k, hB, shapeCast_a_1a_apply]
  refine congrArg (· + _) (Finset.sum_congr rfl fun h _ => ?_)
  rw [blk1_0_at V c t p h, blk1_2_at V c t k h, hA, hW]

/-- The teacher head's scores of region 1's blocks at point t are the head's scores of the whole arrays at row
    512 (t / 125) + p and vocabulary entry 256 (t % 125) + k. -/
theorem teacher_blocks1 (c : Dev nD) (t : Fin cfg1.N) (p : Fin 512) (k : Fin 256)
    (A : S2048x4096.Idx → EReal) (W : S32000x4096.Idx → EReal) (Bv : S32000.Idx → EReal)
    (hA : V c main_v1 = A) (hW : V c main_v3 = W) (hB : V c main_v5 = shapeCast S1x32000 Bv shapeCasts_S32000_S1x32000) :
    Pay.score (iblk1 V c 1 t) (iblk1 V c 3 t) (iblk1 V c 5 t) p k
      = Cert.Jsd.logit (fun n h => A (ix2 n h)) (fun v h => W (ix2 v h)) (fun v => Bv (ix1 v))
          (⟨512 * (t.val / 125) + p.val, rowBound1 t p⟩ : Fin 2048) (⟨256 * (t.val % 125) + k.val, vocBound1 t k⟩ : Fin 32000) := by
  unfold Pay.score Cert.Jsd.logit
  rw [blk1_5_at V c t k, hB, shapeCast_a_1a_apply]
  refine congrArg (· + _) (Finset.sum_congr rfl fun h _ => ?_)
  rw [blk1_1_at V c t p h, blk1_3_at V c t k h, hA, hW]

end Cert.KernelIdeal.Scores

end
-- ==== Proof.Arrays0.lean ====
/-
  Region 0's result arrays after the region, as whole-array functions of the row. A result column's block is written
  back once per row tile, after the tile's last vocabulary point; the four blocks tile the 2048 rows. So if at each
  such point the staged column holds, at row p of the tile, `f` of the array's row 512 (t / 125) + p, then the array
  ends holding `f` of the row everywhere.
-/
import proofs.«136119_j22101901705770_1_alg».proof.Proof.Blocks0

set_option maxRecDepth 16384

noncomputable section

namespace Cert.KernelIdeal.StatsV

open Cert.KernelIdeal Cert.KernelIdeal.Gen Cert.KernelIdeal.Stats
open Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

theorem oidx0_6 : ∀ t : Fin cfg0.N, win0_6.index t (0 : Fin 2) = t.val / 125 ∧ win0_6.index t (1 : Fin 2) = 0 :=
  (by decide +kernel : ∀ t : Fin grid0.N, win0_6.index t (0 : Fin 2) = t.val / 125 ∧ win0_6.index t (1 : Fin 2) = 0)

/-- An index of the array is in point t's block iff each coordinate is in the block's range on its axis. -/
theorem mem_blk0_6 (t : Fin cfg0.N) (i : S2048x1.Idx) :
    i ∈ ((cfg0.win 6).blk t).view.set ↔ ∀ a : Fin 2, win0_6.index t a * S512x1.size a ≤ (i a).val ∧ (i a).val < win0_6.index t a * S512x1.size a + S512x1.size a := by
  show i ∈ ((View.whole main_v6_0).slice (win0_6.rect t)).set ↔ _
  rw [View.set_slice_whole, Rect.mem_set_unit]
  exact Iff.rfl

/-- Window 6's array after the region, from what its staged column holds at each tile's last point. -/
theorem final0_6 (c : Dev nD) (f : Fin 2048 → Elt F .f32)
    (hrow : ∀ (t : Fin cfg0.N), t.val % 125 = 124 → ∀ p : Fin 512,
      ((outsAt0 V c t.val t.isLt).1) (ix2 p (0 : Fin 1)) = f ⟨512 * (t.val / 125) + p.val, rowBound0 t p⟩) :
    (dat0 V c).arrAt 6 cfg0.N = fun i : S2048x1.Idx => f ⟨(i 0).val, (i 0).isLt⟩ := by
  refine (dat0 V c).arrAt_eq_of_cover 6 _ (fun t hf => ?_) (fun i => ?_)
  · have h124 : t.val % 125 = 124 := (flush0_6 t).mp hf
    show (cfg0.win 6).cut (grid0.coords t) ((dat0 V c).after 6 t) = _
    rw [after0_6]
    funext y
    obtain ⟨p, u, rfl⟩ : ∃ (p : Fin 512) (u : Fin 1), y = ix2 p u := ⟨y 0, y 1, eq_ix2 y⟩
    obtain rfl : u = 0 := Subsingleton.elim _ _
    rw [View.read_apply]
    refine (hrow t h124 p).trans (congrArg f (Fin.ext ?_))
    show 512 * (t.val / 125) + p.val = win0_6.index t 0 * 512 + 1 * p.val
    rw [(oidx0_6 t).1]; omega
  · have hi0 : (i 0).val < 2048 := (i 0).isLt
    have hi1 : (i 1).val < 1 := (i 1).isLt
    have hN : cfg0.N = 500 := N_0
    refine ⟨⟨125 * ((i 0).val / 512) + 124, by omega⟩, (flush0_6 _).mpr (by show (125 * ((i 0).val / 512) + 124) % 125 = 124; omega), ?_⟩
    rw [mem_blk0_6]
    intro a
    match a with
    | ⟨0, _⟩ =>
      show win0_6.index _ (0 : Fin 2) * 512 ≤ (i 0).val ∧ (i 0).val < win0_6.index _ (0 : Fin 2) * 512 + 512
      rw [(oidx0_6 _).1]
      show (125 * ((i 0).val / 512) + 124) / 125 * 512 ≤ (i 0).val ∧ (i 0).val < (125 * ((i 0).val / 512) + 124) / 125 * 512 + 512
      omega
    | ⟨1, _⟩ =>
      show win0_6.index _ (1 : Fin 2) * 1 ≤ (i 1).val ∧ (i 1).val < win0_6.index _ (1 : Fin 2) * 1 + 1
      rw [(oidx0_6 _).2]; omega

theorem oidx0_7 : ∀ t : Fin cfg0.N, win0_7.index t (0 : Fin 2) = t.val / 125 ∧ win0_7.index t (1 : Fin 2) = 0 :=
  (by decide +kernel : ∀ t : Fin grid0.N, win0_7.index t (0 : Fin 2) = t.val / 125 ∧ win0_7.index t (1 : Fin 2) = 0)

/-- An index of the array is in point t's block iff each coordinate is in the block's range on its axis. -/
theorem mem_blk0_7 (t : Fin cfg0.N) (i : S2048x1.Idx) :
    i ∈ ((cfg0.win 7).blk t).view.set ↔ ∀ a : Fin 2, win0_7.index t a * S512x1.size a ≤ (i a).val ∧ (i a).val < win0_7.index t a * S512x1.size a + S512x1.size a := by
  show i ∈ ((View.whole main_v6_1).slice (win0_7.rect t)).set ↔ _
  rw [View.set_slice_whole, Rect.mem_set_unit]
  exact Iff.rfl

/-- Window 7's array after the region, from what its staged column holds at each tile's last point. -/
theorem final0_7 (c : Dev nD) (f : Fin 2048 → Elt F .f32)
    (hrow : ∀ (t : Fin cfg0.N), t.val % 125 = 124 → ∀ p : Fin 512,
      ((outsAt0 V c t.val t.isLt).2.1) (ix2 p (0 : Fin 1)) = f ⟨512 * (t.val / 125) + p.val, rowBound0 t p⟩) :
    (dat0 V c).arrAt 7 cfg0.N = fun i : S2048x1.Idx => f ⟨(i 0).val, (i 0).isLt⟩ := by
  refine (dat0 V c).arrAt_eq_of_cover 7 _ (fun t hf => ?_) (fun i => ?_)
  · have h124 : t.val % 125 = 124 := (flush0_7 t).mp hf
    show (cfg0.win 7).cut (grid0.coords t) ((dat0 V c).after 7 t) = _
    rw [after0_7]
    funext y
    obtain ⟨p, u, rfl⟩ : ∃ (p : Fin 512) (u : Fin 1), y = ix2 p u := ⟨y 0, y 1, eq_ix2 y⟩
    obtain rfl : u = 0 := Subsingleton.elim _ _
    rw [View.read_apply]
    refine (hrow t h124 p).trans (congrArg f (Fin.ext ?_))
    show 512 * (t.val / 125) + p.val = win0_7.index t 0 * 512 + 1 * p.val
    rw [(oidx0_7 t).1]; omega
  · have hi0 : (i 0).val < 2048 := (i 0).isLt
    have hi1 : (i 1).val < 1 := (i 1).isLt
    have hN : cfg0.N = 500 := N_0
    refine ⟨⟨125 * ((i 0).val / 512) + 124, by omega⟩, (flush0_7 _).mpr (by show (125 * ((i 0).val / 512) + 124) % 125 = 124; omega), ?_⟩
    rw [mem_blk0_7]
    intro a
    match a with
    | ⟨0, _⟩ =>
      show win0_7.index _ (0 : Fin 2) * 512 ≤ (i 0).val ∧ (i 0).val < win0_7.index _ (0 : Fin 2) * 512 + 512
      rw [(oidx0_7 _).1]
      show (125 * ((i 0).val / 512) + 124) / 125 * 512 ≤ (i 0).val ∧ (i 0).val < (125 * ((i 0).val / 512) + 124) / 125 * 512 + 512
      omega
    | ⟨1, _⟩ =>
      show win0_7.index _ (1 : Fin 2) * 1 ≤ (i 1).val ∧ (i 1).val < win0_7.index _ (1 : Fin 2) * 1 + 1
      rw [(oidx0_7 _).2]; omega

end Cert.KernelIdeal.StatsV

end
-- ==== Proof.StatsPieces.lean ====
import proofs.«136119_j22101901705770_1_alg».proof.Proof.KI.StatsFrame
import Idealize.ShloMosaic.Lib.Pipeline.Value

/-! # The statistics region: what each case leaves, as the body's arithmetic

Each scratch column, and at a last tile each output block, after the body is one payload of the body's arithmetic
applied to the input blocks and to the scratch columns the body found: every load reads a whole buffer, either as the
point found it or as an earlier whole-buffer store of the same point left it. At a first tile the columns found are
the reset values. Note the order of the body's accesses: a head's running sum is stored before its running maximum, and
both are computed from the maximum as the point found it. -/

set_option maxRecDepth 16384

noncomputable section

namespace Cert.KernelIdeal.StatsV

open Cert.KernelIdeal Cert.KernelIdeal.Gen Cert.KernelIdeal.Stats
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The offset of a whole-buffer access is zero. -/
theorem hz : (![0, 0] : Fin 2 → Nat) = fun _ => 0 := funext fun a => by fin_cases a <;> rfl

/-- At a middle tile scratch column 0 ends as the first head's new running maximum. -/
theorem sout0_B_0_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    sout0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k0_pay2 (k0_pay14 x0 x2 x4 xs0) := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a middle tile scratch column 1 ends as the first head's new running sum. -/
theorem sout0_B_1_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    sout0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k0_pay1 (k0_pay15 x0 x2 x4 xs0 xs1 xs0) (k0_pay16 x0 x2 x4 xs0) := by
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a middle tile scratch column 2 ends as the second head's new running maximum. -/
theorem sout0_B_2_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    sout0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k0_pay5 (k0_pay13 x1 x3 x5) xs2 := by
  unfold sout0_B_2
  rw [View.read_writes_eq_canon _ _ _ (scover0_B_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a middle tile scratch column 3 ends as the second head's new running sum. -/
theorem sout0_B_3_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    sout0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k0_pay4 (k0_pay13 x1 x3 x5) xs2 xs3 xs2 := by
  unfold sout0_B_3
  rw [View.read_writes_eq_canon _ _ _ (scover0_B_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_B
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a last tile scratch column 0 ends as the first head's new running maximum. -/
theorem sout0_C_0_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    sout0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k0_pay2 (k0_pay14 x0 x2 x4 xs0) := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a last tile scratch column 1 ends as the first head's new running sum. -/
theorem sout0_C_1_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    sout0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k0_pay1 (k0_pay15 x0 x2 x4 xs0 xs1 xs0) (k0_pay16 x0 x2 x4 xs0) := by
  unfold sout0_C_1
  rw [View.read_writes_eq_canon _ _ _ (scover0_C_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a last tile scratch column 2 ends as the second head's new running maximum. -/
theorem sout0_C_2_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    sout0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k0_pay5 (k0_pay13 x1 x3 x5) xs2 := by
  unfold sout0_C_2
  rw [View.read_writes_eq_canon _ _ _ (scover0_C_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a last tile scratch column 3 ends as the second head's new running sum. -/
theorem sout0_C_3_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    sout0_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k0_pay4 (k0_pay13 x1 x3 x5) xs2 xs3 xs2 := by
  unfold sout0_C_3
  rw [View.read_writes_eq_canon _ _ _ (scover0_C_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a last tile output 6 is stored `maximum + log sum` of the first head's new columns. -/
theorem out0_C_6_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    out0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k0_pay6 (k0_pay2 (k0_pay14 x0 x2 x4 xs0)) (k0_pay1 (k0_pay15 x0 x2 x4 xs0 xs1 xs0) (k0_pay16 x0 x2 x4 xs0)) := by
  unfold out0_C_6
  rw [View.read_writes_eq_canon _ _ _ (cover0_C_6 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a last tile output 7 is stored `maximum + log sum` of the second head's new columns. -/
theorem out0_C_7_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : ¬cond0_0 i) (hc1 : cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) (xs0 : Vec F S512x1 .f32) (xs1 : Vec F S512x1 .f32) (xs2 : Vec F S512x1 .f32) (xs3 : Vec F S512x1 .f32) :
    out0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3 = k0_pay7 (k0_pay5 (k0_pay13 x1 x3 x5) xs2) (k0_pay4 (k0_pay13 x1 x3 x5) xs2 xs3 xs2) := by
  unfold out0_C_7
  rw [View.read_writes_eq_canon _ _ _ (cover0_C_7 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 xs0 xs1 xs2 xs3)]
  unfold kernelRun0_C
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a first tile scratch column 0 ends as the first head's new running maximum, from the reset values. -/
theorem sout0_A_0_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) :
    sout0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay2 (k0_pay14 x0 x2 x4 k0_pay8) := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a first tile scratch column 1 ends as the first head's new running sum, from the reset values. -/
theorem sout0_A_1_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) :
    sout0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay1 (k0_pay15 x0 x2 x4 k0_pay8 k0_pay9 k0_pay8) (k0_pay16 x0 x2 x4 k0_pay8) := by
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a first tile scratch column 2 ends as the second head's new running maximum, from the reset values. -/
theorem sout0_A_2_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) :
    sout0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay5 (k0_pay13 x1 x3 x5) k0_pay10 := by
  unfold sout0_A_2
  rw [View.read_writes_eq_canon _ _ _ (scover0_A_2 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

/-- At a first tile scratch column 3 ends as the second head's new running sum, from the reset values. -/
theorem sout0_A_3_eq (c : Dev nD) (i : grid0.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (arg12 : Memref sig .tc .vmem S512x1 .f32) (harg12 : arg12.IsWhole) (arg13 : Memref sig .tc .vmem S512x1 .f32) (harg13 : arg13.IsWhole) (hc0 : cond0_0 i) (hc1 : ¬cond0_1 i)
    (x0 : Vec F S512x4096 .bf16) (x1 : Vec F S512x4096 .bf16) (x2 : Vec F S256x4096 .bf16) (x3 : Vec F S256x4096 .bf16) (x4 : Vec F S1x256 .f32) (x5 : Vec F S1x256 .f32) :
    sout0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5 = k0_pay4 (k0_pay13 x1 x3 x5) k0_pay10 k0_pay11 k0_pay10 := by
  unfold sout0_A_3
  rw [View.read_writes_eq_canon _ _ _ (scover0_A_3 c i arg2 harg2 arg3 harg3 arg4 harg4 arg5 harg5 arg6 harg6 arg7 harg7 arg8 harg8 arg9 harg9 arg10 harg10 arg11 harg11 arg12 harg12 arg13 harg13 hc0 hc1 x0 x1 x2 x3 x4 x5)]
  unfold kernelRun0_A
  dsimp only
  sl_unfold_words
  rw [View.canon_cons_unit_zero (S := S512x1) hz]
  simp only [View.readAt_eq_ld, harg2.read_unread, harg3.read_unread, harg4.read_unread, harg5.read_unread, harg6.read_unread, harg7.read_unread, harg10.read_unread, harg11.read_unread, harg12.read_unread, harg13.read_unread, View.readCov_unit_zero (S := S512x1) _ hz, View.ld_unit_zero (S := S512x4096) hz, View.ld_unit_zero (S := S256x4096) hz, View.ld_unit_zero (S := S1x256) hz, View.ld_unit_zero (S := S512x1) hz]

end Cert.KernelIdeal.StatsV

end
-- ==== Proof.Rec.lean ====
/-
  A row's running values over the grid's points. The 500 points come in sweeps of 125 (one sweep per tile of rows);
  a row's running pair is reset at a sweep's first point and updated at every point (`kfold`), and likewise a row's
  running total of divergence shares (`afold`). Within sweep `ni`, after its point `vi`, they are the spec's
  `run` after `vi + 1` tiles, and the sum of the first `vi + 1` shares, of that sweep's scores.
-/
import proofs.«136119_j22101901705770_1_alg».proof.Proof.StatsPay

noncomputable section

namespace Cert.KernelIdeal.Pay

open Idealize.ShloMosaic

/-- What the reset stores: the word of -∞ as the largest score, the zero word as the sum. -/
def kinit : EReal × EReal := (Ideal.ofBits .f32 0xFF800000#32, Ideal.ofBits .f32 0x00000000#32)

/-- A row's running pair after point `n`, from the row's scores `z n` at each point. -/
def kfold (z : ℕ → Fin 256 → EReal) : ℕ → EReal × EReal
  | 0 => kstep kinit (z 0)
  | n + 1 => kstep (if (n + 1) % 125 = 0 then kinit else kfold z n) (z (n + 1))

theorem kfold_start (z : ℕ → Fin 256 → EReal) (n : ℕ) (h : n % 125 = 0) : kfold z n = kstep kinit (z n) := by
  cases n with
  | zero => rfl
  | succ n => show kstep (if (n + 1) % 125 = 0 then kinit else kfold z n) (z (n + 1)) = _; rw [if_pos h]

theorem kfold_next (z : ℕ → Fin 256 → EReal) (n : ℕ) (h : ¬ n % 125 = 0) : kfold z n = kstep (kfold z (n - 1)) (z n) := by
  cases n with
  | zero => exact absurd rfl h
  | succ n => show kstep (if (n + 1) % 125 = 0 then kinit else kfold z n) (z (n + 1)) = _; rw [if_neg h]; rfl

/-- Within a sweep the running pair is the spec's. -/
theorem kfold_eq_run (hbot : Ideal.ofBits .f32 0xFF800000#32 = (⊥ : EReal)) (hzero : Ideal.ofBits .f32 0x00000000#32 = (0 : EReal))
    (hmax : ∀ z : Fin 256 → EReal, laneMax z = Cert.Jsd.tileMax z) (z : ℕ → Fin 256 → EReal) (ni vi : ℕ) (hvi : vi < 125) :
    kfold z (125 * ni + vi) = Cert.Jsd.run (fun j => z (125 * ni + j)) (vi + 1) := by
  have hstep : ∀ (ml : EReal × EReal) (y : Fin 256 → EReal), kstep ml y = Cert.Jsd.step ml y := fun ml y => by
    unfold kstep Cert.Jsd.step; rw [hmax]
  induction vi with
  | zero =>
    rw [kfold_start z _ (by omega), hstep]
    show _ = Cert.Jsd.step (⊥, 0) (z (125 * ni + 0))
    unfold kinit; rw [hbot, hzero]
  | succ vi ih =>
    rw [kfold_next z _ (by omega), hstep, show 125 * ni + (vi + 1) - 1 = 125 * ni + vi from by omega, ih (by omega)]
    rfl

/-- A row's running total of shares after point `n`. -/
def afold (term : ℕ → EReal) : ℕ → EReal
  | 0 => Ideal.ofBits .f32 0x00000000#32 + term 0
  | n + 1 => (if (n + 1) % 125 = 0 then Ideal.ofBits .f32 0x00000000#32 else afold term n) + term (n + 1)

theorem afold_start (term : ℕ → EReal) (n : ℕ) (h : n % 125 = 0) : afold term n = Ideal.ofBits .f32 0x00000000#32 + term n := by
  cases n with
  | zero => rfl
  | succ n => show (if (n + 1) % 125 = 0 then _ else afold term n) + term (n + 1) = _; rw [if_pos h]

theorem afold_next (term : ℕ → EReal) (n : ℕ) (h : ¬ n % 125 = 0) : afold term n = afold term (n - 1) + term n := by
  cases n with
  | zero => exact absurd rfl h
  | succ n => show (if (n + 1) % 125 = 0 then _ else afold term n) + term (n + 1) = _; rw [if_neg h]; rfl

/-- Shares added up from `0`, each new one on the right. -/
def sumUp (term : ℕ → EReal) : ℕ → EReal
  | 0 => 0
  | j + 1 => sumUp term j + term j

theorem afold_eq_sumUp (hzero : Ideal.ofBits .f32 0x00000000#32 = (0 : EReal)) (term : ℕ → EReal) (ni vi : ℕ) (hvi : vi < 125) :
    afold term (125 * ni + vi) = sumUp (fun j => term (125 * ni + j)) (vi + 1) := by
  induction vi with
  | zero => rw [afold_start term _ (by omega), hzero]; rfl
  | succ vi ih =>
    rw [afold_next term _ (by omega), show 125 * ni + (vi + 1) - 1 = 125 * ni + vi from by omega, ih (by omega)]
    rfl

theorem acc_eq_sumUp {L : ℕ} (h : EReal) (lq lp : ℕ → Fin L → EReal) (j : ℕ) :
    Cert.Jsd.acc h lq lp j = sumUp (fun i => Cert.Jsd.tileTerm h (lq i) (lp i)) j := by
  induction j with
  | zero => rfl
  | succ j ih => show Cert.Jsd.acc h lq lp j + _ = sumUp _ j + _; rw [ih]

end Cert.KernelIdeal.Pay

end
-- ==== Proof.StatsRows.lean ====
import proofs.«136119_j22101901705770_1_alg».proof.Proof.StatsPieces
import proofs.«136119_j22101901705770_1_alg».proof.Proof.Rec

/-! # The statistics region at the extended reals: row by row

At the ideal numbers, a row's pair of scratch entries (running maximum, running sum) of either head after grid point
`t` is the fold `Pay.kfold` of that row's scores at the points so far — reset at each first vocabulary tile, one
`Pay.kstep` per point —, and at a last tile the head's output entry of the row is `maximum + log sum` of that pair. -/

set_option maxRecDepth 16384

noncomputable section

namespace Cert.KernelIdeal.StatsV

open Cert.KernelIdeal Cert.KernelIdeal.Gen Cert.KernelIdeal.Stats
open Idealize.ShloMosaic Idealize.ShloMosaic.TcCoe Idealize.ShloMosaic.Tactic
open Idealize.ShloMosaic.ValueIdx Idealize.ShloMosaic.ColumnIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable (V : (c : Dev nD) → (b : Ref sig .tc) → Buf (Elt Ideal) ((c : Thread nD τ).loc b))

/-- Row `p`'s scores of the first head at grid position `n`: activations window 0 against weights window 2 plus bias
    window 4 (zero past the grid). -/
def scS (c : Dev nD) (p : Fin 512) : ℕ → Fin 256 → EReal := fun n k =>
  if h : n < cfg0.N then Pay.score (iblk0 V c 0 ⟨n, h⟩) (iblk0 V c 2 ⟨n, h⟩) (iblk0 V c 4 ⟨n, h⟩) p k else 0

/-- Row `p`'s scores of the second head at grid position `n`: windows 1, 3, 5. -/
def scT (c : Dev nD) (p : Fin 512) : ℕ → Fin 256 → EReal := fun n k =>
  if h : n < cfg0.N then Pay.score (iblk0 V c 1 ⟨n, h⟩) (iblk0 V c 3 ⟨n, h⟩) (iblk0 V c 5 ⟨n, h⟩) p k else 0

/-- The first head's running pair of row `p` after point `t` is the fold of the row's scores over the points so far,
    reset at each first tile: by induction on the point, the case of the point read off its vocabulary tile. -/
theorem pairS_aux (c : Dev nD) (p : Fin 512) (n : ℕ) : ∀ t : Fin cfg0.N, t.val = n →
    ((outsAt0 V c t.val t.isLt).2.2.1 (ix2 p (0 : Fin 1)), (outsAt0 V c t.val t.isLt).2.2.2.1 (ix2 p (0 : Fin 1))) = Pay.kfold (scS V c p) t.val := by
  induction n using Nat.strong_induction_on with
  | _ n ih =>
    intro t ht
    have hsc : scS V c p t.val = fun k => Pay.score (iblk0 V c 0 t) (iblk0 V c 2 t) (iblk0 V c 4 t) p k := by
      unfold scS; exact funext fun k => dif_pos t.isLt
    by_cases h0 : t.val % 125 = 0
    · have h1 : ¬t.val % 125 = 124 := by omega
      rw [outsAt0_A V c t h0 h1]; dsimp only
      rw [sout0_A_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)]
      refine (Pay.student_step (iblk0 V c 0 t) (iblk0 V c 2 t) (iblk0 V c 4 t) (k0_pay8 (F := Ideal)) (k0_pay9 (F := Ideal)) p).trans ?_
      rw [Pay.kfold_start (scS V c p) t.val h0, Pay.pay8_at, Pay.pay9_at, hsc]
      rfl
    · have hpos : t.val ≠ 0 := fun hz => h0 (by rw [hz])
      have ih' := ih (t.val - 1) (by omega) ⟨t.val - 1, Nat.lt_of_le_of_lt (Nat.sub_le _ _) t.isLt⟩ rfl
      by_cases h1 : t.val % 125 = 124
      ·
        rw [outsAt0_C V c t h0 h1]; dsimp only
        rw [sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2), sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2)]
        refine (Pay.student_step (iblk0 V c 0 t) (iblk0 V c 2 t) (iblk0 V c 4 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) p).trans ?_
        rw [Pay.kfold_next (scS V c p) t.val h0]
        exact congrArg₂ Pay.kstep ih' hsc.symm
      ·
        rw [outsAt0_B V c t h0 h1]; dsimp only
        rw [sout0_B_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2), sout0_B_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2)]
        refine (Pay.student_step (iblk0 V c 0 t) (iblk0 V c 2 t) (iblk0 V c 4 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) p).trans ?_
        rw [Pay.kfold_next (scS V c p) t.val h0]
        exact congrArg₂ Pay.kstep ih' hsc.symm

theorem pairS_row (c : Dev nD) (t : Fin cfg0.N) (p : Fin 512) :
    ((outsAt0 V c t.val t.isLt).2.2.1 (ix2 p (0 : Fin 1)), (outsAt0 V c t.val t.isLt).2.2.2.1 (ix2 p (0 : Fin 1))) = Pay.kfold (scS V c p) t.val :=
  pairS_aux V c p t.val t rfl

/-- The second head's running pair of row `p` after point `t` is the fold of the row's scores over the points so far,
    reset at each first tile: by induction on the point, the case of the point read off its vocabulary tile. -/
theorem pairT_aux (c : Dev nD) (p : Fin 512) (n : ℕ) : ∀ t : Fin cfg0.N, t.val = n →
    ((outsAt0 V c t.val t.isLt).2.2.2.2.1 (ix2 p (0 : Fin 1)), (outsAt0 V c t.val t.isLt).2.2.2.2.2 (ix2 p (0 : Fin 1))) = Pay.kfold (scT V c p) t.val := by
  induction n using Nat.strong_induction_on with
  | _ n ih =>
    intro t ht
    have hsc : scT V c p t.val = fun k => Pay.score (iblk0 V c 1 t) (iblk0 V c 3 t) (iblk0 V c 5 t) p k := by
      unfold scT; exact funext fun k => dif_pos t.isLt
    by_cases h0 : t.val % 125 = 0
    · have h1 : ¬t.val % 125 = 124 := by omega
      rw [outsAt0_A V c t h0 h1]; dsimp only
      rw [sout0_A_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t), sout0_A_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) ((hcond0_0 t).mpr h0) (fun h => h1 ((hcond0_1 t).mp h)) (iblk0 V c 0 t) (iblk0 V c 1 t) (iblk0 V c 2 t) (iblk0 V c 3 t) (iblk0 V c 4 t) (iblk0 V c 5 t)]
      refine (Pay.teacher_step (iblk0 V c 1 t) (iblk0 V c 3 t) (iblk0 V c 5 t) (k0_pay10 (F := Ideal)) (k0_pay11 (F := Ideal)) p).trans ?_
      rw [Pay.kfold_start (scT V c p) t.val h0, Pay.pay10_at, Pay.pay11_at, hsc]
      rfl
    · have hpos : t.val ≠ 0 := fun hz => h0 (by rw [hz])
      have ih' := ih (t.val - 1) (by omega) ⟨t.val - 1, Nat.lt_of_le_of_lt (Nat.sub_le _ _) t.isLt⟩ rfl
      by_cases h1 : t.val % 125 = 124
      ·
        rw [outsAt0_C V c t h0 h1]; dsimp only
        rw [sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2), sout0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h1) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2)]
        refine (Pay.teacher_step (iblk0 V c 1 t) (iblk0 V c 3 t) (iblk0 V c 5 t) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2) p).trans ?_
        rw [Pay.kfold_next (scT V c p) t.val h0]
        exact congrArg₂ Pay.kstep ih' hsc.symm
      ·
        rw [outsAt0_B V c t h0 h1]; dsimp only
        rw [sout0_B_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2), sout0_B_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) (fun h => h1 ((hcond0_1 t).mp h)) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2)]
        refine (Pay.teacher_step (iblk0 V c 1 t) (iblk0 V c 3 t) (iblk0 V c 5 t) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2) p).trans ?_
        rw [Pay.kfold_next (scT V c p) t.val h0]
        exact congrArg₂ Pay.kstep ih' hsc.symm

theorem pairT_row (c : Dev nD) (t : Fin cfg0.N) (p : Fin 512) :
    ((outsAt0 V c t.val t.isLt).2.2.2.2.1 (ix2 p (0 : Fin 1)), (outsAt0 V c t.val t.isLt).2.2.2.2.2 (ix2 p (0 : Fin 1))) = Pay.kfold (scT V c p) t.val :=
  pairT_aux V c p t.val t rfl

/-- At a last tile output 6 holds, at row `p`, the first head's final `maximum + log sum` of the row. -/
theorem out6_row (c : Dev nD) (t : Fin cfg0.N) (h : t.val % 125 = 124) (p : Fin 512) :
    (outsAt0 V c t.val t.isLt).1 (ix2 p (0 : Fin 1)) = (Pay.kfold (scS V c p) t.val).1 + Ideal.log (Pay.kfold (scS V c p) t.val).2 := by
  have h0 : ¬t.val % 125 = 0 := by omega
  have hp := pairS_row V c t p
  rw [outsAt0_C V c t h0 h] at hp ⊢
  dsimp only at hp ⊢
  rw [sout0_C_0_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2), sout0_C_1_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2)] at hp
  rw [out0_C_6_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2), Pay.pay6_at, ← hp]

/-- At a last tile output 7 holds, at row `p`, the second head's final `maximum + log sum` of the row. -/
theorem out7_row (c : Dev nD) (t : Fin cfg0.N) (h : t.val % 125 = 124) (p : Fin 512) :
    (outsAt0 V c t.val t.isLt).2.1 (ix2 p (0 : Fin 1)) = (Pay.kfold (scT V c p) t.val).1 + Ideal.log (Pay.kfold (scT V c p) t.val).2 := by
  have h0 : ¬t.val % 125 = 0 := by omega
  have hp := pairT_row V c t p
  rw [outsAt0_C V c t h0 h] at hp ⊢
  dsimp only at hp ⊢
  rw [sout0_C_2_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2), sout0_C_3_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2)] at hp
  rw [out0_C_7_eq (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) scM0_0 (Memref.isWhole_whole _) scM0_1 (Memref.isWhole_whole _) scM0_2 (Memref.isWhole_whole _) scM0_3 (Memref.isWhole_whole _) (fun h => h0 ((hcond0_0 t).mp h)) ((hcond0_1 t).mpr h) (iblk0 V c 0 t) (iblk0 V c 1 t) (iblk0 V c 2 t) (iblk0 V c 3 t) (iblk0 V c 4 t) (iblk0 V c 5 t) ((outsAt0 V c (t.val - 1) (Nat.lt_of_le_of_lt (Nat.sub_le _ _) t.isLt)).2.2.1) ((outsAt0 V c (t.val - 1) (Nat.lt_of_le_of_lt (Nat.sub_le _ _) t.isLt)).2.2.2.1) ((outsAt0 V c (t.val - 1) (Nat.lt_of_le_of_lt (Nat.sub_le _ _) t.isLt)).2.2.2.2.1) ((outsAt0 V c (t.val - 1) (Nat.lt_of_le_of_lt (Nat.sub_le _ _) t.isLt)).2.2.2.2.2), Pay.pay7_at, ← hp]

end Cert.KernelIdeal.StatsV

end
-- ==== Proof.OnlineRun.lean ====
/-
  The running pair of the tiled pass, for real scores.

  A tile of real scores has a real largest entry. One update of the pair keeps this invariant: the first component is a
  real number `M` and the second a real number `l` with `l * exp M` the sum of the exponentials of every score seen
  so far. The invariant does not care which real `M` is: the logarithm of a sum of exponentials is the same whatever
  shift it is taken with, `M + log (∑ exp (z - M)) = log (∑ exp z)`.
-/
import proofs.«136119_j22101901705770_1_alg».proof.Proof.Spec

noncomputable section

namespace Cert.Jsd

open Idealize.ShloMosaic

variable {L : ℕ}

/-- The coercion of a finite sum of reals is the sum of the coercions. -/
theorem coe_finsum {ι : Type*} (s : Finset ι) (f : ι → ℝ) :
    ((∑ i ∈ s, f i : ℝ) : EReal) = ∑ i ∈ s, ((f i : ℝ) : EReal) := by
  classical
  refine Finset.induction_on s (by simp) fun a s ha ih => ?_
  rw [Finset.sum_insert ha, Finset.sum_insert ha, EReal.coe_add, ih]

/-- The largest of finitely many real scores, the tile not empty, is one of them: a real number. -/
theorem tileMax_real (hL : 0 < L) (z : Fin L → ℝ) : ∃ m : ℝ, tileMax (fun k => ((z k : ℝ) : EReal)) = (m : EReal) := by
  obtain ⟨i, -, hi⟩ := Finset.exists_mem_eq_sup (Finset.univ : Finset (Fin L)) ⟨⟨0, hL⟩, Finset.mem_univ _⟩
    (fun k => ((z k : ℝ) : EReal))
  exact ⟨z i, hi⟩

/-- The first update, from `(⊥, 0)`: the pair becomes the tile's largest score `M` and `l = ∑ exp (z - M)`, so
    `l * exp M = ∑ exp z`. -/
theorem step_bot (hL : 0 < L) (z : Fin L → ℝ) :
    ∃ M l : ℝ, step ((⊥ : EReal), (0 : EReal)) (fun k => ((z k : ℝ) : EReal)) = ((M : EReal), (l : EReal))
      ∧ l * Real.exp M = ∑ k, Real.exp (z k) := by
  obtain ⟨m, hm⟩ := tileMax_real hL z
  refine ⟨m, ∑ k, Real.exp (z k - m), ?_, ?_⟩
  · unfold step
    simp only [hm, zero_mul, zero_add, max_eq_right (bot_le : (⊥ : EReal) ≤ (m : EReal))]
    rw [coe_finsum]
    refine congrArg (Prod.mk (m : EReal)) (Finset.sum_congr rfl fun k _ => ?_)
    show Ideal.exp ((z k : EReal) - (m : EReal)) = ((Real.exp (z k - m) : ℝ) : EReal)
    rw [← EReal.coe_sub]
    rfl
  · rw [Finset.sum_mul]
    refine Finset.sum_congr rfl fun k _ => ?_
    rw [← Real.exp_add]
    congr 1
    ring

/-- A later update, from a real pair `(M, l)` with `l * exp M = S`: the new pair is real again and its
    `l' * exp M'` is `S` plus the sum of the exponentials of the tile's scores, because
    `exp (M - M') * exp M' = exp M` and `exp (z - M') * exp M' = exp z`. -/
theorem step_coe (hL : 0 < L) (M l S : ℝ) (hS : l * Real.exp M = S) (z : Fin L → ℝ) :
    ∃ M' l' : ℝ, step ((M : EReal), (l : EReal)) (fun k => ((z k : ℝ) : EReal)) = ((M' : EReal), (l' : EReal))
      ∧ l' * Real.exp M' = S + ∑ k, Real.exp (z k) := by
  obtain ⟨m, hm⟩ := tileMax_real hL z
  refine ⟨max M m, l * Real.exp (M - max M m) + ∑ k, Real.exp (z k - max M m), ?_, ?_⟩
  · unfold step
    simp only [hm]
    have hmax : max (M : EReal) (m : EReal) = ((max M m : ℝ) : EReal) := (EReal.coe_strictMono.monotone.map_max (a := M) (b := m)).symm
    rw [hmax, EReal.coe_add, EReal.coe_mul, coe_finsum]
    refine congrArg (Prod.mk ((max M m : ℝ) : EReal)) ?_
    show (l : EReal) * Ideal.exp ((M : EReal) - ((max M m : ℝ) : EReal))
        + ∑ k, Ideal.exp ((z k : EReal) - ((max M m : ℝ) : EReal))
      = (l : EReal) * ((Real.exp (M - max M m) : ℝ) : EReal) + ∑ k, ((Real.exp (z k - max M m) : ℝ) : EReal)
    rw [← EReal.coe_sub]
    refine congrArg₂ (· + ·) rfl (Finset.sum_congr rfl fun k _ => ?_)
    rw [← EReal.coe_sub]
    rfl
  · rw [add_mul, mul_assoc, ← Real.exp_add, Finset.sum_mul, ← hS]
    refine congrArg₂ (· + ·) (by congr 2; ring) (Finset.sum_congr rfl fun k _ => ?_)
    rw [← Real.exp_add]
    congr 1
    ring

/-- After one tile or more the pair is real, and `l * exp M` is the sum of the exponentials of all the scores seen. -/
theorem run_succ (hL : 0 < L) (z : ℕ → Fin L → ℝ) (j : ℕ) :
    ∃ M l : ℝ, run (fun i k => ((z i k : ℝ) : EReal)) (j + 1) = ((M : EReal), (l : EReal))
      ∧ l * Real.exp M = ∑ i ∈ Finset.range (j + 1), ∑ k, Real.exp (z i k) := by
  induction j with
  | zero =>
    obtain ⟨M, l, h1, h2⟩ := step_bot hL (z 0)
    exact ⟨M, l, h1, by simpa using h2⟩
  | succ j ih =>
    obtain ⟨M, l, h1, h2⟩ := ih
    obtain ⟨M', l', h1', h2'⟩ := step_coe hL M l _ h2 (z (j + 1))
    refine ⟨M', l', ?_, ?_⟩
    · show step (run (fun i k => ((z i k : ℝ) : EReal)) (j + 1)) (fun k => ((z (j + 1) k : ℝ) : EReal)) = _
      rw [h1]
      exact h1'
    · rw [Finset.sum_range_succ _ (j + 1)]
      exact h2'

/-- The sum of the exponentials of the scores of one tile or more is positive. -/
theorem sumExp_pos (hL : 0 < L) (z : ℕ → Fin L → ℝ) {T : ℕ} (hT : 0 < T) :
    0 < ∑ i ∈ Finset.range T, ∑ k, Real.exp (z i k) :=
  Finset.sum_pos (fun i _ => Finset.sum_pos (fun k _ => Real.exp_pos _) ⟨⟨0, hL⟩, Finset.mem_univ _⟩)
    ⟨0, Finset.mem_range.2 hT⟩

/-- THE TILED LOG-SUM-EXP OF REAL SCORES: `m + log l` after `T ≥ 1` tiles is the logarithm of the sum of the
    exponentials of all the scores: `M + log l = log (l * exp M)`. -/
theorem lse_real (hL : 0 < L) (z : ℕ → Fin L → ℝ) {T : ℕ} (hT : 0 < T) :
    lse (fun i k => ((z i k : ℝ) : EReal)) T
      = ((Real.log (∑ i ∈ Finset.range T, ∑ k, Real.exp (z i k)) : ℝ) : EReal) := by
  have hpos := sumExp_pos hL z hT
  obtain ⟨j, rfl⟩ : ∃ j, T = j + 1 := ⟨T - 1, by omega⟩
  obtain ⟨M, l, h1, h2⟩ := run_succ hL z j
  have hl : 0 < l := by
    by_contra hn
    have hn' : l ≤ 0 := not_lt.1 hn
    have := Real.exp_pos M
    nlinarith
  unfold lse
  rw [h1]
  show (M : EReal) + Ideal.log (l : EReal) = _
  rw [Ideal.log_coe, if_neg (not_le.2 hl), ← EReal.coe_add, ← h2, Real.log_mul hl.ne' (Real.exp_pos M).ne',
    Real.log_exp, add_comm]

/-- The fold of `max` from `⊥` over a tile is the tile's supremum. -/
theorem sup_eq_foldmax (z : Fin L → EReal) :
    (Finset.univ : Finset (Fin L)).fold max (⊥ : EReal) z = Finset.univ.sup z := rfl

end Cert.Jsd

end
-- ==== Proof.LibBlockedSum.lean ====
import Mathlib.Algebra.BigOperators.Fin
import Mathlib.Algebra.BigOperators.Intervals

/-!
# Sums over a long axis, taken block by block

A contraction over an axis of length `nb * tk` can be taken in `nb` consecutive blocks of `tk` terms, the partial
sums added one after the other into a running total. In a commutative additive monoid — the extended reals among
them, where `+` is associative and commutative although it does not cancel — the running total after the last
block is the starting value plus the whole sum. Nothing here needs the terms to be finite.
-/

namespace BlockedSum

open Finset

variable {M : Type*} [AddCommMonoid M]

/-- A sum over `nb * tk` consecutive terms is the sum, over the `nb` blocks, of each block's `tk` terms:
    term `k = b * tk + j` is the `j`-th term of block `b`. -/
theorem sum_range_mul (f : ℕ → M) (nb tk : ℕ) :
    ∑ k ∈ range (nb * tk), f k = ∑ b ∈ range nb, ∑ j ∈ range tk, f (b * tk + j) := by
  induction nb with
  | zero => simp
  | succ n ih =>
    rw [Nat.succ_mul, sum_range_add, ih, sum_range_succ]

/-- The same over `Fin`: the index types a contraction over a literal extent is written with. -/
theorem sum_fin_mul (f : ℕ → M) (nb tk : ℕ) :
    ∑ k : Fin (nb * tk), f k.val = ∑ b : Fin nb, ∑ j : Fin tk, f (b.val * tk + j.val) := by
  rw [Fin.sum_univ_eq_sum_range (fun k => f k) (nb * tk), sum_range_mul,
    ← Fin.sum_univ_eq_sum_range (fun b => ∑ j ∈ range tk, f (b * tk + j)) nb]
  refine sum_congr rfl fun b _ => ?_
  rw [← Fin.sum_univ_eq_sum_range (fun j => f (b.val * tk + j)) tk]

/-- A running total that starts at `a₀` and takes one more term at each step holds, after `n` steps, `a₀` plus the
    first `n` terms. -/
theorem running_total (acc : ℕ → M) (d : ℕ → M) (a₀ : M) (h0 : acc 0 = a₀) (hs : ∀ b, acc (b + 1) = acc b + d b) (n : ℕ) :
    acc n = a₀ + ∑ b ∈ range n, d b := by
  induction n with
  | zero => simp [h0]
  | succ n ih => rw [hs, ih, sum_range_succ, add_assoc]

/-- Accumulating a contraction block by block: starting from `a₀` and adding, at step `b`, the partial sum of block
    `b`, the total after all `nb` blocks is `a₀` plus the whole contraction. -/
theorem accumulate_blocks (acc : ℕ → M) (f : ℕ → M) (a₀ : M) (nb tk : ℕ) (h0 : acc 0 = a₀)
    (hs : ∀ b, acc (b + 1) = acc b + ∑ j ∈ range tk, f (b * tk + j)) :
    acc nb = a₀ + ∑ k ∈ range (nb * tk), f k := by
  rw [running_total acc _ a₀ h0 hs nb, sum_range_mul]

end BlockedSum
-- ==== Proof.OnlineWhole.lean ====
/-
  The whole-vocabulary spelling for real scores, and taking a long sum tile by tile.

  For a vocabulary of real scores the log-softmax of a score is the score less the logarithm of the sum of the
  exponentials of all the scores: the shift by the largest score cancels, `log (∑ exp (z - M)) = log (∑ exp z) - M`.
  A sum over `T * L` entries, entry `v` being lane `v % L` of tile `v / L`, is the sum over the tiles of the sums
  over the lanes; a non-negative real factor may be taken into a finite sum of extended reals.
-/
import proofs.«136119_j22101901705770_1_alg».proof.Proof.OnlineRun
import proofs.«136119_j22101901705770_1_alg».proof.Proof.LibBlockedSum

noncomputable section

namespace Cert.Jsd

open Idealize.ShloMosaic

variable {L : ℕ}

/-- For a vocabulary of real scores, not empty, a score's log-probability is the score less the logarithm of the sum
    of the exponentials of all the scores. -/
theorem logSoftmax_real {V : ℕ} (hV : 0 < V) (z : Fin V → ℝ) (v : Fin V) :
    logSoftmax (fun u => ((z u : ℝ) : EReal)) v = ((z v - Real.log (∑ u, Real.exp (z u)) : ℝ) : EReal) := by
  obtain ⟨i, -, hi⟩ := Finset.exists_mem_eq_sup (Finset.univ : Finset (Fin V)) ⟨⟨0, hV⟩, Finset.mem_univ _⟩
    (fun u => ((z u : ℝ) : EReal))
  have hi' : (Finset.univ : Finset (Fin V)).sup (fun u => ((z u : ℝ) : EReal)) = ((z i : ℝ) : EReal) := hi
  have hpos : 0 < ∑ u, Real.exp (z u - z i) :=
    Finset.sum_pos (fun u _ => Real.exp_pos _) ⟨⟨0, hV⟩, Finset.mem_univ _⟩
  have hpos' : 0 < ∑ u, Real.exp (z u) :=
    Finset.sum_pos (fun u _ => Real.exp_pos _) ⟨⟨0, hV⟩, Finset.mem_univ _⟩
  have hsum : (∑ u, Ideal.exp (((z u : ℝ) : EReal) - ((z i : ℝ) : EReal)))
      = ((∑ u, Real.exp (z u - z i) : ℝ) : EReal) := by
    rw [coe_finsum]
    refine Finset.sum_congr rfl fun u _ => ?_
    rw [← EReal.coe_sub]
    rfl
  have hshift : ∑ u, Real.exp (z u - z i) = (∑ u, Real.exp (z u)) * Real.exp (-(z i)) := by
    rw [Finset.sum_mul]
    refine Finset.sum_congr rfl fun u _ => ?_
    rw [← Real.exp_add, sub_eq_add_neg]
  unfold logSoftmax
  rw [hi', max_eq_right (bot_le : (⊥ : EReal) ≤ ((z i : ℝ) : EReal)), hsum, Ideal.log_coe, if_neg (not_le.2 hpos),
    ← EReal.coe_sub, ← EReal.coe_sub, hshift, Real.log_mul hpos'.ne' (Real.exp_pos _).ne', Real.log_exp]
  congr 1
  ring

/-- A sum over `T * L` entries, entry `v` being lane `v % L` of tile `v / L`, is the sum over the tiles of the
    sums over the lanes. -/
theorem sum_flat {α : Type*} [AddCommMonoid α] (hL : 0 < L) (T : ℕ) (F : ℕ → Fin L → α) :
    ∑ v : Fin (T * L), F (v.val / L) ⟨v.val % L, Nat.mod_lt _ hL⟩ = ∑ i ∈ Finset.range T, ∑ k, F i k := by
  refine (BlockedSum.sum_fin_mul (fun n => F (n / L) ⟨n % L, Nat.mod_lt _ hL⟩) T L).trans ?_
  rw [← Fin.sum_univ_eq_sum_range (fun i => ∑ k, F i k) T]
  refine Finset.sum_congr rfl fun b _ => Finset.sum_congr rfl fun j _ => ?_
  have h1 : (b.val * L + j.val) / L = b.val := by
    rw [Nat.mul_comm, Nat.mul_add_div hL, Nat.div_eq_of_lt j.isLt, Nat.add_zero]
  have h2 : (b.val * L + j.val) % L = j.val := by
    rw [Nat.mul_comm, Nat.mul_add_mod, Nat.mod_eq_of_lt j.isLt]
  exact congrArg₂ F h1 (Fin.ext h2)

/-- A non-negative real factor goes into a finite sum of extended reals, whatever the terms. -/
theorem mul_finsum {ι : Type*} (s : Finset ι) (h : ℝ) (h0 : 0 ≤ h) (f : ι → EReal) :
    (h : EReal) * ∑ i ∈ s, f i = ∑ i ∈ s, (h : EReal) * f i := by
  classical
  refine Finset.induction_on s (by simp) fun a s ha ih => ?_
  rw [Finset.sum_insert ha, Finset.sum_insert ha,
    EReal.left_distrib_of_nonneg_of_ne_top (EReal.coe_nonneg.2 h0) (EReal.coe_ne_top h), ih]

/-- The running total of the tiles' shares is the sum of the shares. -/
theorem acc_eq_sum (h : EReal) (lq lp : ℕ → Fin L → EReal) (T : ℕ) :
    acc h lq lp T = ∑ j ∈ Finset.range T, tileTerm h (lq j) (lp j) := by
  induction T with
  | zero => rfl
  | succ n ih =>
    rw [Finset.sum_range_succ, ← ih]
    rfl

/-- THE SHARES ADDED UP ARE THE WHOLE ROW'S TWO SUMS, for a non-negative real weight and any log-probabilities: each
    tile's share is `h` times its two lane sums, the factor `h` comes out of the sum over the tiles, and the tiles'
    lane sums together are the sums over the flattened vocabulary. -/
theorem acc_eq_whole (hL : 0 < L) (T : ℕ) (h : ℝ) (h0 : 0 ≤ h) (lq lp : ℕ → Fin L → EReal) :
    acc (h : EReal) lq lp T
      = (h : EReal) * (∑ v : Fin (T * L),
            Ideal.exp (lp (v.val / L) ⟨v.val % L, Nat.mod_lt _ hL⟩) * (lp (v.val / L) ⟨v.val % L, Nat.mod_lt _ hL⟩
              - Ideal.log ((h : EReal) * Ideal.exp (lp (v.val / L) ⟨v.val % L, Nat.mod_lt _ hL⟩)
                  + (h : EReal) * Ideal.exp (lq (v.val / L) ⟨v.val % L, Nat.mod_lt _ hL⟩))))
        + (h : EReal) * (∑ v : Fin (T * L),
            Ideal.exp (lq (v.val / L) ⟨v.val % L, Nat.mod_lt _ hL⟩) * (lq (v.val / L) ⟨v.val % L, Nat.mod_lt _ hL⟩
              - Ideal.log ((h : EReal) * Ideal.exp (lp (v.val / L) ⟨v.val % L, Nat.mod_lt _ hL⟩)
                  + (h : EReal) * Ideal.exp (lq (v.val / L) ⟨v.val % L, Nat.mod_lt _ hL⟩)))) := by
  rw [acc_eq_sum,
    sum_flat hL T (fun i k => Ideal.exp (lp i k) * (lp i k
      - Ideal.log ((h : EReal) * Ideal.exp (lp i k) + (h : EReal) * Ideal.exp (lq i k)))),
    sum_flat hL T (fun i k => Ideal.exp (lq i k) * (lq i k
      - Ideal.log ((h : EReal) * Ideal.exp (lp i k) + (h : EReal) * Ideal.exp (lq i k)))),
    mul_finsum _ h h0, mul_finsum _ h h0, ← Finset.sum_add_distrib]
  rfl

end Cert.Jsd

end
-- ==== Proof.Online.lean ====
/-
  A ROW'S DIVERGENCE TILE BY TILE IS ITS DIVERGENCE OVER THE WHOLE VOCABULARY, for real scores and a positive real weight.

  Both spellings take a score's log-probability to be the score less the logarithm of the sum of the exponentials of
  all the row's scores: the tiled pass by its running pair (`lse_real`), the whole-vocabulary one by its log-softmax
  (`logSoftmax_real`), the two sums being one sum regrouped (`sum_flat`). With the same log-probabilities on both
  sides, the tiles' shares added up are the whole row's two sums (`acc_eq_whole`).
-/
import proofs.«136119_j22101901705770_1_alg».proof.Proof.OnlineWhole

noncomputable section

namespace Cert.Jsd

open Idealize.ShloMosaic

variable {L : ℕ}

/-- The log-softmax of the flattened row, at entry `v`, is the tiled pass's log-probability of lane `v % L` of tile
    `v / L`: the score less the tiled log-sum-exp. -/
theorem logSoftmax_flat (hL : 0 < L) {T : ℕ} (hT : 0 < T) (a : ℕ → Fin L → ℝ) (v : Fin (T * L)) :
    logSoftmax (fun v : Fin (T * L) => ((a (v.val / L) ⟨v.val % L, Nat.mod_lt _ hL⟩ : ℝ) : EReal)) v
      = ((a (v.val / L) ⟨v.val % L, Nat.mod_lt _ hL⟩ : ℝ) : EReal) - lse (fun j k => ((a j k : ℝ) : EReal)) T := by
  rw [logSoftmax_real (Nat.mul_pos hT hL) (fun v : Fin (T * L) => a (v.val / L) ⟨v.val % L, Nat.mod_lt _ hL⟩) v,
    lse_real hL a hT, ← EReal.coe_sub, sum_flat hL T (fun i k => Real.exp (a i k))]

/-- THE LAW JOINING THE TWO SPELLINGS of a row's divergence, for real scores `a`, `b` in `T ≥ 1` tiles of `L ≥ 1`
    lanes and a positive real weight `hh`. -/
theorem rowTiled_eq_rowWhole {T L : ℕ} (hL : 0 < L) (hT : 0 < T) (hh : ℝ) (hpos : 0 < hh) (a b : ℕ → Fin L → ℝ) :
    rowTiled (hh : EReal) (fun j k => ((a j k : ℝ) : EReal)) (fun j k => ((b j k : ℝ) : EReal)) T
      = rowWhole (hh : EReal) (fun v : Fin (T * L) => ((a (v.val / L) ⟨v.val % L, Nat.mod_lt _ hL⟩ : ℝ) : EReal))
                               (fun v : Fin (T * L) => ((b (v.val / L) ⟨v.val % L, Nat.mod_lt _ hL⟩ : ℝ) : EReal)) := by
  unfold rowTiled rowWhole
  rw [acc_eq_whole hL T hh hpos.le]
  simp only [logSoftmax_flat hL hT a, logSoftmax_flat hL hT b]

end Cert.Jsd

end
-- ==== Proof.Consts.lean ====
/-
  The float constants the two programs spell, as the extended reals their patterns denote, and two small facts about
  real arguments: dividing by one changes nothing, and a head's score over real activations, weights and bias is the
  real number the same sum gives.
-/
import proofs.«136119_j22101901705770_1_alg».proof.Proof.OnlineRun

noncomputable section

namespace Cert.Jsd

open Idealize.ShloMosaic

/-- The pattern of `0.5` denotes the real `1 / 2`. -/
theorem ofBits_half : Ideal.ofBits .f32 0x3F000000#32 = ((1 / 2 : ℝ) : EReal) := by
  simp [Ideal.ofBits, Ideal.ieee, -EReal.coe_mul]; norm_num

/-- The pattern of `1.0` denotes the real `1`. -/
theorem ofBits_one : Ideal.ofBits .f32 0x3F800000#32 = ((1 : ℝ) : EReal) := by
  simp [Ideal.ofBits, Ideal.ieee, -EReal.coe_mul]; norm_num

/-- The pattern of `-∞` denotes `⊥`. -/
theorem ofBits_neg_inf : Ideal.ofBits .f32 0xFF800000#32 = (⊥ : EReal) := by
  simp [Ideal.ofBits, Ideal.ieee]

/-- The pattern of `+0.0` denotes `0`. -/
theorem ofBits_zero : Ideal.ofBits .f32 0x00000000#32 = (0 : EReal) := by
  simp [Ideal.ofBits, Ideal.ieee]

/-- A real number divided by one is itself. -/
theorem div_one_real (r : ℝ) : Ideal.div (r : EReal) ((1 : ℝ) : EReal) = (r : EReal) := by
  rw [Ideal.div_coe one_ne_zero, ← EReal.coe_mul]
  congr 1
  ring

/-- A head's score over real activations, weights and bias is the coercion of the real score. -/
theorem logit_real {N H V : ℕ} (x : Fin N → Fin H → ℝ) (w : Fin V → Fin H → ℝ) (b : Fin V → ℝ) (n : Fin N) (v : Fin V) :
    logit (fun n k => ((x n k : ℝ) : EReal)) (fun v k => ((w v k : ℝ) : EReal)) (fun v => ((b v : ℝ) : EReal)) n v
      = ((∑ k, x n k * w v k + b v : ℝ) : EReal) := by
  unfold logit
  rw [EReal.coe_add, coe_finsum]
  simp only [EReal.coe_mul]

end Cert.Jsd

end
-- ==== Proof.RowFinal.lean ====
/-
  THE ROW'S VALUE AS THE GRID LEAVES IT IS THE WHOLE-VOCABULARY DIVERGENCE.

  Within a sweep of 125 points a row's running pair is the tiled pass's pair on that sweep's 125 tiles of 256 scores,
  so at the sweep's last point `m + log l` is the tiled log-sum-exp; the running total of shares at the last point is
  the 125 shares added up from `0`: the row's divergence tile by tile. For real scores and the weight `1 / 2` that is
  the divergence over the whole vocabulary of `125 * 256 = 32000` entries.
-/
import proofs.«136119_j22101901705770_1_alg».proof.Proof.Rec
import proofs.«136119_j22101901705770_1_alg».proof.Proof.Online
import proofs.«136119_j22101901705770_1_alg».proof.Proof.Consts

noncomputable section

namespace Cert.Jsd

open Idealize.ShloMosaic Cert.KernelIdeal

/-- The lane maximum, a fold of `max` from the word of -∞, is the tile's largest score. -/
theorem laneMax_eq_tileMax (z : Fin 256 → EReal) : Pay.laneMax z = tileMax z := by
  unfold Pay.laneMax tileMax
  rw [ofBits_neg_inf]
  exact sup_eq_foldmax z

/-- A row's log-sum-exp as sweep `ni` leaves it at its last point: `m + log l` of the running pair there. -/
def rowLse (z : ℕ → Fin 256 → EReal) (ni : ℕ) : EReal :=
  (Pay.kfold z (125 * ni + 124)).1 + Ideal.log (Pay.kfold z (125 * ni + 124)).2

/-- It is the tiled log-sum-exp of the sweep's 125 tiles. -/
theorem rowLse_eq_lse (z : ℕ → Fin 256 → EReal) (ni : ℕ) : rowLse z ni = lse (fun j => z (125 * ni + j)) 125 := by
  unfold rowLse lse
  rw [Pay.kfold_eq_run ofBits_neg_inf ofBits_zero laneMax_eq_tileMax z ni 124 (by decide)]

/-- A row's share of divergence at point `n` of sweep `ni`, from the two heads' scores there and the sweep's two
    log-sum-exps, the weight being the word of `0.5`. -/
def rowTerm (zs zt : ℕ → Fin 256 → EReal) (ni n : ℕ) : EReal :=
  tileTerm (Ideal.ofBits .f32 0x3F000000#32) (fun k => zs n k - rowLse zs ni) (fun k => zt n k - rowLse zt ni)

/-- The running total of shares at the sweep's last point is the row's divergence tile by tile. -/
theorem afold_rowTerm (zs zt : ℕ → Fin 256 → EReal) (ni : ℕ) :
    Pay.afold (rowTerm zs zt ni) (125 * ni + 124)
      = rowTiled (Ideal.ofBits .f32 0x3F000000#32) (fun j => zs (125 * ni + j)) (fun j => zt (125 * ni + j)) 125 := by
  rw [Pay.afold_eq_sumUp ofBits_zero (rowTerm zs zt ni) ni 124 (by decide)]
  unfold rowTiled
  rw [Pay.acc_eq_sumUp, ← rowLse_eq_lse zs ni, ← rowLse_eq_lse zt ni]
  rfl

/-- THE ROW'S VALUE AT THE END OF ITS SWEEP, for scores that are real numbers: the whole-vocabulary divergence of the
    sweep's `125 * 256 = 32000` scores per head, entry `v` being lane `v % 256` of point `125 * ni + v / 256`. -/
theorem row_final_gen (zs zt : ℕ → Fin 256 → EReal) (zS zT : ℕ → Fin 256 → ℝ)
    (hS : ∀ n k, zs n k = ((zS n k : ℝ) : EReal)) (hT : ∀ n k, zt n k = ((zT n k : ℝ) : EReal)) (ni : ℕ) :
    Pay.afold (rowTerm zs zt ni) (125 * ni + 124)
      = rowWhole (Ideal.ofBits .f32 0x3F000000#32)
          (fun v : Fin 32000 => ((zS (125 * ni + v.val / 256) ⟨v.val % 256, Nat.mod_lt _ (by decide)⟩ : ℝ) : EReal))
          (fun v : Fin 32000 => ((zT (125 * ni + v.val / 256) ⟨v.val % 256, Nat.mod_lt _ (by decide)⟩ : ℝ) : EReal)) := by
  obtain rfl : zs = fun n k => ((zS n k : ℝ) : EReal) := funext fun n => funext fun k => hS n k
  obtain rfl : zt = fun n k => ((zT n k : ℝ) : EReal) := funext fun n => funext fun k => hT n k
  rw [afold_rowTerm, ofBits_half]
  exact rowTiled_eq_rowWhole (T := 125) (L := 256) (by decide) (by decide) (1 / 2) (by norm_num)
    (fun j k => zS (125 * ni + j) k) (fun j k => zT (125 * ni + j) k)

/-- The same with the scores written as coercions and every name written out. -/
theorem row_final (zS zT : ℕ → Fin 256 → ℝ) (ni : ℕ) :
    Pay.afold (fun n => tileTerm (Ideal.ofBits .f32 0x3F000000#32)
        (fun k => ((zS n k : ℝ) : EReal)
          - ((Pay.kfold (fun n k => ((zS n k : ℝ) : EReal)) (125 * ni + 124)).1
              + Ideal.log (Pay.kfold (fun n k => ((zS n k : ℝ) : EReal)) (125 * ni + 124)).2))
        (fun k => ((zT n k : ℝ) : EReal)
          - ((Pay.kfold (fun n k => ((zT n k : ℝ) : EReal)) (125 * ni + 124)).1
              + Ideal.log (Pay.kfold (fun n k => ((zT n k : ℝ) : EReal)) (125 * ni + 124)).2)))
      (125 * ni + 124)
      = rowWhole (Ideal.ofBits .f32 0x3F000000#32)
          (fun v : Fin 32000 => ((zS (125 * ni + v.val / 256) ⟨v.val % 256, Nat.mod_lt _ (by decide)⟩ : ℝ) : EReal))
          (fun v : Fin 32000 => ((zT (125 * ni + v.val / 256) ⟨v.val % 256, Nat.mod_lt _ (by decide)⟩ : ℝ) : EReal)) :=
  row_final_gen _ _ zS zT (fun _ _ => rfl) (fun _ _ => rfl) ni

end Cert.Jsd

end
-- ==== Proof.KFinalA.lean ====
/-
  The statistics region read off the arguments. At its entry the activations and weights are the arguments narrowed
  (the identity over the extended reals) and the biases the arguments laid as rows; so a row's scores at each grid point
  are the heads' scores of the argument arrays, and the region leaves, in each head's result column, the row's
  log-sum-exp as the grid's running pair ends it.
-/
import proofs.«136119_j22101901705770_1_alg».proof.Proof.KI.Close
import proofs.«136119_j22101901705770_1_alg».proof.Proof.HostEnds
import proofs.«136119_j22101901705770_1_alg».proof.Proof.Scores
import proofs.«136119_j22101901705770_1_alg».proof.Proof.Arrays0
import proofs.«136119_j22101901705770_1_alg».proof.Proof.StatsRows
import proofs.«136119_j22101901705770_1_alg».proof.Proof.RowFinal

set_option maxRecDepth 16384

noncomputable section

namespace Cert.KernelIdeal.KF

open Cert.KernelIdeal Cert.KernelIdeal.Gen Cert.KernelIdeal.Whole Cert.KernelIdeal.HostEnds
open Cert.KernelIdeal.Stats Cert.KernelIdeal.StatsV Cert.KernelIdeal.Scores
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- The two regions' records at the ideal instance. -/
abbrev r0 : Region0 Ideal := Cert.KernelIdeal.Close.reg0 (F := Ideal)
abbrev r1 : Region1 Ideal := Cert.KernelIdeal.Close.reg1 (F := Ideal)

/-- The six argument arrays of core c. -/
abbrev a0 := m ((c : Thread nD τ).loc main_arg0)
abbrev a1 := m ((c : Thread nD τ).loc main_arg1)
abbrev a2 := m ((c : Thread nD τ).loc main_arg2)
abbrev a3 := m ((c : Thread nD τ).loc main_arg3)
abbrev a4 := m ((c : Thread nD τ).loc main_arg4)
abbrev a5 := m ((c : Thread nD τ).loc main_arg5)

/-- The student head's score of row n against vocabulary entry v, from the arguments. -/
abbrev zq (n : Fin 2048) (v : Fin 32000) : EReal :=
  Cert.Jsd.logit (fun n h => a0 m c (ix2 n h)) (fun v h => a2 m c (ix2 v h)) (fun v => a3 m c (ix1 v)) n v
/-- The teacher head's. -/
abbrev zp (n : Fin 2048) (v : Fin 32000) : EReal :=
  Cert.Jsd.logit (fun n h => a1 m c (ix2 n h)) (fun v h => a4 m c (ix2 v h)) (fun v => a5 m c (ix1 v)) n v

/-- At the statistics region's entry a row's student scores at grid point t are the arguments'. -/
theorem scS_at (p : Fin 512) (t : Fin cfg0.N) (k : Fin 256) :
    scS (C1 m) c p t.val k = zq m c ⟨512 * (t.val / 125) + p.val, rowBound0 t p⟩ ⟨256 * (t.val % 125) + k.val, vocBound0 t k⟩ := by
  unfold scS
  rw [dif_pos t.isLt]
  exact student_blocks0 (C1 m) c t p k _ _ _ (C1_v0 m c) (C1_v2 m c) (C1_v4 m c)

theorem scT_at (p : Fin 512) (t : Fin cfg0.N) (k : Fin 256) :
    scT (C1 m) c p t.val k = zp m c ⟨512 * (t.val / 125) + p.val, rowBound0 t p⟩ ⟨256 * (t.val % 125) + k.val, vocBound0 t k⟩ := by
  unfold scT
  rw [dif_pos t.isLt]
  exact teacher_blocks0 (C1 m) c t p k _ _ _ (C1_v1 m c) (C1_v3 m c) (C1_v5 m c)

theorem rowDecomp (n : Fin 2048) : n.val % 512 < 512 ∧ n.val / 512 < 4 := by have := n.isLt; omega

/-- The student head's result column after the statistics region: each row's log-sum-exp. -/
theorem lseS_col : C2 m (r0) c main_v6_0
    = fun i : S2048x1.Idx => Cert.Jsd.rowLse (scS (C1 m) c ⟨(i 0).val % 512, Nat.mod_lt _ (by decide)⟩) ((i 0).val / 512) := by
  refine (B2_arr m r0 c 6).trans ?_
  refine (final0_6 (C1 m) c (fun n : Fin 2048 => Cert.Jsd.rowLse (scS (C1 m) c ⟨n.val % 512, Nat.mod_lt _ (by decide)⟩) (n.val / 512)) ?_)
  intro t h124 p
  rw [out6_row (C1 m) c t h124 p]
  unfold Cert.Jsd.rowLse
  have e1 : (512 * (t.val / 125) + p.val) % 512 = p.val := by have := p.isLt; omega
  have e2 : (512 * (t.val / 125) + p.val) / 512 = t.val / 125 := by have := p.isLt; omega
  have e3 : 125 * (t.val / 125) + 124 = t.val := by omega
  simp only [e1, e2, e3]

theorem lseT_col : C2 m (r0) c main_v6_1
    = fun i : S2048x1.Idx => Cert.Jsd.rowLse (scT (C1 m) c ⟨(i 0).val % 512, Nat.mod_lt _ (by decide)⟩) ((i 0).val / 512) := by
  refine (B2_arr m r0 c 7).trans ?_
  refine (final0_7 (C1 m) c (fun n : Fin 2048 => Cert.Jsd.rowLse (scT (C1 m) c ⟨n.val % 512, Nat.mod_lt _ (by decide)⟩) (n.val / 512)) ?_)
  intro t h124 p
  rw [out7_row (C1 m) c t h124 p]
  unfold Cert.Jsd.rowLse
  have e1 : (512 * (t.val / 125) + p.val) % 512 = p.val := by have := p.isLt; omega
  have e2 : (512 * (t.val / 125) + p.val) / 512 = t.val / 125 := by have := p.isLt; omega
  have e3 : 125 * (t.val / 125) + 124 = t.val := by omega
  simp only [e1, e2, e3]

/-- The statistics region leaves its six input arrays as it found them. -/
theorem C2_in (w : Fin 8) (hw : (cfg0.win w).isOut = false) : C2 m r0 c (Pipeline.arrRef spec0 w) = C1 m c (Pipeline.arrRef spec0 w) :=
  (B2_arr m r0 c w).trans (((r0).dat (C1 m) c).arrAt_in w hw _ |>.trans ((r0).hA (C1 m) c w))

end Cert.KernelIdeal.KF

end
-- ==== Proof.KValue.lean ====
/-
  The program's result as one function of the argument arrays, over the extended reals: the mean over the 2048 rows
  of each row's divergence as the grid leaves it.
-/
import proofs.«136119_j22101901705770_1_alg».proof.Proof.HostEnds
import Idealize.ShloMosaic.Lib.IdealHost
import Idealize.ShloMosaic.Lib.ValueIdx
import Idealize.ShloMosaic.PureOps.Ideal.Laws

noncomputable section

namespace Cert.KernelIdeal.KV

open Cert.KernelIdeal Cert.KernelIdeal.Gen Cert.KernelIdeal.Whole Cert.KernelIdeal.HostEnds
open Idealize.ShloMosaic Idealize.ShloMosaic.TcCoe Idealize.ShloMosaic.ValueIdx
open Idealize.SL.Sem

/-- The mean over the rows of a column whose entry at row n is `f n`: the zero word plus the sum, over the word of 2048. -/
theorem meanRows_of (f : Fin 2048 → EReal) (j : S_.Idx) :
    meanRows (F := Ideal) (fun i : S2048x1.Idx => f ⟨(i 0).val, (i 0).isLt⟩) j
      = Ideal.div (Ideal.ofBits .f32 0x00000000#32 + ∑ n : Fin 2048, f n) (Ideal.ofBits .f32 0x45000000#32) := by
  unfold meanRows
  rw [hostDivf_apply, hostReduceAdd_apply, Ideal.hostReduceAdd_total _ (fun b => b.elim0), constant_apply, constant_apply, sum_idx2]
  refine congrArg (fun s => Ideal.div (Ideal.ofBits .f32 0x00000000#32 + s) _) (Finset.sum_congr rfl fun n _ => ?_)
  rw [Fin.sum_univ_one]

end Cert.KernelIdeal.KV

end
-- ==== Proof.Arrays1.lean ====
/-
  Region 1's result arrays after the region, as whole-array functions of the row. A result column's block is written
  back once per row tile, after the tile's last vocabulary point; the four blocks tile the 2048 rows. So if at each
  such point the staged column holds, at row p of the tile, `f` of the array's row 512 (t / 125) + p, then the array
  ends holding `f` of the row everywhere.
-/
import proofs.«136119_j22101901705770_1_alg».proof.Proof.Blocks1

set_option maxRecDepth 16384

noncomputable section

namespace Cert.KernelIdeal.JsdV

open Cert.KernelIdeal Cert.KernelIdeal.Gen Cert.KernelIdeal.JsdK
open Idealize.ShloMosaic Idealize.ShloMosaic.TcCoe Idealize.ShloMosaic.ValueIdx
open Idealize.SL.Sem
open Idealize.ShloMosaic.Pipeline (Dat)

variable {F : FTy → Type} [FloatOps F]
variable (V : (c : Dev nD) → (b : Ref sig .tc) → Buf (Elt F) ((c : Thread nD τ).loc b))

theorem oidx1_8 : ∀ t : Fin cfg1.N, win1_8.index t (0 : Fin 2) = t.val / 125 ∧ win1_8.index t (1 : Fin 2) = 0 :=
  (by decide +kernel : ∀ t : Fin grid1.N, win1_8.index t (0 : Fin 2) = t.val / 125 ∧ win1_8.index t (1 : Fin 2) = 0)

/-- An index of the array is in point t's block iff each coordinate is in the block's range on its axis. -/
theorem mem_blk1_8 (t : Fin cfg1.N) (i : S2048x1.Idx) :
    i ∈ ((cfg1.win 8).blk t).view.set ↔ ∀ a : Fin 2, win1_8.index t a * S512x1.size a ≤ (i a).val ∧ (i a).val < win1_8.index t a * S512x1.size a + S512x1.size a := by
  show i ∈ ((View.whole main_v7).slice (win1_8.rect t)).set ↔ _
  rw [View.set_slice_whole, Rect.mem_set_unit]
  exact Iff.rfl

/-- Window 8's array after the region, from what its staged column holds at each tile's last point. -/
theorem final1_8 (c : Dev nD) (f : Fin 2048 → Elt F .f32)
    (hrow : ∀ (t : Fin cfg1.N), t.val % 125 = 124 → ∀ p : Fin 512,
      ((outsAt1 V c t.val t.isLt).1) (ix2 p (0 : Fin 1)) = f ⟨512 * (t.val / 125) + p.val, rowBound1 t p⟩) :
    (dat1 V c).arrAt 8 cfg1.N = fun i : S2048x1.Idx => f ⟨(i 0).val, (i 0).isLt⟩ := by
  refine (dat1 V c).arrAt_eq_of_cover 8 _ (fun t hf => ?_) (fun i => ?_)
  · have h124 : t.val % 125 = 124 := (flush1_8 t).mp hf
    show (cfg1.win 8).cut (grid1.coords t) ((dat1 V c).after 8 t) = _
    rw [after1_8]
    funext y
    obtain ⟨p, u, rfl⟩ : ∃ (p : Fin 512) (u : Fin 1), y = ix2 p u := ⟨y 0, y 1, eq_ix2 y⟩
    obtain rfl : u = 0 := Subsingleton.elim _ _
    rw [View.read_apply]
    refine (hrow t h124 p).trans (congrArg f (Fin.ext ?_))
    show 512 * (t.val / 125) + p.val = win1_8.index t 0 * 512 + 1 * p.val
    rw [(oidx1_8 t).1]; omega
  · have hi0 : (i 0).val < 2048 := (i 0).isLt
    have hi1 : (i 1).val < 1 := (i 1).isLt
    have hN : cfg1.N = 500 := N_1
    refine ⟨⟨125 * ((i 0).val / 512) + 124, by omega⟩, (flush1_8 _).mpr (by show (125 * ((i 0).val / 512) + 124) % 125 = 124; omega), ?_⟩
    rw [mem_blk1_8]
    intro a
    match a with
    | ⟨0, _⟩ =>
      show win1_8.index _ (0 : Fin 2) * 512 ≤ (i 0).val ∧ (i 0).val < win1_8.index _ (0 : Fin 2) * 512 + 512
      rw [(oidx1_8 _).1]
      show (125 * ((i 0).val / 512) + 124) / 125 * 512 ≤ (i 0).val ∧ (i 0).val < (125 * ((i 0).val / 512) + 124) / 125 * 512 + 512
      omega
    | ⟨1, _⟩ =>
      show win1_8.index _ (1 : Fin 2) * 1 ≤ (i 1).val ∧ (i 1).val < win1_8.index _ (1 : Fin 2) * 1 + 1
      rw [(oidx1_8 _).2]; omega

end Cert.KernelIdeal.JsdV

end
-- ==== Proof.JsdPieces.lean ====
/-
  What each case of the accumulation call's body leaves, as the skeleton's arithmetic of the blocks: at a sweep's middle
  and last points the accumulator ends at the update `k1_pay1` of the six tiles computed from the eight input blocks and
  of what the accumulator held before; at a sweep's first point at the same update of the reset value `k1_pay2`; and at
  a sweep's last point the output's buffer ends at what the accumulator was just left at.
-/
import proofs.«136119_j22101901705770_1_alg».proof.Proof.KI.JsdFrame
import Idealize.ShloMosaic.Lib.Pipeline.Value

set_option maxRecDepth 16384
set_option synthInstance.maxSize 4096

noncomputable section

namespace Cert.KernelIdeal.JsdV

open Cert.KernelIdeal Cert.KernelIdeal.Gen Cert.KernelIdeal.JsdK
open Idealize.ShloMosaic Idealize.ShloMosaic.TcCoe Idealize.ShloMosaic.Tactic
open Idealize.SL Idealize.SL.Sem
open Idealize.ShloMosaic.Pipeline (Dat Cfg Window)

variable {F : FTy → Type} [FloatOps F]

theorem hz : (![0, 0] : Fin 2 → Nat) = fun _ => 0 := funext fun a => by fin_cases a <;> rfl

/-- One point's new running total: the update of `acc` by the six tiles computed from the eight input blocks (the two
    heads' log-probabilities, probabilities and half-weighted probabilities). -/
abbrev stepOf (x0 x1 : Vec F S512x4096 .bf16) (x2 x3 : Vec F S256x4096 .bf16) (x4 x5 : Vec F S1x256 .f32) (x6 x7 : Vec F S512x1 .f32)
    (acc : Vec F S512x1 .f32) : FVec F S512x1 .f32 :=
  k1_pay1 (k1_pay3 x0 x2 x4 x6) (k1_pay4 x1 x3 x5 x7) (k1_pay5 x1 x3 x5 x7) (k1_pay6 x0 x2 x4 x6) (k1_pay7 x1 x3 x5 x7) (k1_pay8 x0 x2 x4 x6) acc

set_option maxHeartbeats 2000000 in
/-- A sweep's middle point leaves the accumulator at the update of what it held. -/
theorem sout1_B_eq (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) :
    sout1_B c i arg2 harg2 arg3 harg3 arg4 harg4 arg5 harg5 arg6 harg6 arg7 harg7 arg8 harg8 arg9 harg9 arg10 harg10 arg11 harg11 hc0 hc1 x0 x1 x2 x3 x4 x5 x6 x7 xs = stepOf x0 x1 x2 x3 x4 x5 x6 x7 xs := by
  unfold sout1_B
  rw [View.read_writes_eq_canon _ _ _ (scover1_B c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun1_B
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) hz, View.ld_unit_zero (S := S256x4096) hz, View.ld_unit_zero (S := S1x256) hz, View.ld_unit_zero (S := S512x1) hz]

set_option maxHeartbeats 2000000 in
/-- A sweep's last point leaves the accumulator at the update of what it held, -/
theorem sout1_C_eq (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) :
    sout1_C c i arg2 harg2 arg3 harg3 arg4 harg4 arg5 harg5 arg6 harg6 arg7 harg7 arg8 harg8 arg9 harg9 arg10 harg10 arg11 harg11 hc0 hc1 x0 x1 x2 x3 x4 x5 x6 x7 xs = stepOf x0 x1 x2 x3 x4 x5 x6 x7 xs := by
  unfold sout1_C
  rw [View.read_writes_eq_canon _ _ _ (scover1_C c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun1_C
  dsimp only
  sl_unfold_words
  rw [View.canon_unit_zero (S := S512x1) hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) hz, View.ld_unit_zero (S := S256x4096) hz, View.ld_unit_zero (S := S1x256) hz, View.ld_unit_zero (S := S512x1) hz]

set_option maxHeartbeats 2000000 in
/-- and the output's buffer at that same value: the accumulator just stored, read back. -/
theorem out1_C_8_eq (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : ¬sweepStart i) (hc1 : sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) (xs : Vec F S512x1 .f32) :
    out1_C_8 c i arg2 harg2 arg3 harg3 arg4 harg4 arg5 harg5 arg6 harg6 arg7 harg7 arg8 harg8 arg9 harg9 arg10 harg10 arg11 harg11 hc0 hc1 x0 x1 x2 x3 x4 x5 x6 x7 xs = stepOf x0 x1 x2 x3 x4 x5 x6 x7 xs := by
  unfold out1_C_8
  rw [View.read_writes_eq_canon _ _ _ (cover1_C_8 c i arg2 harg2 arg3 harg3 arg4 harg4 arg5 harg5 arg6 harg6 arg7 harg7 arg8 harg8 arg9 harg9 arg10 harg10 arg11 harg11 hc0 hc1 x0 x1 x2 x3 x4 x5 x6 x7 xs)]
  unfold kernelRun1_C
  dsimp only
  sl_unfold_words
  rw [View.canon_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) hz, View.ld_unit_zero (S := S256x4096) hz, View.ld_unit_zero (S := S1x256) hz, View.ld_unit_zero (S := S512x1) hz]

set_option maxHeartbeats 2000000 in
/-- A sweep's first point leaves the accumulator at the update of the reset value. -/
theorem sout1_A_eq (c : Dev nD) (i : grid1.Coords) (arg2 : Memref sig .tc .vmem S512x4096 .bf16) (harg2 : arg2.IsWhole) (arg3 : Memref sig .tc .vmem S512x4096 .bf16) (harg3 : arg3.IsWhole) (arg4 : Memref sig .tc .vmem S256x4096 .bf16) (harg4 : arg4.IsWhole) (arg5 : Memref sig .tc .vmem S256x4096 .bf16) (harg5 : arg5.IsWhole) (arg6 : Memref sig .tc .vmem S1x256 .f32) (harg6 : arg6.IsWhole) (arg7 : Memref sig .tc .vmem S1x256 .f32) (harg7 : arg7.IsWhole) (arg8 : Memref sig .tc .vmem S512x1 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1 .f32) (harg11 : arg11.IsWhole) (hc0 : sweepStart i) (hc1 : ¬sweepEnd i)
    (x0 : Vec F S512x4096 .bf16) (x1 : Vec F S512x4096 .bf16) (x2 : Vec F S256x4096 .bf16) (x3 : Vec F S256x4096 .bf16) (x4 : Vec F S1x256 .f32) (x5 : Vec F S1x256 .f32) (x6 : Vec F S512x1 .f32) (x7 : Vec F S512x1 .f32) :
    sout1_A c i arg2 harg2 arg3 harg3 arg4 harg4 arg5 harg5 arg6 harg6 arg7 harg7 arg8 harg8 arg9 harg9 arg10 harg10 arg11 harg11 hc0 hc1 x0 x1 x2 x3 x4 x5 x6 x7 = stepOf x0 x1 x2 x3 x4 x5 x6 x7 (k1_pay2 (F := F)) := by
  unfold sout1_A
  rw [View.read_writes_eq_canon _ _ _ (scover1_A c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun1_A
  dsimp only
  sl_unfold_words
  rw [View.canon_cons_unit_zero (S := S512x1) hz, View.readCov_unit_zero (S := S512x1) _ hz]
  simp only [View.readAt_eq_ld, harg2.read_unread, harg3.read_unread, harg4.read_unread, harg5.read_unread, harg6.read_unread, harg7.read_unread, harg8.read_unread, harg9.read_unread, harg10.read_unread, harg11.read_unread, View.ld_unit_zero (S := S512x4096) hz, View.ld_unit_zero (S := S256x4096) hz, View.ld_unit_zero (S := S1x256) hz, View.ld_unit_zero (S := S512x1) hz]

end Cert.KernelIdeal.JsdV

end
-- ==== Proof.JsdPay.lean ====
/-
  The accumulation kernel's arithmetic, read at a row of the tile, over the extended reals.

  A head's log-probabilities of a tile: entry (p, k) is the tile's score there (row p of the activations block against
  row k of the weights block over the hidden axis, plus the bias entry k) less row p's log-sum-exp. With `lp`, `lq` the
  two heads' log-probabilities of row p, `P = exp lp`, `Q = exp lq` and the weight `h` (the word of one half), one
  point adds to row p's running total
      h * ∑ P * (lp - log (h * P + h * Q)) + h * ∑ Q * (lq - log (h * P + h * Q)),
  the tile's share of the row's divergence.
-/
import proofs.«136119_j22101901705770_1_alg».proof.Proof.StatsPay

noncomputable section

namespace Cert.KernelIdeal.JsdV

open Cert.KernelIdeal Cert.KernelIdeal.Gen
open Idealize.ShloMosaic Idealize.ShloMosaic.ValueIdx Idealize.ShloMosaic.ColumnIdx

/-- The first head's log-probability at (p, k): the score less the row's log-sum-exp. -/
theorem pay3_at (x : Vec Ideal S512x4096 .bf16) (w : Vec Ideal S256x4096 .bf16) (b : Vec Ideal S1x256 .f32) (lse : Vec Ideal S512x1 .f32)
    (p : Fin 512) (k : Fin 256) :
    k1_pay3 (F := Ideal) x w b lse (ix2 p k) = Pay.score x w b p k - lse (ix2 p (0 : Fin 1)) := by
  unfold k1_pay3 Pay.score
  rw [shapeCast_self, shapeCast_self, shapeCast_self, shapeCast_self, subf_apply, addf_apply, broadcastTo_1b_ab_apply,
    broadcastTo_a1_ab_apply, Pay.product_at]

/-- The second head's log-probability at (p, k). -/
theorem pay4_at (x : Vec Ideal S512x4096 .bf16) (w : Vec Ideal S256x4096 .bf16) (b : Vec Ideal S1x256 .f32) (lse : Vec Ideal S512x1 .f32)
    (p : Fin 512) (k : Fin 256) :
    k1_pay4 (F := Ideal) x w b lse (ix2 p k) = Pay.score x w b p k - lse (ix2 p (0 : Fin 1)) := by
  unfold k1_pay4 Pay.score
  rw [shapeCast_self, shapeCast_self, shapeCast_self, shapeCast_self, subf_apply, addf_apply, broadcastTo_1b_ab_apply,
    broadcastTo_a1_ab_apply, Pay.product_at]

/-- The second head's probability at (p, k). -/
theorem pay5_at (x : Vec Ideal S512x4096 .bf16) (w : Vec Ideal S256x4096 .bf16) (b : Vec Ideal S1x256 .f32) (lse : Vec Ideal S512x1 .f32)
    (p : Fin 512) (k : Fin 256) :
    k1_pay5 (F := Ideal) x w b lse (ix2 p k) = Ideal.exp (Pay.score x w b p k - lse (ix2 p (0 : Fin 1))) := by
  unfold k1_pay5
  show Ideal.exp (k1_pay4 (F := Ideal) x w b lse (ix2 p k)) = _
  rw [pay4_at]

/-- The first head's probability at (p, k). -/
theorem pay6_at (x : Vec Ideal S512x4096 .bf16) (w : Vec Ideal S256x4096 .bf16) (b : Vec Ideal S1x256 .f32) (lse : Vec Ideal S512x1 .f32)
    (p : Fin 512) (k : Fin 256) :
    k1_pay6 (F := Ideal) x w b lse (ix2 p k) = Ideal.exp (Pay.score x w b p k - lse (ix2 p (0 : Fin 1))) := by
  unfold k1_pay6
  show Ideal.exp (k1_pay3 (F := Ideal) x w b lse (ix2 p k)) = _
  rw [pay3_at]

/-- The second head's probability weighted by one half, at (p, k). -/
theorem pay7_at (x : Vec Ideal S512x4096 .bf16) (w : Vec Ideal S256x4096 .bf16) (b : Vec Ideal S1x256 .f32) (lse : Vec Ideal S512x1 .f32)
    (p : Fin 512) (k : Fin 256) :
    k1_pay7 (F := Ideal) x w b lse (ix2 p k)
      = Ideal.ofBits .f32 0x3F000000#32 * Ideal.exp (Pay.score x w b p k - lse (ix2 p (0 : Fin 1))) := by
  unfold k1_pay7
  show Ideal.ofBits .f32 0x3F000000#32 * k1_pay5 (F := Ideal) x w b lse (ix2 p k) = _
  rw [pay5_at]

/-- The first head's probability weighted by one half, at (p, k). -/
theorem pay8_at (x : Vec Ideal S512x4096 .bf16) (w : Vec Ideal S256x4096 .bf16) (b : Vec Ideal S1x256 .f32) (lse : Vec Ideal S512x1 .f32)
    (p : Fin 512) (k : Fin 256) :
    k1_pay8 (F := Ideal) x w b lse (ix2 p k)
      = Ideal.ofBits .f32 0x3F000000#32 * Ideal.exp (Pay.score x w b p k - lse (ix2 p (0 : Fin 1))) := by
  unfold k1_pay8
  show Ideal.ofBits .f32 0x3F000000#32 * k1_pay6 (F := Ideal) x w b lse (ix2 p k) = _
  rw [pay6_at]

/-- What the reset stores: the zero word. -/
theorem pay2_at (j : S512x1.Idx) : k1_pay2 (F := Ideal) j = Ideal.ofBits .f32 0x00000000#32 := by
  unfold k1_pay2; rw [shapeCast_self]; rfl

/-- One point's update of the running total at row p, from the six tiles it is computed from: the total so far plus
    one half of the lane sum of `P * (lp - log (hP + hQ))` plus one half of the lane sum of `Q * (lq - log (hP + hQ))`. -/
theorem pay1_at (lq lp P Q hP hQ : FVec Ideal S512x256 .f32) (acc : Vec Ideal S512x1 .f32) (p : Fin 512) :
    k1_pay1 (F := Ideal) lq lp P Q hP hQ acc (ix2 p (0 : Fin 1))
      = acc (ix2 p (0 : Fin 1))
        + (Ideal.ofBits .f32 0x3F000000#32 * (∑ k : Fin 256, P (ix2 p k) * (lp (ix2 p k) - Ideal.log (hP (ix2 p k) + hQ (ix2 p k))))
          + Ideal.ofBits .f32 0x3F000000#32 * (∑ k : Fin 256, Q (ix2 p k) * (lq (ix2 p k) - Ideal.log (hP (ix2 p k) + hQ (ix2 p k))))) := by
  unfold k1_pay1
  dsimp only
  rw [shapeCast_self]
  refine congrArg₂ (· + ·) rfl (congrArg₂ (· + ·) (congrArg₂ (· * ·) rfl ?_) (congrArg₂ (· * ·) rfl ?_))
  · rw [shapeCast_a_a1_apply]
    exact rowSum_apply _ reduces_S512x256_S512 (.inl rfl) rfl p
  · rw [shapeCast_a_a1_apply]
    exact rowSum_apply _ reduces_S512x256_S512 (.inl rfl) rfl p

/-- ONE POINT'S UPDATE OF THE RUNNING TOTAL at row p is the total so far plus the tile's share of the row's divergence,
    from the first head's blocks (activations `x0`, weights `x2`, bias `x4`, log-sum-exp column `lses`) and the second's
    (`x1`, `x3`, `x5`, `lset`). -/
theorem share_at (x0 x1 : Vec Ideal S512x4096 .bf16) (x2 x3 : Vec Ideal S256x4096 .bf16) (x4 x5 : Vec Ideal S1x256 .f32)
    (lses lset acc : Vec Ideal S512x1 .f32) (p : Fin 512) :
    k1_pay1 (F := Ideal) (k1_pay3 x0 x2 x4 lses) (k1_pay4 x1 x3 x5 lset) (k1_pay5 x1 x3 x5 lset) (k1_pay6 x0 x2 x4 lses)
        (k1_pay7 x1 x3 x5 lset) (k1_pay8 x0 x2 x4 lses) acc (ix2 p (0 : Fin 1))
      = acc (ix2 p (0 : Fin 1)) + Cert.Jsd.tileTerm (Ideal.ofBits .f32 0x3F000000#32)
          (fun k => Pay.score x0 x2 x4 p k - lses (ix2 p (0 : Fin 1)))
          (fun k => Pay.score x1 x3 x5 p k - lset (ix2 p (0 : Fin 1))) := by
  rw [pay1_at]
  unfold Cert.Jsd.tileTerm
  refine congrArg₂ (· + ·) rfl (congrArg₂ (· + ·) (congrArg₂ (· * ·) rfl (Finset.sum_congr rfl fun k _ => ?_))
    (congrArg₂ (· * ·) rfl (Finset.sum_congr rfl fun k _ => ?_)))
  · rw [pay5_at, pay4_at, pay7_at, pay8_at]
  · rw [pay6_at, pay3_at, pay7_at, pay8_at]

end Cert.KernelIdeal.JsdV

end
-- ==== Proof.JsdRows.lean ====
/-
  The accumulation call row by row, over the extended reals. At every grid point, row p of the accumulator holds the
  row's running total of divergence shares: reset at a sweep's first point, the tile's share added at every point
  (`Pay.afold` of the row's shares `term`); and at a sweep's last point the output's buffer holds that same total. By
  induction over the grid's points, the three cases of the body read through what their stores leave.
-/
import proofs.«136119_j22101901705770_1_alg».proof.Proof.JsdPieces
import proofs.«136119_j22101901705770_1_alg».proof.Proof.JsdPay
import proofs.«136119_j22101901705770_1_alg».proof.Proof.Rec

set_option maxRecDepth 16384
set_option synthInstance.maxSize 4096

noncomputable section

namespace Cert.KernelIdeal.JsdV

open Cert.KernelIdeal Cert.KernelIdeal.Gen Cert.KernelIdeal.JsdK
open Idealize.ShloMosaic Idealize.ShloMosaic.TcCoe Idealize.ShloMosaic.ValueIdx Idealize.ShloMosaic.ColumnIdx
open Idealize.SL Idealize.SL.Sem
open Idealize.ShloMosaic.Pipeline (Dat Cfg Window)

-- the core's buffer contents when the call is entered
variable (V : (c : Dev nD) → (b : Ref sig .tc) → Buf (Elt Ideal) ((c : Thread nD τ).loc b))

/-- Row p's share of divergence at grid point `n`: from the point's blocks, the first head's log-probabilities (the
    scores of windows 0, 2, 4 less window 6's entry of the row) and the second's (windows 1, 3, 5 less window 7's). -/
def term (c : Dev nD) (p : Fin 512) : ℕ → EReal := fun n =>
  if h : n < cfg1.N then
    Cert.Jsd.tileTerm (Ideal.ofBits .f32 0x3F000000#32)
      (fun k => Pay.score (iblk1 V c 0 ⟨n, h⟩) (iblk1 V c 2 ⟨n, h⟩) (iblk1 V c 4 ⟨n, h⟩) p k - iblk1 V c 6 ⟨n, h⟩ (ix2 p (0 : Fin 1)))
      (fun k => Pay.score (iblk1 V c 1 ⟨n, h⟩) (iblk1 V c 3 ⟨n, h⟩) (iblk1 V c 5 ⟨n, h⟩) p k - iblk1 V c 7 ⟨n, h⟩ (ix2 p (0 : Fin 1)))
  else 0

theorem term_of_lt (c : Dev nD) (p : Fin 512) (n : ℕ) (h : n < cfg1.N) :
    term V c p n = Cert.Jsd.tileTerm (Ideal.ofBits .f32 0x3F000000#32)
      (fun k => Pay.score (iblk1 V c 0 ⟨n, h⟩) (iblk1 V c 2 ⟨n, h⟩) (iblk1 V c 4 ⟨n, h⟩) p k - iblk1 V c 6 ⟨n, h⟩ (ix2 p (0 : Fin 1)))
      (fun k => Pay.score (iblk1 V c 1 ⟨n, h⟩) (iblk1 V c 3 ⟨n, h⟩) (iblk1 V c 5 ⟨n, h⟩) p k - iblk1 V c 7 ⟨n, h⟩ (ix2 p (0 : Fin 1))) :=
  dif_pos h

set_option maxHeartbeats 4000000 in
/-- After every point, row p of the accumulator is the row's running total. -/
theorem acc_at (c : Dev nD) (p : Fin 512) : ∀ (n : ℕ) (hn : n < cfg1.N),
    (outsAt1 V c n hn).2 (ix2 p (0 : Fin 1)) = Pay.afold (term V c p) n := by
  intro n
  induction n with
  | zero =>
    intro hn
    have z0 : (⟨0, hn⟩ : Fin cfg1.N).val % 125 = 0 := Nat.zero_mod _
    have z1 : ¬(⟨0, hn⟩ : Fin cfg1.N).val % 125 = 124 := fun h => absurd (show 0 % 125 = 124 from h) (by decide)
    refine (congrArg (fun q => q.2 (ix2 p (0 : Fin 1))) (outsAt1_A V c ⟨0, hn⟩ z0 z1)).trans ?_
    refine (congrFun (sout1_A_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) scM1 (Memref.isWhole_whole _) ((sweepStart_iff ⟨0, hn⟩).mpr z0) (fun h => z1 ((sweepEnd_iff ⟨0, hn⟩).mp h)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩)) (ix2 p (0 : Fin 1))).trans ?_
    refine (share_at (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (k1_pay2 (F := Ideal)) p).trans ?_
    rw [pay2_at, Pay.afold_start _ _ (Nat.zero_mod _), term_of_lt V c p 0 hn]
  | succ n ih =>
    intro hn
    have hprev : ∀ (hk : n + 1 - 1 < cfg1.N), (outsAt1 V c (n + 1 - 1) hk).2 (ix2 p (0 : Fin 1)) = Pay.afold (term V c p) (n + 1 - 1) := by
      rw [Nat.add_sub_cancel]; exact ih
    by_cases h0 : (n + 1) % 125 = 0
    · have h1 : ¬(n + 1) % 125 = 124 := by omega
      refine (congrArg (fun q => q.2 (ix2 p (0 : Fin 1))) (outsAt1_A V c ⟨n + 1, hn⟩ h0 h1)).trans ?_
      refine (congrFun (sout1_A_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) ((sweepStart_iff ⟨n + 1, hn⟩).mpr h0) (fun h => h1 ((sweepEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩)) (ix2 p (0 : Fin 1))).trans ?_
      refine (share_at (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (k1_pay2 (F := Ideal)) p).trans ?_
      rw [pay2_at, Pay.afold_start _ _ h0, term_of_lt V c p (n + 1) hn]
    · by_cases h1 : (n + 1) % 125 = 124
      · -- a sweep's last point
        refine (congrArg (fun q => q.2 (ix2 p (0 : Fin 1))) (outsAt1_C V c ⟨n + 1, hn⟩ h0 h1)).trans ?_
        refine (congrFun (sout1_C_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((sweepStart_iff ⟨n + 1, hn⟩).mp h)) ((sweepEnd_iff ⟨n + 1, hn⟩).mpr h1) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) _) (ix2 p (0 : Fin 1))).trans ?_
        refine (share_at (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) _ p).trans ?_
        rw [Pay.afold_next _ _ h0, term_of_lt V c p (n + 1) hn]
        exact congrArg (fun z => z + _) (hprev _)
      · -- a sweep's middle point
        refine (congrArg (fun q => q.2 (ix2 p (0 : Fin 1))) (outsAt1_B V c ⟨n + 1, hn⟩ h0 h1)).trans ?_
        refine (congrFun (sout1_B_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) scM1 (Memref.isWhole_whole _) (fun h => h0 ((sweepStart_iff ⟨n + 1, hn⟩).mp h)) (fun h => h1 ((sweepEnd_iff ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) _) (ix2 p (0 : Fin 1))).trans ?_
        refine (share_at (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) _ p).trans ?_
        rw [Pay.afold_next _ _ h0, term_of_lt V c p (n + 1) hn]
        exact congrArg (fun z => z + _) (hprev _)

/-- After point `t`, row p of the accumulator is the row's running total. -/
theorem acc_row (c : Dev nD) (t : Fin cfg1.N) (p : Fin 512) :
    (outsAt1 V c t.val t.isLt).2 (ix2 p (0 : Fin 1)) = Pay.afold (term V c p) t.val :=
  acc_at V c p t.val t.isLt

set_option maxHeartbeats 4000000 in
/-- At a sweep's last point the output's buffer holds what the accumulator was just left at: the row's running total. -/
theorem out8_row (c : Dev nD) (t : Fin cfg1.N) (h : t.val % 125 = 124) (p : Fin 512) :
    (outsAt1 V c t.val t.isLt).1 (ix2 p (0 : Fin 1)) = Pay.afold (term V c p) t.val := by
  have h0 : ¬t.val % 125 = 0 := by omega
  refine Eq.trans ?_ (acc_row V c t p)
  rw [outsAt1_C V c t h0 h]
  dsimp only
  exact (congrFun (out1_C_8_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((sweepStart_iff t).mp h)) ((sweepEnd_iff t).mpr h) (iblk1 V c 0 t) (iblk1 V c 1 t) (iblk1 V c 2 t) (iblk1 V c 3 t) (iblk1 V c 4 t) (iblk1 V c 5 t) (iblk1 V c 6 t) (iblk1 V c 7 t) _) (ix2 p (0 : Fin 1))).trans
    (congrFun (sout1_C_eq c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) scM1 (Memref.isWhole_whole _) (fun h => h0 ((sweepStart_iff t).mp h)) ((sweepEnd_iff t).mpr h) (iblk1 V c 0 t) (iblk1 V c 1 t) (iblk1 V c 2 t) (iblk1 V c 3 t) (iblk1 V c 4 t) (iblk1 V c 5 t) (iblk1 V c 6 t) (iblk1 V c 7 t) _) (ix2 p (0 : Fin 1))).symm

end Cert.KernelIdeal.JsdV

end
-- ==== Proof.LibFiniteReal.lean ====
/-
  From "every entry's absolute value compares below +∞" to "every entry is a real number", at the ideal instance.

  A printed finiteness precondition asks, array by array, `jnp.all(jnp.abs(x) < inf)`: a host `abs`, a comparison against the
  broadcast word of +∞, and an all-reduce by `and` into a scalar. `posInf`: that word denotes ⊤. `real_of_abs_lt`: an
  extended real whose absolute value `max x (-x)` compares below ⊤ is neither infinity, hence a real. `all_real`: if the
  and-reduce of the comparisons over the whole array is 1, every entry of the array is real — for any shape and any list
  of reduced axes, the result a scalar. A certificate opens its own precondition's conjunction (`IntOp.andi_eq_one`) and
  hands each conjunct to `all_real`.
-/
import Idealize.ShloMosaic.Lib.ReduceAll
import Idealize.ShloMosaic.Lib.Affine
import Idealize.ShloMosaic.Lib.ValueIdx
import Idealize.ShloMosaic.PureOps.Ideal.Laws

noncomputable section

namespace FiniteReal

open Idealize.ShloMosaic Idealize.ShloMosaic.ValueIdx

/-- A scalar has one index. -/
instance scalarIdx_subsingleton : Subsingleton (⟨0, ![]⟩ : Shape).Idx := ⟨fun _ _ => funext fun d => d.elim0⟩

/-- The word of +∞ denotes the top of the extended reals. -/
theorem posInf : Ideal.ofBits .f32 0x7F800000#32 = (⊤ : EReal) := by simp [Ideal.ofBits, Ideal.ieee]

/-- An extended real whose absolute value compares below +∞ is a real number. -/
theorem real_of_abs_lt (x : EReal) (h : Ideal.cmp .olt (max x (-x)) (Ideal.ofBits .f32 0x7F800000#32) = 1#1) :
    ∃ r : ℝ, x = (r : EReal) := by
  rw [posInf] at h
  have hlt : max x (-x) < ⊤ := by
    by_contra hn
    have : Ideal.cmp .olt (max x (-x)) ⊤ = 0#1 := by
      unfold Ideal.cmp
      simp [hn]
    rw [this] at h
    exact absurd h (by decide)
  have h1 : x ≠ ⊤ := fun e => by rw [e] at hlt; simp at hlt
  have h2 : x ≠ ⊥ := fun e => by rw [e] at hlt; simp at hlt
  exact ⟨x.toReal, (EReal.coe_toReal h1 h2).symm⟩

/-- One array's answer: if all its entries' absolute values compare below +∞, every entry is real. -/
theorem all_real {s : Shape} {axes : List (Fin s.rank)} (x : FVec Ideal s .f32)
    (hb : (⟨0, ![]⟩ : Shape).BroadcastsInDim s (![] : Fin 0 → Fin s.rank))
    (h : s.ReducesTo axes (⟨0, ![]⟩ : Shape)) (hu : 0 < (⟨0, ![]⟩ : Shape).numel) (init : IVec (⟨0, ![]⟩ : Shape) 1)
    (e : Host.reduce IntOp.andi (cmpf .olt (Host.absf x)
      (broadcastInDim s ![] hb (constant (F := Ideal) (⟨0, ![]⟩ : Shape) .f32 0x7F800000#32))) init h hu ix0 = 1#1)
    (i : s.Idx) : ∃ r : ℝ, x i = (r : EReal) :=
  real_of_abs_lt (x i) (Host.reduce_andi_all _ init h hu ix0 e i)

end FiniteReal

end
-- ==== Proof.Finite.lean ====
/-
  The printed finiteness precondition, decoded: if it answers 1, every entry of each of the six argument arrays is a
  real number.

  The precondition is the conjunction, array by array, of "every entry's absolute value compares below +∞"; an
  extended real whose absolute value is below +∞ is neither infinity, hence a real number.
-/
import proofs.«136119_j22101901705770_1_alg».proof.Pre_finite_inputs
import proofs.«136119_j22101901705770_1_alg».proof.Proof.LibFiniteReal

noncomputable section

namespace Cert.Jsd

open Idealize.ShloMosaic Cert.Pre_finite_inputs

/-- If the printed precondition answers 1 on six arrays of extended reals, every entry of each array is a real number:
    the answer is the conjunction of the six arrays' answers, and each array's answer is 1 only if each of its entries
    has an absolute value below +∞. -/
theorem real_of_pre [hP : Cert.Pre_finite_inputs.Facts]
    (a0 a1 : (⟨S2048x4096, .f32⟩ : BufTy).Contents (Elt Ideal))
    (a2 : (⟨S32000x4096, .f32⟩ : BufTy).Contents (Elt Ideal))
    (a3 : (⟨S32000, .f32⟩ : BufTy).Contents (Elt Ideal))
    (a4 : (⟨S32000x4096, .f32⟩ : BufTy).Contents (Elt Ideal))
    (a5 : (⟨S32000, .f32⟩ : BufTy).Contents (Elt Ideal))
    (h : Cert.Pre_finite_inputs.fn (F := Ideal) a0 a1 a2 a3 a4 a5 = fun _ => 1#1) :
    (∀ i, ∃ r : ℝ, a0 i = (r : EReal)) ∧ (∀ i, ∃ r : ℝ, a1 i = (r : EReal)) ∧ (∀ i, ∃ r : ℝ, a2 i = (r : EReal))
      ∧ (∀ i, ∃ r : ℝ, a3 i = (r : EReal)) ∧ (∀ i, ∃ r : ℝ, a4 i = (r : EReal)) ∧ (∀ i, ∃ r : ℝ, a5 i = (r : EReal)) := by
  have h0 := congrFun h ValueIdx.ix0
  dsimp only [Cert.Pre_finite_inputs.fn, Cert.Pre_finite_inputs.fn_part1, Idealize.ShloMosaic.andi] at h0
  simp only [IntOp.andi_eq_one] at h0
  obtain ⟨⟨⟨⟨⟨e0, e1⟩, e2⟩, e3⟩, e4⟩, e5⟩ := h0
  exact ⟨FiniteReal.all_real a0 _ _ _ _ e0, FiniteReal.all_real a1 _ _ _ _ e1, FiniteReal.all_real a2 _ _ _ _ e2,
    FiniteReal.all_real a3 _ _ _ _ e3, FiniteReal.all_real a4 _ _ _ _ e4, FiniteReal.all_real a5 _ _ _ _ e5⟩

end Cert.Jsd

end
-- ==== Proof.RefG.lean ====
/-
  The reference's result as ONE function of the six argument arrays, with no program in sight.

  Row `n` of the two heads' scores is `logit` of the activations' row `n` against every vocabulary row of the
  head's weights, plus the bias, divided by the temperature (the literal `1.0`); the row's value is `rowWhole` of the
  two score rows with weight one half; the result is the rows' values added up from `0` and divided by the number of
  rows (the literal `2048.0`). The scalar result has one entry, so the function ignores its index.
-/
import proofs.«136119_j22101901705770_1_alg».proof.Proof.Spec
import Idealize.ShloMosaic.Lib.ValueIdx

noncomputable section

namespace Cert.ReferenceIdeal.RefValue

open Idealize.ShloMosaic Idealize.ShloMosaic.ValueIdx

/-- THE RESULT, from the arguments in the entry point's order: `a0` the first head's activations (2048 rows of 4096),
    `a1` the second head's activations, `a2` the first head's weights (32000 vocabulary rows of 4096), `a3` the first head's
    bias (32000), `a4` the second head's weights, `a5` the second head's bias. The first head is the one whose
    log-probabilities are `rowWhole`'s `zq`; the second head's are its `zp`. -/
def G (a0 a1 : (⟨⟨2, ![2048, 4096]⟩, .f32⟩ : BufTy).Contents (Elt Ideal))
    (a2 : (⟨⟨2, ![32000, 4096]⟩, .f32⟩ : BufTy).Contents (Elt Ideal)) (a3 : (⟨⟨1, ![32000]⟩, .f32⟩ : BufTy).Contents (Elt Ideal))
    (a4 : (⟨⟨2, ![32000, 4096]⟩, .f32⟩ : BufTy).Contents (Elt Ideal)) (a5 : (⟨⟨1, ![32000]⟩, .f32⟩ : BufTy).Contents (Elt Ideal)) :
    (⟨⟨0, ![]⟩, .f32⟩ : BufTy).Contents (Elt Ideal) :=
  fun _ => Ideal.div
    (Ideal.ofBits .f32 0x00000000#32 + ∑ n : Fin 2048, Cert.Jsd.rowWhole (Ideal.ofBits .f32 0x3F000000#32)
      (fun v : Fin 32000 => Ideal.div
        (Cert.Jsd.logit (fun n k => a0 (ix2 n k)) (fun v k => a2 (ix2 v k)) (fun v => a3 (ix1 v)) n v)
        (Ideal.ofBits .f32 0x3F800000#32))
      (fun v : Fin 32000 => Ideal.div
        (Cert.Jsd.logit (fun n k => a1 (ix2 n k)) (fun v k => a4 (ix2 v k)) (fun v => a5 (ix1 v)) n v)
        (Ideal.ofBits .f32 0x3F800000#32)))
    (Ideal.ofBits .f32 0x45000000#32)

end Cert.ReferenceIdeal.RefValue

end
-- ==== Proof.KFinalB.lean ====
/-
  The divergence region read off the arguments, and the program's result. Within the sweep of a tile of rows the
  region's share at each grid point is the row's share of that vocabulary tile, from the arguments' scores less the
  log-sum-exp the statistics region left; the running total after the sweep's last point is the row's divergence taken
  tile by tile, which for finite arguments is the whole-vocabulary one; the last host stretch takes the mean over the rows.
-/
import proofs.«136119_j22101901705770_1_alg».proof.Proof.KFinalA
import proofs.«136119_j22101901705770_1_alg».proof.Proof.KValue
import proofs.«136119_j22101901705770_1_alg».proof.Proof.Arrays1
import proofs.«136119_j22101901705770_1_alg».proof.Proof.JsdRows
import proofs.«136119_j22101901705770_1_alg».proof.Proof.Finite
import proofs.«136119_j22101901705770_1_alg».proof.Proof.RefG

set_option maxRecDepth 16384

noncomputable section

namespace Cert.KernelIdeal.KF

open Cert.KernelIdeal Cert.KernelIdeal.Gen Cert.KernelIdeal.Whole Cert.KernelIdeal.HostEnds
open Cert.KernelIdeal.Stats Cert.KernelIdeal.StatsV Cert.KernelIdeal.JsdK Cert.KernelIdeal.JsdV Cert.KernelIdeal.Scores
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- Two families of shares that agree on a sweep have the same running total after its last point. -/
theorem afold_congr (t1 t2 : ℕ → EReal) (ni : ℕ) (h : ∀ j, j < 125 → t1 (125 * ni + j) = t2 (125 * ni + j)) :
    Pay.afold t1 (125 * ni + 124) = Pay.afold t2 (125 * ni + 124) := by
  rw [Pay.afold_eq_sumUp Cert.Jsd.ofBits_zero t1 ni 124 (by decide), Pay.afold_eq_sumUp Cert.Jsd.ofBits_zero t2 ni 124 (by decide)]
  have : ∀ j, j ≤ 125 → Pay.sumUp (fun j => t1 (125 * ni + j)) j = Pay.sumUp (fun j => t2 (125 * ni + j)) j := by
    intro j
    induction j with
    | zero => intro _; rfl
    | succ j ih =>
      intro hj
      show Pay.sumUp (fun j => t1 (125 * ni + j)) j + t1 (125 * ni + j) = Pay.sumUp (fun j => t2 (125 * ni + j)) j + t2 (125 * ni + j)
      rw [ih (by omega), h j (by omega)]
  exact this 125 (le_refl _)

/-- The divergence region's entry contents at the six shared input arrays are the statistics region's. -/
theorem V2_v0 : C2 m r0 c main_v0 = C1 m c main_v0 := C2_in m c 0 rfl
theorem V2_v1 : C2 m r0 c main_v1 = C1 m c main_v1 := C2_in m c 1 rfl
theorem V2_v2 : C2 m r0 c main_v2 = C1 m c main_v2 := C2_in m c 2 rfl
theorem V2_v3 : C2 m r0 c main_v3 = C1 m c main_v3 := C2_in m c 3 rfl
theorem V2_v4 : C2 m r0 c main_v4 = C1 m c main_v4 := C2_in m c 4 rfl
theorem V2_v5 : C2 m r0 c main_v5 = C1 m c main_v5 := C2_in m c 5 rfl

/-- Within sweep ni the region's share at a grid point is the row's share of that tile. -/
theorem term_sweep (p : Fin 512) (ni : ℕ) (hni : ni < 4) (j : ℕ) (hj : j < 125) :
    term (C2 m r0) c p (125 * ni + j)
      = Cert.Jsd.rowTerm (scS (C1 m) c p) (scT (C1 m) c p) ni (125 * ni + j) := by
  have hN : cfg1.N = 500 := N_1
  have hN0 : cfg0.N = 500 := N_0
  have hlt : 125 * ni + j < cfg1.N := by omega
  have hlt0 : 125 * ni + j < cfg0.N := by omega
  rw [term_of_lt (C2 m r0) c p _ hlt]
  unfold Cert.Jsd.rowTerm
  have e1 : (125 * ni + j) / 125 = ni := by omega
  have eS : ∀ k, Pay.score (iblk1 (C2 m r0) c 0 ⟨125 * ni + j, hlt⟩) (iblk1 (C2 m r0) c 2 ⟨125 * ni + j, hlt⟩) (iblk1 (C2 m r0) c 4 ⟨125 * ni + j, hlt⟩) p k
      = scS (C1 m) c p (125 * ni + j) k := fun k =>
    (student_blocks1 (C2 m r0) c ⟨125 * ni + j, hlt⟩ p k _ _ _ ((V2_v0 m c).trans (C1_v0 m c)) ((V2_v2 m c).trans (C1_v2 m c)) ((V2_v4 m c).trans (C1_v4 m c))).trans
      (scS_at m c p ⟨125 * ni + j, hlt0⟩ k).symm
  have eT : ∀ k, Pay.score (iblk1 (C2 m r0) c 1 ⟨125 * ni + j, hlt⟩) (iblk1 (C2 m r0) c 3 ⟨125 * ni + j, hlt⟩) (iblk1 (C2 m r0) c 5 ⟨125 * ni + j, hlt⟩) p k
      = scT (C1 m) c p (125 * ni + j) k := fun k =>
    (teacher_blocks1 (C2 m r0) c ⟨125 * ni + j, hlt⟩ p k _ _ _ ((V2_v1 m c).trans (C1_v1 m c)) ((V2_v3 m c).trans (C1_v3 m c)) ((V2_v5 m c).trans (C1_v5 m c))).trans
      (scT_at m c p ⟨125 * ni + j, hlt0⟩ k).symm
  have r1 : (512 * ((125 * ni + j) / 125) + p.val) % 512 = p.val := by have := p.isLt; omega
  have r2 : (512 * ((125 * ni + j) / 125) + p.val) / 512 = ni := by have := p.isLt; omega
  have e6 : iblk1 (C2 m r0) c 6 ⟨125 * ni + j, hlt⟩ (ix2 p (0 : Fin 1)) = Cert.Jsd.rowLse (scS (C1 m) c p) ni := by
    rw [blk1_6_at (C2 m r0) c ⟨125 * ni + j, hlt⟩ p, lseS_col m c]
    show Cert.Jsd.rowLse (scS (C1 m) c ⟨(512 * ((125 * ni + j) / 125) + p.val) % 512, _⟩) ((512 * ((125 * ni + j) / 125) + p.val) / 512) = _
    simp only [r1, r2]
  have e7 : iblk1 (C2 m r0) c 7 ⟨125 * ni + j, hlt⟩ (ix2 p (0 : Fin 1)) = Cert.Jsd.rowLse (scT (C1 m) c p) ni := by
    rw [blk1_7_at (C2 m r0) c ⟨125 * ni + j, hlt⟩ p, lseT_col m c]
    show Cert.Jsd.rowLse (scT (C1 m) c ⟨(512 * ((125 * ni + j) / 125) + p.val) % 512, _⟩) ((512 * ((125 * ni + j) / 125) + p.val) / 512) = _
    simp only [r1, r2]
  rw [e6, e7]
  simp only [eS, eT]

end Cert.KernelIdeal.KF

end
-- ==== Proof.KFinalC.lean ====
/-
  THE PROGRAM'S RESULT. Under the precondition every argument entry is a real number, so every score is one; then each
  row's running total after its sweep is the whole-vocabulary divergence of the row's scores, and the mean over the
  rows is the reference's value `G` of the arguments.
-/
import proofs.«136119_j22101901705770_1_alg».proof.Proof.KFinalB

set_option maxRecDepth 16384

noncomputable section

namespace Cert.KernelIdeal.KF

open Cert.KernelIdeal Cert.KernelIdeal.Gen Cert.KernelIdeal.Whole Cert.KernelIdeal.HostEnds
open Cert.KernelIdeal.Stats Cert.KernelIdeal.StatsV Cert.KernelIdeal.JsdK Cert.KernelIdeal.JsdV Cert.KernelIdeal.Scores
open Idealize.ShloMosaic Idealize.ShloMosaic.TcCoe Idealize.ShloMosaic.ValueIdx
open Idealize.SL.Sem
open Idealize.ShloMosaic.Pipeline (Dat)

variable (m : (ℓ : Loc nD τ sig) → Buf (Elt Ideal) ℓ) (c : Dev nD)

/-- A head's score of row n against vocabulary entry v, over the reals. -/
def rs (x : S2048x4096.Idx → ℝ) (w : S32000x4096.Idx → ℝ) (b : S32000.Idx → ℝ) (n : Fin 2048) (v : Fin 32000) : ℝ :=
  ∑ h : Fin 4096, x (ix2 n h) * w (ix2 v h) + b (ix1 v)

theorem zq_real (x0 : S2048x4096.Idx → ℝ) (x2 : S32000x4096.Idx → ℝ) (x3 : S32000.Idx → ℝ)
    (hx0 : ∀ i, a0 m c i = ((x0 i : ℝ) : EReal)) (hx2 : ∀ i, a2 m c i = ((x2 i : ℝ) : EReal)) (hx3 : ∀ i, a3 m c i = ((x3 i : ℝ) : EReal))
    (n : Fin 2048) (v : Fin 32000) : zq m c n v = ((rs x0 x2 x3 n v : ℝ) : EReal) := by
  have e0 : (fun (n : Fin 2048) (h : Fin 4096) => a0 m c (ix2 n h)) = fun n h => ((x0 (ix2 n h) : ℝ) : EReal) := funext fun n => funext fun h => hx0 _
  have e2 : (fun (v : Fin 32000) (h : Fin 4096) => a2 m c (ix2 v h)) = fun v h => ((x2 (ix2 v h) : ℝ) : EReal) := funext fun v => funext fun h => hx2 _
  have e3 : (fun (v : Fin 32000) => a3 m c (ix1 v)) = fun v => ((x3 (ix1 v) : ℝ) : EReal) := funext fun v => hx3 _
  show Cert.Jsd.logit (fun n h => a0 m c (ix2 n h)) (fun v h => a2 m c (ix2 v h)) (fun v => a3 m c (ix1 v)) n v = _
  rw [e0, e2, e3]
  exact Cert.Jsd.logit_real (fun n h => x0 (ix2 n h)) (fun v h => x2 (ix2 v h)) (fun v => x3 (ix1 v)) n v

theorem zp_real (x1 : S2048x4096.Idx → ℝ) (x4 : S32000x4096.Idx → ℝ) (x5 : S32000.Idx → ℝ)
    (hx1 : ∀ i, a1 m c i = ((x1 i : ℝ) : EReal)) (hx4 : ∀ i, a4 m c i = ((x4 i : ℝ) : EReal)) (hx5 : ∀ i, a5 m c i = ((x5 i : ℝ) : EReal))
    (n : Fin 2048) (v : Fin 32000) : zp m c n v = ((rs x1 x4 x5 n v : ℝ) : EReal) := by
  have e0 : (fun (n : Fin 2048) (h : Fin 4096) => a1 m c (ix2 n h)) = fun n h => ((x1 (ix2 n h) : ℝ) : EReal) := funext fun n => funext fun h => hx1 _
  have e2 : (fun (v : Fin 32000) (h : Fin 4096) => a4 m c (ix2 v h)) = fun v h => ((x4 (ix2 v h) : ℝ) : EReal) := funext fun v => funext fun h => hx4 _
  have e3 : (fun (v : Fin 32000) => a5 m c (ix1 v)) = fun v => ((x5 (ix1 v) : ℝ) : EReal) := funext fun v => hx5 _
  show Cert.Jsd.logit (fun n h => a1 m c (ix2 n h)) (fun v h => a4 m c (ix2 v h)) (fun v => a5 m c (ix1 v)) n v = _
  rw [e0, e2, e3]
  exact Cert.Jsd.logit_real (fun n h => x1 (ix2 n h)) (fun v h => x4 (ix2 v h)) (fun v => x5 (ix1 v)) n v

/-- A tile row's real scores by grid point: at point n, lane k, the score of row 512 (n / 125) + p against vocabulary
    entry 256 (n % 125) + k. -/
def zreal (f : Fin 2048 → Fin 32000 → ℝ) (p : Fin 512) : ℕ → Fin 256 → ℝ := fun n k =>
  if h : n < 500 then f ⟨512 * (n / 125) + p.val, by have := p.isLt; omega⟩
      ⟨256 * (n % 125) + k.val, by have := k.isLt; have := Nat.mod_lt n (show 0 < 125 by decide); omega⟩
  else 0

theorem zreal_flat (f : Fin 2048 → Fin 32000 → ℝ) (n : Fin 2048) (v : Fin 32000) :
    zreal f ⟨n.val % 512, Nat.mod_lt _ (by decide)⟩ (125 * (n.val / 512) + v.val / 256) ⟨v.val % 256, Nat.mod_lt _ (by decide)⟩ = f n v := by
  have hn := n.isLt; have hv := v.isLt
  unfold zreal
  rw [dif_pos (by omega)]
  exact congrArg₂ f (Fin.ext (by show 512 * ((125 * (n.val / 512) + v.val / 256) / 125) + n.val % 512 = n.val; omega))
    (Fin.ext (by show 256 * ((125 * (n.val / 512) + v.val / 256) % 125) + v.val % 256 = v.val; omega))

theorem scS_real (fq : Fin 2048 → Fin 32000 → ℝ) (hq : ∀ n v, zq m c n v = ((fq n v : ℝ) : EReal)) (p : Fin 512) (n : ℕ) (k : Fin 256) :
    scS (C1 m) c p n k = ((zreal fq p n k : ℝ) : EReal) := by
  have hN0 : cfg0.N = 500 := N_0
  unfold zreal
  by_cases h : n < 500
  · rw [dif_pos h, scS_at m c p ⟨n, by omega⟩ k]
    exact hq _ _
  · rw [dif_neg h]
    unfold scS
    rw [dif_neg (by omega)]
    rfl

theorem scT_real (fp : Fin 2048 → Fin 32000 → ℝ) (hp : ∀ n v, zp m c n v = ((fp n v : ℝ) : EReal)) (p : Fin 512) (n : ℕ) (k : Fin 256) :
    scT (C1 m) c p n k = ((zreal fp p n k : ℝ) : EReal) := by
  have hN0 : cfg0.N = 500 := N_0
  unfold zreal
  by_cases h : n < 500
  · rw [dif_pos h, scT_at m c p ⟨n, by omega⟩ k]
    exact hp _ _
  · rw [dif_neg h]
    unfold scT
    rw [dif_neg (by omega)]
    rfl

/-- The per-row column after the divergence region: each row's running total after its sweep. -/
theorem rows_col : C3 m r0 r1 c main_v7
    = fun i : S2048x1.Idx => (fun n : Fin 2048 => Pay.afold (term (C2 m r0) c ⟨n.val % 512, Nat.mod_lt _ (by decide)⟩) (125 * (n.val / 512) + 124)) ⟨(i 0).val, (i 0).isLt⟩ := by
  refine (B3_arr m r0 r1 c 8).trans ?_
  refine final1_8 (C2 m r0) c (fun n : Fin 2048 => Pay.afold (term (C2 m r0) c ⟨n.val % 512, Nat.mod_lt _ (by decide)⟩) (125 * (n.val / 512) + 124)) ?_
  intro t h124 p
  rw [out8_row (C2 m r0) c t h124 p]
  have e1 : (512 * (t.val / 125) + p.val) % 512 = p.val := by have := p.isLt; omega
  have e2 : (512 * (t.val / 125) + p.val) / 512 = t.val / 125 := by have := p.isLt; omega
  have e3 : 125 * (t.val / 125) + 124 = t.val := by omega
  simp only [e1, e2, e3]

/-- THE RESULT: under the precondition the program's result buffer ends holding the reference's value of the arguments. -/
theorem result_is_G [hP : Cert.Pre_finite_inputs.Facts]
    (hpre : Cert.Pre_finite_inputs.fn (F := Ideal) (a0 m c) (a1 m c) (a2 m c) (a3 m c) (a4 m c) (a5 m c) = fun _ => 1#1) :
    Cert.KernelIdeal.Close.last m c main_v9
      = Cert.ReferenceIdeal.RefValue.G (a0 m c) (a1 m c) (a2 m c) (a3 m c) (a4 m c) (a5 m c) := by
  obtain ⟨h0, h1, h2, h3, h4, h5⟩ := Cert.Jsd.real_of_pre _ _ _ _ _ _ hpre
  choose x0 hx0 using h0
  choose x1 hx1 using h1
  choose x2 hx2 using h2
  choose x3 hx3 using h3
  choose x4 hx4 using h4
  choose x5 hx5 using h5
  have hq := zq_real m c x0 x2 x3 hx0 hx2 hx3
  have hp := zp_real m c x1 x4 x5 hx1 hx4 hx5
  show B4 m r0 r1 c main_v9 = _
  rw [B4_v9, rows_col m c]
  funext j
  refine (Cert.KernelIdeal.KV.meanRows_of (fun n : Fin 2048 => Pay.afold (term (C2 m r0) c ⟨n.val % 512, Nat.mod_lt _ (by decide)⟩) (125 * (n.val / 512) + 124)) j).trans ?_
  unfold Cert.ReferenceIdeal.RefValue.G
  refine congrArg (fun s => Ideal.div (Ideal.ofBits .f32 0x00000000#32 + s) (Ideal.ofBits .f32 0x45000000#32)) (Finset.sum_congr rfl fun n _ => ?_)
  have hni : n.val / 512 < 4 := by have := n.isLt; omega
  rw [afold_congr _ _ (n.val / 512) (fun j hj => term_sweep m c ⟨n.val % 512, Nat.mod_lt _ (by decide)⟩ (n.val / 512) hni j hj),
    Cert.Jsd.row_final_gen _ _ (zreal (rs x0 x2 x3) ⟨n.val % 512, Nat.mod_lt _ (by decide)⟩) (zreal (rs x1 x4 x5) ⟨n.val % 512, Nat.mod_lt _ (by decide)⟩)
      (scS_real m c _ hq _) (scT_real m c _ hp _) (n.val / 512)]
  refine congrArg₂ (Cert.Jsd.rowWhole (Ideal.ofBits .f32 0x3F000000#32)) (funext fun v => ?_) (funext fun v => ?_)
  · rw [zreal_flat]
    show _ = Ideal.div (zq m c n v) (Ideal.ofBits .f32 0x3F800000#32)
    rw [hq n v, Cert.Jsd.ofBits_one, Cert.Jsd.div_one_real]
  · rw [zreal_flat]
    show _ = Ideal.div (zp m c n v) (Ideal.ofBits .f32 0x3F800000#32)
    rw [hp n v, Cert.Jsd.ofBits_one, Cert.Jsd.div_one_real]

end Cert.KernelIdeal.KF

end
-- ==== Proof.RefRun.lean ====
/-
  The reference program's run, read back.

  The entry point is the sequence of its 73 host operations, the operations of its two log-softmax calls standing at
  the calls' places. The program spells a call's operations through typed references, which transport a buffer's
  contents along the buffer's type equation; every such equation here holds by computation, so each transport is the
  identity and each such operation is the plain operation at the same buffers. With every operation spelt plainly the
  sequence's result buffer holds the operations' composed term of the arguments, which is the last stage of the
  stage-by-stage reading; the arguments are unchanged.
-/
import proofs.«136119_j22101901705770_1_alg».proof.Proof.Gen.ReferenceIdeal
import proofs.«136119_j22101901705770_1_alg».proof.Proof.RefReadP
import Idealize.ShloMosaic.Lib.StableHlo.Run

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

/-- The entry point's operations as the program spells them: the two calls' operations through typed references. -/
abbrev opsT : List (HloOp τ sig (Elt F)) :=
  [ binary main_arg0 main_arg2 main_v0 ((fun l r => Host.dotGeneral dot_S2048x4096_S32000x4096_S2048x32000_1_1_0_0_n_n none l r) : (⟨S2048x4096, .f32⟩ : BufTy).Contents (Elt F) → (⟨S32000x4096, .f32⟩ : BufTy).Contents (Elt F) → (⟨S2048x32000, .f32⟩ : BufTy).Contents (Elt F)),
    unary main_arg3 main_v1 (broadcastInDim S1x32000 ![1] bcast_S32000_S1x32000_1 : (⟨S32000, .f32⟩ : BufTy).Contents (Elt F) → (⟨S1x32000, .f32⟩ : BufTy).Contents (Elt F)),
    unary main_v1 main_v2 (broadcastInDim S2048x32000 ![0, 1] bcast_S1x32000_S2048x32000_0_1 : (⟨S1x32000, .f32⟩ : BufTy).Contents (Elt F) → (⟨S2048x32000, .f32⟩ : BufTy).Contents (Elt F)),
    binary main_v0 main_v2 main_v3 (addf : (⟨S2048x32000, .f32⟩ : BufTy).Contents (Elt F) → (⟨S2048x32000, .f32⟩ : BufTy).Contents (Elt F) → (⟨S2048x32000, .f32⟩ : BufTy).Contents (Elt F)),
    binary main_arg1 main_arg4 main_v4 ((fun l r => Host.dotGeneral dot_S2048x4096_S32000x4096_S2048x32000_1_1_0_0_n_n none l r) : (⟨S2048x4096, .f32⟩ : BufTy).Contents (Elt F) → (⟨S32000x4096, .f32⟩ : BufTy).Contents (Elt F) → (⟨S2048x32000, .f32⟩ : BufTy).Contents (Elt F)),
    unary main_arg5 main_v5 (broadcastInDim S1x32000 ![1] bcast_S32000_S1x32000_1 : (⟨S32000, .f32⟩ : BufTy).Contents (Elt F) → (⟨S1x32000, .f32⟩ : BufTy).Contents (Elt F)),
    unary main_v5 main_v6 (broadcastInDim S2048x32000 ![0, 1] bcast_S1x32000_S2048x32000_0_1 : (⟨S1x32000, .f32⟩ : BufTy).Contents (Elt F) → (⟨S2048x32000, .f32⟩ : BufTy).Contents (Elt F)),
    binary main_v4 main_v6 main_v7 (addf : (⟨S2048x32000, .f32⟩ : BufTy).Contents (Elt F) → (⟨S2048x32000, .f32⟩ : BufTy).Contents (Elt F) → (⟨S2048x32000, .f32⟩ : BufTy).Contents (Elt F)),
    nullary main_cst (constant S_ .f32 0x3F800000#32),
    unary main_cst main_v8 (broadcastInDim S2048x32000 ![] bcast_S_S2048x32000 : (⟨S_, .f32⟩ : BufTy).Contents (Elt F) → (⟨S2048x32000, .f32⟩ : BufTy).Contents (Elt F)),
    binary main_v3 main_v8 main_v9 (Host.divf : (⟨S2048x32000, .f32⟩ : BufTy).Contents (Elt F) → (⟨S2048x32000, .f32⟩ : BufTy).Contents (Elt F) → (⟨S2048x32000, .f32⟩ : BufTy).Contents (Elt F)),
    TRef.nullary (TRef.of (T := ⟨S_, .f32⟩) main_call0_cst) (constant S_ .f32 0xFF800000#32),
    TRef.binary (TRef.of (T := ⟨S2048x32000, .f32⟩) main_v9) (TRef.of (T := ⟨S_, .f32⟩) main_call0_cst) (TRef.of (T := ⟨S2048, .f32⟩) main_call0_v0) (fun x v => Host.reduce FloatOps.maximumf x v reducesTo_S2048x32000_S2048_d1 h_S_),
    TRef.nullary (TRef.of (T := ⟨S_, .f32⟩) main_call0_cst_0) (constant S_ .f32 0xFF800000#32),
    TRef.unary (TRef.of (T := ⟨S_, .f32⟩) main_call0_cst_0) (TRef.of (T := ⟨S2048, .f32⟩) main_call0_v1) (broadcastInDim S2048 ![] bcast_S_S2048),
    TRef.binary (TRef.of (T := ⟨S2048, .f32⟩) main_call0_v1) (TRef.of (T := ⟨S2048, .f32⟩) main_call0_v0) (TRef.of (T := ⟨S2048, .f32⟩) main_call0_v2) maximumf,
    TRef.unary (TRef.of (T := ⟨S2048, .f32⟩) main_call0_v2) (TRef.of (T := ⟨S2048x1, .f32⟩) main_call0_v3) (broadcastInDim S2048x1 ![0] bcast_S2048_S2048x1_0),
    TRef.unary (TRef.of (T := ⟨S2048x1, .f32⟩) main_call0_v3) (TRef.of (T := ⟨S2048x32000, .f32⟩) main_call0_v4) (broadcastInDim S2048x32000 ![0, 1] bcast_S2048x1_S2048x32000_0_1),
    TRef.binary (TRef.of (T := ⟨S2048x32000, .f32⟩) main_v9) (TRef.of (T := ⟨S2048x32000, .f32⟩) main_call0_v4) (TRef.of (T := ⟨S2048x32000, .f32⟩) main_call0_v5) subf,
    TRef.unary (TRef.of (T := ⟨S2048x32000, .f32⟩) main_call0_v5) (TRef.of (T := ⟨S2048x32000, .f32⟩) main_call0_v6) Host.exp,
    TRef.nullary (TRef.of (T := ⟨S_, .f32⟩) main_call0_cst_1) (constant S_ .f32 0x00000000#32),
    TRef.binary (TRef.of (T := ⟨S2048x32000, .f32⟩) main_call0_v6) (TRef.of (T := ⟨S_, .f32⟩) main_call0_cst_1) (TRef.of (T := ⟨S2048, .f32⟩) main_call0_v7) (fun x v => Host.reduceAdd x v reducesTo_S2048x32000_S2048_d1 h_S_),
    TRef.unary (TRef.of (T := ⟨S2048, .f32⟩) main_call0_v7) (TRef.of (T := ⟨S2048x1, .f32⟩) main_call0_v8) (broadcastInDim S2048x1 ![0] bcast_S2048_S2048x1_0),
    TRef.unary (TRef.of (T := ⟨S2048x1, .f32⟩) main_call0_v8) (TRef.of (T := ⟨S2048x1, .f32⟩) main_call0_v9) Host.log,
    TRef.unary (TRef.of (T := ⟨S2048x1, .f32⟩) main_call0_v9) (TRef.of (T := ⟨S2048x32000, .f32⟩) main_call0_v10) (broadcastInDim S2048x32000 ![0, 1] bcast_S2048x1_S2048x32000_0_1),
    TRef.binary (TRef.of (T := ⟨S2048x32000, .f32⟩) main_call0_v5) (TRef.of (T := ⟨S2048x32000, .f32⟩) main_call0_v10) (TRef.of (T := ⟨S2048x32000, .f32⟩) main_v10) subf,
    nullary main_cst_0 (constant S_ .f32 0x3F800000#32),
    unary main_cst_0 main_v11 (broadcastInDim S2048x32000 ![] bcast_S_S2048x32000 : (⟨S_, .f32⟩ : BufTy).Contents (Elt F) → (⟨S2048x32000, .f32⟩ : BufTy).Contents (Elt F)),
    binary main_v7 main_v11 main_v12 (Host.divf : (⟨S2048x32000, .f32⟩ : BufTy).Contents (Elt F) → (⟨S2048x32000, .f32⟩ : BufTy).Contents (Elt F) → (⟨S2048x32000, .f32⟩ : BufTy).Contents (Elt F)),
    TRef.nullary (TRef.of (T := ⟨S_, .f32⟩) main_call1_cst) (constant S_ .f32 0xFF800000#32),
    TRef.binary (TRef.of (T := ⟨S2048x32000, .f32⟩) main_v12) (TRef.of (T := ⟨S_, .f32⟩) main_call1_cst) (TRef.of (T := ⟨S2048, .f32⟩) main_call1_v0) (fun x v => Host.reduce FloatOps.maximumf x v reducesTo_S2048x32000_S2048_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S2048, .f32⟩) main_call1_v1) (broadcastInDim S2048 ![] bcast_S_S2048),
    TRef.binary (TRef.of (T := ⟨S2048, .f32⟩) main_call1_v1) (TRef.of (T := ⟨S2048, .f32⟩) main_call1_v0) (TRef.of (T := ⟨S2048, .f32⟩) main_call1_v2) maximumf,
    TRef.unary (TRef.of (T := ⟨S2048, .f32⟩) main_call1_v2) (TRef.of (T := ⟨S2048x1, .f32⟩) main_call1_v3) (broadcastInDim S2048x1 ![0] bcast_S2048_S2048x1_0),
    TRef.unary (TRef.of (T := ⟨S2048x1, .f32⟩) main_call1_v3) (TRef.of (T := ⟨S2048x32000, .f32⟩) main_call1_v4) (broadcastInDim S2048x32000 ![0, 1] bcast_S2048x1_S2048x32000_0_1),
    TRef.binary (TRef.of (T := ⟨S2048x32000, .f32⟩) main_v12) (TRef.of (T := ⟨S2048x32000, .f32⟩) main_call1_v4) (TRef.of (T := ⟨S2048x32000, .f32⟩) main_call1_v5) subf,
    TRef.unary (TRef.of (T := ⟨S2048x32000, .f32⟩) main_call1_v5) (TRef.of (T := ⟨S2048x32000, .f32⟩) main_call1_v6) Host.exp,
    TRef.nullary (TRef.of (T := ⟨S_, .f32⟩) main_call1_cst_1) (constant S_ .f32 0x00000000#32),
    TRef.binary (TRef.of (T := ⟨S2048x32000, .f32⟩) main_call1_v6) (TRef.of (T := ⟨S_, .f32⟩) main_call1_cst_1) (TRef.of (T := ⟨S2048, .f32⟩) main_call1_v7) (fun x v => Host.reduceAdd x v reducesTo_S2048x32000_S2048_d1 h_S_),
    TRef.unary (TRef.of (T := ⟨S2048, .f32⟩) main_call1_v7) (TRef.of (T := ⟨S2048x1, .f32⟩) main_call1_v8) (broadcastInDim S2048x1 ![0] bcast_S2048_S2048x1_0),
    TRef.unary (TRef.of (T := ⟨S2048x1, .f32⟩) main_call1_v8) (TRef.of (T := ⟨S2048x1, .f32⟩) main_call1_v9) Host.log,
    TRef.unary (TRef.of (T := ⟨S2048x1, .f32⟩) main_call1_v9) (TRef.of (T := ⟨S2048x32000, .f32⟩) main_call1_v10) (broadcastInDim S2048x32000 ![0, 1] bcast_S2048x1_S2048x32000_0_1),
    TRef.binary (TRef.of (T := ⟨S2048x32000, .f32⟩) main_call1_v5) (TRef.of (T := ⟨S2048x32000, .f32⟩) main_call1_v10) (TRef.of (T := ⟨S2048x32000, .f32⟩) main_v13) subf,
    unary main_v13 main_v14 (Host.exp : (⟨S2048x32000, .f32⟩ : BufTy).Contents (Elt F) → (⟨S2048x32000, .f32⟩ : BufTy).Contents (Elt F)),
    unary main_v10 main_v15 (Host.exp : (⟨S2048x32000, .f32⟩ : BufTy).Contents (Elt F) → (⟨S2048x32000, .f32⟩ : BufTy).Contents (Elt F)),
    nullary main_cst_1 (constant S_ .f32 0x3F000000#32),
    unary main_cst_1 main_v16 (broadcastInDim S2048x32000 ![] bcast_S_S2048x32000 : (⟨S_, .f32⟩ : BufTy).Contents (Elt F) → (⟨S2048x32000, .f32⟩ : BufTy).Contents (Elt F)),
    binary main_v16 main_v14 main_v17 (mulf : (⟨S2048x32000, .f32⟩ : BufTy).Contents (Elt F) → (⟨S2048x32000, .f32⟩ : BufTy).Contents (Elt F) → (⟨S2048x32000, .f32⟩ : BufTy).Contents (Elt F)),
    nullary main_cst_2 (constant S_ .f32 0x3F000000#32),
    unary main_cst_2 main_v18 (broadcastInDim S2048x32000 ![] bcast_S_S2048x32000 : (⟨S_, .f32⟩ : BufTy).Contents (Elt F) → (⟨S2048x32000, .f32⟩ : BufTy).Contents (Elt F)),
    binary main_v18 main_v15 main_v19 (mulf : (⟨S2048x32000, .f32⟩ : BufTy).Contents (Elt F) → (⟨S2048x32000, .f32⟩ : BufTy).Contents (Elt F) → (⟨S2048x32000, .f32⟩ : BufTy).Contents (Elt F)),
    binary main_v17 main_v19 main_v20 (addf : (⟨S2048x32000, .f32⟩ : BufTy).Contents (Elt F) → (⟨S2048x32000, .f32⟩ : BufTy).Contents (Elt F) → (⟨S2048x32000, .f32⟩ : BufTy).Contents (Elt F)),
    unary main_v20 main_v21 (Host.log : (⟨S2048x32000, .f32⟩ : BufTy).Contents (Elt F) → (⟨S2048x32000, .f32⟩ : BufTy).Contents (Elt F)),
    binary main_v13 main_v21 main_v22 (subf : (⟨S2048x32000, .f32⟩ : BufTy).Contents (Elt F) → (⟨S2048x32000, .f32⟩ : BufTy).Contents (Elt F) → (⟨S2048x32000, .f32⟩ : BufTy).Contents (Elt F)),
    binary main_v14 main_v22 main_v23 (mulf : (⟨S2048x32000, .f32⟩ : BufTy).Contents (Elt F) → (⟨S2048x32000, .f32⟩ : BufTy).Contents (Elt F) → (⟨S2048x32000, .f32⟩ : BufTy).Contents (Elt F)),
    nullary main_cst_3 (constant S_ .f32 0x00000000#32),
    binary main_v23 main_cst_3 main_v24 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_cst_4 (constant S_ .f32 0x3F000000#32),
    unary main_cst_4 main_v25 (broadcastInDim S2048 ![] bcast_S_S2048 : (⟨S_, .f32⟩ : BufTy).Contents (Elt F) → (⟨S2048, .f32⟩ : BufTy).Contents (Elt F)),
    binary main_v25 main_v24 main_v26 (mulf : (⟨S2048, .f32⟩ : BufTy).Contents (Elt F) → (⟨S2048, .f32⟩ : BufTy).Contents (Elt F) → (⟨S2048, .f32⟩ : BufTy).Contents (Elt F)),
    binary main_v10 main_v21 main_v27 (subf : (⟨S2048x32000, .f32⟩ : BufTy).Contents (Elt F) → (⟨S2048x32000, .f32⟩ : BufTy).Contents (Elt F) → (⟨S2048x32000, .f32⟩ : BufTy).Contents (Elt F)),
    binary main_v15 main_v27 main_v28 (mulf : (⟨S2048x32000, .f32⟩ : BufTy).Contents (Elt F) → (⟨S2048x32000, .f32⟩ : BufTy).Contents (Elt F) → (⟨S2048x32000, .f32⟩ : BufTy).Contents (Elt F)),
    nullary main_cst_5 (constant S_ .f32 0x00000000#32),
    binary main_v28 main_cst_5 main_v29 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_cst_6 (constant S_ .f32 0x3F000000#32),
    unary main_cst_6 main_v30 (broadcastInDim S2048 ![] bcast_S_S2048 : (⟨S_, .f32⟩ : BufTy).Contents (Elt F) → (⟨S2048, .f32⟩ : BufTy).Contents (Elt F)),
    binary main_v30 main_v29 main_v31 (mulf : (⟨S2048, .f32⟩ : BufTy).Contents (Elt F) → (⟨S2048, .f32⟩ : BufTy).Contents (Elt F) → (⟨S2048, .f32⟩ : BufTy).Contents (Elt F)),
    binary main_v26 main_v31 main_v32 (addf : (⟨S2048, .f32⟩ : BufTy).Contents (Elt F) → (⟨S2048, .f32⟩ : BufTy).Contents (Elt F) → (⟨S2048, .f32⟩ : BufTy).Contents (Elt F)),
    nullary main_cst_7 (constant S_ .f32 0x00000000#32),
    binary main_v32 main_cst_7 main_v33 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_8 (constant S_ .f32 0x45000000#32),
    binary main_v33 main_cst_8 main_v34 (Host.divf : (⟨S_, .f32⟩ : BufTy).Contents (Elt F) → (⟨S_, .f32⟩ : BufTy).Contents (Elt F) → (⟨S_, .f32⟩ : BufTy).Contents (Elt F)) ]

/-- The same operations at the same buffers, every one spelt plainly. -/
abbrev ops : List (HloOp τ sig (Elt F)) :=
  [ binary main_arg0 main_arg2 main_v0 ((fun l r => Host.dotGeneral dot_S2048x4096_S32000x4096_S2048x32000_1_1_0_0_n_n none l r) : (⟨S2048x4096, .f32⟩ : BufTy).Contents (Elt F) → (⟨S32000x4096, .f32⟩ : BufTy).Contents (Elt F) → (⟨S2048x32000, .f32⟩ : BufTy).Contents (Elt F)),
    unary main_arg3 main_v1 (broadcastInDim S1x32000 ![1] bcast_S32000_S1x32000_1 : (⟨S32000, .f32⟩ : BufTy).Contents (Elt F) → (⟨S1x32000, .f32⟩ : BufTy).Contents (Elt F)),
    unary main_v1 main_v2 (broadcastInDim S2048x32000 ![0, 1] bcast_S1x32000_S2048x32000_0_1 : (⟨S1x32000, .f32⟩ : BufTy).Contents (Elt F) → (⟨S2048x32000, .f32⟩ : BufTy).Contents (Elt F)),
    binary main_v0 main_v2 main_v3 (addf : (⟨S2048x32000, .f32⟩ : BufTy).Contents (Elt F) → (⟨S2048x32000, .f32⟩ : BufTy).Contents (Elt F) → (⟨S2048x32000, .f32⟩ : BufTy).Contents (Elt F)),
    binary main_arg1 main_arg4 main_v4 ((fun l r => Host.dotGeneral dot_S2048x4096_S32000x4096_S2048x32000_1_1_0_0_n_n none l r) : (⟨S2048x4096, .f32⟩ : BufTy).Contents (Elt F) → (⟨S32000x4096, .f32⟩ : BufTy).Contents (Elt F) → (⟨S2048x32000, .f32⟩ : BufTy).Contents (Elt F)),
    unary main_arg5 main_v5 (broadcastInDim S1x32000 ![1] bcast_S32000_S1x32000_1 : (⟨S32000, .f32⟩ : BufTy).Contents (Elt F) → (⟨S1x32000, .f32⟩ : BufTy).Contents (Elt F)),
    unary main_v5 main_v6 (broadcastInDim S2048x32000 ![0, 1] bcast_S1x32000_S2048x32000_0_1 : (⟨S1x32000, .f32⟩ : BufTy).Contents (Elt F) → (⟨S2048x32000, .f32⟩ : BufTy).Contents (Elt F)),
    binary main_v4 main_v6 main_v7 (addf : (⟨S2048x32000, .f32⟩ : BufTy).Contents (Elt F) → (⟨S2048x32000, .f32⟩ : BufTy).Contents (Elt F) → (⟨S2048x32000, .f32⟩ : BufTy).Contents (Elt F)),
    nullary main_cst (constant S_ .f32 0x3F800000#32),
    unary main_cst main_v8 (broadcastInDim S2048x32000 ![] bcast_S_S2048x32000 : (⟨S_, .f32⟩ : BufTy).Contents (Elt F) → (⟨S2048x32000, .f32⟩ : BufTy).Contents (Elt F)),
    binary main_v3 main_v8 main_v9 (Host.divf : (⟨S2048x32000, .f32⟩ : BufTy).Contents (Elt F) → (⟨S2048x32000, .f32⟩ : BufTy).Contents (Elt F) → (⟨S2048x32000, .f32⟩ : BufTy).Contents (Elt F)),
    nullary main_call0_cst (constant S_ .f32 0xFF800000#32),
    binary main_v9 main_call0_cst main_call0_v0 ((fun x v => Host.reduce FloatOps.maximumf x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_call0_cst_0 (constant S_ .f32 0xFF800000#32),
    unary main_call0_cst_0 main_call0_v1 ((broadcastInDim S2048 ![] bcast_S_S2048) : (⟨S_, .f32⟩ : BufTy).Contents (Elt F) → (⟨S2048, .f32⟩ : BufTy).Contents (Elt F)),
    binary main_call0_v1 main_call0_v0 main_call0_v2 ((maximumf) : (⟨S2048, .f32⟩ : BufTy).Contents (Elt F) → (⟨S2048, .f32⟩ : BufTy).Contents (Elt F) → (⟨S2048, .f32⟩ : BufTy).Contents (Elt F)),
    unary main_call0_v2 main_call0_v3 ((broadcastInDim S2048x1 ![0] bcast_S2048_S2048x1_0) : (⟨S2048, .f32⟩ : BufTy).Contents (Elt F) → (⟨S2048x1, .f32⟩ : BufTy).Contents (Elt F)),
    unary main_call0_v3 main_call0_v4 ((broadcastInDim S2048x32000 ![0, 1] bcast_S2048x1_S2048x32000_0_1) : (⟨S2048x1, .f32⟩ : BufTy).Contents (Elt F) → (⟨S2048x32000, .f32⟩ : BufTy).Contents (Elt F)),
    binary main_v9 main_call0_v4 main_call0_v5 ((subf) : (⟨S2048x32000, .f32⟩ : BufTy).Contents (Elt F) → (⟨S2048x32000, .f32⟩ : BufTy).Contents (Elt F) → (⟨S2048x32000, .f32⟩ : BufTy).Contents (Elt F)),
    unary main_call0_v5 main_call0_v6 ((Host.exp) : (⟨S2048x32000, .f32⟩ : BufTy).Contents (Elt F) → (⟨S2048x32000, .f32⟩ : BufTy).Contents (Elt F)),
    nullary main_call0_cst_1 (constant S_ .f32 0x00000000#32),
    binary main_call0_v6 main_call0_cst_1 main_call0_v7 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    unary main_call0_v7 main_call0_v8 ((broadcastInDim S2048x1 ![0] bcast_S2048_S2048x1_0) : (⟨S2048, .f32⟩ : BufTy).Contents (Elt F) → (⟨S2048x1, .f32⟩ : BufTy).Contents (Elt F)),
    unary main_call0_v8 main_call0_v9 ((Host.log) : (⟨S2048x1, .f32⟩ : BufTy).Contents (Elt F) → (⟨S2048x1, .f32⟩ : BufTy).Contents (Elt F)),
    unary main_call0_v9 main_call0_v10 ((broadcastInDim S2048x32000 ![0, 1] bcast_S2048x1_S2048x32000_0_1) : (⟨S2048x1, .f32⟩ : BufTy).Contents (Elt F) → (⟨S2048x32000, .f32⟩ : BufTy).Contents (Elt F)),
    binary main_call0_v5 main_call0_v10 main_v10 ((subf) : (⟨S2048x32000, .f32⟩ : BufTy).Contents (Elt F) → (⟨S2048x32000, .f32⟩ : BufTy).Contents (Elt F) → (⟨S2048x32000, .f32⟩ : BufTy).Contents (Elt F)),
    nullary main_cst_0 (constant S_ .f32 0x3F800000#32),
    unary main_cst_0 main_v11 (broadcastInDim S2048x32000 ![] bcast_S_S2048x32000 : (⟨S_, .f32⟩ : BufTy).Contents (Elt F) → (⟨S2048x32000, .f32⟩ : BufTy).Contents (Elt F)),
    binary main_v7 main_v11 main_v12 (Host.divf : (⟨S2048x32000, .f32⟩ : BufTy).Contents (Elt F) → (⟨S2048x32000, .f32⟩ : BufTy).Contents (Elt F) → (⟨S2048x32000, .f32⟩ : BufTy).Contents (Elt F)),
    nullary main_call1_cst (constant S_ .f32 0xFF800000#32),
    binary main_v12 main_call1_cst main_call1_v0 ((fun x v => Host.reduce FloatOps.maximumf x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_call1_cst_0 (constant S_ .f32 0xFF800000#32),
    unary main_call1_cst_0 main_call1_v1 ((broadcastInDim S2048 ![] bcast_S_S2048) : (⟨S_, .f32⟩ : BufTy).Contents (Elt F) → (⟨S2048, .f32⟩ : BufTy).Contents (Elt F)),
    binary main_call1_v1 main_call1_v0 main_call1_v2 ((maximumf) : (⟨S2048, .f32⟩ : BufTy).Contents (Elt F) → (⟨S2048, .f32⟩ : BufTy).Contents (Elt F) → (⟨S2048, .f32⟩ : BufTy).Contents (Elt F)),
    unary main_call1_v2 main_call1_v3 ((broadcastInDim S2048x1 ![0] bcast_S2048_S2048x1_0) : (⟨S2048, .f32⟩ : BufTy).Contents (Elt F) → (⟨S2048x1, .f32⟩ : BufTy).Contents (Elt F)),
    unary main_call1_v3 main_call1_v4 ((broadcastInDim S2048x32000 ![0, 1] bcast_S2048x1_S2048x32000_0_1) : (⟨S2048x1, .f32⟩ : BufTy).Contents (Elt F) → (⟨S2048x32000, .f32⟩ : BufTy).Contents (Elt F)),
    binary main_v12 main_call1_v4 main_call1_v5 ((subf) : (⟨S2048x32000, .f32⟩ : BufTy).Contents (Elt F) → (⟨S2048x32000, .f32⟩ : BufTy).Contents (Elt F) → (⟨S2048x32000, .f32⟩ : BufTy).Contents (Elt F)),
    unary main_call1_v5 main_call1_v6 ((Host.exp) : (⟨S2048x32000, .f32⟩ : BufTy).Contents (Elt F) → (⟨S2048x32000, .f32⟩ : BufTy).Contents (Elt F)),
    nullary main_call1_cst_1 (constant S_ .f32 0x00000000#32),
    binary main_call1_v6 main_call1_cst_1 main_call1_v7 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    unary main_call1_v7 main_call1_v8 ((broadcastInDim S2048x1 ![0] bcast_S2048_S2048x1_0) : (⟨S2048, .f32⟩ : BufTy).Contents (Elt F) → (⟨S2048x1, .f32⟩ : BufTy).Contents (Elt F)),
    unary main_call1_v8 main_call1_v9 ((Host.log) : (⟨S2048x1, .f32⟩ : BufTy).Contents (Elt F) → (⟨S2048x1, .f32⟩ : BufTy).Contents (Elt F)),
    unary main_call1_v9 main_call1_v10 ((broadcastInDim S2048x32000 ![0, 1] bcast_S2048x1_S2048x32000_0_1) : (⟨S2048x1, .f32⟩ : BufTy).Contents (Elt F) → (⟨S2048x32000, .f32⟩ : BufTy).Contents (Elt F)),
    binary main_call1_v5 main_call1_v10 main_v13 ((subf) : (⟨S2048x32000, .f32⟩ : BufTy).Contents (Elt F) → (⟨S2048x32000, .f32⟩ : BufTy).Contents (Elt F) → (⟨S2048x32000, .f32⟩ : BufTy).Contents (Elt F)),
    unary main_v13 main_v14 (Host.exp : (⟨S2048x32000, .f32⟩ : BufTy).Contents (Elt F) → (⟨S2048x32000, .f32⟩ : BufTy).Contents (Elt F)),
    unary main_v10 main_v15 (Host.exp : (⟨S2048x32000, .f32⟩ : BufTy).Contents (Elt F) → (⟨S2048x32000, .f32⟩ : BufTy).Contents (Elt F)),
    nullary main_cst_1 (constant S_ .f32 0x3F000000#32),
    unary main_cst_1 main_v16 (broadcastInDim S2048x32000 ![] bcast_S_S2048x32000 : (⟨S_, .f32⟩ : BufTy).Contents (Elt F) → (⟨S2048x32000, .f32⟩ : BufTy).Contents (Elt F)),
    binary main_v16 main_v14 main_v17 (mulf : (⟨S2048x32000, .f32⟩ : BufTy).Contents (Elt F) → (⟨S2048x32000, .f32⟩ : BufTy).Contents (Elt F) → (⟨S2048x32000, .f32⟩ : BufTy).Contents (Elt F)),
    nullary main_cst_2 (constant S_ .f32 0x3F000000#32),
    unary main_cst_2 main_v18 (broadcastInDim S2048x32000 ![] bcast_S_S2048x32000 : (⟨S_, .f32⟩ : BufTy).Contents (Elt F) → (⟨S2048x32000, .f32⟩ : BufTy).Contents (Elt F)),
    binary main_v18 main_v15 main_v19 (mulf : (⟨S2048x32000, .f32⟩ : BufTy).Contents (Elt F) → (⟨S2048x32000, .f32⟩ : BufTy).Contents (Elt F) → (⟨S2048x32000, .f32⟩ : BufTy).Contents (Elt F)),
    binary main_v17 main_v19 main_v20 (addf : (⟨S2048x32000, .f32⟩ : BufTy).Contents (Elt F) → (⟨S2048x32000, .f32⟩ : BufTy).Contents (Elt F) → (⟨S2048x32000, .f32⟩ : BufTy).Contents (Elt F)),
    unary main_v20 main_v21 (Host.log : (⟨S2048x32000, .f32⟩ : BufTy).Contents (Elt F) → (⟨S2048x32000, .f32⟩ : BufTy).Contents (Elt F)),
    binary main_v13 main_v21 main_v22 (subf : (⟨S2048x32000, .f32⟩ : BufTy).Contents (Elt F) → (⟨S2048x32000, .f32⟩ : BufTy).Contents (Elt F) → (⟨S2048x32000, .f32⟩ : BufTy).Contents (Elt F)),
    binary main_v14 main_v22 main_v23 (mulf : (⟨S2048x32000, .f32⟩ : BufTy).Contents (Elt F) → (⟨S2048x32000, .f32⟩ : BufTy).Contents (Elt F) → (⟨S2048x32000, .f32⟩ : BufTy).Contents (Elt F)),
    nullary main_cst_3 (constant S_ .f32 0x00000000#32),
    binary main_v23 main_cst_3 main_v24 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_cst_4 (constant S_ .f32 0x3F000000#32),
    unary main_cst_4 main_v25 (broadcastInDim S2048 ![] bcast_S_S2048 : (⟨S_, .f32⟩ : BufTy).Contents (Elt F) → (⟨S2048, .f32⟩ : BufTy).Contents (Elt F)),
    binary main_v25 main_v24 main_v26 (mulf : (⟨S2048, .f32⟩ : BufTy).Contents (Elt F) → (⟨S2048, .f32⟩ : BufTy).Contents (Elt F) → (⟨S2048, .f32⟩ : BufTy).Contents (Elt F)),
    binary main_v10 main_v21 main_v27 (subf : (⟨S2048x32000, .f32⟩ : BufTy).Contents (Elt F) → (⟨S2048x32000, .f32⟩ : BufTy).Contents (Elt F) → (⟨S2048x32000, .f32⟩ : BufTy).Contents (Elt F)),
    binary main_v15 main_v27 main_v28 (mulf : (⟨S2048x32000, .f32⟩ : BufTy).Contents (Elt F) → (⟨S2048x32000, .f32⟩ : BufTy).Contents (Elt F) → (⟨S2048x32000, .f32⟩ : BufTy).Contents (Elt F)),
    nullary main_cst_5 (constant S_ .f32 0x00000000#32),
    binary main_v28 main_cst_5 main_v29 ((fun x v => Host.reduceAdd x v reducesTo_S2048x32000_S2048_d1 h_S_) : (⟨S2048x32000, .f32⟩ : BufTy).Contents (Elt F) → (⟨S_, .f32⟩ : BufTy).Contents (Elt F) → (⟨S2048, .f32⟩ : BufTy).Contents (Elt F)),
    nullary main_cst_6 (constant S_ .f32 0x3F000000#32),
    unary main_cst_6 main_v30 (broadcastInDim S2048 ![] bcast_S_S2048 : (⟨S_, .f32⟩ : BufTy).Contents (Elt F) → (⟨S2048, .f32⟩ : BufTy).Contents (Elt F)),
    binary main_v30 main_v29 main_v31 (mulf : (⟨S2048, .f32⟩ : BufTy).Contents (Elt F) → (⟨S2048, .f32⟩ : BufTy).Contents (Elt F) → (⟨S2048, .f32⟩ : BufTy).Contents (Elt F)),
    binary main_v26 main_v31 main_v32 (addf : (⟨S2048, .f32⟩ : BufTy).Contents (Elt F) → (⟨S2048, .f32⟩ : BufTy).Contents (Elt F) → (⟨S2048, .f32⟩ : BufTy).Contents (Elt F)),
    nullary main_cst_7 (constant S_ .f32 0x00000000#32),
    binary main_v32 main_cst_7 main_v33 ((fun x v => Host.reduceAdd x v reducesTo_S2048_S_d0 h_S_) : (⟨S2048, .f32⟩ : BufTy).Contents (Elt F) → (⟨S_, .f32⟩ : BufTy).Contents (Elt F) → (⟨S_, .f32⟩ : BufTy).Contents (Elt F)),
    nullary main_cst_8 (constant S_ .f32 0x45000000#32),
    binary main_v33 main_cst_8 main_v34 (Host.divf : (⟨S_, .f32⟩ : BufTy).Contents (Elt F) → (⟨S_, .f32⟩ : BufTy).Contents (Elt F) → (⟨S_, .f32⟩ : BufTy).Contents (Elt F)) ]

set_option maxRecDepth 8192 in
set_option maxHeartbeats 4000000 in
/-- The entry point is the sequence of its operations as the program spells them. -/
theorem main_eqT (c : Dev nD) : main (F := F) c = seq opsT := rfl

/-! A typed reference transports contents along its buffer's type equation; when the equation holds by computation the
    transport is the identity, so an operation through typed references is the plain operation at the buffers. -/

theorem nullary_plain {y : Ref sig .tc} {Ty : BufTy} {hy : y.ty = Ty} {y1 : y.space ≠ .host} {y2 : y.isScoped = false}
    {v : Ty.Contents (Elt F)} {w : y.ty.Contents (Elt F)} (hvw : HEq v w) :
    TRef.nullary (τ := τ) (TRef.of y hy y1 y2) v = StableHlo.nullary y w ⟨y1, y2⟩ := by
  subst hy; cases hvw; rfl

theorem unary_plain {x y : Ref sig .tc} {Tx Ty : BufTy} {hx : x.ty = Tx} {hy : y.ty = Ty}
    {x1 : x.space ≠ .host} {x2 : x.isScoped = false} {y1 : y.space ≠ .host} {y2 : y.isScoped = false}
    {f : Tx.Contents (Elt F) → Ty.Contents (Elt F)} {g : x.ty.Contents (Elt F) → y.ty.Contents (Elt F)} (hfg : HEq f g) :
    TRef.unary (τ := τ) (TRef.of x hx x1 x2) (TRef.of y hy y1 y2) f = StableHlo.unary x y g ⟨x1, x2⟩ ⟨y1, y2⟩ := by
  subst hx; subst hy; cases hfg; rfl

theorem binary_plain {a b y : Ref sig .tc} {Ta Tb Ty : BufTy} {ha : a.ty = Ta} {hb : b.ty = Tb} {hy : y.ty = Ty}
    {a1 : a.space ≠ .host} {a2 : a.isScoped = false} {b1 : b.space ≠ .host} {b2 : b.isScoped = false}
    {y1 : y.space ≠ .host} {y2 : y.isScoped = false}
    {f : Ta.Contents (Elt F) → Tb.Contents (Elt F) → Ty.Contents (Elt F)}
    {g : a.ty.Contents (Elt F) → b.ty.Contents (Elt F) → y.ty.Contents (Elt F)} (hfg : HEq f g) :
    TRef.binary (τ := τ) (TRef.of a ha a1 a2) (TRef.of b hb b1 b2) (TRef.of y hy y1 y2) f
      = StableHlo.binary a b y g ⟨a1, a2⟩ ⟨b1, b2⟩ ⟨y1, y2⟩ := by
  subst ha; subst hb; subst hy; cases hfg; rfl

set_option maxRecDepth 8192 in
set_option maxHeartbeats 4000000 in
/-- The two spellings are one list, operation by operation: the same text, or a transport that is the identity. -/
theorem ops_eq : (opsT : List (HloOp τ sig (Elt F))) = ops := by
  unfold opsT ops
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact nullary_plain HEq.rfl
  refine congrArg₂ List.cons ?_ ?_; exact binary_plain HEq.rfl
  refine congrArg₂ List.cons ?_ ?_; exact nullary_plain HEq.rfl
  refine congrArg₂ List.cons ?_ ?_; exact unary_plain HEq.rfl
  refine congrArg₂ List.cons ?_ ?_; exact binary_plain HEq.rfl
  refine congrArg₂ List.cons ?_ ?_; exact unary_plain HEq.rfl
  refine congrArg₂ List.cons ?_ ?_; exact unary_plain HEq.rfl
  refine congrArg₂ List.cons ?_ ?_; exact binary_plain HEq.rfl
  refine congrArg₂ List.cons ?_ ?_; exact unary_plain HEq.rfl
  refine congrArg₂ List.cons ?_ ?_; exact nullary_plain HEq.rfl
  refine congrArg₂ List.cons ?_ ?_; exact binary_plain HEq.rfl
  refine congrArg₂ List.cons ?_ ?_; exact unary_plain HEq.rfl
  refine congrArg₂ List.cons ?_ ?_; exact unary_plain HEq.rfl
  refine congrArg₂ List.cons ?_ ?_; exact unary_plain HEq.rfl
  refine congrArg₂ List.cons ?_ ?_; exact binary_plain HEq.rfl
  refine congrArg₂ List.cons ?_ ?_; exact rfl
  refine congrArg₂ List.cons ?_ ?_; exact rfl
  refine congrArg₂ List.cons ?_ ?_; exact rfl
  refine congrArg₂ List.cons ?_ ?_; exact nullary_plain HEq.rfl
  refine congrArg₂ List.cons ?_ ?_; exact binary_plain HEq.rfl
  refine congrArg₂ List.cons ?_ ?_; exact nullary_plain HEq.rfl
  refine congrArg₂ List.cons ?_ ?_; exact unary_plain HEq.rfl
  refine congrArg₂ List.cons ?_ ?_; exact binary_plain HEq.rfl
  refine congrArg₂ List.cons ?_ ?_; exact unary_plain HEq.rfl
  refine congrArg₂ List.cons ?_ ?_; exact unary_plain HEq.rfl
  refine congrArg₂ List.cons ?_ ?_; exact binary_plain HEq.rfl
  refine congrArg₂ List.cons ?_ ?_; exact unary_plain HEq.rfl
  refine congrArg₂ List.cons ?_ ?_; exact nullary_plain HEq.rfl
  refine congrArg₂ List.cons ?_ ?_; exact binary_plain HEq.rfl
  refine congrArg₂ List.cons ?_ ?_; exact unary_plain HEq.rfl
  refine congrArg₂ List.cons ?_ ?_; exact unary_plain HEq.rfl
  refine congrArg₂ List.cons ?_ ?_; exact unary_plain HEq.rfl
  refine congrArg₂ List.cons ?_ ?_; exact binary_plain HEq.rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  refine congrArg₂ List.cons ?_ ?_; exact rfl
  rfl

/-- The entry point is the sequence of its operations spelt plainly. -/
theorem main_eq (c : Dev nD) : main (F := F) c = seq ops := (main_eqT c).trans (congrArg seq ops_eq)

theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., binary_bufs_sub .., binary_bufs_sub .., nullary_bufs_sub .., binary_bufs_sub .., nullary_bufs_sub .., unary_bufs_sub .., binary_bufs_sub .., binary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub ..⟩

set_option maxRecDepth 8192 in
/-- The result buffer's contents after the sequence, composed: every operation's function applied to the contents its
    operands hold, down to the six arguments in the launch memory. -/
def composed (m : (ℓ : Loc nD τ sig) → Buf (Elt F) ℓ) (c : Dev nD) : Buf (Elt F) ((c.tc : Thread nD τ).loc main_v34) :=
  Host.divf (Host.reduceAdd (addf (mulf (broadcastInDim S2048 ![] bcast_S_S2048 (constant S_ .f32 0x3F000000#32)) (Host.reduceAdd (mulf (Host.exp (subf (subf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_)))))) (subf (subf (subf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (Host.log (addf (mulf (broadcastInDim S2048x32000 ![] bcast_S_S2048x32000 (constant S_ .f32 0x3F000000#32)) (Host.exp (subf (subf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))))) (mulf (broadcastInDim S2048x32000 ![] bcast_S_S2048x32000 (constant S_ .f32 0x3F000000#32)) (Host.exp (subf (subf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))))))))) (constant S_ .f32 0x00000000#32) reducesTo_S2048x32000_S2048_d1 h_S_)) (mulf (broadcastInDim S2048 ![] bcast_S_S2048 (constant S_ .f32 0x3F000000#32)) (Host.reduceAdd (mulf (Host.exp (subf (subf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_)))))) (subf (subf (subf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))) (Host.log (addf (mulf (broadcastInDim S2048x32000 ![] bcast_S_S2048x32000 (constant S_ .f32 0x3F000000#32)) (Host.exp (subf (subf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg1)) (m ((c.tc : Thread nD τ).loc main_arg4))) (broadcastInDim S2048x32000 ![0, 1] bcast_S1x32000_S2048x32000_0_1 (broadcastInDim S1x32000 ![1] bcast_S32000_S1x32000_1 (m ((c.tc : Thread nD τ).loc main_arg5))))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))))) (mulf (broadcastInDim S2048x32000 ![] bcast_S_S2048x32000 (constant S_ .f32 0x3F000000#32)) (Host.exp (subf (subf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (constant S_ .f32 0xFF800000#32) reducesTo_S2048x32000_S2048_d1 h_S_))))) (broadcastInDim S2048x32000 ![0, 1] bcast_S2048x1_S2048x32000_0_1 (Host.log (broadcastInDim S2048x1 ![0] bcast_S2048_S2048x1_0 (Host.reduceAdd (Host.exp (subf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (broadcastInDim S2048x32000 ![0, 1] bcast_S2048x1_S2048x32000_0_1 (broadcastInDim S2048x1 ![0] bcast_S2048_S2048x1_0 (maximumf (broadcastInDim S2048 ![] bcast_S_S2048 (constant S_ .f32 0xFF800000#32)) (Host.reduce FloatOps.maximumf (Host.divf (addf (Host.dotGeneral dot_S2048x4096_S32000x4096_S2048x32000_1_1_0_0_n_n none (m ((c.tc : Thread nD τ).loc main_arg0)) (m ((c.tc : Thread nD τ).loc main_arg2))) (broadcastInDim S2048x32000 ![0, 1] bcast_S1x32000_S2048x32000_0_1 (broadcastInDim S1x32000 ![1] bcast_S32000_S1x32000_1 (m ((c.tc : Thread nD τ).loc main_arg3))))) (broadcastInDim S2048x32000 ![] bcast_S_S2048x32000 (constant S_ .f32 0x3F800000#32))) (constant S_ .f32 0xFF800000#32) reducesTo_S2048x32000_S2048_d1 h_S_)))))) (constant S_ .f32 0x00000000#32) reducesTo_S2048x32000_S2048_d1 h_S_))))))))))) (constant S_ .f32 0x00000000#32) reducesTo_S2048x32000_S2048_d1 h_S_))) (constant S_ .f32 0x00000000#32) reducesTo_S2048_S_d0 h_S_) (constant S_ .f32 0x45000000#32)

set_option maxRecDepth 8192 in
/-- The composed term is the last stage of the stage-by-stage reading: each stage is one operation's function applied to
    the stages of its operands, so unfolding the stages gives the composed term back. -/
theorem composed_eq (m : (ℓ : Loc nD τ sig) → Buf (Elt F) ℓ) (c : Dev nD) :
    composed m c = val_main_v34 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  unfold composed; rfl

set_option maxRecDepth 8192 in
set_option maxHeartbeats 29200000 in
/-- On every device, for any float values, from any memory with zero counters: every weakly fair execution of the entry
    point terminates with the result buffer at the last stage of the stage-by-stage reading of the launch memory's
    argument arrays, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v34)
        = val_main_v34 (F := F) (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨((h c main_v34).trans (by after_results_simp <;> rfl <;> (unfold composed; rfl))).trans (composed_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.RefValue

end
-- ==== Proof.RefStages.lean ====
/-
  The reference side: the reference program's result term is the function `G` of its six argument arrays.

  Read stage by stage at explicit coordinates (row `n`, vocabulary entry `v`, hidden coordinate `k`):
  a head's scores are `logit` over the hidden axis divided by the temperature literal; the row's largest score
  is the maximum taken from `-∞` over the vocabulary axis, which is `Finset.univ.sup` of the row; a score less
  `max -∞ largest`, less the logarithm of the sum of the exponentials of the scores so shifted, is the score's
  `logSoftmax`; the two weighted sums over the vocabulary axis of a row are `rowWhole`; the rows' values added up
  from zero and divided by the row count are `G`. Both heads go through one text: the second head's stages are the
  first head's stages at the second head's arrays.
-/
import proofs.«136119_j22101901705770_1_alg».proof.Proof.Gen.ReferenceIdeal
import proofs.«136119_j22101901705770_1_alg».proof.Proof.RefReadP
import proofs.«136119_j22101901705770_1_alg».proof.Proof.RefG
import proofs.«136119_j22101901705770_1_alg».proof.Proof.Consts

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx

/-! ## One head: scores, largest score, log-probabilities -/

section Head

variable (x : (⟨S2048x4096, .f32⟩ : BufTy).Contents (Elt Ideal)) (w : (⟨S32000x4096, .f32⟩ : BufTy).Contents (Elt Ideal))
  (b : (⟨S32000, .f32⟩ : BufTy).Contents (Elt Ideal))

/-- The head's score of vocabulary entry `v` in row `n`, divided by the temperature literal. -/
theorem scores_apply (n : Fin 2048) (v : Fin 32000) :
    val_main_v9 (F := Ideal) x w b (ix2 n v)
      = Ideal.div (Cert.Jsd.logit (fun n k => x (ix2 n k)) (fun v k => w (ix2 v k)) (fun v => b (ix1 v)) n v)
          (Ideal.ofBits .f32 0x3F800000#32) := by
  rw [val_main_v9_apply, val_main_v3_apply, val_main_v0_apply, val_main_v2_apply, val_main_v1_apply, val_main_v8_apply,
    val_main_cst_apply]
  have hb : idx_main_v1 (idx_main_v2 (ix2 n v)) = ix1 v :=
    funext fun a => Fin.ext (by match a with | ⟨0, _⟩ => rfl)
  rw [hb]
  unfold Cert.Jsd.logit
  simp only [Ideal.hostDivf_def, Ideal.addf_def, Ideal.ofBits_def]
  refine congrArg (fun s => Ideal.div (s + b (ix1 v)) (Ideal.ofBits .f32 0x3F800000#32)) (Finset.sum_congr rfl fun k _ => ?_)
  have hl : lidx_main_v0 (ix2 n v) k = ix2 n k :=
    funext fun a => Fin.ext (by match a with | ⟨0, _⟩ => rfl | ⟨1, _⟩ => rfl)
  have hr : ridx_main_v0 (ix2 n v) k = ix2 v k :=
    funext fun a => Fin.ext (by match a with | ⟨0, _⟩ => rfl | ⟨1, _⟩ => rfl)
  rw [hl, hr]

/-- The maximum from `-∞` over the vocabulary axis of a row of any array of scores is the row's supremum. -/
theorem hostMax_apply (z : FVec Ideal S2048x32000 .f32) (n : Fin 2048) :
    Host.reduce FloatOps.maximumf z (constant (F := Ideal) S_ .f32 0xFF800000#32) reducesTo_S2048x32000_S2048_d1 h_S_ (ix1 n)
      = Finset.univ.sup fun u : Fin 32000 => z (ix2 n u) := by
  have h : S2048x32000.Reduces [1] S2048 := by decide
  rw [Host.reduce_eq_fold_single FloatOps.maximumf z _ reducesTo_S2048x32000_S2048_d1 h h_S_]
  have hf : (z ∘ h.lift (ix1 n)) = fun k : Fin 32000 => z (ix2 n k) :=
    funext fun k => congrArg z (funext fun c => Fin.ext (by fin_cases c <;> rfl))
  refine (congrArg (fun f => Finset.fold max (Ideal.ofBits .f32 0xFF800000#32) f (Finset.univ : Finset (Fin 32000))) hf).trans ?_
  rw [Cert.Jsd.ofBits_neg_inf]
  exact Cert.Jsd.sup_eq_foldmax _

/-- The row's largest score as the log-softmax finishes it off: `max -∞` of the supremum of the row. -/
theorem rowMax_apply (n : Fin 2048) :
    val_main_call0_v2 (F := Ideal) x w b (ix1 n)
      = max ⊥ (Finset.univ.sup fun u : Fin 32000 => val_main_v9 (F := Ideal) x w b (ix2 n u)) := by
  rw [val_main_call0_v2_apply, val_main_call0_v1_apply, val_main_call0_cst_0_apply]
  simp only [Ideal.maximumf_def, Ideal.ofBits_def, Cert.Jsd.ofBits_neg_inf]
  unfold val_main_call0_v0 val_main_call0_cst
  exact congrArg (max ⊥) (hostMax_apply (val_main_v9 (F := Ideal) x w b) n)

/-- A score less the row's largest. -/
theorem shifted_apply (n : Fin 2048) (v : Fin 32000) :
    val_main_call0_v5 (F := Ideal) x w b (ix2 n v)
      = val_main_v9 (F := Ideal) x w b (ix2 n v)
        - max ⊥ (Finset.univ.sup fun u : Fin 32000 => val_main_v9 (F := Ideal) x w b (ix2 n u)) := by
  rw [val_main_call0_v5_apply, val_main_call0_v4_apply, val_main_call0_v3_apply]
  have hi : idx_main_call0_v3 (idx_main_call0_v4 (ix2 n v)) = ix1 n :=
    funext fun a => Fin.ext (by match a with | ⟨0, _⟩ => rfl)
  rw [hi, rowMax_apply]
  rfl

/-- The row's sum of the exponentials of the shifted scores; the sum's initial zero adds nothing. -/
theorem sumExp_apply (n : Fin 2048) :
    val_main_call0_v7 (F := Ideal) x w b (ix1 n)
      = ∑ u : Fin 32000, Ideal.exp (val_main_call0_v5 (F := Ideal) x w b (ix2 n u)) := by
  rw [val_main_call0_v7_apply, val_main_call0_cst_1_apply]
  simp only [Ideal.ofBits_def, Ideal.ofBits_zero_f32, zero_add]
  refine Finset.sum_congr rfl fun u _ => ?_
  have hi : idx_main_call0_v7 (ix1 n) u = ix2 n u :=
    funext fun a => Fin.ext (by match a with | ⟨0, _⟩ => rfl | ⟨1, _⟩ => rfl)
  rw [hi, val_main_call0_v6_apply]
  rfl

/-- A score's log-probability is `logSoftmax` of its row of scores. -/
theorem logProb_apply (n : Fin 2048) (v : Fin 32000) :
    val_main_v10 (F := Ideal) x w b (ix2 n v)
      = Cert.Jsd.logSoftmax (fun u : Fin 32000 => val_main_v9 (F := Ideal) x w b (ix2 n u)) v := by
  rw [val_main_v10_apply, val_main_call0_v10_apply, val_main_call0_v9_apply, val_main_call0_v8_apply]
  have hi : idx_main_call0_v8 (idx_main_call0_v10 (ix2 n v)) = ix1 n :=
    funext fun a => Fin.ext (by match a with | ⟨0, _⟩ => rfl)
  rw [hi, sumExp_apply]
  unfold Cert.Jsd.logSoftmax
  simp only [shifted_apply, Ideal.subf_def, Ideal.hostUnary_log_def]

end Head

/-! ## The second head is the first head's text at the second head's arrays -/

theorem scoresT_eq : @val_main_v12 Ideal _ = @val_main_v9 Ideal _ := rfl

theorem logProbT_eq : @val_main_v13 Ideal _ = @val_main_v10 Ideal _ := rfl

/-! ## A row's value, and the result -/

section Whole

variable (a0 a1 : (⟨S2048x4096, .f32⟩ : BufTy).Contents (Elt Ideal)) (a2 : (⟨S32000x4096, .f32⟩ : BufTy).Contents (Elt Ideal))
  (a3 : (⟨S32000, .f32⟩ : BufTy).Contents (Elt Ideal)) (a4 : (⟨S32000x4096, .f32⟩ : BufTy).Contents (Elt Ideal))
  (a5 : (⟨S32000, .f32⟩ : BufTy).Contents (Elt Ideal))

/-- The logarithm of the mixture at one vocabulary entry of a row. -/
theorem logMix_apply (n : Fin 2048) (v : Fin 32000) :
    val_main_v21 (F := Ideal) a0 a1 a2 a3 a4 a5 (ix2 n v)
      = Ideal.log (Ideal.ofBits .f32 0x3F000000#32
            * Ideal.exp (Cert.Jsd.logSoftmax (fun u : Fin 32000 => val_main_v9 (F := Ideal) a1 a4 a5 (ix2 n u)) v)
          + Ideal.ofBits .f32 0x3F000000#32
            * Ideal.exp (Cert.Jsd.logSoftmax (fun u : Fin 32000 => val_main_v9 (F := Ideal) a0 a2 a3 (ix2 n u)) v)) := by
  simp only [val_main_v21_apply, val_main_v20_apply, val_main_v17_apply, val_main_v19_apply, val_main_v16_apply,
    val_main_v18_apply, val_main_cst_1_apply, val_main_cst_2_apply, val_main_v14_apply, val_main_v15_apply,
    logProbT_eq, logProb_apply, Ideal.mulf_def, Ideal.addf_def, Ideal.hostUnary_exp_def, Ideal.hostUnary_log_def,
    Ideal.ofBits_def]

/-- A row's value is `rowWhole` of the two heads' rows of scores, with weight one half. -/
theorem row_apply (n : Fin 2048) :
    val_main_v32 (F := Ideal) a0 a1 a2 a3 a4 a5 (ix1 n)
      = Cert.Jsd.rowWhole (Ideal.ofBits .f32 0x3F000000#32)
          (fun u : Fin 32000 => val_main_v9 (F := Ideal) a0 a2 a3 (ix2 n u))
          (fun u : Fin 32000 => val_main_v9 (F := Ideal) a1 a4 a5 (ix2 n u)) := by
  have h24 : ∀ k : Fin 32000, idx_main_v24 (ix1 n) k = ix2 n k := fun k =>
    funext fun a => Fin.ext (by match a with | ⟨0, _⟩ => rfl | ⟨1, _⟩ => rfl)
  have h29 : ∀ k : Fin 32000, idx_main_v29 (ix1 n) k = ix2 n k := fun k =>
    funext fun a => Fin.ext (by match a with | ⟨0, _⟩ => rfl | ⟨1, _⟩ => rfl)
  rw [val_main_v32_apply, val_main_v26_apply, val_main_v31_apply, val_main_v24_apply, val_main_v29_apply,
    val_main_v25_apply, val_main_v30_apply, val_main_cst_4_apply, val_main_cst_6_apply, val_main_cst_3_apply,
    val_main_cst_5_apply]
  unfold Cert.Jsd.rowWhole
  simp only [h24, h29, val_main_v23_apply, val_main_v28_apply, val_main_v22_apply, val_main_v27_apply, logMix_apply,
    val_main_v14_apply, val_main_v15_apply, logProbT_eq, logProb_apply, Ideal.mulf_def, Ideal.addf_def, Ideal.subf_def,
    Ideal.hostUnary_exp_def, Ideal.ofBits_def, Ideal.ofBits_zero_f32, zero_add]

/-- The rank-one indices of the rows are the row numbers. -/
def rowIdx : Fin 2048 ≃ S2048.Idx where
  toFun n := ix1 n
  invFun j := j 0
  left_inv _ := rfl
  right_inv j := (eq_ix1 j).symm

/-- THE REFERENCE'S LAST STAGE IS `G` of the argument arrays. -/
theorem ref_is_G : val_main_v34 (F := Ideal) a0 a1 a2 a3 a4 a5 = G a0 a1 a2 a3 a4 a5 := by
  funext i
  rw [val_main_v34_apply, val_main_v33_apply, val_main_cst_7_apply, val_main_cst_8_apply]
  simp only [Ideal.hostDivf_def, Ideal.ofBits_def]
  unfold G
  refine congrArg (fun s => Ideal.div (Ideal.ofBits .f32 0x00000000#32 + s) (Ideal.ofBits .f32 0x45000000#32)) ?_
  refine (Fintype.sum_equiv rowIdx _ _ fun n => ?_).symm
  show _ = val_main_v32 (F := Ideal) a0 a1 a2 a3 a4 a5 (ix1 n)
  rw [row_apply]
  simp only [scores_apply]

end Whole

end Cert.ReferenceIdeal.RefValue

end
-- ==== Proof.RefSide.lean ====
/-
  The reference's run with its result at `G`, and the reference's frame.

  The run read back leaves the result buffer at the last stage of the stage-by-stage reading of the launch memory's
  six argument arrays, and that stage is `G` of those arrays; so every weakly fair execution of the reference ends
  with its result at `G` of the arguments and the arguments unchanged. Dropping the result leaves the frame: the
  reference runs to the end, faults nowhere, and its argument arrays end as they began.
-/
import proofs.«136119_j22101901705770_1_alg».proof.Defs
import proofs.«136119_j22101901705770_1_alg».proof.Proof.Gen.ReferenceIdeal
import proofs.«136119_j22101901705770_1_alg».proof.Proof.Gen.Pre_finite_inputs
import proofs.«136119_j22101901705770_1_alg».proof.Proof.RefRun
import proofs.«136119_j22101901705770_1_alg».proof.Proof.RefStages

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo

/-- THE REFERENCE'S RUN: from any memory with zero counters every weakly fair execution terminates with the result
    at `G` of the launch memory's argument arrays and the arguments unchanged. -/
theorem ref_run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v34)
        = G (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c).1.trans (ref_is_G _ _ _ _ _ _), (h c).2⟩) (run (F := Ideal) m ρ)

/-- THE REFERENCE'S FRAME: it runs to the end, nothing faulting, and its argument arrays end unchanged. -/
theorem frame_ri : Cert.frame_ReferenceIdeal := fun m ρ _ =>
  (θ_run Cert.ReferenceIdeal.defs _ _).mono (fun _ h c => (h c).2) (run (F := Ideal) m ρ)

end Cert.ReferenceIdeal.RefValue

end
-- ==== Proof.lean ====
/-
  A dual language-model head with a generalized Jensen–Shannon divergence between the two heads' softmax distributions,
  averaged over the rows. The kernel program makes two passes over the vocabulary in tiles of 256 entries: the first
  keeps, per row and head, a running largest score and a running sum of exponentials rescaled to it, and ends with the
  row's log-sum-exp; the second recomputes the scores, turns them into log-probabilities with that log-sum-exp, and adds
  up each tile's share of the row's divergence; the host takes the mean. The reference takes a whole-row log-softmax and
  whole-row sums. Over the extended reals, for finite inputs, the two are one function of the inputs: the running pair
  is the row's largest score and the sum of exponentials shifted by it (exp turns a difference of shifts into a factor,
  and multiplication distributes over the finite sums of reals), and a sum over the vocabulary is the sum over its tiles.

  The three programs run to the end with their argument arrays unchanged: the kernel program's two regions are each run
  point by point with the scratch contents of the previous point in the region's invariant (the same text at the word
  level and at the ideal level), the reference is a straight line of host operations. The ideal pass rewrote nothing.
-/
import proofs.«136119_j22101901705770_1_alg».proof.Defs
import proofs.«136119_j22101901705770_1_alg».proof.Proof.Gen.Kernel
import proofs.«136119_j22101901705770_1_alg».proof.Proof.Gen.KernelIdeal
import proofs.«136119_j22101901705770_1_alg».proof.Proof.Gen.ReferenceIdeal
import proofs.«136119_j22101901705770_1_alg».proof.Proof.Gen.Pre_finite_inputs
import proofs.«136119_j22101901705770_1_alg».proof.Proof.K.Close
import proofs.«136119_j22101901705770_1_alg».proof.Proof.KI.Close
import proofs.«136119_j22101901705770_1_alg».proof.Proof.KFinalC
import proofs.«136119_j22101901705770_1_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Close.frame m ρ

theorem frame_ki : Cert.frame_KernelIdeal := fun m ρ _ => Cert.KernelIdeal.Close.frame m ρ

theorem frame_ri : Cert.frame_ReferenceIdeal := fun m ρ _ =>
  (θ_run Cert.ReferenceIdeal.defs _ _).mono (fun _ h c => (h c).2) (Cert.ReferenceIdeal.RefValue.ref_run m ρ)

theorem preserves : Cert.preserves_Kernel_KernelIdeal := trivial

/-- Both idealized programs end with the reference's value of the (agreeing) arguments in their result buffers. -/
theorem algebraic : Cert.algebraic_KernelIdeal_ReferenceIdeal := by
  intro m ρ m' ρ' hpre hagree
  refine ⟨fun c => Cert.ReferenceIdeal.RefValue.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.KF.result_is_G m c (hpre c)), (h c).2⟩)
      (Cert.KernelIdeal.Close.run m ρ)
  · refine (θ_run Cert.ReferenceIdeal.defs _ _).mono (fun _ h c => ⟨?_, (h c).2⟩)
      (Cert.ReferenceIdeal.RefValue.ref_run m' ρ')
    rw [(h c).1, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
